-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v183)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v183) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v207) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S1600000 : Shape := ⟨1, ![1600000]⟩
abbrev S1x64 : Shape := ⟨2, ![1, 64]⟩
abbrev S64 : Shape := ⟨1, ![64]⟩
abbrev S3x64x64 : Shape := ⟨3, ![3, 64, 64]⟩
abbrev S3x64 : Shape := ⟨2, ![3, 64]⟩
abbrev S128x64 : Shape := ⟨2, ![128, 64]⟩
abbrev S64x1 : Shape := ⟨2, ![64, 1]⟩
abbrev S1 : Shape := ⟨1, ![1]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S1x64 : S_.BroadcastsInDim S1x64 (![] : Fin 0 → Fin S1x64.rank)
  reducesTo_S1x64_S_d0_1 : S1x64.ReducesTo [0, 1] S_
  bcast_S_S64 : S_.BroadcastsInDim S64 (![] : Fin 0 → Fin S64.rank)
  reducesTo_S64_S_d0 : S64.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S128x64 : S_.BroadcastsInDim S128x64 (![] : Fin 0 → Fin S128x64.rank)
  reducesTo_S128x64_S_d0_1 : S128x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1 .f32) (main_v48 : IVec S_ 1) (main_v49 : FVec F S64x1 .f32) (main_v50 : FVec F S64x1 .f32) : IVec S_ 1 :=
  let main_v51 : IVec S64x1 1 := cmpf .olt main_v49 main_v50
  let main_c_19 : IVec S_ 1 := constantI S_ 1 1#1
  let main_v52 : IVec S_ 1 := (fun x v => Host.reduce IntOp.andi x v reducesTo_S64x1_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S3x64 .f32) (main_arg8 : FVec F S128x64 .f32) (main_arg9 : FVec F S64 .f32) (main_arg10 : FVec F S64x1 .f32) (main_arg11 : FVec F S1 .f32) (main_v33 : IVec S_ 1) : IVec S_ 1 :=
  let main_v34 : FVec F S3x64 .f32 := Host.absf main_arg7
  let main_cst_12 : FVec F S_ .f32 := constant S_ .f32 0x7F800000#32
  let main_v35 : FVec F S3x64 .f32 := broadcastInDim S3x64 ![] bcast_S_S3x64 main_cst_12
  let main_v36 : IVec S3x64 1 := cmpf .olt main_v34 main_v35
  let main_c_13 : IVec S_ 1 := constantI S_ 1 1#1
  let main_v37 : IVec S_ 1 := (fun x v => Host.reduce IntOp.andi x v reducesTo_S3x64_S_d0_1 h_S_) main_v36 main_c_13
  let main_v38 : IVec S_ 1 := andi main_v33 main_v37
  let main_v39 : FVec F S128x64 .f32 := Host.absf main_arg8
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x1 .f32 := Host.absf main_arg10
  let main_cst_18 : FVec F S_ .f32 := constant S_ .f32 0x7F800000#32
  let main_v50 : FVec F S64x1 .f32 := broadcastInDim S64x1 ![] bcast_S_S64x1 main_cst_18
  fn_part3 (F := F) main_arg11 main_v48 main_v49 main_v50

def fn_part1 {F : FTy → Type} [FloatOps F] (main_arg4 : FVec F S3x64x64 .f32) (main_arg5 : FVec F S3x64 .f32) (main_arg6 : FVec F S3x64x64 .f32) (main_arg7 : FVec F S3x64 .f32) (main_arg8 : FVec F S128x64 .f32) (main_arg9 : FVec F S64 .f32) (main_arg10 : FVec F S64x1 .f32) (main_arg11 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S3x64x64 .f32 := Host.absf main_arg4
  let main_cst_6 : FVec F S_ .f32 := constant S_ .f32 0x7F800000#32
  let main_v20 : FVec F S3x64x64 .f32 := broadcastInDim S3x64x64 ![] bcast_S_S3x64x64 main_cst_6
  let main_v21 : IVec S3x64x64 1 := cmpf .olt main_v19 main_v20
  let main_c_7 : IVec S_ 1 := constantI S_ 1 1#1
  let main_v22 : IVec S_ 1 := (fun x v => Host.reduce IntOp.andi x v reducesTo_S3x64x64_S_d0_1_2 h_S_) main_v21 main_c_7
  let main_v23 : IVec S_ 1 := andi main_v18 main_v22
  let main_v24 : FVec F S3x64 .f32 := Host.absf main_arg5
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  let main_v29 : FVec F S3x64x64 .f32 := Host.absf main_arg6
  let main_cst_10 : FVec F S_ .f32 := constant S_ .f32 0x7F800000#32
  let main_v30 : FVec F S3x64x64 .f32 := broadcastInDim S3x64x64 ![] bcast_S_S3x64x64 main_cst_10
  let main_v31 : IVec S3x64x64 1 := cmpf .olt main_v29 main_v30
  let main_c_11 : IVec S_ 1 := constantI S_ 1 1#1
  let main_v32 : IVec S_ 1 := (fun x v => Host.reduce IntOp.andi x v reducesTo_S3x64x64_S_d0_1_2 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S100000x1 .f32) (main_arg1 : FVec F S1600000 .f32) (main_arg2 : FVec F S1x64 .f32) (main_arg3 : FVec F S64 .f32) (main_arg4 : FVec F S3x64x64 .f32) (main_arg5 : FVec F S3x64 .f32) (main_arg6 : FVec F S3x64x64 .f32) (main_arg7 : FVec F S3x64 .f32) (main_arg8 : FVec F S128x64 .f32) (main_arg9 : FVec F S64 .f32) (main_arg10 : FVec F S64x1 .f32) (main_arg11 : FVec F S1 .f32) (main_arg12 : IVec S1600000 32) (main_arg13 : IVec S1600000 32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S1x64 .f32 := Host.absf main_arg2
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_v13 main_v16
-- ==== Kernel.lean ====
abbrev S100000x1 : Shape := ⟨2, ![100000, 1]⟩
abbrev S1600000 : Shape := ⟨1, ![1600000]⟩
abbrev S1x64 : Shape := ⟨2, ![1, 64]⟩
abbrev S64 : Shape := ⟨1, ![64]⟩
abbrev S3x64x64 : Shape := ⟨3, ![3, 64, 64]⟩
abbrev S3x64 : Shape := ⟨2, ![3, 64]⟩
abbrev S128x64 : Shape := ⟨2, ![128, 64]⟩
abbrev S64x1 : Shape := ⟨2, ![64, 1]⟩
abbrev S1 : Shape := ⟨1, ![1]⟩
abbrev S_ : Shape := ⟨0, ![]⟩
abbrev S100000 : Shape := ⟨1, ![100000]⟩
abbrev S1600000x1 : Shape := ⟨2, ![1600000, 1]⟩
abbrev S100000x64 : Shape := ⟨2, ![100000, 64]⟩
abbrev S10000x1 : Shape := ⟨2, ![10000, 1]⟩
abbrev S10000x64 : Shape := ⟨2, ![10000, 64]⟩
abbrev S1x64x64 : Shape := ⟨3, ![1, 64, 64]⟩
abbrev S64x64 : Shape := ⟨2, ![64, 64]⟩
abbrev S1600000x64 : Shape := ⟨2, ![1600000, 64]⟩
abbrev S1600000x128 : Shape := ⟨2, ![1600000, 128]⟩
abbrev S8000x128 : Shape := ⟨2, ![8000, 128]⟩
abbrev S8000x64 : Shape := ⟨2, ![8000, 64]⟩
abbrev S1x1 : Shape := ⟨2, ![1, 1]⟩
abbrev S8000x1 : Shape := ⟨2, ![8000, 1]⟩

abbrev nBuf : Space → Nat
  | .hbm => 234
  | .vmem => 98
  | .smem => 0
  | _ => 0

abbrev hbmTy0_0 (i : Nat) : BufTy := match i % 128 with
  | 0 => ⟨S100000x1, .f32⟩
  | 1 => ⟨S1600000, .f32⟩
  | 2 => ⟨S1x64, .f32⟩
  | 3 => ⟨S64, .f32⟩
  | 4 => ⟨S3x64x64, .f32⟩
  | 5 => ⟨S3x64, .f32⟩
  | 6 => ⟨S3x64x64, .f32⟩
  | 7 => ⟨S3x64, .f32⟩
  | 8 => ⟨S128x64, .f32⟩
  | 9 => ⟨S64, .f32⟩
  | 10 => ⟨S64x1, .f32⟩
  | 11 => ⟨S1, .f32⟩
  | 12 => ⟨S1600000, .i32⟩
  | 13 => ⟨S1600000, .i32⟩
  | 14 => ⟨S_, .f32⟩
  | 15 => ⟨S100000, .f32⟩
  | 16 => ⟨S1600000x1, .i32⟩
  | 17 => ⟨S100000, .f32⟩
  | 18 => ⟨S_, .f32⟩
  | 19 => ⟨S100000, .f32⟩
  | 20 => ⟨S100000, .i1⟩
  | 21 => ⟨S_, .f32⟩
  | 22 => ⟨S100000, .f32⟩
  | 23 => ⟨S100000, .f32⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000, .f32⟩
  | 38 => ⟨S1600000, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000, .f32⟩
  | 48 => ⟨S1600000, .f32⟩
  | 49 => ⟨S_, .f32⟩
  | 50 => ⟨S1600000, .f32⟩
  | 51 => ⟨S_, .f32⟩
  | 52 => ⟨S100000, .f32⟩
  | 53 => ⟨S1600000x1, .i32⟩
  | 54 => ⟨S100000, .f32⟩
  | 55 => ⟨S_, .f32⟩
  | 56 => ⟨S100000, .f32⟩
  | 57 => ⟨S100000, .f32⟩
  | 58 => ⟨S100000x1, .f32⟩
  | 59 => ⟨S1x64, .f32⟩
  | 60 => ⟨S100000x64, .f32⟩
  | 61 => ⟨S_, .f32⟩
  | 62 => ⟨S64, .f32⟩
  | 63 => ⟨S1x64x64, .f32⟩
  | 64 => ⟨S64x64, .f32⟩
  | 65 => ⟨S1x64, .f32⟩
  | 66 => ⟨S64, .f32⟩
  | 67 => ⟨S1x64, .f32⟩
  | 68 => ⟨S100000x64, .f32⟩
  | 69 => ⟨S_, .i32⟩
  | 70 => ⟨S1600000, .i32⟩
  | 71 => ⟨S1600000, .i1⟩
  | 72 => ⟨S_, .i32⟩
  | 73 => ⟨S1600000, .i32⟩
  | 74 => ⟨S1600000, .i32⟩
  | 75 => ⟨S1600000, .i32⟩
  | 76 => ⟨S1600000x1, .i32⟩
  | 77 => ⟨S1600000x64, .f32⟩
  | 78 => ⟨S1600000x1, .f32⟩
  | 79 => ⟨S1600000x64, .f32⟩
  | 80 => ⟨S1600000x64, .f32⟩
  | 81 => ⟨S_, .f32⟩
  | 82 => ⟨S100000x64, .f32⟩
  | 83 => ⟨S1600000x1, .i32⟩
  | 84 => ⟨S100000x64, .f32⟩
  | 85 => ⟨S1x64, .f32⟩
  | 86 => ⟨S100000x64, .f32⟩
  | 87 => ⟨S1x64x64, .f32⟩
  | 88 => ⟨S64x64, .f32⟩
  | 89 => ⟨S1x64, .f32⟩
  | 90 => ⟨S64, .f32⟩
  | 91 => ⟨S1x64, .f32⟩
  | 92 => ⟨S100000x64, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000x64, .f32⟩
  | 102 => ⟨S1600000x1, .f32⟩
  | 103 => ⟨S1600000x64, .f32⟩
  | 104 => ⟨S1600000x64, .f32⟩
  | 105 => ⟨S_, .f32⟩
  | 106 => ⟨S100000x64, .f32⟩
  | 107 => ⟨S1600000x1, .i32⟩
  | 108 => ⟨S100000x64, .f32⟩
  | 109 => ⟨S1x64, .f32⟩
  | 110 => ⟨S100000x64, .f32⟩
  | 111 => ⟨S1x64x64, .f32⟩
  | 112 => ⟨S64x64, .f32⟩
  | 113 => ⟨S1x64, .f32⟩
  | 114 => ⟨S64, .f32⟩
  | 115 => ⟨S1x64, .f32⟩
  | 116 => ⟨S100000x64, .f32⟩
  | 117 => ⟨S_, .i32⟩
  | 118 => ⟨S1600000, .i32⟩
  | 119 => ⟨S1600000, .i1⟩
  | 120 => ⟨S_, .i32⟩
  | 121 => ⟨S1600000, .i32⟩
  | 122 => ⟨S1600000, .i32⟩
  | 123 => ⟨S1600000, .i32⟩
  | 124 => ⟨S1600000x1, .i32⟩
  | 125 => ⟨S1600000x64, .f32⟩
  | 126 => ⟨S1600000x1, .f32⟩
  | 127 => ⟨S1600000x64, .f32⟩
  | _ => ⟨S100000x1, .f32⟩

abbrev hbmTy0_1 (i : Nat) : BufTy := match i % 128 with
  | 0 => ⟨S1600000x64, .f32⟩
  | 1 => ⟨S_, .f32⟩
  | 2 => ⟨S100000x64, .f32⟩
  | 3 => ⟨S1600000x1, .i32⟩
  | 4 => ⟨S100000x64, .f32⟩
  | 5 => ⟨S1x64, .f32⟩
  | 6 => ⟨S100000x64, .f32⟩
  | 7 => ⟨S1x64x64, .f32⟩
  | 8 => ⟨S64x64, .f32⟩
  | 9 => ⟨S1x64, .f32⟩
  | 10 => ⟨S64, .f32⟩
  | 11 => ⟨S1x64, .f32⟩
  | 12 => ⟨S100000x64, .f32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S1600000x64, .f32⟩
  | 22 => ⟨S1600000x1, .f32⟩
  | 23 => ⟨S1600000x64, .f32⟩
  | 24 => ⟨S1600000x64, .f32⟩
  | 25 => ⟨S_, .f32⟩
  | 26 => ⟨S100000x64, .f32⟩
  | 27 => ⟨S1600000x1, .i32⟩
  | 28 => ⟨S100000x64, .f32⟩
  | 29 => ⟨S1x64, .f32⟩
  | 30 => ⟨S100000x64, .f32⟩
  | 31 => ⟨S1x64x64, .f32⟩
  | 32 => ⟨S64x64, .f32⟩
  | 33 => ⟨S1x64, .f32⟩
  | 34 => ⟨S64, .f32⟩
  | 35 => ⟨S1x64, .f32⟩
  | 36 => ⟨S100000x64, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000x64, .f32⟩
  | 46 => ⟨S1600000x1, .f32⟩
  | 47 => ⟨S1600000x64, .f32⟩
  | 48 => ⟨S1600000x64, .f32⟩
  | 49 => ⟨S_, .f32⟩
  | 50 => ⟨S100000x64, .f32⟩
  | 51 => ⟨S1600000x1, .i32⟩
  | 52 => ⟨S100000x64, .f32⟩
  | 53 => ⟨S1x64, .f32⟩
  | 54 => ⟨S100000x64, .f32⟩
  | 55 => ⟨S1x64x64, .f32⟩
  | 56 => ⟨S64x64, .f32⟩
  | 57 => ⟨S1x64, .f32⟩
  | 58 => ⟨S64, .f32⟩
  | 59 => ⟨S1x64, .f32⟩
  | 60 => ⟨S100000x64, .f32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1600000x64, .f32⟩
  | 70 => ⟨S1600000x1, .f32⟩
  | 71 => ⟨S1600000x64, .f32⟩
  | 72 => ⟨S1600000x64, .f32⟩
  | 73 => ⟨S_, .f32⟩
  | 74 => ⟨S100000x64, .f32⟩
  | 75 => ⟨S1600000x1, .i32⟩
  | 76 => ⟨S100000x64, .f32⟩
  | 77 => ⟨S1x64, .f32⟩
  | 78 => ⟨S100000x64, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1600000x64, .f32⟩
  | 88 => ⟨S_, .i32⟩
  | 89 => ⟨S1600000, .i32⟩
  | 90 => ⟨S1600000, .i1⟩
  | 91 => ⟨S_, .i32⟩
  | 92 => ⟨S1600000, .i32⟩
  | 93 => ⟨S1600000, .i32⟩
  | 94 => ⟨S1600000, .i32⟩
  | 95 => ⟨S1600000x1, .i32⟩
  | 96 => ⟨S1600000x64, .f32⟩
  | 97 => ⟨S1600000x128, .f32⟩
  | 98 => ⟨S1x64, .f32⟩
  | 99 => ⟨S1600000x64, .f32⟩
  | 100 => ⟨S1600000, .i1⟩
  | 101 => ⟨S1x1, .f32⟩
  | 102 => ⟨S1600000x1, .i1⟩
  | 103 => ⟨S1600000x1, .f32⟩
  | 104 => ⟨S1600000x1, .f32⟩
  | 105 => ⟨S1600000, .f32⟩
  | _ => ⟨S100000x1, .f32⟩

abbrev hbmTy (i : Nat) : BufTy := match i / 128 with
  | 0 => hbmTy0_0 i
  | 1 => hbmTy0_1 i
  | _ => ⟨S100000x1, .f32⟩

abbrev bufTy : (tb : Table) → Fin (tcTables nBuf tb) → BufTy
  | .hbm, ⟨i, _⟩ => hbmTy i
  | .local _ .vmem, ⟨0, _⟩ => ⟨S10000x1, .f32⟩
  | .local _ .vmem, ⟨1, _⟩ => ⟨S10000x1, .f32⟩
  | .local _ .vmem, ⟨2, _⟩ => ⟨S1x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S64x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x1, .f32⟩
  | .local _ .vmem, ⟨15, _⟩ => ⟨S10000x1, .f32⟩
  | .local _ .vmem, ⟨16, _⟩ => ⟨S1x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S64x64, .f32⟩
  | .local _ .vmem, ⟨22, _⟩ => ⟨S1x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S10000x1, .f32⟩
  | .local _ .vmem, ⟨28, _⟩ => ⟨S10000x1, .f32⟩
  | .local _ .vmem, ⟨29, _⟩ => ⟨S1x64, .f32⟩
  | .local _ .vmem, ⟨30, _⟩ => ⟨S10000x64, .f32⟩
  | .local _ .vmem, ⟨31, _⟩ => ⟨S10000x64, .f32⟩
  | .local _ .vmem, ⟨32, _⟩ => ⟨S10000x64, .f32⟩
  | .local _ .vmem, ⟨33, _⟩ => ⟨S10000x64, .f32⟩
  | .local _ .vmem, ⟨34, _⟩ => ⟨S64x64, .f32⟩
  | .local _ .vmem, ⟨35, _⟩ => ⟨S1x64, .f32⟩
  | .local _ .vmem, ⟨36, _⟩ => ⟨S10000x64, .f32⟩
  | .local _ .vmem, ⟨37, _⟩ => ⟨S10000x64, .f32⟩
  | .local _ .vmem, ⟨38, _⟩ => ⟨S10000x64, .f32⟩
  | .local _ .vmem, ⟨39, _⟩ => ⟨S10000x64, .f32⟩
  | .local _ .vmem, ⟨40, _⟩ => ⟨S10000x1, .f32⟩
  | .local _ .vmem, ⟨41, _⟩ => ⟨S10000x1, .f32⟩
  | .local _ .vmem, ⟨42, _⟩ => ⟨S1x64, .f32⟩
  | .local _ .vmem, ⟨43, _⟩ => ⟨S10000x64, .f32⟩
  | .local _ .vmem, ⟨44, _⟩ => ⟨S10000x64, .f32⟩
  | .local _ .vmem, ⟨45, _⟩ => ⟨S10000x64, .f32⟩
  | .local _ .vmem, ⟨46, _⟩ => ⟨S10000x64, .f32⟩
  | .local _ .vmem, ⟨47, _⟩ => ⟨S64x64, .f32⟩
  | .local _ .vmem, ⟨48, _⟩ => ⟨S1x64, .f32⟩
  | .local _ .vmem, ⟨49, _⟩ => ⟨S10000x64, .f32⟩
  | .local _ .vmem, ⟨50, _⟩ => ⟨S10000x64, .f32⟩
  | .local _ .vmem, ⟨51, _⟩ => ⟨S10000x64, .f32⟩
  | .local _ .vmem, ⟨52, _⟩ => ⟨S10000x64, .f32⟩
  | .local _ .vmem, ⟨53, _⟩ => ⟨S10000x1, .f32⟩
  | .local _ .vmem, ⟨54, _⟩ => ⟨S10000x1, .f32⟩
  | .local _ .vmem, ⟨55, _⟩ => ⟨S1x64, .f32⟩
  | .local _ .vmem, ⟨56, _⟩ => ⟨S10000x64, .f32⟩
  | .local _ .vmem, ⟨57, _⟩ => ⟨S10000x64, .f32⟩
  | .local _ .vmem, ⟨58, _⟩ => ⟨S10000x64, .f32⟩
  | .local _ .vmem, ⟨59, _⟩ => ⟨S10000x64, .f32⟩
  | .local _ .vmem, ⟨60, _⟩ => ⟨S64x64, .f32⟩
  | .local _ .vmem, ⟨61, _⟩ => ⟨S1x64, .f32⟩
  | .local _ .vmem, ⟨62, _⟩ => ⟨S10000x64, .f32⟩
  | .local _ .vmem, ⟨63, _⟩ => ⟨S10000x64, .f32⟩
  | .local _ .vmem, ⟨64, _⟩ => ⟨S10000x64, .f32⟩
  | .local _ .vmem, ⟨65, _⟩ => ⟨S10000x64, .f32⟩
  | .local _ .vmem, ⟨66, _⟩ => ⟨S10000x1, .f32⟩
  | .local _ .vmem, ⟨67, _⟩ => ⟨S10000x1, .f32⟩
  | .local _ .vmem, ⟨68, _⟩ => ⟨S1x64, .f32⟩
  | .local _ .vmem, ⟨69, _⟩ => ⟨S10000x64, .f32⟩
  | .local _ .vmem, ⟨70, _⟩ => ⟨S10000x64, .f32⟩
  | .local _ .vmem, ⟨71, _⟩ => ⟨S10000x64, .f32⟩
  | .local _ .vmem, ⟨72, _⟩ => ⟨S10000x64, .f32⟩
  | .local _ .vmem, ⟨73, _⟩ => ⟨S64x64, .f32⟩
  | .local _ .vmem, ⟨74, _⟩ => ⟨S1x64, .f32⟩
  | .local _ .vmem, ⟨75, _⟩ => ⟨S10000x64, .f32⟩
  | .local _ .vmem, ⟨76, _⟩ => ⟨S10000x64, .f32⟩
  | .local _ .vmem, ⟨77, _⟩ => ⟨S10000x64, .f32⟩
  | .local _ .vmem, ⟨78, _⟩ => ⟨S10000x64, .f32⟩
  | .local _ .vmem, ⟨79, _⟩ => ⟨S10000x1, .f32⟩
  | .local _ .vmem, ⟨80, _⟩ => ⟨S10000x1, .f32⟩
  | .local _ .vmem, ⟨81, _⟩ => ⟨S1x64, .f32⟩
  | .local _ .vmem, ⟨82, _⟩ => ⟨S10000x64, .f32⟩
  | .local _ .vmem, ⟨83, _⟩ => ⟨S10000x64, .f32⟩
  | .local _ .vmem, ⟨84, _⟩ => ⟨S8000x128, .f32⟩
  | .local _ .vmem, ⟨85, _⟩ => ⟨S8000x128, .f32⟩
  | .local _ .vmem, ⟨86, _⟩ => ⟨S128x64, .f32⟩
  | .local _ .vmem, ⟨87, _⟩ => ⟨S1x64, .f32⟩
  | .local _ .vmem, ⟨88, _⟩ => ⟨S8000x64, .f32⟩
  | .local _ .vmem, ⟨89, _⟩ => ⟨S8000x64, .f32⟩
  | .local _ .vmem, ⟨90, _⟩ => ⟨S8000x64, .f32⟩
  | .local _ .vmem, ⟨91, _⟩ => ⟨S8000x64, .f32⟩
  | .local _ .vmem, ⟨92, _⟩ => ⟨S64x1, .f32⟩
  | .local _ .vmem, ⟨93, _⟩ => ⟨S1x1, .f32⟩
  | .local _ .vmem, ⟨94, _⟩ => ⟨S8000x1, .f32⟩
  | .local _ .vmem, ⟨95, _⟩ => ⟨S8000x1, .f32⟩
  | .local _ .vmem, ⟨96, _⟩ => ⟨S8000x1, .f32⟩
  | .local _ .vmem, ⟨97, _⟩ => ⟨S8000x1, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | _, _ => false

abbrev semScoped : Fin 0 → Bool
  | ⟨_, h⟩ => absurd h (Nat.not_lt_zero _)

abbrev dmaSemScoped : Fin 98 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | _ => false

abbrev sig : RefSig :=
  ofTc nBuf bufTy 0 98 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v8 : Ref sig .tc := ⟨.hbm, 28, rfl⟩
abbrev main_c : Ref sig .tc := ⟨.hbm, 29, rfl⟩
abbrev main_v9 : Ref sig .tc := ⟨.hbm, 30, rfl⟩
abbrev main_v10 : Ref sig .tc := ⟨.hbm, 31, rfl⟩
abbrev main_c_3 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_c_4 : Ref sig .tc := ⟨.hbm, 39, rfl⟩
abbrev main_v17 : Ref sig .tc := ⟨.hbm, 40, rfl⟩
abbrev main_v18 : Ref sig .tc := ⟨.hbm, 41, rfl⟩
abbrev main_c_5 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_6 : Ref sig .tc := ⟨.hbm, 49, rfl⟩
abbrev main_v25 : Ref sig .tc := ⟨.hbm, 50, rfl⟩
abbrev main_cst_7 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_cst_8 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_9 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_c_10 : Ref sig .tc := ⟨.hbm, 69, rfl⟩
abbrev main_v41 : Ref sig .tc := ⟨.hbm, 70, rfl⟩
abbrev main_v42 : Ref sig .tc := ⟨.hbm, 71, rfl⟩
abbrev main_c_11 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_12 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_c_13 : Ref sig .tc := ⟨.hbm, 93, rfl⟩
abbrev main_v62 : Ref sig .tc := ⟨.hbm, 94, rfl⟩
abbrev main_v63 : Ref sig .tc := ⟨.hbm, 95, rfl⟩
abbrev main_c_14 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_15 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_c_16 : Ref sig .tc := ⟨.hbm, 117, rfl⟩
abbrev main_v83 : Ref sig .tc := ⟨.hbm, 118, rfl⟩
abbrev main_v84 : Ref sig .tc := ⟨.hbm, 119, rfl⟩
abbrev main_c_17 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_18 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_c_19 : Ref sig .tc := ⟨.hbm, 141, rfl⟩
abbrev main_v104 : Ref sig .tc := ⟨.hbm, 142, rfl⟩
abbrev main_v105 : Ref sig .tc := ⟨.hbm, 143, rfl⟩
abbrev main_c_20 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_cst_21 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_c_22 : Ref sig .tc := ⟨.hbm, 165, rfl⟩
abbrev main_v125 : Ref sig .tc := ⟨.hbm, 166, rfl⟩
abbrev main_v126 : Ref sig .tc := ⟨.hbm, 167, rfl⟩
abbrev main_c_23 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_cst_24 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_c_25 : Ref sig .tc := ⟨.hbm, 189, rfl⟩
abbrev main_v146 : Ref sig .tc := ⟨.hbm, 190, rfl⟩
abbrev main_v147 : Ref sig .tc := ⟨.hbm, 191, rfl⟩
abbrev main_c_26 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_cst_27 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_c_28 : Ref sig .tc := ⟨.hbm, 207, rfl⟩
abbrev main_v161 : Ref sig .tc := ⟨.hbm, 208, rfl⟩
abbrev main_v162 : Ref sig .tc := ⟨.hbm, 209, rfl⟩
abbrev main_c_29 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_c_30 : Ref sig .tc := ⟨.hbm, 216, rfl⟩
abbrev main_v168 : Ref sig .tc := ⟨.hbm, 217, rfl⟩
abbrev main_v169 : Ref sig .tc := ⟨.hbm, 218, rfl⟩
abbrev main_c_31 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg3_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg3_0 : Ref sig .tc := ⟨.vmem, 30, rfl⟩
abbrev cc4_stg3_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg2_0 : Ref sig .tc := ⟨.vmem, 35, rfl⟩
abbrev cc5_stg3_0 : Ref sig .tc := ⟨.vmem, 36, rfl⟩
abbrev cc5_stg3_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg1_1 : Ref sig .tc := ⟨.vmem, 41, rfl⟩
abbrev cc6_stg2_0 : Ref sig .tc := ⟨.vmem, 42, rfl⟩
abbrev cc6_stg3_0 : Ref sig .tc := ⟨.vmem, 43, rfl⟩
abbrev cc6_stg3_1 : Ref sig .tc := ⟨.vmem, 44, rfl⟩
abbrev cc7_stg0_0 : Ref sig .tc := ⟨.vmem, 45, rfl⟩
abbrev cc7_stg0_1 : Ref sig .tc := ⟨.vmem, 46, rfl⟩
abbrev cc7_stg1_0 : Ref sig .tc := ⟨.vmem, 47, rfl⟩
abbrev cc7_stg2_0 : Ref sig .tc := ⟨.vmem, 48, rfl⟩
abbrev cc7_stg3_0 : Ref sig .tc := ⟨.vmem, 49, rfl⟩
abbrev cc7_stg3_1 : Ref sig .tc := ⟨.vmem, 50, rfl⟩
abbrev cc8_stg0_0 : Ref sig .tc := ⟨.vmem, 51, rfl⟩
abbrev cc8_stg0_1 : Ref sig .tc := ⟨.vmem, 52, rfl⟩
abbrev cc8_stg1_0 : Ref sig .tc := ⟨.vmem, 53, rfl⟩
abbrev cc8_stg1_1 : Ref sig .tc := ⟨.vmem, 54, rfl⟩
abbrev cc8_stg2_0 : Ref sig .tc := ⟨.vmem, 55, rfl⟩
abbrev cc8_stg3_0 : Ref sig .tc := ⟨.vmem, 56, rfl⟩
abbrev cc8_stg3_1 : Ref sig .tc := ⟨.vmem, 57, rfl⟩
abbrev cc9_stg0_0 : Ref sig .tc := ⟨.vmem, 58, rfl⟩
abbrev cc9_stg0_1 : Ref sig .tc := ⟨.vmem, 59, rfl⟩
abbrev cc9_stg1_0 : Ref sig .tc := ⟨.vmem, 60, rfl⟩
abbrev cc9_stg2_0 : Ref sig .tc := ⟨.vmem, 61, rfl⟩
abbrev cc9_stg3_0 : Ref sig .tc := ⟨.vmem, 62, rfl⟩
abbrev cc9_stg3_1 : Ref sig .tc := ⟨.vmem, 63, rfl⟩
abbrev cc10_stg0_0 : Ref sig .tc := ⟨.vmem, 64, rfl⟩
abbrev cc10_stg0_1 : Ref sig .tc := ⟨.vmem, 65, rfl⟩
abbrev cc10_stg1_0 : Ref sig .tc := ⟨.vmem, 66, rfl⟩
abbrev cc10_stg1_1 : Ref sig .tc := ⟨.vmem, 67, rfl⟩
abbrev cc10_stg2_0 : Ref sig .tc := ⟨.vmem, 68, rfl⟩
abbrev cc10_stg3_0 : Ref sig .tc := ⟨.vmem, 69, rfl⟩
abbrev cc10_stg3_1 : Ref sig .tc := ⟨.vmem, 70, rfl⟩
abbrev cc11_stg0_0 : Ref sig .tc := ⟨.vmem, 71, rfl⟩
abbrev cc11_stg0_1 : Ref sig .tc := ⟨.vmem, 72, rfl⟩
abbrev cc11_stg1_0 : Ref sig .tc := ⟨.vmem, 73, rfl⟩
abbrev cc11_stg2_0 : Ref sig .tc := ⟨.vmem, 74, rfl⟩
abbrev cc11_stg3_0 : Ref sig .tc := ⟨.vmem, 75, rfl⟩
abbrev cc11_stg3_1 : Ref sig .tc := ⟨.vmem, 76, rfl⟩
abbrev cc12_stg0_0 : Ref sig .tc := ⟨.vmem, 77, rfl⟩
abbrev cc12_stg0_1 : Ref sig .tc := ⟨.vmem, 78, rfl⟩
abbrev cc12_stg1_0 : Ref sig .tc := ⟨.vmem, 79, rfl⟩
abbrev cc12_stg1_1 : Ref sig .tc := ⟨.vmem, 80, rfl⟩
abbrev cc12_stg2_0 : Ref sig .tc := ⟨.vmem, 81, rfl⟩
abbrev cc12_stg3_0 : Ref sig .tc := ⟨.vmem, 82, rfl⟩
abbrev cc12_stg3_1 : Ref sig .tc := ⟨.vmem, 83, rfl⟩
abbrev cc13_stg0_0 : Ref sig .tc := ⟨.vmem, 84, rfl⟩
abbrev cc13_stg0_1 : Ref sig .tc := ⟨.vmem, 85, rfl⟩
abbrev cc13_stg1_0 : Ref sig .tc := ⟨.vmem, 86, rfl⟩
abbrev cc13_stg2_0 : Ref sig .tc := ⟨.vmem, 87, rfl⟩
abbrev cc13_stg3_0 : Ref sig .tc := ⟨.vmem, 88, rfl⟩
abbrev cc13_stg3_1 : Ref sig .tc := ⟨.vmem, 89, rfl⟩
abbrev cc14_stg0_0 : Ref sig .tc := ⟨.vmem, 90, rfl⟩
abbrev cc14_stg0_1 : Ref sig .tc := ⟨.vmem, 91, rfl⟩
abbrev cc14_stg1_0 : Ref sig .tc := ⟨.vmem, 92, rfl⟩
abbrev cc14_stg2_0 : Ref sig .tc := ⟨.vmem, 93, rfl⟩
abbrev cc14_stg3_0 : Ref sig .tc := ⟨.vmem, 94, rfl⟩
abbrev cc14_stg3_1 : Ref sig .tc := ⟨.vmem, 95, rfl⟩
abbrev cc14_stg4_0 : Ref sig .tc := ⟨.vmem, 96, rfl⟩
abbrev cc14_stg4_1 : Ref sig .tc := ⟨.vmem, 97, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem3_1 : DmaSem sig := 24
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem3_0 : DmaSem sig := 30
abbrev cc4_sem3_1 : DmaSem sig := 31
abbrev cc5_sem0_0 : DmaSem sig := 32
abbrev cc5_sem0_1 : DmaSem sig := 33
abbrev cc5_sem1_0 : DmaSem sig := 34
abbrev cc5_sem2_0 : DmaSem sig := 35
abbrev cc5_sem3_0 : DmaSem sig := 36
abbrev cc5_sem3_1 : DmaSem sig := 37
abbrev cc6_sem0_0 : DmaSem sig := 38
abbrev cc6_sem0_1 : DmaSem sig := 39
abbrev cc6_sem1_0 : DmaSem sig := 40
abbrev cc6_sem1_1 : DmaSem sig := 41
abbrev cc6_sem2_0 : DmaSem sig := 42
abbrev cc6_sem3_0 : DmaSem sig := 43
abbrev cc6_sem3_1 : DmaSem sig := 44
abbrev cc7_sem0_0 : DmaSem sig := 45
abbrev cc7_sem0_1 : DmaSem sig := 46
abbrev cc7_sem1_0 : DmaSem sig := 47
abbrev cc7_sem2_0 : DmaSem sig := 48
abbrev cc7_sem3_0 : DmaSem sig := 49
abbrev cc7_sem3_1 : DmaSem sig := 50
abbrev cc8_sem0_0 : DmaSem sig := 51
abbrev cc8_sem0_1 : DmaSem sig := 52
abbrev cc8_sem1_0 : DmaSem sig := 53
abbrev cc8_sem1_1 : DmaSem sig := 54
abbrev cc8_sem2_0 : DmaSem sig := 55
abbrev cc8_sem3_0 : DmaSem sig := 56
abbrev cc8_sem3_1 : DmaSem sig := 57
abbrev cc9_sem0_0 : DmaSem sig := 58
abbrev cc9_sem0_1 : DmaSem sig := 59
abbrev cc9_sem1_0 : DmaSem sig := 60
abbrev cc9_sem2_0 : DmaSem sig := 61
abbrev cc9_sem3_0 : DmaSem sig := 62
abbrev cc9_sem3_1 : DmaSem sig := 63
abbrev cc10_sem0_0 : DmaSem sig := 64
abbrev cc10_sem0_1 : DmaSem sig := 65
abbrev cc10_sem1_0 : DmaSem sig := 66
abbrev cc10_sem1_1 : DmaSem sig := 67
abbrev cc10_sem2_0 : DmaSem sig := 68
abbrev cc10_sem3_0 : DmaSem sig := 69
abbrev cc10_sem3_1 : DmaSem sig := 70
abbrev cc11_sem0_0 : DmaSem sig := 71
abbrev cc11_sem0_1 : DmaSem sig := 72
abbrev cc11_sem1_0 : DmaSem sig := 73
abbrev cc11_sem2_0 : DmaSem sig := 74
abbrev cc11_sem3_0 : DmaSem sig := 75
abbrev cc11_sem3_1 : DmaSem sig := 76
abbrev cc12_sem0_0 : DmaSem sig := 77
abbrev cc12_sem0_1 : DmaSem sig := 78
abbrev cc12_sem1_0 : DmaSem sig := 79
abbrev cc12_sem1_1 : DmaSem sig := 80
abbrev cc12_sem2_0 : DmaSem sig := 81
abbrev cc12_sem3_0 : DmaSem sig := 82
abbrev cc12_sem3_1 : DmaSem sig := 83
abbrev cc13_sem0_0 : DmaSem sig := 84
abbrev cc13_sem0_1 : DmaSem sig := 85
abbrev cc13_sem1_0 : DmaSem sig := 86
abbrev cc13_sem2_0 : DmaSem sig := 87
abbrev cc13_sem3_0 : DmaSem sig := 88
abbrev cc13_sem3_1 : DmaSem sig := 89
abbrev cc14_sem0_0 : DmaSem sig := 90
abbrev cc14_sem0_1 : DmaSem sig := 91
abbrev cc14_sem1_0 : DmaSem sig := 92
abbrev cc14_sem2_0 : DmaSem sig := 93
abbrev cc14_sem3_0 : DmaSem sig := 94
abbrev cc14_sem3_1 : DmaSem sig := 95
abbrev cc14_sem4_0 : DmaSem sig := 96
abbrev cc14_sem4_1 : DmaSem sig := 97

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S10000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S10000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S10000x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S10000x1 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S10000x64 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S10000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S64x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S10000x64 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S10000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S10000x1 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S1x64 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S10000x64 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S10000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S64x64 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x64 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 2 → Memref sig .tc .vmem S10000x64 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S10000x64 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S10000x1 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 1 → Memref sig .tc .vmem S1x64 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 2 → Memref sig .tc .vmem S10000x64 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

abbrev grid13 : Pipeline.Grid := ⟨1, ![200], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S8000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S128x64 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x64 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 2 → Memref sig .tc .vmem S8000x64 .f32 := fun | 0 => Memref.whole cc13_stg3_0 | 1 => Memref.whole cc13_stg3_1 | ⟨_ + 2, h⟩ => absurd h (Nat.not_lt.2 (Nat.le_add_left _ _))
abbrev sem13_3 : Fin 2 → DmaSem sig := fun | 0 => cc13_sem3_0 | 1 => cc13_sem3_1 | ⟨_ + 2, h⟩ => absurd h (Nat.not_lt.2 (Nat.le_add_left _ _))
abbrev reads13_3 : Fin grid13.rank → Bool := ![true]

abbrev grid14 : Pipeline.Grid := ⟨1, ![200], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_4 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S8000x64 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S64x1 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x1 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 2 → Memref sig .tc .vmem S8000x1 .f32 := fun | 0 => Memref.whole cc14_stg3_0 | 1 => Memref.whole cc14_stg3_1 | ⟨_ + 2, h⟩ => absurd h (Nat.not_lt.2 (Nat.le_add_left _ _))
abbrev sem14_3 : Fin 2 → DmaSem sig := fun | 0 => cc14_sem3_0 | 1 => cc14_sem3_1 | ⟨_ + 2, h⟩ => absurd h (Nat.not_lt.2 (Nat.le_add_left _ _))
abbrev reads14_3 : Fin grid14.rank → Bool := ![true]

abbrev stage14_4 : Fin 2 → Memref sig .tc .vmem S8000x1 .f32 := fun | 0 => Memref.whole cc14_stg4_0 | 1 => Memref.whole cc14_stg4_1 | ⟨_ + 2, h⟩ => absurd h (Nat.not_lt.2 (Nat.le_add_left _ _))
abbrev sem14_4 : Fin 2 → DmaSem sig := fun | 0 => cc14_sem4_0 | 1 => cc14_sem4_1 | ⟨_ + 2, h⟩ => absurd h (Nat.not_lt.2 (Nat.le_add_left _ _))
abbrev reads14_4 : Fin grid14.rank → Bool := ![true]

class Facts₀ : Prop where
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S100000_S100000x1_0 : S100000.BroadcastsInDim S100000x1 (![0] : Fin 1 → Fin S100000x1.rank)
  shapeCasts_S64_S1x64 : S64.ShapeCasts S1x64
  inb_S10000x1_S10000x1_0_0 : ∀ a, (![0, 0] : Fin 2 → Nat) a + S10000x1.size a ≤ S10000x1.size a
  h_S10000x1 : 0 < S10000x1.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S_S64 : S_.BroadcastsInDim S64 (![] : Fin 0 → Fin S64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S10000x1_S10000x1 : S10000x1.ShapeCasts S10000x1
  broadcasts_S10000x1_S10000x64 : S10000x1.Broadcasts S10000x64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  concatenates_S1600000x64_S1600000x64_S1600000x128_d1 : Shape.Concatenates [S1600000x64, S1600000x64] S1600000x128 1
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S128x64_S128x64_0_0 : ∀ a, (![0, 0] : Fin 2 → Nat) a + S128x64.size a ≤ S128x64.size a
  h_S128x64 : 0 < S128x64.numel
  bitsLt_bf16_f32 : FTy.bits .bf16 < FTy.bits .f32
  broadcasts_S1x64_S8000x64 : S1x64.Broadcasts S8000x64
  inb_S8000x64_S8000x64_0_0 : ∀ a, (![0, 0] : Fin 2 → Nat) a + S8000x64.size a ≤ S8000x64.size a
  h_S8000x64 : 0 < S8000x64.numel
  shapeCasts_S1_S1x1 : S1.ShapeCasts S1x1
  shapeCasts_S1600000_S1600000x1 : S1600000.ShapeCasts S1600000x1
  shapeCasts_S8000x64_S8000x64 : S8000x64.ShapeCasts S8000x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8000x1 : S1x1.Broadcasts S8000x1
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  shapeCasts_S1600000x1_S1600000 : S1600000x1.ShapeCasts S1600000
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S10000x1_S1x64_S10000x64_1_0_0_1_n_n_wf : DotDims.WF S10000x1 S1x64 S10000x64 [1] [0] [0] [1] [] []
  dot_S10000x64_S64x64_S10000x64_1_0_0_1_n_n_wf : DotDims.WF S10000x64 S64x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S8000x128_S128x64_S8000x64_1_0_0_1_n_n_wf : DotDims.WF S8000x128 S128x64 S8000x64 [1] [0] [0] [1] [] []
  dot_S8000x64_S64x1_S8000x1_1_0_0_1_n_n_wf : DotDims.WF S8000x64 S64x1 S8000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x1.size a ≤ S100000x1.size a
  hwx0_0 : ∀ i : grid0.Coords, EltTy.bits .f32 = 32 ∨ (Rect.block (s := S100000x1) S10000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S100000x1.size a
  hwx2_1 : ∀ i : grid2.Coords, EltTy.bits .f32 = 32 ∨ (Rect.block (s := S100000x1) S10000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S100000x64.size a
  hwx3_3 : ∀ i : grid3.Coords, EltTy.bits .f32 = 32 ∨ (Rect.block (s := S100000x64) S10000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S100000x1.size a
  hwx4_1 : ∀ i : grid4.Coords, EltTy.bits .f32 = 32 ∨ (Rect.block (s := S100000x1) S10000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x64.size a ≤ S100000x64.size a
  hwx4_3 : ∀ i : grid4.Coords, EltTy.bits .f32 = 32 ∨ (Rect.block (s := S100000x64) S10000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x64.size a ≤ S100000x64.size a
  hwx5_3 : ∀ i : grid5.Coords, EltTy.bits .f32 = 32 ∨ (Rect.block (s := S100000x64) S10000x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x1.size a ≤ S100000x1.size a
  hwx6_1 : ∀ i : grid6.Coords, EltTy.bits .f32 = 32 ∨ (Rect.block (s := S100000x1) S10000x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S10000x64.size a ≤ S100000x64.size a
  hwx6_3 : ∀ i : grid6.Coords, EltTy.bits .f32 = 32 ∨ (Rect.block (s := S100000x64) S10000x64.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S100000x64.size a
  hwx7_0 : ∀ i : grid7.Coords, EltTy.bits .f32 = 32 ∨ (Rect.block (s := S100000x64) S10000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x64.size a ≤ S64x64.size a
  hwx7_1 : ∀ i : grid7.Coords, EltTy.bits .f32 = 32 ∨ (Rect.block (s := S64x64) S64x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S10000x64.size a ≤ S100000x64.size a
  hwx7_3 : ∀ i : grid7.Coords, EltTy.bits .f32 = 32 ∨ (Rect.block (s := S100000x64) S10000x64.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x64.size a ≤ S100000x64.size a
  hwx8_0 : ∀ i : grid8.Coords, EltTy.bits .f32 = 32 ∨ (Rect.block (s := S100000x64) S10000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S10000x1.size a ≤ S100000x1.size a
  hwx8_1 : ∀ i : grid8.Coords, EltTy.bits .f32 = 32 ∨ (Rect.block (s := S100000x1) S10000x1.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S10000x64.size a ≤ S100000x64.size a
  hwx8_3 : ∀ i : grid8.Coords, EltTy.bits .f32 = 32 ∨ (Rect.block (s := S100000x64) S10000x64.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x64.size a ≤ S100000x64.size a
  hwx9_0 : ∀ i : grid9.Coords, EltTy.bits .f32 = 32 ∨ (Rect.block (s := S100000x64) S10000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S64x64.size a ≤ S64x64.size a
  hwx9_1 : ∀ i : grid9.Coords, EltTy.bits .f32 = 32 ∨ (Rect.block (s := S64x64) S64x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x64.size a ≤ S1x64.size a
  hwx9_2 : ∀ i : grid9.Coords, EltTy.bits .f32 = 32 ∨ (Rect.block (s := S1x64) S1x64.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S10000x64.size a ≤ S100000x64.size a
  hwx9_3 : ∀ i : grid9.Coords, EltTy.bits .f32 = 32 ∨ (Rect.block (s := S100000x64) S10000x64.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S10000x64.size a ≤ S100000x64.size a
  hwx10_0 : ∀ i : grid10.Coords, EltTy.bits .f32 = 32 ∨ (Rect.block (s := S100000x64) S10000x64.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S10000x1.size a ≤ S100000x1.size a
  hwx10_1 : ∀ i : grid10.Coords, EltTy.bits .f32 = 32 ∨ (Rect.block (s := S100000x1) S10000x1.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x64.size a ≤ S1x64.size a
  hwx10_2 : ∀ i : grid10.Coords, EltTy.bits .f32 = 32 ∨ (Rect.block (s := S1x64) S1x64.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S10000x64.size a ≤ S100000x64.size a
  hwx10_3 : ∀ i : grid10.Coords, EltTy.bits .f32 = 32 ∨ (Rect.block (s := S100000x64) S10000x64.size (cc10_transform_3 i) (hinb10_3 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S10000x64.size a ≤ S100000x64.size a
  hwx11_0 : ∀ i : grid11.Coords, EltTy.bits .f32 = 32 ∨ (Rect.block (s := S100000x64) S10000x64.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S64x64.size a ≤ S64x64.size a
  hwx11_1 : ∀ i : grid11.Coords, EltTy.bits .f32 = 32 ∨ (Rect.block (s := S64x64) S64x64.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x64.size a ≤ S1x64.size a
  hwx11_2 : ∀ i : grid11.Coords, EltTy.bits .f32 = 32 ∨ (Rect.block (s := S1x64) S1x64.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S10000x64.size a ≤ S100000x64.size a
  hwx11_3 : ∀ i : grid11.Coords, EltTy.bits .f32 = 32 ∨ (Rect.block (s := S100000x64) S10000x64.size (cc11_transform_3 i) (hinb11_3 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S10000x64.size a ≤ S100000x64.size a
  hwx12_0 : ∀ i : grid12.Coords, EltTy.bits .f32 = 32 ∨ (Rect.block (s := S100000x64) S10000x64.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S10000x1.size a ≤ S100000x1.size a
  hwx12_1 : ∀ i : grid12.Coords, EltTy.bits .f32 = 32 ∨ (Rect.block (s := S100000x1) S10000x1.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x64.size a ≤ S1x64.size a
  hwx12_2 : ∀ i : grid12.Coords, EltTy.bits .f32 = 32 ∨ (Rect.block (s := S1x64) S1x64.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S10000x64.size a ≤ S100000x64.size a
  hwx12_3 : ∀ i : grid12.Coords, EltTy.bits .f32 = 32 ∨ (Rect.block (s := S100000x64) S10000x64.size (cc12_transform_3 i) (hinb12_3 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S8000x128.size a ≤ S1600000x128.size a
  hwx13_0 : ∀ i : grid13.Coords, EltTy.bits .f32 = 32 ∨ (Rect.block (s := S1600000x128) S8000x128.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S128x64.size a ≤ S128x64.size a
  hwx13_1 : ∀ i : grid13.Coords, EltTy.bits .f32 = 32 ∨ (Rect.block (s := S128x64) S128x64.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x64.size a ≤ S1x64.size a
  hwx13_2 : ∀ i : grid13.Coords, EltTy.bits .f32 = 32 ∨ (Rect.block (s := S1x64) S1x64.size (cc13_transform_2 i) (hinb13_2 i)).WholeWords (EltTy.packing .f32)
  hstage13_3 : ∀ j, (stage13_3 j).IsWhole
  nbuf13_3 : grid13.bufCount reads13_3 false = 2
  hreads13_3 : ∀ i i' : grid13.Coords, (∀ a, reads13_3 a = true → i a = i' a) → cc13_transform_3 i = cc13_transform_3 i'
  hinb13_3 : ∀ (i : grid13.Coords) a, (cc13_transform_3 i a + 1) * S8000x64.size a ≤ S1600000x64.size a
  hwx13_3 : ∀ i : grid13.Coords, EltTy.bits .f32 = 32 ∨ (Rect.block (s := S1600000x64) S8000x64.size (cc13_transform_3 i) (hinb13_3 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S8000x64.size a ≤ S1600000x64.size a
  hwx14_0 : ∀ i : grid14.Coords, EltTy.bits .f32 = 32 ∨ (Rect.block (s := S1600000x64) S8000x64.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S64x1.size a ≤ S64x1.size a
  hwx14_1 : ∀ i : grid14.Coords, EltTy.bits .f32 = 32 ∨ (Rect.block (s := S64x1) S64x1.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x1.size a ≤ S1x1.size a
  hwx14_2 : ∀ i : grid14.Coords, EltTy.bits .f32 = 32 ∨ (Rect.block (s := S1x1) S1x1.size (cc14_transform_2 i) (hinb14_2 i)).WholeWords (EltTy.packing .f32)
  hstage14_3 : ∀ j, (stage14_3 j).IsWhole
  nbuf14_3 : grid14.bufCount reads14_3 false = 2
  hreads14_3 : ∀ i i' : grid14.Coords, (∀ a, reads14_3 a = true → i a = i' a) → cc14_transform_3 i = cc14_transform_3 i'
  hinb14_3 : ∀ (i : grid14.Coords) a, (cc14_transform_3 i a + 1) * S8000x1.size a ≤ S1600000x1.size a
  hwx14_3 : ∀ i : grid14.Coords, EltTy.bits .f32 = 32 ∨ (Rect.block (s := S1600000x1) S8000x1.size (cc14_transform_3 i) (hinb14_3 i)).WholeWords (EltTy.packing .f32)
  hstage14_4 : ∀ j, (stage14_4 j).IsWhole
  nbuf14_4 : grid14.bufCount reads14_4 false = 2
  hreads14_4 : ∀ i i' : grid14.Coords, (∀ a, reads14_4 a = true → i a = i' a) → cc14_transform_4 i = cc14_transform_4 i'
  hinb14_4 : ∀ (i : grid14.Coords) a, (cc14_transform_4 i a + 1) * S8000x1.size a ≤ S1600000x1.size a
  hwx14_4 : ∀ i : grid14.Coords, EltTy.bits .f32 = 32 ∨ (Rect.block (s := S1600000x1) S8000x1.size (cc14_transform_4 i) (hinb14_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S10000x1_S1x64_S10000x64_1_0_0_1_n_n : DotDims S10000x1 S1x64 S10000x64 where
  lhsContracting := [1]
  rhsContracting := [0]
  lhsNonContracting := [0]
  rhsNonContracting := [1]
  lhsBatch := []
  rhsBatch := []
  wf := dot_S10000x1_S1x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S8000x128_S128x64_S8000x64_1_0_0_1_n_n : DotDims S8000x128 S128x64 S8000x64 where
  lhsContracting := [1]
  rhsContracting := [0]
  lhsNonContracting := [0]
  rhsNonContracting := [1]
  lhsBatch := []
  rhsBatch := []
  wf := dot_S8000x128_S128x64_S8000x64_1_0_0_1_n_n_wf
def dot_S8000x64_S64x1_S8000x1_1_0_0_1_n_n : DotDims S8000x64 S64x1 S8000x1 where
  lhsContracting := [1]
  rhsContracting := [0]
  lhsNonContracting := [0]
  rhsNonContracting := [1]
  lhsBatch := []
  rhsBatch := []
  wf := dot_S8000x64_S64x1_S8000x1_1_0_0_1_n_n_wf

abbrev win0_0 : Pipeline.Window sig grid0 :=
  Pipeline.Window.ofSpec (Memref.whole main_arg0) S10000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v33) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v39) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v53) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v54) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v55) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v61) S10000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v74) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v31) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v75) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v76) S10000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v76) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v78) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v81) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v82) S10000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v95) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v31) S10000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v96) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v97) S10000x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v97) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v99) S64x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v102) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v103) S10000x64.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v116) S10000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v31) S10000x1.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v117) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v118) S10000x64.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v118) S10000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v120) S64x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v123) S1x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v124) S10000x64.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v137) S10000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v31) S10000x1.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v138) S1x64.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v139) S10000x64.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev win11_0 : Pipeline.Window sig grid11 :=
  Pipeline.Window.ofSpec (Memref.whole main_v139) S10000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v141) S64x64.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v144) S1x64.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v145) S10000x64.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

abbrev win12_0 : Pipeline.Window sig grid12 :=
  Pipeline.Window.ofSpec (Memref.whole main_v158) S10000x64.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v31) S10000x1.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v159) S1x64.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v160) S10000x64.size cc12_transform_3 reads12_3 true false 2 stage12_3 sem12_3
    hrank12 hreads12_3 hinb12_3 nbuf12_3 (Memref.isWhole_whole _) hwx12_3 hstage12_3

abbrev win12 : Fin 4 → Pipeline.Window sig grid12 := fun | 0 => win12_0 | 1 => win12_1 | 2 => win12_2 | 3 => win12_3 | ⟨_ + 4, h⟩ => absurd h (Nat.not_lt.2 (Nat.le_add_left _ _))
abbrev spec12 : Fin 4 → Pipeline.WinSpec sig grid12.rank := fun w => (win12 w).toWinSpec

abbrev win13_0 : Pipeline.Window sig grid13 :=
  Pipeline.Window.ofSpec (Memref.whole main_v175) S8000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_arg8) S128x64.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v176) S1x64.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v177) S8000x64.size cc13_transform_3 reads13_3 true false 2 stage13_3 sem13_3
    hrank13 hreads13_3 hinb13_3 nbuf13_3 (Memref.isWhole_whole _) hwx13_3 hstage13_3

abbrev win13 : Fin 4 → Pipeline.Window sig grid13 := fun | 0 => win13_0 | 1 => win13_1 | 2 => win13_2 | 3 => win13_3 | ⟨_ + 4, h⟩ => absurd h (Nat.not_lt.2 (Nat.le_add_left _ _))
abbrev spec13 : Fin 4 → Pipeline.WinSpec sig grid13.rank := fun w => (win13 w).toWinSpec

abbrev win14_0 : Pipeline.Window sig grid14 :=
  Pipeline.Window.ofSpec (Memref.whole main_v177) S8000x64.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_arg10) S64x1.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v179) S1x1.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v181) S8000x1.size cc14_transform_3 reads14_3 false false 2 stage14_3 sem14_3
    hrank14 hreads14_3 hinb14_3 nbuf14_3 (Memref.isWhole_whole _) hwx14_3 hstage14_3

abbrev win14_4 : Pipeline.Window sig grid14 :=
  Pipeline.Window.ofSpec (Memref.whole main_v182) S8000x1.size cc14_transform_4 reads14_4 true false 2 stage14_4 sem14_4
    hrank14 hreads14_4 hinb14_4 nbuf14_4 (Memref.isWhole_whole _) hwx14_4 hstage14_4

abbrev win14 : Fin 5 → Pipeline.Window sig grid14 := fun | 0 => win14_0 | 1 => win14_1 | 2 => win14_2 | 3 => win14_3 | 4 => win14_4 | ⟨_ + 5, h⟩ => absurd h (Nat.not_lt.2 (Nat.le_add_left _ _))
abbrev spec14 : Fin 5 → Pipeline.WinSpec sig grid14.rank := fun w => (win14 w).toWinSpec

class Facts : Prop extends Facts₀ where

variable [Facts]
-- ==== ReferenceIdeal.lean ====
abbrev S100000x1 : Shape := ⟨2, ![100000, 1]⟩
abbrev S1600000 : Shape := ⟨1, ![1600000]⟩
abbrev S1x64 : Shape := ⟨2, ![1, 64]⟩
abbrev S64 : Shape := ⟨1, ![64]⟩
abbrev S3x64x64 : Shape := ⟨3, ![3, 64, 64]⟩
abbrev S3x64 : Shape := ⟨2, ![3, 64]⟩
abbrev S128x64 : Shape := ⟨2, ![128, 64]⟩
abbrev S64x1 : Shape := ⟨2, ![64, 1]⟩
abbrev S1 : Shape := ⟨1, ![1]⟩
abbrev S_ : Shape := ⟨0, ![]⟩
abbrev S100000 : Shape := ⟨1, ![100000]⟩
abbrev S1600000x1 : Shape := ⟨2, ![1600000, 1]⟩
abbrev S100000x64 : Shape := ⟨2, ![100000, 64]⟩
abbrev S1x64x64 : Shape := ⟨3, ![1, 64, 64]⟩
abbrev S64x64 : Shape := ⟨2, ![64, 64]⟩
abbrev S1600000x64 : Shape := ⟨2, ![1600000, 64]⟩
abbrev S1600000x128 : Shape := ⟨2, ![1600000, 128]⟩
abbrev S1x1 : Shape := ⟨2, ![1, 1]⟩

abbrev nBuf : Space → Nat
  | .hbm => 284
  | .vmem => 0
  | .smem => 0
  | _ => 0

abbrev hbmTy0_0 (i : Nat) : BufTy := match i % 128 with
  | 0 => ⟨S100000x1, .f32⟩
  | 1 => ⟨S1600000, .f32⟩
  | 2 => ⟨S1x64, .f32⟩
  | 3 => ⟨S64, .f32⟩
  | 4 => ⟨S3x64x64, .f32⟩
  | 5 => ⟨S3x64, .f32⟩
  | 6 => ⟨S3x64x64, .f32⟩
  | 7 => ⟨S3x64, .f32⟩
  | 8 => ⟨S128x64, .f32⟩
  | 9 => ⟨S64, .f32⟩
  | 10 => ⟨S64x1, .f32⟩
  | 11 => ⟨S1, .f32⟩
  | 12 => ⟨S1600000, .i32⟩
  | 13 => ⟨S1600000, .i32⟩
  | 14 => ⟨S_, .f32⟩
  | 15 => ⟨S100000, .f32⟩
  | 16 => ⟨S1600000x1, .i32⟩
  | 17 => ⟨S100000, .f32⟩
  | 18 => ⟨S_, .f32⟩
  | 19 => ⟨S100000, .f32⟩
  | 20 => ⟨S100000, .i1⟩
  | 21 => ⟨S_, .f32⟩
  | 22 => ⟨S100000, .f32⟩
  | 23 => ⟨S100000, .f32⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000, .f32⟩
  | 38 => ⟨S1600000, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000, .f32⟩
  | 48 => ⟨S1600000, .f32⟩
  | 49 => ⟨S_, .f32⟩
  | 50 => ⟨S1600000, .f32⟩
  | 51 => ⟨S_, .f32⟩
  | 52 => ⟨S100000, .f32⟩
  | 53 => ⟨S1600000x1, .i32⟩
  | 54 => ⟨S100000, .f32⟩
  | 55 => ⟨S_, .f32⟩
  | 56 => ⟨S100000, .f32⟩
  | 57 => ⟨S100000, .f32⟩
  | 58 => ⟨S100000x1, .f32⟩
  | 59 => ⟨S100000x64, .f32⟩
  | 60 => ⟨S1x64, .f32⟩
  | 61 => ⟨S100000x64, .f32⟩
  | 62 => ⟨S100000x64, .f32⟩
  | 63 => ⟨S1x64x64, .f32⟩
  | 64 => ⟨S64x64, .f32⟩
  | 65 => ⟨S1x64, .f32⟩
  | 66 => ⟨S64, .f32⟩
  | 67 => ⟨S100000x64, .f32⟩
  | 68 => ⟨S_, .i32⟩
  | 69 => ⟨S1600000, .i32⟩
  | 70 => ⟨S1600000, .i1⟩
  | 71 => ⟨S_, .i32⟩
  | 72 => ⟨S1600000, .i32⟩
  | 73 => ⟨S1600000, .i32⟩
  | 74 => ⟨S1600000, .i32⟩
  | 75 => ⟨S1600000x1, .i32⟩
  | 76 => ⟨S1600000x64, .f32⟩
  | 77 => ⟨S1600000x1, .f32⟩
  | 78 => ⟨S1600000x64, .f32⟩
  | 79 => ⟨S1600000x64, .f32⟩
  | 80 => ⟨S_, .f32⟩
  | 81 => ⟨S100000x64, .f32⟩
  | 82 => ⟨S1600000x1, .i32⟩
  | 83 => ⟨S100000x64, .f32⟩
  | 84 => ⟨S100000x64, .f32⟩
  | 85 => ⟨S100000x64, .f32⟩
  | 86 => ⟨S1x64, .f32⟩
  | 87 => ⟨S100000x64, .f32⟩
  | 88 => ⟨S100000x64, .f32⟩
  | 89 => ⟨S_, .f32⟩
  | 90 => ⟨S100000x64, .f32⟩
  | 91 => ⟨S100000x64, .f32⟩
  | 92 => ⟨S1x64x64, .f32⟩
  | 93 => ⟨S64x64, .f32⟩
  | 94 => ⟨S1x64, .f32⟩
  | 95 => ⟨S64, .f32⟩
  | 96 => ⟨S100000x64, .f32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000x64, .f32⟩
  | 106 => ⟨S1600000x1, .f32⟩
  | 107 => ⟨S1600000x64, .f32⟩
  | 108 => ⟨S1600000x64, .f32⟩
  | 109 => ⟨S_, .f32⟩
  | 110 => ⟨S100000x64, .f32⟩
  | 111 => ⟨S1600000x1, .i32⟩
  | 112 => ⟨S100000x64, .f32⟩
  | 113 => ⟨S100000x64, .f32⟩
  | 114 => ⟨S100000x64, .f32⟩
  | 115 => ⟨S1x64, .f32⟩
  | 116 => ⟨S100000x64, .f32⟩
  | 117 => ⟨S100000x64, .f32⟩
  | 118 => ⟨S_, .f32⟩
  | 119 => ⟨S100000x64, .f32⟩
  | 120 => ⟨S100000x64, .f32⟩
  | 121 => ⟨S1x64x64, .f32⟩
  | 122 => ⟨S64x64, .f32⟩
  | 123 => ⟨S1x64, .f32⟩
  | 124 => ⟨S64, .f32⟩
  | 125 => ⟨S100000x64, .f32⟩
  | 126 => ⟨S_, .i32⟩
  | 127 => ⟨S1600000, .i32⟩
  | _ => ⟨S100000x1, .f32⟩

abbrev hbmTy0_1 (i : Nat) : BufTy := match i % 128 with
  | 0 => ⟨S1600000, .i1⟩
  | 1 => ⟨S_, .i32⟩
  | 2 => ⟨S1600000, .i32⟩
  | 3 => ⟨S1600000, .i32⟩
  | 4 => ⟨S1600000, .i32⟩
  | 5 => ⟨S1600000x1, .i32⟩
  | 6 => ⟨S1600000x64, .f32⟩
  | 7 => ⟨S1600000x1, .f32⟩
  | 8 => ⟨S1600000x64, .f32⟩
  | 9 => ⟨S1600000x64, .f32⟩
  | 10 => ⟨S_, .f32⟩
  | 11 => ⟨S100000x64, .f32⟩
  | 12 => ⟨S1600000x1, .i32⟩
  | 13 => ⟨S100000x64, .f32⟩
  | 14 => ⟨S100000x64, .f32⟩
  | 15 => ⟨S100000x64, .f32⟩
  | 16 => ⟨S1x64, .f32⟩
  | 17 => ⟨S100000x64, .f32⟩
  | 18 => ⟨S100000x64, .f32⟩
  | 19 => ⟨S_, .f32⟩
  | 20 => ⟨S100000x64, .f32⟩
  | 21 => ⟨S100000x64, .f32⟩
  | 22 => ⟨S1x64x64, .f32⟩
  | 23 => ⟨S64x64, .f32⟩
  | 24 => ⟨S1x64, .f32⟩
  | 25 => ⟨S64, .f32⟩
  | 26 => ⟨S100000x64, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000x64, .f32⟩
  | 36 => ⟨S1600000x1, .f32⟩
  | 37 => ⟨S1600000x64, .f32⟩
  | 38 => ⟨S1600000x64, .f32⟩
  | 39 => ⟨S_, .f32⟩
  | 40 => ⟨S100000x64, .f32⟩
  | 41 => ⟨S1600000x1, .i32⟩
  | 42 => ⟨S100000x64, .f32⟩
  | 43 => ⟨S100000x64, .f32⟩
  | 44 => ⟨S100000x64, .f32⟩
  | 45 => ⟨S1x64, .f32⟩
  | 46 => ⟨S100000x64, .f32⟩
  | 47 => ⟨S100000x64, .f32⟩
  | 48 => ⟨S_, .f32⟩
  | 49 => ⟨S100000x64, .f32⟩
  | 50 => ⟨S100000x64, .f32⟩
  | 51 => ⟨S1x64x64, .f32⟩
  | 52 => ⟨S64x64, .f32⟩
  | 53 => ⟨S1x64, .f32⟩
  | 54 => ⟨S64, .f32⟩
  | 55 => ⟨S100000x64, .f32⟩
  | 56 => ⟨S_, .i32⟩
  | 57 => ⟨S1600000, .i32⟩
  | 58 => ⟨S1600000, .i1⟩
  | 59 => ⟨S_, .i32⟩
  | 60 => ⟨S1600000, .i32⟩
  | 61 => ⟨S1600000, .i32⟩
  | 62 => ⟨S1600000, .i32⟩
  | 63 => ⟨S1600000x1, .i32⟩
  | 64 => ⟨S1600000x64, .f32⟩
  | 65 => ⟨S1600000x1, .f32⟩
  | 66 => ⟨S1600000x64, .f32⟩
  | 67 => ⟨S1600000x64, .f32⟩
  | 68 => ⟨S_, .f32⟩
  | 69 => ⟨S100000x64, .f32⟩
  | 70 => ⟨S1600000x1, .i32⟩
  | 71 => ⟨S100000x64, .f32⟩
  | 72 => ⟨S100000x64, .f32⟩
  | 73 => ⟨S100000x64, .f32⟩
  | 74 => ⟨S1x64, .f32⟩
  | 75 => ⟨S100000x64, .f32⟩
  | 76 => ⟨S100000x64, .f32⟩
  | 77 => ⟨S_, .f32⟩
  | 78 => ⟨S100000x64, .f32⟩
  | 79 => ⟨S100000x64, .f32⟩
  | 80 => ⟨S1x64x64, .f32⟩
  | 81 => ⟨S64x64, .f32⟩
  | 82 => ⟨S1x64, .f32⟩
  | 83 => ⟨S64, .f32⟩
  | 84 => ⟨S100000x64, .f32⟩
  | 85 => ⟨S_, .i32⟩
  | 86 => ⟨S1600000, .i32⟩
  | 87 => ⟨S1600000, .i1⟩
  | 88 => ⟨S_, .i32⟩
  | 89 => ⟨S1600000, .i32⟩
  | 90 => ⟨S1600000, .i32⟩
  | 91 => ⟨S1600000, .i32⟩
  | 92 => ⟨S1600000x1, .i32⟩
  | 93 => ⟨S1600000x64, .f32⟩
  | 94 => ⟨S1600000x1, .f32⟩
  | 95 => ⟨S1600000x64, .f32⟩
  | 96 => ⟨S1600000x64, .f32⟩
  | 97 => ⟨S_, .f32⟩
  | 98 => ⟨S100000x64, .f32⟩
  | 99 => ⟨S1600000x1, .i32⟩
  | 100 => ⟨S100000x64, .f32⟩
  | 101 => ⟨S100000x64, .f32⟩
  | 102 => ⟨S100000x64, .f32⟩
  | 103 => ⟨S1x64, .f32⟩
  | 104 => ⟨S100000x64, .f32⟩
  | 105 => ⟨S100000x64, .f32⟩
  | 106 => ⟨S_, .f32⟩
  | 107 => ⟨S100000x64, .f32⟩
  | 108 => ⟨S100000x64, .f32⟩
  | 109 => ⟨S_, .i32⟩
  | 110 => ⟨S1600000, .i32⟩
  | 111 => ⟨S1600000, .i1⟩
  | 112 => ⟨S_, .i32⟩
  | 113 => ⟨S1600000, .i32⟩
  | 114 => ⟨S1600000, .i32⟩
  | 115 => ⟨S1600000, .i32⟩
  | 116 => ⟨S1600000x1, .i32⟩
  | 117 => ⟨S1600000x64, .f32⟩
  | 118 => ⟨S_, .i32⟩
  | 119 => ⟨S1600000, .i32⟩
  | 120 => ⟨S1600000, .i1⟩
  | 121 => ⟨S_, .i32⟩
  | 122 => ⟨S1600000, .i32⟩
  | 123 => ⟨S1600000, .i32⟩
  | 124 => ⟨S1600000, .i32⟩
  | 125 => ⟨S1600000x1, .i32⟩
  | 126 => ⟨S1600000x64, .f32⟩
  | 127 => ⟨S1600000x128, .f32⟩
  | _ => ⟨S100000x1, .f32⟩

abbrev hbmTy0_2 (i : Nat) : BufTy := match i % 128 with
  | 0 => ⟨S1600000x64, .f32⟩
  | 1 => ⟨S1x64, .f32⟩
  | 2 => ⟨S1600000x64, .f32⟩
  | 3 => ⟨S1600000x64, .f32⟩
  | 4 => ⟨S_, .f32⟩
  | 5 => ⟨S1600000x64, .f32⟩
  | 6 => ⟨S1600000x64, .f32⟩
  | 7 => ⟨S1600000x1, .f32⟩
  | 8 => ⟨S1x1, .f32⟩
  | 9 => ⟨S1600000x1, .f32⟩
  | 10 => ⟨S1600000x1, .f32⟩
  | 11 => ⟨S1600000, .f32⟩
  | 12 => ⟨S1600000, .i1⟩
  | 13 => ⟨S_, .f32⟩
  | 14 => ⟨S1600000, .f32⟩
  | 15 => ⟨S1600000, .f32⟩
  | 16 => ⟨S1600000, .f32⟩
  | 17 => ⟨S1600000, .f32⟩
  | 18 => ⟨S1600000, .i1⟩
  | 19 => ⟨S1600000, .f32⟩
  | 20 => ⟨S1600000, .f32⟩
  | 21 => ⟨S1600000, .f32⟩
  | 22 => ⟨S1600000, .f32⟩
  | 23 => ⟨S1600000, .f32⟩
  | 24 => ⟨S1600000, .f32⟩
  | 25 => ⟨S1600000, .f32⟩
  | 26 => ⟨S1600000, .f32⟩
  | 27 => ⟨S1600000, .f32⟩
  | _ => ⟨S100000x1, .f32⟩

abbrev hbmTy (i : Nat) : BufTy := match i / 128 with
  | 0 => hbmTy0_0 i
  | 1 => hbmTy0_1 i
  | 2 => hbmTy0_2 i
  | _ => ⟨S100000x1, .f32⟩

abbrev bufTy : (tb : Table) → Fin (tcTables nBuf tb) → BufTy
  | .hbm, ⟨i, _⟩ => hbmTy i
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v8 : Ref sig .tc := ⟨.hbm, 28, rfl⟩
abbrev main_c : Ref sig .tc := ⟨.hbm, 29, rfl⟩
abbrev main_v9 : Ref sig .tc := ⟨.hbm, 30, rfl⟩
abbrev main_v10 : Ref sig .tc := ⟨.hbm, 31, rfl⟩
abbrev main_c_3 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_c_4 : Ref sig .tc := ⟨.hbm, 39, rfl⟩
abbrev main_v17 : Ref sig .tc := ⟨.hbm, 40, rfl⟩
abbrev main_v18 : Ref sig .tc := ⟨.hbm, 41, rfl⟩
abbrev main_c_5 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_6 : Ref sig .tc := ⟨.hbm, 49, rfl⟩
abbrev main_v25 : Ref sig .tc := ⟨.hbm, 50, rfl⟩
abbrev main_cst_7 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_cst_8 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_c_9 : Ref sig .tc := ⟨.hbm, 68, rfl⟩
abbrev main_v41 : Ref sig .tc := ⟨.hbm, 69, rfl⟩
abbrev main_v42 : Ref sig .tc := ⟨.hbm, 70, rfl⟩
abbrev main_c_10 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_11 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_call1_cst : Ref sig .tc := ⟨.hbm, 89, rfl⟩
abbrev main_call1_v0 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_c_12 : Ref sig .tc := ⟨.hbm, 97, rfl⟩
abbrev main_v65 : Ref sig .tc := ⟨.hbm, 98, rfl⟩
abbrev main_v66 : Ref sig .tc := ⟨.hbm, 99, rfl⟩
abbrev main_c_13 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_14 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_call2_cst : Ref sig .tc := ⟨.hbm, 118, rfl⟩
abbrev main_call2_v0 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_c_15 : Ref sig .tc := ⟨.hbm, 126, rfl⟩
abbrev main_v89 : Ref sig .tc := ⟨.hbm, 127, rfl⟩
abbrev main_v90 : Ref sig .tc := ⟨.hbm, 128, rfl⟩
abbrev main_c_16 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_cst_17 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_call3_cst : Ref sig .tc := ⟨.hbm, 147, rfl⟩
abbrev main_call3_v0 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_c_18 : Ref sig .tc := ⟨.hbm, 155, rfl⟩
abbrev main_v113 : Ref sig .tc := ⟨.hbm, 156, rfl⟩
abbrev main_v114 : Ref sig .tc := ⟨.hbm, 157, rfl⟩
abbrev main_c_19 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_cst_20 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_call4_cst : Ref sig .tc := ⟨.hbm, 176, rfl⟩
abbrev main_call4_v0 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_c_21 : Ref sig .tc := ⟨.hbm, 184, rfl⟩
abbrev main_v137 : Ref sig .tc := ⟨.hbm, 185, rfl⟩
abbrev main_v138 : Ref sig .tc := ⟨.hbm, 186, rfl⟩
abbrev main_c_22 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_cst_23 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_call5_cst : Ref sig .tc := ⟨.hbm, 205, rfl⟩
abbrev main_call5_v0 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_c_24 : Ref sig .tc := ⟨.hbm, 213, rfl⟩
abbrev main_v161 : Ref sig .tc := ⟨.hbm, 214, rfl⟩
abbrev main_v162 : Ref sig .tc := ⟨.hbm, 215, rfl⟩
abbrev main_c_25 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_cst_26 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_call6_cst : Ref sig .tc := ⟨.hbm, 234, rfl⟩
abbrev main_call6_v0 : Ref sig .tc := ⟨.hbm, 235, rfl⟩
abbrev main_v179 : Ref sig .tc := ⟨.hbm, 236, rfl⟩
abbrev main_c_27 : Ref sig .tc := ⟨.hbm, 237, rfl⟩
abbrev main_v180 : Ref sig .tc := ⟨.hbm, 238, rfl⟩
abbrev main_v181 : Ref sig .tc := ⟨.hbm, 239, rfl⟩
abbrev main_c_28 : Ref sig .tc := ⟨.hbm, 240, rfl⟩
abbrev main_v182 : Ref sig .tc := ⟨.hbm, 241, rfl⟩
abbrev main_v183 : Ref sig .tc := ⟨.hbm, 242, rfl⟩
abbrev main_v184 : Ref sig .tc := ⟨.hbm, 243, rfl⟩
abbrev main_v185 : Ref sig .tc := ⟨.hbm, 244, rfl⟩
abbrev main_v186 : Ref sig .tc := ⟨.hbm, 245, rfl⟩
abbrev main_c_29 : Ref sig .tc := ⟨.hbm, 246, rfl⟩
abbrev main_v187 : Ref sig .tc := ⟨.hbm, 247, rfl⟩
abbrev main_v188 : Ref sig .tc := ⟨.hbm, 248, rfl⟩
abbrev main_c_30 : Ref sig .tc := ⟨.hbm, 249, rfl⟩
abbrev main_v189 : Ref sig .tc := ⟨.hbm, 250, rfl⟩
abbrev main_v190 : Ref sig .tc := ⟨.hbm, 251, rfl⟩
abbrev main_v191 : Ref sig .tc := ⟨.hbm, 252, rfl⟩
abbrev main_v192 : Ref sig .tc := ⟨.hbm, 253, rfl⟩
abbrev main_v193 : Ref sig .tc := ⟨.hbm, 254, rfl⟩
abbrev main_v194 : Ref sig .tc := ⟨.hbm, 255, rfl⟩
abbrev main_v195 : Ref sig .tc := ⟨.hbm, 256, rfl⟩
abbrev main_v196 : Ref sig .tc := ⟨.hbm, 257, rfl⟩
abbrev main_v197 : Ref sig .tc := ⟨.hbm, 258, rfl⟩
abbrev main_v198 : Ref sig .tc := ⟨.hbm, 259, rfl⟩
abbrev main_call7_cst : Ref sig .tc := ⟨.hbm, 260, rfl⟩
abbrev main_call7_v0 : Ref sig .tc := ⟨.hbm, 261, rfl⟩
abbrev main_v199 : Ref sig .tc := ⟨.hbm, 262, rfl⟩
abbrev main_v200 : Ref sig .tc := ⟨.hbm, 263, rfl⟩
abbrev main_v201 : Ref sig .tc := ⟨.hbm, 264, rfl⟩
abbrev main_v202 : Ref sig .tc := ⟨.hbm, 265, rfl⟩
abbrev main_v203 : Ref sig .tc := ⟨.hbm, 266, rfl⟩
abbrev main_v204 : Ref sig .tc := ⟨.hbm, 267, rfl⟩
abbrev main_v205 : Ref sig .tc := ⟨.hbm, 268, rfl⟩
abbrev main_call8_cst : Ref sig .tc := ⟨.hbm, 269, rfl⟩
abbrev main_call8_v0 : Ref sig .tc := ⟨.hbm, 270, rfl⟩
abbrev main_call8_v1 : Ref sig .tc := ⟨.hbm, 271, rfl⟩
abbrev main_call8_v2 : Ref sig .tc := ⟨.hbm, 272, rfl⟩
abbrev main_call8_v3 : Ref sig .tc := ⟨.hbm, 273, rfl⟩
abbrev main_call8_v4 : Ref sig .tc := ⟨.hbm, 274, rfl⟩
abbrev main_call8_v5 : Ref sig .tc := ⟨.hbm, 275, rfl⟩
abbrev main_call8_v6 : Ref sig .tc := ⟨.hbm, 276, rfl⟩
abbrev main_call8_v7 : Ref sig .tc := ⟨.hbm, 277, rfl⟩
abbrev main_call8_v8 : Ref sig .tc := ⟨.hbm, 278, rfl⟩
abbrev main_call8_v9 : Ref sig .tc := ⟨.hbm, 279, rfl⟩
abbrev main_call8_v10 : Ref sig .tc := ⟨.hbm, 280, rfl⟩
abbrev main_call8_v11 : Ref sig .tc := ⟨.hbm, 281, rfl⟩
abbrev main_v206 : Ref sig .tc := ⟨.hbm, 282, rfl⟩
abbrev main_v207 : Ref sig .tc := ⟨.hbm, 283, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S100000_S100000x1_0 : S100000.BroadcastsInDim S100000x1 (![0] : Fin 1 → Fin S100000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  concatenates_S1600000x64_S1600000x64_S1600000x128_d1 : Shape.Concatenates [S1600000x64, S1600000x64] S1600000x128 1
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  shapeCasts_S1600000x1_S1600000 : S1600000x1.ShapeCasts S1600000
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x1_S1x64_S100000x64_1_0_0_1_n_n_wf : DotDims.WF S100000x1 S1x64 S100000x64 [1] [0] [0] [1] [] []
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S1600000x128_S128x64_S1600000x64_1_0_0_1_n_n_wf : DotDims.WF S1600000x128 S128x64 S1600000x64 [1] [0] [0] [1] [] []
  dot_S1600000x64_S64x1_S1600000x1_1_0_0_1_n_n_wf : DotDims.WF S1600000x64 S64x1 S1600000x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x1_S1x64_S100000x64_1_0_0_1_n_n : DotDims S100000x1 S1x64 S100000x64 where
  lhsContracting := [1]
  rhsContracting := [0]
  lhsNonContracting := [0]
  rhsNonContracting := [1]
  lhsBatch := []
  rhsBatch := []
  wf := dot_S100000x1_S1x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S1600000x128_S128x64_S1600000x64_1_0_0_1_n_n : DotDims S1600000x128 S128x64 S1600000x64 where
  lhsContracting := [1]
  rhsContracting := [0]
  lhsNonContracting := [0]
  rhsNonContracting := [1]
  lhsBatch := []
  rhsBatch := []
  wf := dot_S1600000x128_S128x64_S1600000x64_1_0_0_1_n_n_wf
def dot_S1600000x64_S64x1_S1600000x1_1_0_0_1_n_n : DotDims S1600000x64 S64x1 S1600000x1 where
  lhsContracting := [1]
  rhsContracting := [0]
  lhsNonContracting := [0]
  rhsNonContracting := [1]
  lhsBatch := []
  rhsBatch := []
  wf := dot_S1600000x64_S64x1_S1600000x1_1_0_0_1_n_n_wf

class Facts : Prop extends Facts₀ where

variable [Facts]
-- ==== Proof.Spec.lean ====
/-
  The result of the network as ONE function of the argument arrays, written with the host operations of the
  reference program. Notation: N = 100000 nodes, E = 1600000 edges, row r and column c the two index arrays.

    deg[v]   = Σ_{e : c[e] = v} w[e]                       (scatter-add of the edge weights by column)
    dinv[v]  = if deg[v] > 0 then rsqrt(max(deg[v], 1e-30)) else 0
    norm[e]  = dinv[r[e]] · w[e] · dinv[c[e]]
    cnt[v]   = max(#{e : c[e] = v}, 1)
    h₀       = x · W_enc + b_enc
    layer(h, W, b) = max( (Σ_{e : c[e] = v} (h · W)[r[e]] · norm[e]) / cnt[v] + b , 0 )
    six layers, then for every edge  y[e] = max([h[r[e]], h[c[e]]] · W₁ + b₁, 0) · W₂ + b₂
    out[e]   = if r[e] = c[e] then softplus(y[e]) else y[e],
    softplus(y) = max(y, 0) + log1p(exp(-|y - 0|))  (with the source's guard for y - 0 ≠ y - 0, never taken on the
    extended reals).
  A gather index is wrapped first: a negative entry has N added.
-/
import proofs.«122723_j46918222742294_1_alg».proof.ReferenceIdeal
import proofs.«122723_j46918222742294_1_alg».proof.Proof.Gen.ReferenceIdeal

noncomputable section

namespace Cert.Spec

open Idealize.ShloMosaic Cert.ReferenceIdeal Cert.ReferenceIdeal.Gen

variable {F : FTy → Type} [FloatOps F]

/-- A gather index: negative entries wrap by the node count; then a unit axis. -/
def wrapIdx (ix : Vec F S1600000 .i32) : Vec F S1600000x1 .i32 :=
  broadcastInDim S1600000x1 ![0] bcast_S1600000_S1600000x1_0 (select (cmpi .slt ix (broadcastInDim S1600000 ![] bcast_S_S1600000 (constantI S_ 32 0#32))) (addi ix (broadcastInDim S1600000 ![] bcast_S_S1600000 (constantI S_ 32 100000#32))) ix)

/-- The weighted in-degree of every node: the edge weights summed by column. -/
def deg (w : Vec F S1600000 .f32) (col : Vec F S1600000 .i32) : Vec F S100000 .f32 :=
  Host.scatterAdd scatter_S100000_S1600000x1_S1600000_n_0_0_1 (broadcastInDim S100000 ![] bcast_S_S100000 (constant S_ .f32 0x00000000#32)) (broadcastInDim S1600000x1 ![0] bcast_S1600000_S1600000x1_0 col) w

/-- deg^(-1/2) where the degree is positive, 0 elsewhere. -/
def dinv (d : Vec F S100000 .f32) : Vec F S100000 .f32 :=
  select (cmpf .ogt d (broadcastInDim S100000 ![] bcast_S_S100000 (constant S_ .f32 0x00000000#32))) (Host.rsqrt (maximumf d (broadcastInDim S100000 ![] bcast_S_S100000 (constant S_ .f32 0x0DA24260#32)))) (broadcastInDim S100000 ![] bcast_S_S100000 (id (constant S_ .f32 0x00000000#32)))

/-- The symmetric normalisation of an edge: dinv[row] · w · dinv[col]. -/
def norm (w : Vec F S1600000 .f32) (row col : Vec F S1600000 .i32) : Vec F S1600000 .f32 :=
  mulf (mulf (Host.gather gather_S100000_S1600000x1_S1600000_n_0_n_n_0_1_1 (dinv (deg w col)) (wrapIdx row)) w) (Host.gather gather_S100000_S1600000x1_S1600000_n_0_n_n_0_1_1 (dinv (deg w col)) (wrapIdx col))

/-- The number of edges into every node, at least one, as a column. -/
def cnt (col : Vec F S1600000 .i32) : Vec F S100000x1 .f32 :=
  broadcastInDim S100000x1 ![0] bcast_S100000_S100000x1_0 (maximumf (Host.scatterAdd scatter_S100000_S1600000x1_S1600000_n_0_0_1 (broadcastInDim S100000 ![] bcast_S_S100000 (constant S_ .f32 0x00000000#32)) (broadcastInDim S1600000x1 ![0] bcast_S1600000_S1600000x1_0 col) (broadcastInDim S1600000 ![] bcast_S_S1600000 (constant S_ .f32 0x3F800000#32))) (broadcastInDim S100000 ![] bcast_S_S100000 (constant S_ .f32 0x3F800000#32)))

/-- The node encoder: x · W_enc + b_enc. -/
def enc (x : Vec F S100000x1 .f32) (we : Vec F S1x64 .f32) (be : Vec F S64 .f32) : Vec F S100000x64 .f32 :=
  addf (Host.dotGeneral dot_S100000x1_S1x64_S100000x64_1_0_0_1_n_n none x we) (broadcastInDim S100000x64 ![0, 1] bcast_S1x64_S100000x64_0_1 (broadcastInDim S1x64 ![1] bcast_S64_S1x64_1 be))

/-- The dense transform of a layer: h · W. -/
def lin (h : Vec F S100000x64 .f32) (W : Vec F S64x64 .f32) : Vec F S100000x64 .f32 :=
  Host.dotGeneral dot_S100000x64_S64x64_S100000x64_1_0_0_1_n_n none h W

/-- Messages summed at their destination: (hw[row] · norm) scatter-added by column. -/
def agg (hw : Vec F S100000x64 .f32) (nrm : Vec F S1600000 .f32) (row col : Vec F S1600000 .i32) : Vec F S100000x64 .f32 :=
  Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 col) (mulf (Host.gather gather_S100000x64_S1600000x1_S1600000x64_1_0_n_n_0_1_164 hw (wrapIdx row)) (broadcastInDim S1600000x64 ![0, 1] bcast_S1600000x1_S1600000x64_0_1 (broadcastInDim S1600000x1 ![0] bcast_S1600000_S1600000x1_0 nrm)))

/-- Mean, bias, rectifier: max(s / cnt + b, 0). -/
def act (s : Vec F S100000x64 .f32) (cn : Vec F S100000x1 .f32) (b : Vec F S64 .f32) : Vec F S100000x64 .f32 :=
  maximumf (addf (Host.divf s (broadcastInDim S100000x64 ![0, 1] bcast_S100000x1_S100000x64_0_1 cn)) (broadcastInDim S100000x64 ![0, 1] bcast_S1x64_S100000x64_0_1 (broadcastInDim S1x64 ![1] bcast_S64_S1x64_1 b))) (broadcastInDim S100000x64 ![] bcast_S_S100000x64 (constant S_ .f32 0x00000000#32))

/-- One graph-convolution layer. -/
def layer (h : Vec F S100000x64 .f32) (W : Vec F S64x64 .f32) (b : Vec F S64 .f32) (nrm : Vec F S1600000 .f32) (cn : Vec F S100000x1 .f32)
    (row col : Vec F S1600000 .i32) : Vec F S100000x64 .f32 :=
  act (agg (lin h W) nrm row col) cn b

/-- The endpoints' features of every edge, side by side. -/
def pair (h : Vec F S100000x64 .f32) (row col : Vec F S1600000 .i32) : Vec F S1600000x128 .f32 :=
  concatenate S1600000x128 1 [⟨S1600000x64, (Host.gather gather_S100000x64_S1600000x1_S1600000x64_1_0_n_n_0_1_164 h (wrapIdx row))⟩, ⟨S1600000x64, (Host.gather gather_S100000x64_S1600000x1_S1600000x64_1_0_n_n_0_1_164 h (wrapIdx col))⟩] concatenates_S1600000x64_S1600000x64_S1600000x128_d1

/-- The decoder's hidden layer: max(e · W₁ + b₁, 0). -/
def dec1 (e : Vec F S1600000x128 .f32) (w1 : Vec F S128x64 .f32) (b1 : Vec F S64 .f32) : Vec F S1600000x64 .f32 :=
  maximumf (addf (Host.dotGeneral dot_S1600000x128_S128x64_S1600000x64_1_0_0_1_n_n none e w1) (broadcastInDim S1600000x64 ![0, 1] bcast_S1x64_S1600000x64_0_1 (broadcastInDim S1x64 ![1] bcast_S64_S1x64_1 b1))) (broadcastInDim S1600000x64 ![] bcast_S_S1600000x64 (constant S_ .f32 0x00000000#32))

/-- The decoder's output per edge, still as a column: e₁ · W₂ + b₂. -/
def dec2 (e1 : Vec F S1600000x64 .f32) (w2 : Vec F S64x1 .f32) (b2 : Vec F S1 .f32) : Vec F S1600000x1 .f32 :=
  addf (Host.dotGeneral dot_S1600000x64_S64x1_S1600000x1_1_0_0_1_n_n none e1 w2) (broadcastInDim S1600000x1 ![0, 1] bcast_S1x1_S1600000x1_0_1 (broadcastInDim S1x1 ![1] bcast_S1_S1x1_1 b2))

/-- softplus where row = col, the value itself elsewhere. -/
def fin (y : Vec F S1600000 .f32) (row col : Vec F S1600000 .i32) : Vec F S1600000 .f32 :=
  select (cmpi .eq row col) (select (cmpf .une (subf y (broadcastInDim S1600000 ![] bcast_S_S1600000 (constant S_ .f32 0x00000000#32))) (subf y (broadcastInDim S1600000 ![] bcast_S_S1600000 (constant S_ .f32 0x00000000#32)))) (addf y (broadcastInDim S1600000 ![] bcast_S_S1600000 (constant S_ .f32 0x00000000#32))) (addf (maximumf y (broadcastInDim S1600000 ![] bcast_S_S1600000 (constant S_ .f32 0x00000000#32))) (Host.log1p (Host.exp (Host.negf (Host.absf (subf y (broadcastInDim S1600000 ![] bcast_S_S1600000 (constant S_ .f32 0x00000000#32))))))))) y

/-- Layer k's weight matrix and bias, cut from the stacked parameters. -/
def W0 (a : Vec F S3x64x64 .f32) : Vec F S64x64 .f32 := shapeCast S64x64 (extractStridedSlice S1x64x64 ![0, 0, 0] a slices_S3x64x64_S1x64x64_0_0_0) shapeCasts_S1x64x64_S64x64
def W1 (a : Vec F S3x64x64 .f32) : Vec F S64x64 .f32 := shapeCast S64x64 (extractStridedSlice S1x64x64 ![1, 0, 0] a slices_S3x64x64_S1x64x64_1_0_0) shapeCasts_S1x64x64_S64x64
def W2 (a : Vec F S3x64x64 .f32) : Vec F S64x64 .f32 := shapeCast S64x64 (extractStridedSlice S1x64x64 ![2, 0, 0] a slices_S3x64x64_S1x64x64_2_0_0) shapeCasts_S1x64x64_S64x64
def B0 (a : Vec F S3x64 .f32) : Vec F S64 .f32 := shapeCast S64 (extractStridedSlice S1x64 ![0, 0] a slices_S3x64_S1x64_0_0) shapeCasts_S1x64_S64
def B1 (a : Vec F S3x64 .f32) : Vec F S64 .f32 := shapeCast S64 (extractStridedSlice S1x64 ![1, 0] a slices_S3x64_S1x64_1_0) shapeCasts_S1x64_S64
def B2 (a : Vec F S3x64 .f32) : Vec F S64 .f32 := shapeCast S64 (extractStridedSlice S1x64 ![2, 0] a slices_S3x64_S1x64_2_0) shapeCasts_S1x64_S64

/-- The node features after the six layers. -/
def nodes (x : Vec F S100000x1 .f32) (w : Vec F S1600000 .f32) (we : Vec F S1x64 .f32) (be : Vec F S64 .f32)
    (c1w : Vec F S3x64x64 .f32) (c1b : Vec F S3x64 .f32) (c2w : Vec F S3x64x64 .f32) (c2b : Vec F S3x64 .f32)
    (row col : Vec F S1600000 .i32) : Vec F S100000x64 .f32 :=
  layer (layer (layer (layer (layer (layer (enc x we be) (W0 c1w) (B0 c1b) (norm w row col) (cnt col) row col) (W0 c2w) (B0 c2b) (norm w row col) (cnt col) row col)
    (W1 c1w) (B1 c1b) (norm w row col) (cnt col) row col) (W1 c2w) (B1 c2b) (norm w row col) (cnt col) row col)
    (W2 c1w) (B2 c1b) (norm w row col) (cnt col) row col) (W2 c2w) (B2 c2b) (norm w row col) (cnt col) row col

/-- The network's result: one value per edge. -/
def out (x : Vec F S100000x1 .f32) (w : Vec F S1600000 .f32) (we : Vec F S1x64 .f32) (be : Vec F S64 .f32)
    (c1w : Vec F S3x64x64 .f32) (c1b : Vec F S3x64 .f32) (c2w : Vec F S3x64x64 .f32) (c2b : Vec F S3x64 .f32)
    (w1 : Vec F S128x64 .f32) (b1 : Vec F S64 .f32) (w2 : Vec F S64x1 .f32) (b2 : Vec F S1 .f32)
    (row col : Vec F S1600000 .i32) : Vec F S1600000 .f32 :=
  fin (shapeCast S1600000 (dec2 (dec1 (pair (nodes x w we be c1w c1b c2w c2b row col) row col) w1 b1) w2 b2) shapeCasts_S1600000x1_S1600000) row col

/-! ## The dense pieces as the kernel's regions receive their operands

A region's bias operand arrives as a one-row matrix and the final region's mask as a column; these are the dense
functions over exactly those operands. Each is the function above with the bias' leading unit axis already added. -/

/-- x · W_enc + (one-row bias broadcast over the rows). -/
def linb0 (x : Vec F S100000x1 .f32) (we : Vec F S1x64 .f32) (b2 : Vec F S1x64 .f32) : Vec F S100000x64 .f32 :=
  addf (Host.dotGeneral dot_S100000x1_S1x64_S100000x64_1_0_0_1_n_n none x we) (broadcastInDim S100000x64 ![0, 1] bcast_S1x64_S100000x64_0_1 b2)

/-- h · W + (one-row bias broadcast over the rows). -/
def linb (h : Vec F S100000x64 .f32) (W : Vec F S64x64 .f32) (b2 : Vec F S1x64 .f32) : Vec F S100000x64 .f32 :=
  addf (lin h W) (broadcastInDim S100000x64 ![0, 1] bcast_S1x64_S100000x64_0_1 b2)

/-- max(s / cnt + (one-row bias), 0). -/
def actb (s : Vec F S100000x64 .f32) (cn : Vec F S100000x1 .f32) (b2 : Vec F S1x64 .f32) : Vec F S100000x64 .f32 :=
  maximumf (addf (Host.divf s (broadcastInDim S100000x64 ![0, 1] bcast_S100000x1_S100000x64_0_1 cn)) (broadcastInDim S100000x64 ![0, 1] bcast_S1x64_S100000x64_0_1 b2)) (broadcastInDim S100000x64 ![] bcast_S_S100000x64 (constant S_ .f32 0x00000000#32))

/-- max(e · W₁ + (one-row bias), 0). -/
def dec1b (e : Vec F S1600000x128 .f32) (w1 : Vec F S128x64 .f32) (b2 : Vec F S1x64 .f32) : Vec F S1600000x64 .f32 :=
  maximumf (addf (Host.dotGeneral dot_S1600000x128_S128x64_S1600000x64_1_0_0_1_n_n none e w1) (broadcastInDim S1600000x64 ![0, 1] bcast_S1x64_S1600000x64_0_1 b2)) (broadcastInDim S1600000x64 ![] bcast_S_S1600000x64 (constant S_ .f32 0x00000000#32))

/-- e₁ · W₂ + (1×1 bias broadcast over the rows). -/
def dec2b (e1 : Vec F S1600000x64 .f32) (w2 : Vec F S64x1 .f32) (b11 : Vec F S1x1 .f32) : Vec F S1600000x1 .f32 :=
  addf (Host.dotGeneral dot_S1600000x64_S64x1_S1600000x1_1_0_0_1_n_n none e1 w2) (broadcastInDim S1600000x1 ![0, 1] bcast_S1x1_S1600000x1_0_1 b11)

theorem enc_eq (x : Vec F S100000x1 .f32) (we : Vec F S1x64 .f32) (be : Vec F S64 .f32) :
    enc x we be = linb0 x we (broadcastInDim S1x64 ![1] bcast_S64_S1x64_1 be) := rfl
theorem act_eq (s : Vec F S100000x64 .f32) (cn : Vec F S100000x1 .f32) (b : Vec F S64 .f32) :
    act s cn b = actb s cn (broadcastInDim S1x64 ![1] bcast_S64_S1x64_1 b) := rfl
theorem dec1_eq (e : Vec F S1600000x128 .f32) (w1 : Vec F S128x64 .f32) (b1 : Vec F S64 .f32) :
    dec1 e w1 b1 = dec1b e w1 (broadcastInDim S1x64 ![1] bcast_S64_S1x64_1 b1) := rfl
theorem dec2_eq (e1 : Vec F S1600000x64 .f32) (w2 : Vec F S64x1 .f32) (b2 : Vec F S1 .f32) :
    dec2 e1 w2 b2 = dec2b e1 w2 (broadcastInDim S1x1 ![1] bcast_S1_S1x1_1 b2) := rfl

/-- The last region's column: the softplus of y where the mask column exceeds 1/2, y elsewhere — the source's own
    spelling of softplus, max(y, 0) + log1p(exp(0 - |y - 0|)) behind its guard on y - 0. -/
def fincol (y mk : Vec F S1600000x1 .f32) : Vec F S1600000x1 .f32 :=
  select (cmpf .ogt mk (broadcast S1600000x1 (Scalar.ofBits .f32 0x3F000000#32)))
    (select (cmpf .one (subf y (broadcast S1600000x1 (Scalar.ofBits .f32 0x00000000#32))) (subf y (broadcast S1600000x1 (Scalar.ofBits .f32 0x00000000#32))))
      (addf y (broadcast S1600000x1 (Scalar.ofBits .f32 0x00000000#32)))
      (addf (maximumf y (broadcast S1600000x1 (Scalar.ofBits .f32 0x00000000#32)))
        (log1p (exp (subf (broadcast S1600000x1 (Scalar.ofBits .f32 0x00000000#32)) (absf (subf y (broadcast S1600000x1 (Scalar.ofBits .f32 0x00000000#32)))))))))
    y

/-! ## The pieces between the reference's outlined calls

The reference applies each rectifier, and the final selection, as a separate outlined function; these name what goes
into them. -/

/-- A layer before its rectifier: s / cnt + b. -/
def preact (s : Vec F S100000x64 .f32) (cn : Vec F S100000x1 .f32) (b : Vec F S64 .f32) : Vec F S100000x64 .f32 :=
  addf (Host.divf s (broadcastInDim S100000x64 ![0, 1] bcast_S100000x1_S100000x64_0_1 cn)) (broadcastInDim S100000x64 ![0, 1] bcast_S1x64_S100000x64_0_1 (broadcastInDim S1x64 ![1] bcast_S64_S1x64_1 b))

theorem act_eq_preact (s : Vec F S100000x64 .f32) (cn : Vec F S100000x1 .f32) (b : Vec F S64 .f32) :
    act s cn b = maximumf (preact s cn b) (broadcastInDim S100000x64 ![] bcast_S_S100000x64 (constant S_ .f32 0x00000000#32)) := rfl

/-- The decoder's hidden layer before its rectifier: e · W₁ + b₁. -/
def dec1pre (e : Vec F S1600000x128 .f32) (w1 : Vec F S128x64 .f32) (b1 : Vec F S64 .f32) : Vec F S1600000x64 .f32 :=
  addf (Host.dotGeneral dot_S1600000x128_S128x64_S1600000x64_1_0_0_1_n_n none e w1) (broadcastInDim S1600000x64 ![0, 1] bcast_S1x64_S1600000x64_0_1 (broadcastInDim S1x64 ![1] bcast_S64_S1x64_1 b1))

theorem dec1_eq_pre (e : Vec F S1600000x128 .f32) (w1 : Vec F S128x64 .f32) (b1 : Vec F S64 .f32) :
    dec1 e w1 b1 = maximumf (dec1pre e w1 b1) (broadcastInDim S1600000x64 ![] bcast_S_S1600000x64 (constant S_ .f32 0x00000000#32)) := rfl

/-- The final selection with the diagonal mask as an argument. -/
def finm (y : Vec F S1600000 .f32) (mk : Vec F S1600000 .i1) : Vec F S1600000 .f32 :=
  select mk (select (cmpf .une (subf y (broadcastInDim S1600000 ![] bcast_S_S1600000 (constant S_ .f32 0x00000000#32))) (subf y (broadcastInDim S1600000 ![] bcast_S_S1600000 (constant S_ .f32 0x00000000#32)))) (addf y (broadcastInDim S1600000 ![] bcast_S_S1600000 (constant S_ .f32 0x00000000#32))) (addf (maximumf y (broadcastInDim S1600000 ![] bcast_S_S1600000 (constant S_ .f32 0x00000000#32))) (Host.log1p (Host.exp (Host.negf (Host.absf (subf y (broadcastInDim S1600000 ![] bcast_S_S1600000 (constant S_ .f32 0x00000000#32))))))))) y

theorem fin_eq_finm (y : Vec F S1600000 .f32) (row col : Vec F S1600000 .i32) : fin y row col = finm y (cmpi .eq row col) := rfl

/-- The edge normalisation from a given array of inverse square roots: dv[row] · w · dv[col]. -/
def normOf (dv : Vec F S100000 .f32) (w : Vec F S1600000 .f32) (row col : Vec F S1600000 .i32) : Vec F S1600000 .f32 :=
  mulf (mulf (Host.gather gather_S100000_S1600000x1_S1600000_n_0_n_n_0_1_1 dv (wrapIdx row)) w) (Host.gather gather_S100000_S1600000x1_S1600000_n_0_n_n_0_1_1 dv (wrapIdx col))

theorem norm_eq (w : Vec F S1600000 .f32) (row col : Vec F S1600000 .i32) : norm w row col = normOf (dinv (deg w col)) w row col := rfl

end Cert.Spec

end
-- ==== Proof.ChainTac.lean ====
/-
  Reading the kernel program's buffers through its host stretches.
  A host stretch is a list of operations applied to a valuation of the buffers; a buffer that no operation of the
  stretch writes keeps its contents. The tactic below proves that for one buffer and one named stretch: it lists the
  buffers the stretch's operations write and checks the given one is none of them.
-/
import proofs.«122723_j46918222742294_1_alg».proof.Proof.Gen.KernelIdeal.Frame

namespace Cert.KernelIdeal.Chain

open Idealize.ShloMosaic

/-- The named stretch does not write the buffer of the goal `StableHlo.after ops W b = W b`. -/
macro "host_keeps " ops:ident : tactic => `(tactic| (
  refine StableHlo.after_of_forall_not_mem _ _ (List.forall_iff_forall_mem.mp ?_)
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

end Cert.KernelIdeal.Chain
-- ==== Proof.RefFrame.lean ====
/-
  No operation of the reference program writes an argument buffer: after the whole list each argument holds what it was
  launched with.
-/
import proofs.«122723_j46918222742294_1_alg».proof.Proof.RefOps
import proofs.«122723_j46918222742294_1_alg».proof.Proof.ChainTac
import Idealize.ShloMosaic.Lib.StableHlo.Run

set_option maxRecDepth 16384

noncomputable section

namespace Cert.ReferenceIdeal.RefFrame

open Idealize.ShloMosaic Idealize.ShloMosaic.TcCoe Idealize.ShloMosaic.StableHlo Idealize.SL.Sem Cert.ReferenceIdeal Cert.ReferenceIdeal.Gen Cert.ReferenceIdeal.RunP Cert.KernelIdeal.Chain

variable {F : FTy → Type} [FloatOps F] (W : Valuation τ sig (Elt F))

set_option maxHeartbeats 16000000 in
theorem arg0 : StableHlo.after ops W (Proc.devRef .tc main_arg0) = W (Proc.devRef .tc main_arg0) := by host_keeps ops
set_option maxHeartbeats 16000000 in
theorem arg1 : StableHlo.after ops W (Proc.devRef .tc main_arg1) = W (Proc.devRef .tc main_arg1) := by host_keeps ops
set_option maxHeartbeats 16000000 in
theorem arg2 : StableHlo.after ops W (Proc.devRef .tc main_arg2) = W (Proc.devRef .tc main_arg2) := by host_keeps ops
set_option maxHeartbeats 16000000 in
theorem arg3 : StableHlo.after ops W (Proc.devRef .tc main_arg3) = W (Proc.devRef .tc main_arg3) := by host_keeps ops
set_option maxHeartbeats 16000000 in
theorem arg4 : StableHlo.after ops W (Proc.devRef .tc main_arg4) = W (Proc.devRef .tc main_arg4) := by host_keeps ops
set_option maxHeartbeats 16000000 in
theorem arg5 : StableHlo.after ops W (Proc.devRef .tc main_arg5) = W (Proc.devRef .tc main_arg5) := by host_keeps ops
set_option maxHeartbeats 16000000 in
theorem arg6 : StableHlo.after ops W (Proc.devRef .tc main_arg6) = W (Proc.devRef .tc main_arg6) := by host_keeps ops
set_option maxHeartbeats 16000000 in
theorem arg7 : StableHlo.after ops W (Proc.devRef .tc main_arg7) = W (Proc.devRef .tc main_arg7) := by host_keeps ops
set_option maxHeartbeats 16000000 in
theorem arg8 : StableHlo.after ops W (Proc.devRef .tc main_arg8) = W (Proc.devRef .tc main_arg8) := by host_keeps ops
set_option maxHeartbeats 16000000 in
theorem arg9 : StableHlo.after ops W (Proc.devRef .tc main_arg9) = W (Proc.devRef .tc main_arg9) := by host_keeps ops
set_option maxHeartbeats 16000000 in
theorem arg10 : StableHlo.after ops W (Proc.devRef .tc main_arg10) = W (Proc.devRef .tc main_arg10) := by host_keeps ops
set_option maxHeartbeats 16000000 in
theorem arg11 : StableHlo.after ops W (Proc.devRef .tc main_arg11) = W (Proc.devRef .tc main_arg11) := by host_keeps ops
set_option maxHeartbeats 16000000 in
theorem arg12 : StableHlo.after ops W (Proc.devRef .tc main_arg12) = W (Proc.devRef .tc main_arg12) := by host_keeps ops
set_option maxHeartbeats 16000000 in
theorem arg13 : StableHlo.after ops W (Proc.devRef .tc main_arg13) = W (Proc.devRef .tc main_arg13) := by host_keeps ops

end Cert.ReferenceIdeal.RefFrame

end
-- ==== Proof.RefPre.lean ====
/-
  The opening of the reference program, read off its operation list: the edge normalisation (the degree by a
  scatter-add, its inverse square root where positive, gathered at both endpoints), the clamped edge counts, and the node
  encoder x · W_enc + b_enc.
-/
import proofs.«122723_j46918222742294_1_alg».proof.Proof.RefOps
import proofs.«122723_j46918222742294_1_alg».proof.Proof.Spec
import proofs.«122723_j46918222742294_1_alg».proof.Proof.ChainTac
import Idealize.ShloMosaic.Lib.StableHlo.Run
import Idealize.ShloMosaic.PureOps.Ideal.Laws

set_option maxRecDepth 16384

noncomputable section

namespace Cert.ReferenceIdeal.RefPre

open Idealize.ShloMosaic Idealize.ShloMosaic.TcCoe Idealize.ShloMosaic.StableHlo Idealize.SL.Sem Cert.ReferenceIdeal Cert.ReferenceIdeal.Gen Cert.ReferenceIdeal.RunP Cert.KernelIdeal.Chain

variable (W : Valuation τ sig (Elt Ideal))

/-! ### The first chunk: the weighted degree, its positivity mask, its clamped inverse square root -/

theorem c0_v4 : (StableHlo.after opsP0 W (Proc.devRef .tc main_v4) : Vec Ideal S100000 .i1)
    = cmpf .ogt (Cert.Spec.deg (W (Proc.devRef .tc main_arg1)) (W (Proc.devRef .tc main_arg13))) (broadcastInDim S100000 ![] bcast_S_S100000 (constant (F := Ideal) S_ .f32 0x00000000#32)) := by
  dsimp only [opsP0]
  after_results <;> rfl

theorem c0_v7 : (StableHlo.after opsP0 W (Proc.devRef .tc main_v7) : Vec Ideal S100000 .f32)
    = Host.rsqrt (maximumf (Cert.Spec.deg (W (Proc.devRef .tc main_arg1)) (W (Proc.devRef .tc main_arg13))) (broadcastInDim S100000 ![] bcast_S_S100000 (constant (F := Ideal) S_ .f32 0x0DA24260#32))) := by
  dsimp only [opsP0]
  after_results <;> rfl

theorem c0_cst : (StableHlo.after opsP0 W (Proc.devRef .tc main_cst_2) : Vec Ideal S_ .f32) = constant (F := Ideal) S_ .f32 0x00000000#32 := by
  dsimp only [opsP0]
  after_results <;> rfl

/-! ### The second chunk: the inverse square root where the degree is positive, 0 elsewhere -/

theorem c1_v8 : (StableHlo.after opsP1 W (Proc.devRef .tc main_v8) : Vec Ideal S100000 .f32)
    = select (W (Proc.devRef .tc main_v4)) (W (Proc.devRef .tc main_v7)) (broadcastInDim S100000 ![] bcast_S_S100000 (id (W (Proc.devRef .tc main_cst_2)))) := by
  dsimp only [opsP1]
  after_results_simp <;> rfl

/-! ### The third chunk: the normalisation, the edge counts, the encoder -/

set_option maxHeartbeats 8000000 in
theorem c2_v24 : (StableHlo.after opsP2 W (Proc.devRef .tc main_v24) : Vec Ideal S1600000 .f32)
    = Cert.Spec.normOf (F := Ideal) (W (Proc.devRef .tc main_v8)) (W (Proc.devRef .tc main_arg1)) (W (Proc.devRef .tc main_arg12)) (W (Proc.devRef .tc main_arg13)) := by
  dsimp only [opsP2]
  after_results_simp <;> rfl

set_option maxHeartbeats 8000000 in
theorem c2_v31 : (StableHlo.after opsP2 W (Proc.devRef .tc main_v31) : Vec Ideal S100000x1 .f32) = Cert.Spec.cnt (W (Proc.devRef .tc main_arg13)) := by
  dsimp only [opsP2]
  after_results_simp <;> rfl

set_option maxHeartbeats 8000000 in
theorem c2_v35 : (StableHlo.after opsP2 W (Proc.devRef .tc main_v35) : Vec Ideal S100000x64 .f32)
    = Cert.Spec.enc (W (Proc.devRef .tc main_arg0)) (W (Proc.devRef .tc main_arg2)) (W (Proc.devRef .tc main_arg3)) := by
  dsimp only [opsP2]
  after_results_simp <;> rfl

/-! ### What the first two chunks leave alone -/

theorem k01 (b : Ref sig .tc) (hb : b ∈ ([main_arg0, main_arg1, main_arg2, main_arg3, main_arg12, main_arg13] : List (Ref sig .tc))) :
    StableHlo.after opsP1 (StableHlo.after opsP0 W) (Proc.devRef .tc b) = W (Proc.devRef .tc b) := by
  simp only [List.mem_cons, List.mem_nil_iff, or_false] at hb
  rcases hb with rfl | rfl | rfl | rfl | rfl | rfl <;>
    exact (by host_keeps opsP1 : StableHlo.after opsP1 _ _ = _).trans (by host_keeps opsP0)

/-! ### The three chunks together -/

/-- The edge normalisation dinv[row] · w · dinv[col]. -/
theorem v24 : (StableHlo.after opsP2 (StableHlo.after opsP1 (StableHlo.after opsP0 W)) (Proc.devRef .tc main_v24) : Vec Ideal S1600000 .f32)
    = Cert.Spec.norm (W (Proc.devRef .tc main_arg1)) (W (Proc.devRef .tc main_arg12)) (W (Proc.devRef .tc main_arg13)) := by
  rw [c2_v24, c1_v8, c0_v4, c0_v7, c0_cst, k01 W main_arg1 (by simp), k01 W main_arg12 (by simp), k01 W main_arg13 (by simp), Cert.Spec.norm_eq]
  rfl

/-- The edge counts per destination, at least one, as a column. -/
theorem v31 : (StableHlo.after opsP2 (StableHlo.after opsP1 (StableHlo.after opsP0 W)) (Proc.devRef .tc main_v31) : Vec Ideal S100000x1 .f32) = Cert.Spec.cnt (W (Proc.devRef .tc main_arg13)) := by
  rw [c2_v31, k01 W main_arg13 (by simp)]

/-- The encoder's output x · W_enc + b_enc. -/
theorem v35 : (StableHlo.after opsP2 (StableHlo.after opsP1 (StableHlo.after opsP0 W)) (Proc.devRef .tc main_v35) : Vec Ideal S100000x64 .f32)
    = Cert.Spec.enc (W (Proc.devRef .tc main_arg0)) (W (Proc.devRef .tc main_arg2)) (W (Proc.devRef .tc main_arg3)) := by
  rw [c2_v35, k01 W main_arg0 (by simp), k01 W main_arg2 (by simp), k01 W main_arg3 (by simp)]

set_option maxHeartbeats 8000000 in
/-- The three chunks write no argument read later. -/
theorem keep : ∀ b ∈ ([main_arg4, main_arg5, main_arg6, main_arg7, main_arg8, main_arg9, main_arg10, main_arg11, main_arg12, main_arg13] : List (Ref sig .tc)), StableHlo.after opsP2 (StableHlo.after opsP1 (StableHlo.after opsP0 W)) (Proc.devRef .tc b) = W (Proc.devRef .tc b) := by
  intro b hb
  simp only [List.mem_cons, List.mem_nil_iff, or_false] at hb
  rcases hb with rfl | rfl | rfl | rfl | rfl | rfl | rfl | rfl | rfl | rfl <;>
    exact ((by host_keeps opsP2 : StableHlo.after opsP2 _ _ = _).trans (by host_keeps opsP1 : StableHlo.after opsP1 _ _ = _)).trans (by host_keeps opsP0)

end Cert.ReferenceIdeal.RefPre

end
-- ==== Proof.RefLayer1.lean ====
/- Layer 1 of the reference program, read off its operation list. -/
import proofs.«122723_j46918222742294_1_alg».proof.Proof.RefOps
import proofs.«122723_j46918222742294_1_alg».proof.Proof.Spec
import proofs.«122723_j46918222742294_1_alg».proof.Proof.ChainTac
import Idealize.ShloMosaic.Lib.StableHlo.Run
import Idealize.ShloMosaic.PureOps.Ideal.Laws

set_option maxRecDepth 16384

noncomputable section

namespace Cert.ReferenceIdeal.RefLayer1

open Idealize.ShloMosaic Idealize.ShloMosaic.TcCoe Idealize.ShloMosaic.StableHlo Idealize.SL.Sem Cert.ReferenceIdeal Cert.ReferenceIdeal.Gen Cert.ReferenceIdeal.RunP Cert.KernelIdeal.Chain

/-- The buffers carried unchanged through the layer. -/
abbrev carried : List (Ref sig .tc) := [main_arg4, main_arg5, main_arg6, main_arg7, main_arg8, main_arg9, main_arg10, main_arg11, main_arg12, main_arg13, main_v24, main_v31]

variable (W : Valuation τ sig (Elt Ideal))

set_option maxHeartbeats 8000000 in
/-- The layer before its rectifier. -/
theorem pre : (StableHlo.after opsL1a W (Proc.devRef .tc main_v58) : Vec Ideal S100000x64 .f32)
    = Cert.Spec.preact (Cert.Spec.agg (Cert.Spec.lin (W (Proc.devRef .tc main_v35)) (Cert.Spec.W0 (W (Proc.devRef .tc main_arg4)))) (W (Proc.devRef .tc main_v24)) (W (Proc.devRef .tc main_arg12)) (W (Proc.devRef .tc main_arg13)))
        (W (Proc.devRef .tc main_v31)) (Cert.Spec.B0 (W (Proc.devRef .tc main_arg5))) := by
  dsimp only [opsL1a]
  after_results_simp <;> rfl

/-- The rectifier. -/
theorem relu : (StableHlo.after opsL1r W (Proc.devRef .tc main_v59) : Vec Ideal S100000x64 .f32)
    = maximumf (W (Proc.devRef .tc main_v58)) (broadcastInDim S100000x64 ![] bcast_S_S100000x64 (constant (F := Ideal) S_ .f32 0x00000000#32)) := by
  dsimp only [opsL1r]
  after_results <;> rfl

/-- The layer: the specification's layer function of what it finds. -/
theorem layer : (StableHlo.after opsL1r (StableHlo.after opsL1a W) (Proc.devRef .tc main_v59) : Vec Ideal S100000x64 .f32)
    = Cert.Spec.layer (W (Proc.devRef .tc main_v35)) (Cert.Spec.W0 (W (Proc.devRef .tc main_arg4))) (Cert.Spec.B0 (W (Proc.devRef .tc main_arg5))) (W (Proc.devRef .tc main_v24)) (W (Proc.devRef .tc main_v31)) (W (Proc.devRef .tc main_arg12)) (W (Proc.devRef .tc main_arg13)) := by
  rw [relu, pre]
  exact (Cert.Spec.act_eq_preact _ _ _).symm

set_option maxHeartbeats 4000000 in
/-- The rectifier's three operations write none of the carried buffers, whatever the contents before them. -/
theorem keep_r (V : Valuation τ sig (Elt Ideal)) : ∀ b ∈ carried, StableHlo.after opsL1r V (Proc.devRef .tc b) = V (Proc.devRef .tc b) := by
  intro b hb
  simp only [carried, List.mem_cons, List.mem_nil_iff, or_false] at hb
  rcases hb with rfl | rfl | rfl | rfl | rfl | rfl | rfl | rfl | rfl | rfl | rfl | rfl <;> host_keeps opsL1r

set_option maxHeartbeats 4000000 in
/-- Nor do the operations before the rectifier. -/
theorem keep_a : ∀ b ∈ carried, StableHlo.after opsL1a W (Proc.devRef .tc b) = W (Proc.devRef .tc b) := by
  intro b hb
  simp only [carried, List.mem_cons, List.mem_nil_iff, or_false] at hb
  rcases hb with rfl | rfl | rfl | rfl | rfl | rfl | rfl | rfl | rfl | rfl | rfl | rfl <;> host_keeps opsL1a

/-- The layer's operations write none of the carried buffers. -/
theorem keep : ∀ b ∈ carried, StableHlo.after opsL1r (StableHlo.after opsL1a W) (Proc.devRef .tc b) = W (Proc.devRef .tc b) := by
  intro b hb
  exact (keep_r (StableHlo.after opsL1a W) b hb).trans (keep_a W b hb)

end Cert.ReferenceIdeal.RefLayer1

end
-- ==== Proof.RefLayer2.lean ====
/- Layer 2 of the reference program, read off its operation list. -/
import proofs.«122723_j46918222742294_1_alg».proof.Proof.RefOps
import proofs.«122723_j46918222742294_1_alg».proof.Proof.Spec
import proofs.«122723_j46918222742294_1_alg».proof.Proof.ChainTac
import Idealize.ShloMosaic.Lib.StableHlo.Run
import Idealize.ShloMosaic.PureOps.Ideal.Laws

set_option maxRecDepth 16384

noncomputable section

namespace Cert.ReferenceIdeal.RefLayer2

open Idealize.ShloMosaic Idealize.ShloMosaic.TcCoe Idealize.ShloMosaic.StableHlo Idealize.SL.Sem Cert.ReferenceIdeal Cert.ReferenceIdeal.Gen Cert.ReferenceIdeal.RunP Cert.KernelIdeal.Chain

/-- The buffers carried unchanged through the layer. -/
abbrev carried : List (Ref sig .tc) := [main_arg4, main_arg5, main_arg6, main_arg7, main_arg8, main_arg9, main_arg10, main_arg11, main_arg12, main_arg13, main_v24, main_v31]

variable (W : Valuation τ sig (Elt Ideal))

set_option maxHeartbeats 8000000 in
/-- The layer before its rectifier. -/
theorem pre : (StableHlo.after opsL2a W (Proc.devRef .tc main_v82) : Vec Ideal S100000x64 .f32)
    = Cert.Spec.preact (Cert.Spec.agg (Cert.Spec.lin (W (Proc.devRef .tc main_v59)) (Cert.Spec.W0 (W (Proc.devRef .tc main_arg6)))) (W (Proc.devRef .tc main_v24)) (W (Proc.devRef .tc main_arg12)) (W (Proc.devRef .tc main_arg13)))
        (W (Proc.devRef .tc main_v31)) (Cert.Spec.B0 (W (Proc.devRef .tc main_arg7))) := by
  dsimp only [opsL2a]
  after_results_simp <;> rfl

/-- The rectifier. -/
theorem relu : (StableHlo.after opsL2r W (Proc.devRef .tc main_v83) : Vec Ideal S100000x64 .f32)
    = maximumf (W (Proc.devRef .tc main_v82)) (broadcastInDim S100000x64 ![] bcast_S_S100000x64 (constant (F := Ideal) S_ .f32 0x00000000#32)) := by
  dsimp only [opsL2r]
  after_results <;> rfl

/-- The layer: the specification's layer function of what it finds. -/
theorem layer : (StableHlo.after opsL2r (StableHlo.after opsL2a W) (Proc.devRef .tc main_v83) : Vec Ideal S100000x64 .f32)
    = Cert.Spec.layer (W (Proc.devRef .tc main_v59)) (Cert.Spec.W0 (W (Proc.devRef .tc main_arg6))) (Cert.Spec.B0 (W (Proc.devRef .tc main_arg7))) (W (Proc.devRef .tc main_v24)) (W (Proc.devRef .tc main_v31)) (W (Proc.devRef .tc main_arg12)) (W (Proc.devRef .tc main_arg13)) := by
  rw [relu, pre]
  exact (Cert.Spec.act_eq_preact _ _ _).symm

set_option maxHeartbeats 4000000 in
/-- The rectifier's three operations write none of the carried buffers, whatever the contents before them. -/
theorem keep_r (V : Valuation τ sig (Elt Ideal)) : ∀ b ∈ carried, StableHlo.after opsL2r V (Proc.devRef .tc b) = V (Proc.devRef .tc b) := by
  intro b hb
  simp only [carried, List.mem_cons, List.mem_nil_iff, or_false] at hb
  rcases hb with rfl | rfl | rfl | rfl | rfl | rfl | rfl | rfl | rfl | rfl | rfl | rfl <;> host_keeps opsL2r

set_option maxHeartbeats 4000000 in
/-- Nor do the operations before the rectifier. -/
theorem keep_a : ∀ b ∈ carried, StableHlo.after opsL2a W (Proc.devRef .tc b) = W (Proc.devRef .tc b) := by
  intro b hb
  simp only [carried, List.mem_cons, List.mem_nil_iff, or_false] at hb
  rcases hb with rfl | rfl | rfl | rfl | rfl | rfl | rfl | rfl | rfl | rfl | rfl | rfl <;> host_keeps opsL2a

/-- The layer's operations write none of the carried buffers. -/
theorem keep : ∀ b ∈ carried, StableHlo.after opsL2r (StableHlo.after opsL2a W) (Proc.devRef .tc b) = W (Proc.devRef .tc b) := by
  intro b hb
  exact (keep_r (StableHlo.after opsL2a W) b hb).trans (keep_a W b hb)

end Cert.ReferenceIdeal.RefLayer2

end
-- ==== Proof.RefLayer3.lean ====
/- Layer 3 of the reference program, read off its operation list. -/
import proofs.«122723_j46918222742294_1_alg».proof.Proof.RefOps
import proofs.«122723_j46918222742294_1_alg».proof.Proof.Spec
import proofs.«122723_j46918222742294_1_alg».proof.Proof.ChainTac
import Idealize.ShloMosaic.Lib.StableHlo.Run
import Idealize.ShloMosaic.PureOps.Ideal.Laws

set_option maxRecDepth 16384

noncomputable section

namespace Cert.ReferenceIdeal.RefLayer3

open Idealize.ShloMosaic Idealize.ShloMosaic.TcCoe Idealize.ShloMosaic.StableHlo Idealize.SL.Sem Cert.ReferenceIdeal Cert.ReferenceIdeal.Gen Cert.ReferenceIdeal.RunP Cert.KernelIdeal.Chain

/-- The buffers carried unchanged through the layer. -/
abbrev carried : List (Ref sig .tc) := [main_arg4, main_arg5, main_arg6, main_arg7, main_arg8, main_arg9, main_arg10, main_arg11, main_arg12, main_arg13, main_v24, main_v31]

variable (W : Valuation τ sig (Elt Ideal))

set_option maxHeartbeats 8000000 in
/-- The layer before its rectifier. -/
theorem pre : (StableHlo.after opsL3a W (Proc.devRef .tc main_v106) : Vec Ideal S100000x64 .f32)
    = Cert.Spec.preact (Cert.Spec.agg (Cert.Spec.lin (W (Proc.devRef .tc main_v83)) (Cert.Spec.W1 (W (Proc.devRef .tc main_arg4)))) (W (Proc.devRef .tc main_v24)) (W (Proc.devRef .tc main_arg12)) (W (Proc.devRef .tc main_arg13)))
        (W (Proc.devRef .tc main_v31)) (Cert.Spec.B1 (W (Proc.devRef .tc main_arg5))) := by
  dsimp only [opsL3a]
  after_results_simp <;> rfl

/-- The rectifier. -/
theorem relu : (StableHlo.after opsL3r W (Proc.devRef .tc main_v107) : Vec Ideal S100000x64 .f32)
    = maximumf (W (Proc.devRef .tc main_v106)) (broadcastInDim S100000x64 ![] bcast_S_S100000x64 (constant (F := Ideal) S_ .f32 0x00000000#32)) := by
  dsimp only [opsL3r]
  after_results <;> rfl

/-- The layer: the specification's layer function of what it finds. -/
theorem layer : (StableHlo.after opsL3r (StableHlo.after opsL3a W) (Proc.devRef .tc main_v107) : Vec Ideal S100000x64 .f32)
    = Cert.Spec.layer (W (Proc.devRef .tc main_v83)) (Cert.Spec.W1 (W (Proc.devRef .tc main_arg4))) (Cert.Spec.B1 (W (Proc.devRef .tc main_arg5))) (W (Proc.devRef .tc main_v24)) (W (Proc.devRef .tc main_v31)) (W (Proc.devRef .tc main_arg12)) (W (Proc.devRef .tc main_arg13)) := by
  rw [relu, pre]
  exact (Cert.Spec.act_eq_preact _ _ _).symm

set_option maxHeartbeats 4000000 in
/-- The rectifier's three operations write none of the carried buffers, whatever the contents before them. -/
theorem keep_r (V : Valuation τ sig (Elt Ideal)) : ∀ b ∈ carried, StableHlo.after opsL3r V (Proc.devRef .tc b) = V (Proc.devRef .tc b) := by
  intro b hb
  simp only [carried, List.mem_cons, List.mem_nil_iff, or_false] at hb
  rcases hb with rfl | rfl | rfl | rfl | rfl | rfl | rfl | rfl | rfl | rfl | rfl | rfl <;> host_keeps opsL3r

set_option maxHeartbeats 4000000 in
/-- Nor do the operations before the rectifier. -/
theorem keep_a : ∀ b ∈ carried, StableHlo.after opsL3a W (Proc.devRef .tc b) = W (Proc.devRef .tc b) := by
  intro b hb
  simp only [carried, List.mem_cons, List.mem_nil_iff, or_false] at hb
  rcases hb with rfl | rfl | rfl | rfl | rfl | rfl | rfl | rfl | rfl | rfl | rfl | rfl <;> host_keeps opsL3a

/-- The layer's operations write none of the carried buffers. -/
theorem keep : ∀ b ∈ carried, StableHlo.after opsL3r (StableHlo.after opsL3a W) (Proc.devRef .tc b) = W (Proc.devRef .tc b) := by
  intro b hb
  exact (keep_r (StableHlo.after opsL3a W) b hb).trans (keep_a W b hb)

end Cert.ReferenceIdeal.RefLayer3

end
-- ==== Proof.RefLayer4.lean ====
/- Layer 4 of the reference program, read off its operation list. -/
import proofs.«122723_j46918222742294_1_alg».proof.Proof.RefOps
import proofs.«122723_j46918222742294_1_alg».proof.Proof.Spec
import proofs.«122723_j46918222742294_1_alg».proof.Proof.ChainTac
import Idealize.ShloMosaic.Lib.StableHlo.Run
import Idealize.ShloMosaic.PureOps.Ideal.Laws

set_option maxRecDepth 16384

noncomputable section

namespace Cert.ReferenceIdeal.RefLayer4

open Idealize.ShloMosaic Idealize.ShloMosaic.TcCoe Idealize.ShloMosaic.StableHlo Idealize.SL.Sem Cert.ReferenceIdeal Cert.ReferenceIdeal.Gen Cert.ReferenceIdeal.RunP Cert.KernelIdeal.Chain

/-- The buffers carried unchanged through the layer. -/
abbrev carried : List (Ref sig .tc) := [main_arg4, main_arg5, main_arg6, main_arg7, main_arg8, main_arg9, main_arg10, main_arg11, main_arg12, main_arg13, main_v24, main_v31]

variable (W : Valuation τ sig (Elt Ideal))

set_option maxHeartbeats 8000000 in
/-- The layer before its rectifier. -/
theorem pre : (StableHlo.after opsL4a W (Proc.devRef .tc main_v130) : Vec Ideal S100000x64 .f32)
    = Cert.Spec.preact (Cert.Spec.agg (Cert.Spec.lin (W (Proc.devRef .tc main_v107)) (Cert.Spec.W1 (W (Proc.devRef .tc main_arg6)))) (W (Proc.devRef .tc main_v24)) (W (Proc.devRef .tc main_arg12)) (W (Proc.devRef .tc main_arg13)))
        (W (Proc.devRef .tc main_v31)) (Cert.Spec.B1 (W (Proc.devRef .tc main_arg7))) := by
  dsimp only [opsL4a]
  after_results_simp <;> rfl

/-- The rectifier. -/
theorem relu : (StableHlo.after opsL4r W (Proc.devRef .tc main_v131) : Vec Ideal S100000x64 .f32)
    = maximumf (W (Proc.devRef .tc main_v130)) (broadcastInDim S100000x64 ![] bcast_S_S100000x64 (constant (F := Ideal) S_ .f32 0x00000000#32)) := by
  dsimp only [opsL4r]
  after_results <;> rfl

/-- The layer: the specification's layer function of what it finds. -/
theorem layer : (StableHlo.after opsL4r (StableHlo.after opsL4a W) (Proc.devRef .tc main_v131) : Vec Ideal S100000x64 .f32)
    = Cert.Spec.layer (W (Proc.devRef .tc main_v107)) (Cert.Spec.W1 (W (Proc.devRef .tc main_arg6))) (Cert.Spec.B1 (W (Proc.devRef .tc main_arg7))) (W (Proc.devRef .tc main_v24)) (W (Proc.devRef .tc main_v31)) (W (Proc.devRef .tc main_arg12)) (W (Proc.devRef .tc main_arg13)) := by
  rw [relu, pre]
  exact (Cert.Spec.act_eq_preact _ _ _).symm

set_option maxHeartbeats 4000000 in
/-- The rectifier's three operations write none of the carried buffers, whatever the contents before them. -/
theorem keep_r (V : Valuation τ sig (Elt Ideal)) : ∀ b ∈ carried, StableHlo.after opsL4r V (Proc.devRef .tc b) = V (Proc.devRef .tc b) := by
  intro b hb
  simp only [carried, List.mem_cons, List.mem_nil_iff, or_false] at hb
  rcases hb with rfl | rfl | rfl | rfl | rfl | rfl | rfl | rfl | rfl | rfl | rfl | rfl <;> host_keeps opsL4r

set_option maxHeartbeats 4000000 in
/-- Nor do the operations before the rectifier. -/
theorem keep_a : ∀ b ∈ carried, StableHlo.after opsL4a W (Proc.devRef .tc b) = W (Proc.devRef .tc b) := by
  intro b hb
  simp only [carried, List.mem_cons, List.mem_nil_iff, or_false] at hb
  rcases hb with rfl | rfl | rfl | rfl | rfl | rfl | rfl | rfl | rfl | rfl | rfl | rfl <;> host_keeps opsL4a

/-- The layer's operations write none of the carried buffers. -/
theorem keep : ∀ b ∈ carried, StableHlo.after opsL4r (StableHlo.after opsL4a W) (Proc.devRef .tc b) = W (Proc.devRef .tc b) := by
  intro b hb
  exact (keep_r (StableHlo.after opsL4a W) b hb).trans (keep_a W b hb)

end Cert.ReferenceIdeal.RefLayer4

end
-- ==== Proof.RefLayer5.lean ====
/- Layer 5 of the reference program, read off its operation list. -/
import proofs.«122723_j46918222742294_1_alg».proof.Proof.RefOps
import proofs.«122723_j46918222742294_1_alg».proof.Proof.Spec
import proofs.«122723_j46918222742294_1_alg».proof.Proof.ChainTac
import Idealize.ShloMosaic.Lib.StableHlo.Run
import Idealize.ShloMosaic.PureOps.Ideal.Laws

set_option maxRecDepth 16384

noncomputable section

namespace Cert.ReferenceIdeal.RefLayer5

open Idealize.ShloMosaic Idealize.ShloMosaic.TcCoe Idealize.ShloMosaic.StableHlo Idealize.SL.Sem Cert.ReferenceIdeal Cert.ReferenceIdeal.Gen Cert.ReferenceIdeal.RunP Cert.KernelIdeal.Chain

/-- The buffers carried unchanged through the layer. -/
abbrev carried : List (Ref sig .tc) := [main_arg4, main_arg5, main_arg6, main_arg7, main_arg8, main_arg9, main_arg10, main_arg11, main_arg12, main_arg13, main_v24, main_v31]

variable (W : Valuation τ sig (Elt Ideal))

set_option maxHeartbeats 8000000 in
/-- The layer before its rectifier. -/
theorem pre : (StableHlo.after opsL5a W (Proc.devRef .tc main_v154) : Vec Ideal S100000x64 .f32)
    = Cert.Spec.preact (Cert.Spec.agg (Cert.Spec.lin (W (Proc.devRef .tc main_v131)) (Cert.Spec.W2 (W (Proc.devRef .tc main_arg4)))) (W (Proc.devRef .tc main_v24)) (W (Proc.devRef .tc main_arg12)) (W (Proc.devRef .tc main_arg13)))
        (W (Proc.devRef .tc main_v31)) (Cert.Spec.B2 (W (Proc.devRef .tc main_arg5))) := by
  dsimp only [opsL5a]
  after_results_simp <;> rfl

/-- The rectifier. -/
theorem relu : (StableHlo.after opsL5r W (Proc.devRef .tc main_v155) : Vec Ideal S100000x64 .f32)
    = maximumf (W (Proc.devRef .tc main_v154)) (broadcastInDim S100000x64 ![] bcast_S_S100000x64 (constant (F := Ideal) S_ .f32 0x00000000#32)) := by
  dsimp only [opsL5r]
  after_results <;> rfl

/-- The layer: the specification's layer function of what it finds. -/
theorem layer : (StableHlo.after opsL5r (StableHlo.after opsL5a W) (Proc.devRef .tc main_v155) : Vec Ideal S100000x64 .f32)
    = Cert.Spec.layer (W (Proc.devRef .tc main_v131)) (Cert.Spec.W2 (W (Proc.devRef .tc main_arg4))) (Cert.Spec.B2 (W (Proc.devRef .tc main_arg5))) (W (Proc.devRef .tc main_v24)) (W (Proc.devRef .tc main_v31)) (W (Proc.devRef .tc main_arg12)) (W (Proc.devRef .tc main_arg13)) := by
  rw [relu, pre]
  exact (Cert.Spec.act_eq_preact _ _ _).symm

set_option maxHeartbeats 4000000 in
/-- The rectifier's three operations write none of the carried buffers, whatever the contents before them. -/
theorem keep_r (V : Valuation τ sig (Elt Ideal)) : ∀ b ∈ carried, StableHlo.after opsL5r V (Proc.devRef .tc b) = V (Proc.devRef .tc b) := by
  intro b hb
  simp only [carried, List.mem_cons, List.mem_nil_iff, or_false] at hb
  rcases hb with rfl | rfl | rfl | rfl | rfl | rfl | rfl | rfl | rfl | rfl | rfl | rfl <;> host_keeps opsL5r

set_option maxHeartbeats 4000000 in
/-- Nor do the operations before the rectifier. -/
theorem keep_a : ∀ b ∈ carried, StableHlo.after opsL5a W (Proc.devRef .tc b) = W (Proc.devRef .tc b) := by
  intro b hb
  simp only [carried, List.mem_cons, List.mem_nil_iff, or_false] at hb
  rcases hb with rfl | rfl | rfl | rfl | rfl | rfl | rfl | rfl | rfl | rfl | rfl | rfl <;> host_keeps opsL5a

/-- The layer's operations write none of the carried buffers. -/
theorem keep : ∀ b ∈ carried, StableHlo.after opsL5r (StableHlo.after opsL5a W) (Proc.devRef .tc b) = W (Proc.devRef .tc b) := by
  intro b hb
  exact (keep_r (StableHlo.after opsL5a W) b hb).trans (keep_a W b hb)

end Cert.ReferenceIdeal.RefLayer5

end
-- ==== Proof.RefLayer6.lean ====
/- Layer 6 of the reference program, read off its operation list. -/
import proofs.«122723_j46918222742294_1_alg».proof.Proof.RefOps
import proofs.«122723_j46918222742294_1_alg».proof.Proof.Spec
import proofs.«122723_j46918222742294_1_alg».proof.Proof.ChainTac
import Idealize.ShloMosaic.Lib.StableHlo.Run
import Idealize.ShloMosaic.PureOps.Ideal.Laws

set_option maxRecDepth 16384

noncomputable section

namespace Cert.ReferenceIdeal.RefLayer6

open Idealize.ShloMosaic Idealize.ShloMosaic.TcCoe Idealize.ShloMosaic.StableHlo Idealize.SL.Sem Cert.ReferenceIdeal Cert.ReferenceIdeal.Gen Cert.ReferenceIdeal.RunP Cert.KernelIdeal.Chain

/-- The buffers carried unchanged through the layer. -/
abbrev carried : List (Ref sig .tc) := [main_arg4, main_arg5, main_arg6, main_arg7, main_arg8, main_arg9, main_arg10, main_arg11, main_arg12, main_arg13, main_v24, main_v31]

variable (W : Valuation τ sig (Elt Ideal))

set_option maxHeartbeats 8000000 in
/-- The layer before its rectifier. -/
theorem pre : (StableHlo.after opsL6a W (Proc.devRef .tc main_v178) : Vec Ideal S100000x64 .f32)
    = Cert.Spec.preact (Cert.Spec.agg (Cert.Spec.lin (W (Proc.devRef .tc main_v155)) (Cert.Spec.W2 (W (Proc.devRef .tc main_arg6)))) (W (Proc.devRef .tc main_v24)) (W (Proc.devRef .tc main_arg12)) (W (Proc.devRef .tc main_arg13)))
        (W (Proc.devRef .tc main_v31)) (Cert.Spec.B2 (W (Proc.devRef .tc main_arg7))) := by
  dsimp only [opsL6a]
  after_results_simp <;> rfl

/-- The rectifier. -/
theorem relu : (StableHlo.after opsL6r W (Proc.devRef .tc main_v179) : Vec Ideal S100000x64 .f32)
    = maximumf (W (Proc.devRef .tc main_v178)) (broadcastInDim S100000x64 ![] bcast_S_S100000x64 (constant (F := Ideal) S_ .f32 0x00000000#32)) := by
  dsimp only [opsL6r]
  after_results <;> rfl

/-- The layer: the specification's layer function of what it finds. -/
theorem layer : (StableHlo.after opsL6r (StableHlo.after opsL6a W) (Proc.devRef .tc main_v179) : Vec Ideal S100000x64 .f32)
    = Cert.Spec.layer (W (Proc.devRef .tc main_v155)) (Cert.Spec.W2 (W (Proc.devRef .tc main_arg6))) (Cert.Spec.B2 (W (Proc.devRef .tc main_arg7))) (W (Proc.devRef .tc main_v24)) (W (Proc.devRef .tc main_v31)) (W (Proc.devRef .tc main_arg12)) (W (Proc.devRef .tc main_arg13)) := by
  rw [relu, pre]
  exact (Cert.Spec.act_eq_preact _ _ _).symm

set_option maxHeartbeats 4000000 in
/-- The rectifier's three operations write none of the carried buffers, whatever the contents before them. -/
theorem keep_r (V : Valuation τ sig (Elt Ideal)) : ∀ b ∈ carried, StableHlo.after opsL6r V (Proc.devRef .tc b) = V (Proc.devRef .tc b) := by
  intro b hb
  simp only [carried, List.mem_cons, List.mem_nil_iff, or_false] at hb
  rcases hb with rfl | rfl | rfl | rfl | rfl | rfl | rfl | rfl | rfl | rfl | rfl | rfl <;> host_keeps opsL6r

set_option maxHeartbeats 4000000 in
/-- Nor do the operations before the rectifier. -/
theorem keep_a : ∀ b ∈ carried, StableHlo.after opsL6a W (Proc.devRef .tc b) = W (Proc.devRef .tc b) := by
  intro b hb
  simp only [carried, List.mem_cons, List.mem_nil_iff, or_false] at hb
  rcases hb with rfl | rfl | rfl | rfl | rfl | rfl | rfl | rfl | rfl | rfl | rfl | rfl <;> host_keeps opsL6a

/-- The layer's operations write none of the carried buffers. -/
theorem keep : ∀ b ∈ carried, StableHlo.after opsL6r (StableHlo.after opsL6a W) (Proc.devRef .tc b) = W (Proc.devRef .tc b) := by
  intro b hb
  exact (keep_r (StableHlo.after opsL6a W) b hb).trans (keep_a W b hb)

end Cert.ReferenceIdeal.RefLayer6

end
-- ==== Proof.RefTail.lean ====
/- The edge decoder of the reference program, read off its operation list. -/
import proofs.«122723_j46918222742294_1_alg».proof.Proof.RefOps
import proofs.«122723_j46918222742294_1_alg».proof.Proof.Spec
import proofs.«122723_j46918222742294_1_alg».proof.Proof.ChainTac
import Idealize.ShloMosaic.Lib.StableHlo.Run
import Idealize.ShloMosaic.PureOps.Ideal.Laws

set_option maxRecDepth 16384

noncomputable section

namespace Cert.ReferenceIdeal.RefTail

open Idealize.ShloMosaic Idealize.ShloMosaic.TcCoe Idealize.ShloMosaic.StableHlo Idealize.SL.Sem Cert.ReferenceIdeal Cert.ReferenceIdeal.Gen Cert.ReferenceIdeal.RunP Cert.KernelIdeal.Chain

variable (W : Valuation τ sig (Elt Ideal))

/-! ## The four chunks, each for an arbitrary valuation -/

set_option maxHeartbeats 8000000 in
/-- The hidden layer before its rectifier: the node features gathered at both endpoints of every edge, side by side,
    times W₁, plus b₁. -/
theorem t0_v198 : (StableHlo.after opsT0 W (Proc.devRef .tc main_v198) : Vec Ideal S1600000x64 .f32)
    = Cert.Spec.dec1pre (Cert.Spec.pair (W (Proc.devRef .tc main_v179)) (W (Proc.devRef .tc main_arg12)) (W (Proc.devRef .tc main_arg13)))
        (W (Proc.devRef .tc main_arg8)) (W (Proc.devRef .tc main_arg9)) := by
  dsimp only [opsT0]
  after_results_simp <;> rfl

/-- The rectifier: the maximum with 0 everywhere. -/
theorem t1_v199 : (StableHlo.after opsT1 W (Proc.devRef .tc main_v199) : Vec Ideal S1600000x64 .f32)
    = maximumf (F := Ideal) (s := S1600000x64) (φ := .f32) (W (Proc.devRef .tc main_v198))
        (broadcastInDim S1600000x64 ![] bcast_S_S1600000x64 (constant (F := Ideal) S_ .f32 0x00000000#32)) := by
  dsimp only [opsT1]
  after_results <;> rfl

/-- The output column e₁ · W₂ + b₂, flattened. -/
theorem t2_v204 : (StableHlo.after opsT2 W (Proc.devRef .tc main_v204) : Vec Ideal S1600000 .f32)
    = shapeCast S1600000 (Cert.Spec.dec2 (W (Proc.devRef .tc main_v199)) (W (Proc.devRef .tc main_arg10)) (W (Proc.devRef .tc main_arg11)))
        shapeCasts_S1600000x1_S1600000 := by
  dsimp only [opsT2]
  after_results <;> rfl

/-- The diagonal mask: row = col, edge by edge. -/
theorem t2_v205 : (StableHlo.after opsT2 W (Proc.devRef .tc main_v205) : Vec Ideal S1600000 .i1)
    = cmpi (s := S1600000) (w := 32) .eq (W (Proc.devRef .tc main_arg12)) (W (Proc.devRef .tc main_arg13)) := by
  dsimp only [opsT2]
  after_results <;> rfl

/-- The softplus behind its guard, then the selection by the mask. -/
theorem t3_v207 : (StableHlo.after opsT3 W (Proc.devRef .tc main_v207) : Vec Ideal S1600000 .f32)
    = Cert.Spec.finm (W (Proc.devRef .tc main_v204)) (W (Proc.devRef .tc main_v205)) := by
  dsimp only [opsT3]
  after_results <;> rfl

/-! ## What the first two chunks leave alone: the arguments the later chunks read -/

/-- The hidden layer's chunk writes none of the four arguments read after it. -/
theorem k0_arg10 : StableHlo.after opsT0 W (Proc.devRef .tc main_arg10) = W (Proc.devRef .tc main_arg10) := by host_keeps opsT0
theorem k0_arg11 : StableHlo.after opsT0 W (Proc.devRef .tc main_arg11) = W (Proc.devRef .tc main_arg11) := by host_keeps opsT0
theorem k0_arg12 : StableHlo.after opsT0 W (Proc.devRef .tc main_arg12) = W (Proc.devRef .tc main_arg12) := by host_keeps opsT0
theorem k0_arg13 : StableHlo.after opsT0 W (Proc.devRef .tc main_arg13) = W (Proc.devRef .tc main_arg13) := by host_keeps opsT0

/-- Nor does the rectifier's. -/
theorem k1_arg10 : StableHlo.after opsT1 W (Proc.devRef .tc main_arg10) = W (Proc.devRef .tc main_arg10) := by host_keeps opsT1
theorem k1_arg11 : StableHlo.after opsT1 W (Proc.devRef .tc main_arg11) = W (Proc.devRef .tc main_arg11) := by host_keeps opsT1
theorem k1_arg12 : StableHlo.after opsT1 W (Proc.devRef .tc main_arg12) = W (Proc.devRef .tc main_arg12) := by host_keeps opsT1
theorem k1_arg13 : StableHlo.after opsT1 W (Proc.devRef .tc main_arg13) = W (Proc.devRef .tc main_arg13) := by host_keeps opsT1

/-- From the final node features to the result: gather at both endpoints, two dense layers, the final selection. -/
theorem out : (StableHlo.after opsT3 (StableHlo.after opsT2 (StableHlo.after opsT1 (StableHlo.after opsT0 W))) (Proc.devRef .tc main_v207) : Vec Ideal S1600000 .f32)
    = Cert.Spec.fin (shapeCast S1600000 (Cert.Spec.dec2 (Cert.Spec.dec1 (Cert.Spec.pair (W (Proc.devRef .tc main_v179)) (W (Proc.devRef .tc main_arg12)) (W (Proc.devRef .tc main_arg13))) (W (Proc.devRef .tc main_arg8)) (W (Proc.devRef .tc main_arg9))) (W (Proc.devRef .tc main_arg10)) (W (Proc.devRef .tc main_arg11))) shapeCasts_S1600000x1_S1600000)
        (W (Proc.devRef .tc main_arg12)) (W (Proc.devRef .tc main_arg13)) := by
  rw [t3_v207, t2_v204, t2_v205, t1_v199, t0_v198, k1_arg10, k1_arg11, k1_arg12, k1_arg13, k0_arg10, k0_arg11, k0_arg12, k0_arg13,
    ← Cert.Spec.dec1_eq_pre, ← Cert.Spec.fin_eq_finm]

end Cert.ReferenceIdeal.RefTail

end
-- ==== Proof.RefValue.lean ====
/-
  The reference program's result, as a function of the arrays it is launched on: the fold of its operation list, taken
  chunk by chunk. After the opening chunks and n layers the node-feature buffer holds the n-fold nested layer function
  of the launch contents; the carried buffers (the stacked parameters, the index arrays, the edge normalisation, the edge
  counts) are the same at every chunk boundary; the decoder's chunks then give the specification's result.
-/
import proofs.«122723_j46918222742294_1_alg».proof.Proof.RefOps
import proofs.«122723_j46918222742294_1_alg».proof.Proof.Spec
import proofs.«122723_j46918222742294_1_alg».proof.Proof.RefPre
import proofs.«122723_j46918222742294_1_alg».proof.Proof.RefLayer1
import proofs.«122723_j46918222742294_1_alg».proof.Proof.RefLayer2
import proofs.«122723_j46918222742294_1_alg».proof.Proof.RefLayer3
import proofs.«122723_j46918222742294_1_alg».proof.Proof.RefLayer4
import proofs.«122723_j46918222742294_1_alg».proof.Proof.RefLayer5
import proofs.«122723_j46918222742294_1_alg».proof.Proof.RefLayer6
import proofs.«122723_j46918222742294_1_alg».proof.Proof.RefTail

set_option maxRecDepth 16384

noncomputable section

namespace Cert.ReferenceIdeal.RefValue

open Idealize.ShloMosaic Idealize.ShloMosaic.TcCoe Idealize.ShloMosaic.StableHlo Idealize.SL.Sem Cert.ReferenceIdeal Cert.ReferenceIdeal.Gen Cert.ReferenceIdeal.RunP

variable (W0 : Valuation τ sig (Elt Ideal))

/-- The buffers after the opening chunks, and after each layer. -/
abbrev V0 : Valuation τ sig (Elt Ideal) := StableHlo.after opsP2 (StableHlo.after opsP1 (StableHlo.after opsP0 W0))
abbrev V1 : Valuation τ sig (Elt Ideal) := StableHlo.after opsL1r (StableHlo.after opsL1a (V0 W0))
abbrev V2 : Valuation τ sig (Elt Ideal) := StableHlo.after opsL2r (StableHlo.after opsL2a (V1 W0))
abbrev V3 : Valuation τ sig (Elt Ideal) := StableHlo.after opsL3r (StableHlo.after opsL3a (V2 W0))
abbrev V4 : Valuation τ sig (Elt Ideal) := StableHlo.after opsL4r (StableHlo.after opsL4a (V3 W0))
abbrev V5 : Valuation τ sig (Elt Ideal) := StableHlo.after opsL5r (StableHlo.after opsL5a (V4 W0))
abbrev V6 : Valuation τ sig (Elt Ideal) := StableHlo.after opsL6r (StableHlo.after opsL6a (V5 W0))

/-- The edge normalisation and the edge counts of the launched graph; the node features after each layer. -/
abbrev NRM : Vec Ideal S1600000 .f32 := Cert.Spec.norm (W0 (Proc.devRef .tc main_arg1)) (W0 (Proc.devRef .tc main_arg12)) (W0 (Proc.devRef .tc main_arg13))
abbrev CNT : Vec Ideal S100000x1 .f32 := Cert.Spec.cnt (W0 (Proc.devRef .tc main_arg13))
abbrev H0 : Vec Ideal S100000x64 .f32 := Cert.Spec.enc (W0 (Proc.devRef .tc main_arg0)) (W0 (Proc.devRef .tc main_arg2)) (W0 (Proc.devRef .tc main_arg3))
abbrev H1 : Vec Ideal S100000x64 .f32 := Cert.Spec.layer (H0 W0) (Cert.Spec.W0 (W0 (Proc.devRef .tc main_arg4))) (Cert.Spec.B0 (W0 (Proc.devRef .tc main_arg5))) (NRM W0) (CNT W0) (W0 (Proc.devRef .tc main_arg12)) (W0 (Proc.devRef .tc main_arg13))
abbrev H2 : Vec Ideal S100000x64 .f32 := Cert.Spec.layer (H1 W0) (Cert.Spec.W0 (W0 (Proc.devRef .tc main_arg6))) (Cert.Spec.B0 (W0 (Proc.devRef .tc main_arg7))) (NRM W0) (CNT W0) (W0 (Proc.devRef .tc main_arg12)) (W0 (Proc.devRef .tc main_arg13))
abbrev H3 : Vec Ideal S100000x64 .f32 := Cert.Spec.layer (H2 W0) (Cert.Spec.W1 (W0 (Proc.devRef .tc main_arg4))) (Cert.Spec.B1 (W0 (Proc.devRef .tc main_arg5))) (NRM W0) (CNT W0) (W0 (Proc.devRef .tc main_arg12)) (W0 (Proc.devRef .tc main_arg13))
abbrev H4 : Vec Ideal S100000x64 .f32 := Cert.Spec.layer (H3 W0) (Cert.Spec.W1 (W0 (Proc.devRef .tc main_arg6))) (Cert.Spec.B1 (W0 (Proc.devRef .tc main_arg7))) (NRM W0) (CNT W0) (W0 (Proc.devRef .tc main_arg12)) (W0 (Proc.devRef .tc main_arg13))
abbrev H5 : Vec Ideal S100000x64 .f32 := Cert.Spec.layer (H4 W0) (Cert.Spec.W2 (W0 (Proc.devRef .tc main_arg4))) (Cert.Spec.B2 (W0 (Proc.devRef .tc main_arg5))) (NRM W0) (CNT W0) (W0 (Proc.devRef .tc main_arg12)) (W0 (Proc.devRef .tc main_arg13))
abbrev H6 : Vec Ideal S100000x64 .f32 := Cert.Spec.layer (H5 W0) (Cert.Spec.W2 (W0 (Proc.devRef .tc main_arg6))) (Cert.Spec.B2 (W0 (Proc.devRef .tc main_arg7))) (NRM W0) (CNT W0) (W0 (Proc.devRef .tc main_arg12)) (W0 (Proc.devRef .tc main_arg13))

/-! ## After the opening chunks -/

theorem h_0 : (V0 W0 (Proc.devRef .tc main_v35) : Vec Ideal S100000x64 .f32) = H0 W0 := Cert.ReferenceIdeal.RefPre.v35 W0
theorem nrm_0 : (V0 W0 (Proc.devRef .tc main_v24) : Vec Ideal S1600000 .f32) = NRM W0 := Cert.ReferenceIdeal.RefPre.v24 W0
theorem cnt_0 : (V0 W0 (Proc.devRef .tc main_v31) : Vec Ideal S100000x1 .f32) = CNT W0 := Cert.ReferenceIdeal.RefPre.v31 W0
theorem a4_0 : V0 W0 (Proc.devRef .tc main_arg4) = (W0 (Proc.devRef .tc main_arg4)) := Cert.ReferenceIdeal.RefPre.keep W0 main_arg4 (by simp)
theorem a5_0 : V0 W0 (Proc.devRef .tc main_arg5) = (W0 (Proc.devRef .tc main_arg5)) := Cert.ReferenceIdeal.RefPre.keep W0 main_arg5 (by simp)
theorem a6_0 : V0 W0 (Proc.devRef .tc main_arg6) = (W0 (Proc.devRef .tc main_arg6)) := Cert.ReferenceIdeal.RefPre.keep W0 main_arg6 (by simp)
theorem a7_0 : V0 W0 (Proc.devRef .tc main_arg7) = (W0 (Proc.devRef .tc main_arg7)) := Cert.ReferenceIdeal.RefPre.keep W0 main_arg7 (by simp)
theorem a8_0 : V0 W0 (Proc.devRef .tc main_arg8) = (W0 (Proc.devRef .tc main_arg8)) := Cert.ReferenceIdeal.RefPre.keep W0 main_arg8 (by simp)
theorem a9_0 : V0 W0 (Proc.devRef .tc main_arg9) = (W0 (Proc.devRef .tc main_arg9)) := Cert.ReferenceIdeal.RefPre.keep W0 main_arg9 (by simp)
theorem a10_0 : V0 W0 (Proc.devRef .tc main_arg10) = (W0 (Proc.devRef .tc main_arg10)) := Cert.ReferenceIdeal.RefPre.keep W0 main_arg10 (by simp)
theorem a11_0 : V0 W0 (Proc.devRef .tc main_arg11) = (W0 (Proc.devRef .tc main_arg11)) := Cert.ReferenceIdeal.RefPre.keep W0 main_arg11 (by simp)
theorem a12_0 : V0 W0 (Proc.devRef .tc main_arg12) = (W0 (Proc.devRef .tc main_arg12)) := Cert.ReferenceIdeal.RefPre.keep W0 main_arg12 (by simp)
theorem a13_0 : V0 W0 (Proc.devRef .tc main_arg13) = (W0 (Proc.devRef .tc main_arg13)) := Cert.ReferenceIdeal.RefPre.keep W0 main_arg13 (by simp)

/-! ## After layer 1 -/

theorem h_1 : (V1 W0 (Proc.devRef .tc main_v59) : Vec Ideal S100000x64 .f32) = H1 W0 :=
  (Cert.ReferenceIdeal.RefLayer1.layer (V0 W0)).trans (by rw [h_0 W0, a4_0 W0, a5_0 W0, nrm_0 W0, cnt_0 W0, a12_0 W0, a13_0 W0])
theorem nrm_1 : (V1 W0 (Proc.devRef .tc main_v24) : Vec Ideal S1600000 .f32) = NRM W0 := (Cert.ReferenceIdeal.RefLayer1.keep (V0 W0) main_v24 (by simp)).trans (nrm_0 W0)
theorem cnt_1 : (V1 W0 (Proc.devRef .tc main_v31) : Vec Ideal S100000x1 .f32) = CNT W0 := (Cert.ReferenceIdeal.RefLayer1.keep (V0 W0) main_v31 (by simp)).trans (cnt_0 W0)
theorem a4_1 : V1 W0 (Proc.devRef .tc main_arg4) = (W0 (Proc.devRef .tc main_arg4)) := (Cert.ReferenceIdeal.RefLayer1.keep (V0 W0) main_arg4 (by simp)).trans (a4_0 W0)
theorem a5_1 : V1 W0 (Proc.devRef .tc main_arg5) = (W0 (Proc.devRef .tc main_arg5)) := (Cert.ReferenceIdeal.RefLayer1.keep (V0 W0) main_arg5 (by simp)).trans (a5_0 W0)
theorem a6_1 : V1 W0 (Proc.devRef .tc main_arg6) = (W0 (Proc.devRef .tc main_arg6)) := (Cert.ReferenceIdeal.RefLayer1.keep (V0 W0) main_arg6 (by simp)).trans (a6_0 W0)
theorem a7_1 : V1 W0 (Proc.devRef .tc main_arg7) = (W0 (Proc.devRef .tc main_arg7)) := (Cert.ReferenceIdeal.RefLayer1.keep (V0 W0) main_arg7 (by simp)).trans (a7_0 W0)
theorem a8_1 : V1 W0 (Proc.devRef .tc main_arg8) = (W0 (Proc.devRef .tc main_arg8)) := (Cert.ReferenceIdeal.RefLayer1.keep (V0 W0) main_arg8 (by simp)).trans (a8_0 W0)
theorem a9_1 : V1 W0 (Proc.devRef .tc main_arg9) = (W0 (Proc.devRef .tc main_arg9)) := (Cert.ReferenceIdeal.RefLayer1.keep (V0 W0) main_arg9 (by simp)).trans (a9_0 W0)
theorem a10_1 : V1 W0 (Proc.devRef .tc main_arg10) = (W0 (Proc.devRef .tc main_arg10)) := (Cert.ReferenceIdeal.RefLayer1.keep (V0 W0) main_arg10 (by simp)).trans (a10_0 W0)
theorem a11_1 : V1 W0 (Proc.devRef .tc main_arg11) = (W0 (Proc.devRef .tc main_arg11)) := (Cert.ReferenceIdeal.RefLayer1.keep (V0 W0) main_arg11 (by simp)).trans (a11_0 W0)
theorem a12_1 : V1 W0 (Proc.devRef .tc main_arg12) = (W0 (Proc.devRef .tc main_arg12)) := (Cert.ReferenceIdeal.RefLayer1.keep (V0 W0) main_arg12 (by simp)).trans (a12_0 W0)
theorem a13_1 : V1 W0 (Proc.devRef .tc main_arg13) = (W0 (Proc.devRef .tc main_arg13)) := (Cert.ReferenceIdeal.RefLayer1.keep (V0 W0) main_arg13 (by simp)).trans (a13_0 W0)

/-! ## After layer 2 -/

theorem h_2 : (V2 W0 (Proc.devRef .tc main_v83) : Vec Ideal S100000x64 .f32) = H2 W0 :=
  (Cert.ReferenceIdeal.RefLayer2.layer (V1 W0)).trans (by rw [h_1 W0, a6_1 W0, a7_1 W0, nrm_1 W0, cnt_1 W0, a12_1 W0, a13_1 W0])
theorem nrm_2 : (V2 W0 (Proc.devRef .tc main_v24) : Vec Ideal S1600000 .f32) = NRM W0 := (Cert.ReferenceIdeal.RefLayer2.keep (V1 W0) main_v24 (by simp)).trans (nrm_1 W0)
theorem cnt_2 : (V2 W0 (Proc.devRef .tc main_v31) : Vec Ideal S100000x1 .f32) = CNT W0 := (Cert.ReferenceIdeal.RefLayer2.keep (V1 W0) main_v31 (by simp)).trans (cnt_1 W0)
theorem a4_2 : V2 W0 (Proc.devRef .tc main_arg4) = (W0 (Proc.devRef .tc main_arg4)) := (Cert.ReferenceIdeal.RefLayer2.keep (V1 W0) main_arg4 (by simp)).trans (a4_1 W0)
theorem a5_2 : V2 W0 (Proc.devRef .tc main_arg5) = (W0 (Proc.devRef .tc main_arg5)) := (Cert.ReferenceIdeal.RefLayer2.keep (V1 W0) main_arg5 (by simp)).trans (a5_1 W0)
theorem a6_2 : V2 W0 (Proc.devRef .tc main_arg6) = (W0 (Proc.devRef .tc main_arg6)) := (Cert.ReferenceIdeal.RefLayer2.keep (V1 W0) main_arg6 (by simp)).trans (a6_1 W0)
theorem a7_2 : V2 W0 (Proc.devRef .tc main_arg7) = (W0 (Proc.devRef .tc main_arg7)) := (Cert.ReferenceIdeal.RefLayer2.keep (V1 W0) main_arg7 (by simp)).trans (a7_1 W0)
theorem a8_2 : V2 W0 (Proc.devRef .tc main_arg8) = (W0 (Proc.devRef .tc main_arg8)) := (Cert.ReferenceIdeal.RefLayer2.keep (V1 W0) main_arg8 (by simp)).trans (a8_1 W0)
theorem a9_2 : V2 W0 (Proc.devRef .tc main_arg9) = (W0 (Proc.devRef .tc main_arg9)) := (Cert.ReferenceIdeal.RefLayer2.keep (V1 W0) main_arg9 (by simp)).trans (a9_1 W0)
theorem a10_2 : V2 W0 (Proc.devRef .tc main_arg10) = (W0 (Proc.devRef .tc main_arg10)) := (Cert.ReferenceIdeal.RefLayer2.keep (V1 W0) main_arg10 (by simp)).trans (a10_1 W0)
theorem a11_2 : V2 W0 (Proc.devRef .tc main_arg11) = (W0 (Proc.devRef .tc main_arg11)) := (Cert.ReferenceIdeal.RefLayer2.keep (V1 W0) main_arg11 (by simp)).trans (a11_1 W0)
theorem a12_2 : V2 W0 (Proc.devRef .tc main_arg12) = (W0 (Proc.devRef .tc main_arg12)) := (Cert.ReferenceIdeal.RefLayer2.keep (V1 W0) main_arg12 (by simp)).trans (a12_1 W0)
theorem a13_2 : V2 W0 (Proc.devRef .tc main_arg13) = (W0 (Proc.devRef .tc main_arg13)) := (Cert.ReferenceIdeal.RefLayer2.keep (V1 W0) main_arg13 (by simp)).trans (a13_1 W0)

/-! ## After layer 3 -/

theorem h_3 : (V3 W0 (Proc.devRef .tc main_v107) : Vec Ideal S100000x64 .f32) = H3 W0 :=
  (Cert.ReferenceIdeal.RefLayer3.layer (V2 W0)).trans (by rw [h_2 W0, a4_2 W0, a5_2 W0, nrm_2 W0, cnt_2 W0, a12_2 W0, a13_2 W0])
theorem nrm_3 : (V3 W0 (Proc.devRef .tc main_v24) : Vec Ideal S1600000 .f32) = NRM W0 := (Cert.ReferenceIdeal.RefLayer3.keep (V2 W0) main_v24 (by simp)).trans (nrm_2 W0)
theorem cnt_3 : (V3 W0 (Proc.devRef .tc main_v31) : Vec Ideal S100000x1 .f32) = CNT W0 := (Cert.ReferenceIdeal.RefLayer3.keep (V2 W0) main_v31 (by simp)).trans (cnt_2 W0)
theorem a4_3 : V3 W0 (Proc.devRef .tc main_arg4) = (W0 (Proc.devRef .tc main_arg4)) := (Cert.ReferenceIdeal.RefLayer3.keep (V2 W0) main_arg4 (by simp)).trans (a4_2 W0)
theorem a5_3 : V3 W0 (Proc.devRef .tc main_arg5) = (W0 (Proc.devRef .tc main_arg5)) := (Cert.ReferenceIdeal.RefLayer3.keep (V2 W0) main_arg5 (by simp)).trans (a5_2 W0)
theorem a6_3 : V3 W0 (Proc.devRef .tc main_arg6) = (W0 (Proc.devRef .tc main_arg6)) := (Cert.ReferenceIdeal.RefLayer3.keep (V2 W0) main_arg6 (by simp)).trans (a6_2 W0)
theorem a7_3 : V3 W0 (Proc.devRef .tc main_arg7) = (W0 (Proc.devRef .tc main_arg7)) := (Cert.ReferenceIdeal.RefLayer3.keep (V2 W0) main_arg7 (by simp)).trans (a7_2 W0)
theorem a8_3 : V3 W0 (Proc.devRef .tc main_arg8) = (W0 (Proc.devRef .tc main_arg8)) := (Cert.ReferenceIdeal.RefLayer3.keep (V2 W0) main_arg8 (by simp)).trans (a8_2 W0)
theorem a9_3 : V3 W0 (Proc.devRef .tc main_arg9) = (W0 (Proc.devRef .tc main_arg9)) := (Cert.ReferenceIdeal.RefLayer3.keep (V2 W0) main_arg9 (by simp)).trans (a9_2 W0)
theorem a10_3 : V3 W0 (Proc.devRef .tc main_arg10) = (W0 (Proc.devRef .tc main_arg10)) := (Cert.ReferenceIdeal.RefLayer3.keep (V2 W0) main_arg10 (by simp)).trans (a10_2 W0)
theorem a11_3 : V3 W0 (Proc.devRef .tc main_arg11) = (W0 (Proc.devRef .tc main_arg11)) := (Cert.ReferenceIdeal.RefLayer3.keep (V2 W0) main_arg11 (by simp)).trans (a11_2 W0)
theorem a12_3 : V3 W0 (Proc.devRef .tc main_arg12) = (W0 (Proc.devRef .tc main_arg12)) := (Cert.ReferenceIdeal.RefLayer3.keep (V2 W0) main_arg12 (by simp)).trans (a12_2 W0)
theorem a13_3 : V3 W0 (Proc.devRef .tc main_arg13) = (W0 (Proc.devRef .tc main_arg13)) := (Cert.ReferenceIdeal.RefLayer3.keep (V2 W0) main_arg13 (by simp)).trans (a13_2 W0)

/-! ## After layer 4 -/

theorem h_4 : (V4 W0 (Proc.devRef .tc main_v131) : Vec Ideal S100000x64 .f32) = H4 W0 :=
  (Cert.ReferenceIdeal.RefLayer4.layer (V3 W0)).trans (by rw [h_3 W0, a6_3 W0, a7_3 W0, nrm_3 W0, cnt_3 W0, a12_3 W0, a13_3 W0])
theorem nrm_4 : (V4 W0 (Proc.devRef .tc main_v24) : Vec Ideal S1600000 .f32) = NRM W0 := (Cert.ReferenceIdeal.RefLayer4.keep (V3 W0) main_v24 (by simp)).trans (nrm_3 W0)
theorem cnt_4 : (V4 W0 (Proc.devRef .tc main_v31) : Vec Ideal S100000x1 .f32) = CNT W0 := (Cert.ReferenceIdeal.RefLayer4.keep (V3 W0) main_v31 (by simp)).trans (cnt_3 W0)
theorem a4_4 : V4 W0 (Proc.devRef .tc main_arg4) = (W0 (Proc.devRef .tc main_arg4)) := (Cert.ReferenceIdeal.RefLayer4.keep (V3 W0) main_arg4 (by simp)).trans (a4_3 W0)
theorem a5_4 : V4 W0 (Proc.devRef .tc main_arg5) = (W0 (Proc.devRef .tc main_arg5)) := (Cert.ReferenceIdeal.RefLayer4.keep (V3 W0) main_arg5 (by simp)).trans (a5_3 W0)
theorem a6_4 : V4 W0 (Proc.devRef .tc main_arg6) = (W0 (Proc.devRef .tc main_arg6)) := (Cert.ReferenceIdeal.RefLayer4.keep (V3 W0) main_arg6 (by simp)).trans (a6_3 W0)
theorem a7_4 : V4 W0 (Proc.devRef .tc main_arg7) = (W0 (Proc.devRef .tc main_arg7)) := (Cert.ReferenceIdeal.RefLayer4.keep (V3 W0) main_arg7 (by simp)).trans (a7_3 W0)
theorem a8_4 : V4 W0 (Proc.devRef .tc main_arg8) = (W0 (Proc.devRef .tc main_arg8)) := (Cert.ReferenceIdeal.RefLayer4.keep (V3 W0) main_arg8 (by simp)).trans (a8_3 W0)
theorem a9_4 : V4 W0 (Proc.devRef .tc main_arg9) = (W0 (Proc.devRef .tc main_arg9)) := (Cert.ReferenceIdeal.RefLayer4.keep (V3 W0) main_arg9 (by simp)).trans (a9_3 W0)
theorem a10_4 : V4 W0 (Proc.devRef .tc main_arg10) = (W0 (Proc.devRef .tc main_arg10)) := (Cert.ReferenceIdeal.RefLayer4.keep (V3 W0) main_arg10 (by simp)).trans (a10_3 W0)
theorem a11_4 : V4 W0 (Proc.devRef .tc main_arg11) = (W0 (Proc.devRef .tc main_arg11)) := (Cert.ReferenceIdeal.RefLayer4.keep (V3 W0) main_arg11 (by simp)).trans (a11_3 W0)
theorem a12_4 : V4 W0 (Proc.devRef .tc main_arg12) = (W0 (Proc.devRef .tc main_arg12)) := (Cert.ReferenceIdeal.RefLayer4.keep (V3 W0) main_arg12 (by simp)).trans (a12_3 W0)
theorem a13_4 : V4 W0 (Proc.devRef .tc main_arg13) = (W0 (Proc.devRef .tc main_arg13)) := (Cert.ReferenceIdeal.RefLayer4.keep (V3 W0) main_arg13 (by simp)).trans (a13_3 W0)

/-! ## After layer 5 -/

theorem h_5 : (V5 W0 (Proc.devRef .tc main_v155) : Vec Ideal S100000x64 .f32) = H5 W0 :=
  (Cert.ReferenceIdeal.RefLayer5.layer (V4 W0)).trans (by rw [h_4 W0, a4_4 W0, a5_4 W0, nrm_4 W0, cnt_4 W0, a12_4 W0, a13_4 W0])
theorem nrm_5 : (V5 W0 (Proc.devRef .tc main_v24) : Vec Ideal S1600000 .f32) = NRM W0 := (Cert.ReferenceIdeal.RefLayer5.keep (V4 W0) main_v24 (by simp)).trans (nrm_4 W0)
theorem cnt_5 : (V5 W0 (Proc.devRef .tc main_v31) : Vec Ideal S100000x1 .f32) = CNT W0 := (Cert.ReferenceIdeal.RefLayer5.keep (V4 W0) main_v31 (by simp)).trans (cnt_4 W0)
theorem a4_5 : V5 W0 (Proc.devRef .tc main_arg4) = (W0 (Proc.devRef .tc main_arg4)) := (Cert.ReferenceIdeal.RefLayer5.keep (V4 W0) main_arg4 (by simp)).trans (a4_4 W0)
theorem a5_5 : V5 W0 (Proc.devRef .tc main_arg5) = (W0 (Proc.devRef .tc main_arg5)) := (Cert.ReferenceIdeal.RefLayer5.keep (V4 W0) main_arg5 (by simp)).trans (a5_4 W0)
theorem a6_5 : V5 W0 (Proc.devRef .tc main_arg6) = (W0 (Proc.devRef .tc main_arg6)) := (Cert.ReferenceIdeal.RefLayer5.keep (V4 W0) main_arg6 (by simp)).trans (a6_4 W0)
theorem a7_5 : V5 W0 (Proc.devRef .tc main_arg7) = (W0 (Proc.devRef .tc main_arg7)) := (Cert.ReferenceIdeal.RefLayer5.keep (V4 W0) main_arg7 (by simp)).trans (a7_4 W0)
theorem a8_5 : V5 W0 (Proc.devRef .tc main_arg8) = (W0 (Proc.devRef .tc main_arg8)) := (Cert.ReferenceIdeal.RefLayer5.keep (V4 W0) main_arg8 (by simp)).trans (a8_4 W0)
theorem a9_5 : V5 W0 (Proc.devRef .tc main_arg9) = (W0 (Proc.devRef .tc main_arg9)) := (Cert.ReferenceIdeal.RefLayer5.keep (V4 W0) main_arg9 (by simp)).trans (a9_4 W0)
theorem a10_5 : V5 W0 (Proc.devRef .tc main_arg10) = (W0 (Proc.devRef .tc main_arg10)) := (Cert.ReferenceIdeal.RefLayer5.keep (V4 W0) main_arg10 (by simp)).trans (a10_4 W0)
theorem a11_5 : V5 W0 (Proc.devRef .tc main_arg11) = (W0 (Proc.devRef .tc main_arg11)) := (Cert.ReferenceIdeal.RefLayer5.keep (V4 W0) main_arg11 (by simp)).trans (a11_4 W0)
theorem a12_5 : V5 W0 (Proc.devRef .tc main_arg12) = (W0 (Proc.devRef .tc main_arg12)) := (Cert.ReferenceIdeal.RefLayer5.keep (V4 W0) main_arg12 (by simp)).trans (a12_4 W0)
theorem a13_5 : V5 W0 (Proc.devRef .tc main_arg13) = (W0 (Proc.devRef .tc main_arg13)) := (Cert.ReferenceIdeal.RefLayer5.keep (V4 W0) main_arg13 (by simp)).trans (a13_4 W0)

/-! ## After layer 6 -/

theorem h_6 : (V6 W0 (Proc.devRef .tc main_v179) : Vec Ideal S100000x64 .f32) = H6 W0 :=
  (Cert.ReferenceIdeal.RefLayer6.layer (V5 W0)).trans (by rw [h_5 W0, a6_5 W0, a7_5 W0, nrm_5 W0, cnt_5 W0, a12_5 W0, a13_5 W0])
theorem nrm_6 : (V6 W0 (Proc.devRef .tc main_v24) : Vec Ideal S1600000 .f32) = NRM W0 := (Cert.ReferenceIdeal.RefLayer6.keep (V5 W0) main_v24 (by simp)).trans (nrm_5 W0)
theorem cnt_6 : (V6 W0 (Proc.devRef .tc main_v31) : Vec Ideal S100000x1 .f32) = CNT W0 := (Cert.ReferenceIdeal.RefLayer6.keep (V5 W0) main_v31 (by simp)).trans (cnt_5 W0)
theorem a4_6 : V6 W0 (Proc.devRef .tc main_arg4) = (W0 (Proc.devRef .tc main_arg4)) := (Cert.ReferenceIdeal.RefLayer6.keep (V5 W0) main_arg4 (by simp)).trans (a4_5 W0)
theorem a5_6 : V6 W0 (Proc.devRef .tc main_arg5) = (W0 (Proc.devRef .tc main_arg5)) := (Cert.ReferenceIdeal.RefLayer6.keep (V5 W0) main_arg5 (by simp)).trans (a5_5 W0)
theorem a6_6 : V6 W0 (Proc.devRef .tc main_arg6) = (W0 (Proc.devRef .tc main_arg6)) := (Cert.ReferenceIdeal.RefLayer6.keep (V5 W0) main_arg6 (by simp)).trans (a6_5 W0)
theorem a7_6 : V6 W0 (Proc.devRef .tc main_arg7) = (W0 (Proc.devRef .tc main_arg7)) := (Cert.ReferenceIdeal.RefLayer6.keep (V5 W0) main_arg7 (by simp)).trans (a7_5 W0)
theorem a8_6 : V6 W0 (Proc.devRef .tc main_arg8) = (W0 (Proc.devRef .tc main_arg8)) := (Cert.ReferenceIdeal.RefLayer6.keep (V5 W0) main_arg8 (by simp)).trans (a8_5 W0)
theorem a9_6 : V6 W0 (Proc.devRef .tc main_arg9) = (W0 (Proc.devRef .tc main_arg9)) := (Cert.ReferenceIdeal.RefLayer6.keep (V5 W0) main_arg9 (by simp)).trans (a9_5 W0)
theorem a10_6 : V6 W0 (Proc.devRef .tc main_arg10) = (W0 (Proc.devRef .tc main_arg10)) := (Cert.ReferenceIdeal.RefLayer6.keep (V5 W0) main_arg10 (by simp)).trans (a10_5 W0)
theorem a11_6 : V6 W0 (Proc.devRef .tc main_arg11) = (W0 (Proc.devRef .tc main_arg11)) := (Cert.ReferenceIdeal.RefLayer6.keep (V5 W0) main_arg11 (by simp)).trans (a11_5 W0)
theorem a12_6 : V6 W0 (Proc.devRef .tc main_arg12) = (W0 (Proc.devRef .tc main_arg12)) := (Cert.ReferenceIdeal.RefLayer6.keep (V5 W0) main_arg12 (by simp)).trans (a12_5 W0)
theorem a13_6 : V6 W0 (Proc.devRef .tc main_arg13) = (W0 (Proc.devRef .tc main_arg13)) := (Cert.ReferenceIdeal.RefLayer6.keep (V5 W0) main_arg13 (by simp)).trans (a13_5 W0)

/-! ## The result -/

/-- The fold over the whole list is the folds over the chunks, in turn. -/
theorem after_ops : StableHlo.after ops W0 = StableHlo.after opsT3 (StableHlo.after opsT2 (StableHlo.after opsT1 (StableHlo.after opsT0 (V6 W0)))) := by
  rw [ops_split]
  simp only [StableHlo.after_append]

/-- The result buffer after the whole list: the specification's function of the launch contents. -/
theorem value : (StableHlo.after ops W0 (Proc.devRef .tc main_v207) : Vec Ideal S1600000 .f32)
    = Cert.Spec.out (W0 (Proc.devRef .tc main_arg0)) (W0 (Proc.devRef .tc main_arg1)) (W0 (Proc.devRef .tc main_arg2)) (W0 (Proc.devRef .tc main_arg3)) (W0 (Proc.devRef .tc main_arg4)) (W0 (Proc.devRef .tc main_arg5)) (W0 (Proc.devRef .tc main_arg6)) (W0 (Proc.devRef .tc main_arg7)) (W0 (Proc.devRef .tc main_arg8)) (W0 (Proc.devRef .tc main_arg9)) (W0 (Proc.devRef .tc main_arg10)) (W0 (Proc.devRef .tc main_arg11)) (W0 (Proc.devRef .tc main_arg12)) (W0 (Proc.devRef .tc main_arg13)) := by
  rw [after_ops]
  refine (Cert.ReferenceIdeal.RefTail.out (V6 W0)).trans ?_
  rw [h_6 W0, a8_6 W0, a9_6 W0, a10_6 W0, a11_6 W0, a12_6 W0, a13_6 W0]
  rfl

end Cert.ReferenceIdeal.RefValue

end
-- ==== Proof.RunAll.lean ====
/-
  The kernel program's run with EVERY buffer's final contents in its post.
  @main is a sequence of host stretches and regions, and the generated frame carries the buffers' contents through it
  as a fold, ending at W33. The library's launch theorem for such a sequence, applied to those segments, says every weakly
  fair execution terminates without a fault in a state where every unscoped buffer of every core holds W33's contents.
  The frame claim reads the argument buffers off this post; a value claim reads the result buffer.
-/
import proofs.«122723_j46918222742294_1_alg».proof.Proof.Gen.KernelIdeal.Frame

set_option maxRecDepth 16384

noncomputable section

namespace Cert.KernelIdeal.RunAll

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer at the fold's end. -/
theorem run : θ_run defs (onTc (τ := τ) (main (F := F))) ⟨m, fun _ => 0, ρ⟩ (fun r => ∀ c : Dev nD,
      ∀ b ∈ Pipeline.ucRefs τ sig, r.2.mem (((c : Thread nD τ)).1, b) = W33 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W33 m ρ c b)
    (hfin := fun c s' => by
      iintro ⟨⟨Hh, -⟩, HSI⟩
      unfold StableHlo.held
      imodintro
      iapply (pointsTo_read_all (Pipeline.ucRefs τ sig) (fun b => (((c : Thread nD τ)).1, b)) (W33 m ρ c) s')
      isplitl [Hh] <;> iassumption)
    (hQ := fun s h => h)

/-- The result buffer is unscoped. -/
theorem mem_uc_result : Proc.devRef .tc main_v183 ∈ Pipeline.ucRefs τ sig := mem_uc main_v183 (by decide)

end Cert.KernelIdeal.RunAll

end
-- ==== Proof.LibLayout.lean ====
/-
  Two small facts about arrays.
  * A vector of length a made a one-row matrix [1, a]: by a shape cast, or by broadcasting it along the last axis — the
    same array, entry (0, i) being entry i of the vector.
  * On the extended reals x + 0 = x for every x, the infinities included; so adding an array that is 0 everywhere
    changes nothing.
-/
import Idealize.ShloMosaic.Lib.Pipeline.Value
import Idealize.ShloMosaic.Lib.ValueLayout
import Idealize.ShloMosaic.PureOps.Ideal.Laws

noncomputable section

namespace Cert.LibLayout

open Idealize.ShloMosaic Idealize.ShloMosaic.ValueIdx

/-- The one-row matrix of a vector, by a cast or by a broadcast. -/
theorem shapeCast_eq_broadcastInDim_row {α : Type} {a : ℕ} (x : (⟨1, ![a]⟩ : Shape).Idx → α)
    (h : (⟨1, ![a]⟩ : Shape).ShapeCasts ⟨2, ![1, a]⟩)
    (h' : (⟨1, ![a]⟩ : Shape).BroadcastsInDim ⟨2, ![1, a]⟩ (![1] : Fin 1 → Fin 2)) :
    shapeCast ⟨2, ![1, a]⟩ x h = broadcastInDim ⟨2, ![1, a]⟩ ![1] h' x := by
  funext j
  obtain ⟨u, i, rfl⟩ : ∃ (u : Fin 1) (i : Fin a), j = ix2 u i := ⟨j 0, j 1, eq_ix2 j⟩
  rw [shapeCast_a_1a_apply]
  refine (broadcastInDim_apply (![1] : Fin 1 → Fin 2) h' x (ix2 u i) (ix1 i) fun ax => ?_).symm
  match ax with
  | ⟨0, _⟩ =>
    show i.val = if a = 1 then 0 else i.val
    split
    · have := i.isLt; omega
    · rfl

/-- An array that is 0 everywhere. -/
def IsZero {s : Shape} (z : FVec Ideal s .f32) : Prop := ∀ j, z j = 0

/-- Adding an everywhere-zero array. -/
theorem addf_zero {s : Shape} (y z : FVec Ideal s .f32) (hz : IsZero z) : addf y z = y :=
  funext fun j => by rw [addf_apply, hz j, add_zero]

end Cert.LibLayout

end
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.Reg0.lean ====
/- The array region 0 leaves, as one function of the arrays it finds. -/
import proofs.«122723_j46918222742294_1_alg».proof.Proof.Gen.KernelIdeal.Frame
import proofs.«122723_j46918222742294_1_alg».proof.Proof.Spec
import proofs.«122723_j46918222742294_1_alg».proof.Proof.LibPlainDot
import Idealize.ShloMosaic.Lib.Pipeline.Value
import Idealize.ShloMosaic.Lib.ValueLayout

set_option maxRecDepth 16384

noncomputable section

namespace Cert.KernelIdeal.Reg0

open Idealize.ShloMosaic Idealize.ShloMosaic.TcCoe Idealize.ShloMosaic.ValueIdx Idealize.SL.Sem Cert.KernelIdeal Cert.KernelIdeal.Gen
open Idealize.ShloMosaic.Pipeline (Dat)

/-! ## The body's arithmetic and the host form, entry by entry -/

/-- The body's value at row `p`, column `q` of a block: the block's one entry in row `p` times the weights' entry `q`
    (a sum over the one contracted index), plus the bias' entry `q`. -/
theorem pay_apply (x0 : Vec Ideal S10000x1 .f32) (x1 : Vec Ideal S1x64 .f32) (x2 : Vec Ideal S1x64 .f32) (p : Fin 10000) (q : Fin 64) :
    k0_pay1 (F := Ideal) x0 x1 x2 (ix2 p q) = (∑ k : Fin 1, x0 (ix2 p k) * x1 (ix2 k q)) + x2 (ix2 (0 : Fin 1) q) := by
  unfold k0_pay1
  simp only [shapeCast_self]
  refine (addf_apply _ _ _).trans ?_
  refine congr (congrArg HAdd.hAdd ?_) ?_
  · exact Cert.LibPlainDot.matmul_plain 10000 1 64 none x0 x1 (ix2 p q)
  · exact broadcastTo_1b_ab_apply x2 _ p q

/-- The host form x · W + b at row `r`, column `q`: the same sum over the whole array's row `r`. -/
theorem host_apply (h : Vec Ideal S100000x1 .f32) (W : Vec Ideal S1x64 .f32) (b : Vec Ideal S1x64 .f32) (r : Fin 100000) (q : Fin 64) :
    Cert.Spec.linb0 (F := Ideal) h W b (ix2 r q) = (∑ k : Fin 1, h (ix2 r k) * W (ix2 k q)) + b (ix2 (0 : Fin 1) q) := by
  unfold Cert.Spec.linb0
  refine (addf_apply _ _ _).trans ?_
  refine congr (congrArg HAdd.hAdd ?_) ?_
  · exact Cert.LibPlainDot.dotGeneral_plain 100000 1 64 none h W (ix2 r q)
  · refine broadcastInDim_apply _ _ b (ix2 r q) (ix2 (0 : Fin 1) q) fun a => ?_
    match a with
    | ⟨0, _⟩ => rfl
    | ⟨1, _⟩ => rfl

/-- A block whose row `p` is the array's row `r`, with the whole weights and bias, gives at (p, q) what the host form
    gives at (r, q). -/
theorem point (x0 : Vec Ideal S10000x1 .f32) (x1 : Vec Ideal S1x64 .f32) (x2 : Vec Ideal S1x64 .f32)
    (h : Vec Ideal S100000x1 .f32) (W : Vec Ideal S1x64 .f32) (b : Vec Ideal S1x64 .f32)
    (p : Fin 10000) (q : Fin 64) (r : Fin 100000) (h0 : ∀ k : Fin 1, x0 (ix2 p k) = h (ix2 r k)) (h1 : x1 = W) (h2 : x2 = b) :
    k0_pay1 (F := Ideal) x0 x1 x2 (ix2 p q) = Cert.Spec.linb0 (F := Ideal) h W b (ix2 r q) := by
  subst h1 h2
  rw [pay_apply, host_apply]
  have e : (∑ k : Fin 1, x0 (ix2 p k) * x1 (ix2 k q)) = ∑ k : Fin 1, h (ix2 r k) * x1 (ix2 k q) :=
    Finset.sum_congr rfl fun k _ => congrArg (· * x1 (ix2 k q)) (h0 k)
  rw [e]

/-! ## From blocks to the array -/

theorem zero_off : (![0, 0] : Fin 2 → Nat) = fun _ => 0 := funext fun a => by fin_cases a <;> rfl

/-- The index maps over the grid: the row-blocked operand and the result sit at block row `t`, column block 0; the
    weights and the bias are whole at every point. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` (rows 10000·t … 10000·t + 9999) of the host form of the arrays the region finds. -/
theorem flushed_eq (V : (c : Dev nD) → (b : Ref sig .tc) → Buf (Elt Ideal) ((c : Thread nD τ).loc b)) (c : Dev nD) (t : Fin cfg0.N) :
    (dat0 (F := Ideal) V c).flushed 3 t
      = ((cfg0.win 3).blk t).view.read (Elt Ideal) (Cert.Spec.linb0 (F := Ideal) (V c main_arg0) (V c main_arg2) (V c main_v32)) := by
  show (cfg0.win 3).cut (grid0.coords t) ((dat0 V c).after 3 t) = _
  rw [after0_3]
  unfold out0_3
  rw [View.canon_unit_zero zero_off]
  simp only [View.ld_unit_zero (S := S10000x1) zero_off, View.ld_unit_zero (S := S1x64) zero_off, View.ld_unit_zero (S := S1x64) zero_off]
  obtain ⟨e00, e01, e10, e11, e20, e21, e30, e31⟩ := idx_facts t
  have hN : cfg0.N = 10 := N_0
  have ht : t.val < 10 := by have := t.isLt; omega
  funext j
  have hj0 : (j 0).val < 10000 := (j 0).isLt
  have hj1 : (j 1).val < 64 := (j 1).isLt
  show k0_pay1 (iblk0 V c 0 t) (iblk0 V c 1 t) (iblk0 V c 2 t) ((cfg0.win 3).xinj (grid0.coords t) j)
    = Cert.Spec.linb0 (F := Ideal) (V c main_arg0) (V c main_arg2) (V c main_v32) (((cfg0.win 3).blk t).view.emb j)
  have hl : (cfg0.win 3).xinj (grid0.coords t) j = ix2 (⟨(j 0).val, hj0⟩ : Fin 10000) (⟨(j 1).val, hj1⟩ : Fin 64) :=
    funext fun a => match a with | ⟨0, _⟩ => rfl | ⟨1, _⟩ => rfl
  have hr : ((cfg0.win 3).blk t).view.emb j = ix2 (⟨t.val * 10000 + (j 0).val, by omega⟩ : Fin 100000) (⟨(j 1).val, hj1⟩ : Fin 64) := by
    funext a; apply Fin.ext
    match a with
    | ⟨0, _⟩ => show win0_3.index t (0 : Fin 2) * 10000 + 1 * (j 0).val = t.val * 10000 + (j 0).val; omega
    | ⟨1, _⟩ => show win0_3.index t (1 : Fin 2) * 64 + 1 * (j 1).val = (j 1).val; omega
  rw [hl, hr]
  refine point (iblk0 V c 0 t) (iblk0 V c 1 t) (iblk0 V c 2 t) (V c main_arg0) (V c main_arg2) (V c main_v32)
    ⟨(j 0).val, hj0⟩ ⟨(j 1).val, hj1⟩ ⟨t.val * 10000 + (j 0).val, by omega⟩ ?_ ?_ ?_
  · intro k
    show V c main_arg0 (((cfg0.win 0).blk t).view.emb (ix2 (⟨(j 0).val, hj0⟩ : Fin 10000) k)) = V c main_arg0 _
    refine congrArg (V c main_arg0) (funext fun a => Fin.ext ?_)
    match a with
    | ⟨0, _⟩ => show win0_0.index t (0 : Fin 2) * 10000 + 1 * (j 0).val = t.val * 10000 + (j 0).val; omega
    | ⟨1, _⟩ => show win0_0.index t (1 : Fin 2) * 1 + 1 * k.val = k.val; omega
  · funext y
    show V c main_arg2 (((cfg0.win 1).blk t).view.emb y) = V c main_arg2 y
    refine congrArg (V c main_arg2) (funext fun a => Fin.ext ?_)
    match a with
    | ⟨0, _⟩ => show win0_1.index t (0 : Fin 2) * 1 + 1 * (y 0).val = (y 0).val; omega
    | ⟨1, _⟩ => show win0_1.index t (1 : Fin 2) * 64 + 1 * (y 1).val = (y 1).val; omega
  · funext y
    show V c main_v32 (((cfg0.win 2).blk t).view.emb y) = V c main_v32 y
    refine congrArg (V c main_v32) (funext fun a => Fin.ext ?_)
    match a with
    | ⟨0, _⟩ => show win0_2.index t (0 : Fin 2) * 1 + 1 * (y 0).val = (y 0).val; omega
    | ⟨1, _⟩ => show win0_2.index t (1 : Fin 2) * 64 + 1 * (y 1).val = (y 1).val; omega

/-- An index of the array is in point `t`'s block iff each coordinate is in the block's range on its axis. -/
theorem mem_blk (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v33).slice (win0_3.rect t)).set ↔ _
  rw [View.set_slice_whole, Rect.mem_set_unit]
  exact Iff.rfl

/-- Every row `r` of the array is in the block of the point `r / 10000`. -/
theorem cover (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ : ∃ t : Fin cfg0.N, t.val = (i 0).val / 10000 := ⟨⟨(i 0).val / 10000, by rw [show cfg0.N = 10 from N_0]; omega⟩, rfl⟩
  obtain ⟨-, -, -, -, -, -, e30, e31⟩ := idx_facts t
  refine ⟨t, flush0_3 t, ?_⟩
  rw [mem_blk]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 64 ≤ (i 1).val ∧ (i 1).val < win0_3.index t (1 : Fin 2) * 64 + 64; omega

theorem arr_eq (V : (c : Dev nD) → (b : Ref sig .tc) → Buf (Elt Ideal) ((c : Thread nD τ).loc b)) (c : Dev nD) :
    ((dat0 (F := Ideal) V c).arrAt 3 cfg0.N : Vec Ideal S100000x64 .f32)
      = Cert.Spec.linb0 (V c main_arg0) (V c main_arg2) (V c main_v32) :=
  (dat0 V c).arrAt_eq_of_cover 3 (Cert.Spec.linb0 (F := Ideal) (V c main_arg0) (V c main_arg2) (V c main_v32)) (fun t _ => flushed_eq V c t) cover

end Cert.KernelIdeal.Reg0

end
-- ==== Proof.Pre.lean ====
/-
  The opening of the kernel program: three host stretches compute, from the edge weights and the two index arrays, the
  symmetric edge normalisation (the degree by a scatter-add, its inverse square root where positive, gathered at both
  endpoints) and the clamped edge counts, and make the encoder's bias a one-row matrix; region 0 is the node encoder
  x · W_enc + b_enc.
-/
import proofs.«122723_j46918222742294_1_alg».proof.Proof.Gen.KernelIdeal.Frame
import proofs.«122723_j46918222742294_1_alg».proof.Proof.Spec
import proofs.«122723_j46918222742294_1_alg».proof.Proof.LibLayout
import proofs.«122723_j46918222742294_1_alg».proof.Proof.ChainTac
import proofs.«122723_j46918222742294_1_alg».proof.Proof.Reg0
import Idealize.ShloMosaic.Lib.StableHlo.Run

set_option maxRecDepth 16384

noncomputable section

namespace Cert.KernelIdeal.Pre

open Idealize.ShloMosaic Idealize.ShloMosaic.TcCoe Idealize.ShloMosaic.StableHlo Idealize.SL.Sem Cert.KernelIdeal Cert.KernelIdeal.Gen Cert.KernelIdeal.Chain

section Stretch

variable (W : Valuation τ sig (Elt Ideal))

/-! ### The first stretch: the weighted degree, its positivity mask, its clamped inverse square root -/

theorem c0_v4 : (StableHlo.after hostOps0 W (Proc.devRef .tc main_v4) : Vec Ideal S100000 .i1)
    = cmpf .ogt (Cert.Spec.deg (W (Proc.devRef .tc main_arg1)) (W (Proc.devRef .tc main_arg13))) (broadcastInDim S100000 ![] bcast_S_S100000 (constant (F := Ideal) S_ .f32 0x00000000#32)) := by
  dsimp only [hostOps0]
  after_results <;> rfl

theorem c0_v7 : (StableHlo.after hostOps0 W (Proc.devRef .tc main_v7) : Vec Ideal S100000 .f32)
    = Host.rsqrt (maximumf (Cert.Spec.deg (W (Proc.devRef .tc main_arg1)) (W (Proc.devRef .tc main_arg13))) (broadcastInDim S100000 ![] bcast_S_S100000 (constant (F := Ideal) S_ .f32 0x0DA24260#32))) := by
  dsimp only [hostOps0]
  after_results <;> rfl

theorem c0_cst : (StableHlo.after hostOps0 W (Proc.devRef .tc main_cst_2) : Vec Ideal S_ .f32) = constant (F := Ideal) S_ .f32 0x00000000#32 := by
  dsimp only [hostOps0]
  after_results <;> rfl

/-! ### The second stretch: the inverse square root where the degree is positive, 0 elsewhere -/

theorem c1_v8 : (StableHlo.after hostOps0_1 W (Proc.devRef .tc main_v8) : Vec Ideal S100000 .f32)
    = select (W (Proc.devRef .tc main_v4)) (W (Proc.devRef .tc main_v7)) (broadcastInDim S100000 ![] bcast_S_S100000 (id (W (Proc.devRef .tc main_cst_2)))) := by
  dsimp only [hostOps0_1]
  after_results_simp <;> rfl

/-! ### The third stretch: gathered at both endpoints and multiplied; the edge counts; the encoder's bias row -/

set_option maxHeartbeats 8000000 in
theorem c2_v24 : (StableHlo.after hostOps0_2 W (Proc.devRef .tc main_v24) : Vec Ideal S1600000 .f32)
    = Cert.Spec.normOf (F := Ideal) (W (Proc.devRef .tc main_v8)) (W (Proc.devRef .tc main_arg1)) (W (Proc.devRef .tc main_arg12)) (W (Proc.devRef .tc main_arg13)) := by
  dsimp only [hostOps0_2]
  after_results_simp <;> rfl

set_option maxHeartbeats 8000000 in
/-- The edge counts per destination, at least one, as a column. -/
theorem c2_v31 : (StableHlo.after hostOps0_2 W (Proc.devRef .tc main_v31) : Vec Ideal S100000x1 .f32) = Cert.Spec.cnt (W (Proc.devRef .tc main_arg13)) := by
  dsimp only [hostOps0_2]
  after_results_simp <;> rfl

set_option maxHeartbeats 8000000 in
/-- The encoder's bias as a one-row matrix. -/
theorem c2_v32 : (StableHlo.after hostOps0_2 W (Proc.devRef .tc main_v32) : Vec Ideal S1x64 .f32) = shapeCast S1x64 (W (Proc.devRef .tc main_arg3)) shapeCasts_S64_S1x64 := by
  dsimp only [hostOps0_2]
  after_results_simp <;> rfl

/-! ### What the three stretches leave alone -/

set_option maxHeartbeats 8000000 in
/-- The opening stretches write no argument. -/
theorem keep : ∀ b ∈ ([main_arg1, main_arg3, main_arg0, main_arg2, main_arg4, main_arg5, main_arg6, main_arg7, main_arg8, main_arg9, main_arg10, main_arg11, main_arg12, main_arg13] : List (Ref sig .tc)),
    StableHlo.after hostOps0_2 (StableHlo.after hostOps0_1 (StableHlo.after hostOps0 W)) (Proc.devRef .tc b) = W (Proc.devRef .tc b) := by
  intro b hb
  simp only [List.mem_cons, List.mem_nil_iff, or_false] at hb
  rcases hb with rfl | rfl | rfl | rfl | rfl | rfl | rfl | rfl | rfl | rfl | rfl | rfl | rfl | rfl <;>
    exact ((by host_keeps hostOps0_2 : StableHlo.after hostOps0_2 _ _ = _).trans (by host_keeps hostOps0_1 : StableHlo.after hostOps0_1 _ _ = _)).trans (by host_keeps hostOps0)

theorem k01 (b : Ref sig .tc) (hb : b ∈ ([main_arg1, main_arg12, main_arg13] : List (Ref sig .tc))) :
    StableHlo.after hostOps0_1 (StableHlo.after hostOps0 W) (Proc.devRef .tc b) = W (Proc.devRef .tc b) := by
  simp only [List.mem_cons, List.mem_nil_iff, or_false] at hb
  rcases hb with rfl | rfl | rfl <;>
    exact (by host_keeps hostOps0_1 : StableHlo.after hostOps0_1 _ _ = _).trans (by host_keeps hostOps0)

theorem k1_v4 : StableHlo.after hostOps0_1 W (Proc.devRef .tc main_v4) = W (Proc.devRef .tc main_v4) := by host_keeps hostOps0_1
theorem k1_v7 : StableHlo.after hostOps0_1 W (Proc.devRef .tc main_v7) = W (Proc.devRef .tc main_v7) := by host_keeps hostOps0_1

/-- The edge normalisation dinv[row] · w · dinv[col]. -/
theorem v24 : (StableHlo.after hostOps0_2 (StableHlo.after hostOps0_1 (StableHlo.after hostOps0 W)) (Proc.devRef .tc main_v24) : Vec Ideal S1600000 .f32)
    = Cert.Spec.norm (W (Proc.devRef .tc main_arg1)) (W (Proc.devRef .tc main_arg12)) (W (Proc.devRef .tc main_arg13)) := by
  rw [c2_v24, c1_v8, c0_v4, c0_v7, c0_cst, k01 W main_arg1 (by simp), k01 W main_arg12 (by simp), k01 W main_arg13 (by simp), Cert.Spec.norm_eq]
  rfl

/-- The edge counts per destination, at least one, as a column. -/
theorem v31 : (StableHlo.after hostOps0_2 (StableHlo.after hostOps0_1 (StableHlo.after hostOps0 W)) (Proc.devRef .tc main_v31) : Vec Ideal S100000x1 .f32) = Cert.Spec.cnt (W (Proc.devRef .tc main_arg13)) := by
  rw [c2_v31, k01 W main_arg13 (by simp)]

/-- The encoder's bias as a one-row matrix. -/
theorem v32 : (StableHlo.after hostOps0_2 (StableHlo.after hostOps0_1 (StableHlo.after hostOps0 W)) (Proc.devRef .tc main_v32) : Vec Ideal S1x64 .f32) = shapeCast S1x64 (W (Proc.devRef .tc main_arg3)) shapeCasts_S64_S1x64 := by
  rw [c2_v32]
  exact congrArg (fun x => shapeCast S1x64 x shapeCasts_S64_S1x64)
    ((by host_keeps hostOps0_1 : StableHlo.after hostOps0_1 _ (Proc.devRef .tc main_arg3) = _).trans (by host_keeps hostOps0))

end Stretch

variable (m : (ℓ : Loc nD τ sig) → Buf (Elt Ideal) ℓ) (ρ : Dev nD → PrngReg) (c : Dev nD)

set_option maxHeartbeats 4000000 in
/-- Region 0 writes only the encoder's output. -/
theorem r0_keep : ∀ b ∈ ([main_arg4, main_arg5, main_arg6, main_arg7, main_arg8, main_arg9, main_arg10, main_arg11, main_arg12, main_arg13, main_v24, main_v31] : List (Ref sig .tc)), W4 m ρ c (Proc.devRef .tc b) = W3 m ρ c (Proc.devRef .tc b) := by
  intro b hb
  simp only [List.mem_cons, List.mem_nil_iff, or_false] at hb
  rcases hb with rfl | rfl | rfl | rfl | rfl | rfl | rfl | rfl | rfl | rfl | rfl | rfl <;> exact W4_of_ne m ρ c _ (by decide)

/-- After region 0 the encoder's output holds x · W_enc + b_enc. -/
theorem h0 : (W4 m ρ c (Proc.devRef .tc main_v33) : Vec Ideal S100000x64 .f32)
    = Cert.Spec.enc (m ((c : Thread nD τ).loc main_arg0)) (m ((c : Thread nD τ).loc main_arg2)) (m ((c : Thread nD τ).loc main_arg3)) := by
  refine ((W4_arr m ρ c 3).trans (Cert.KernelIdeal.Reg0.arr_eq (V3 m ρ) c)).trans ?_
  show Cert.Spec.linb0 (W3 m ρ c (Proc.devRef .tc main_arg0)) (W3 m ρ c (Proc.devRef .tc main_arg2)) (W3 m ρ c (Proc.devRef .tc main_v32)) = _
  rw [show W3 m ρ c (Proc.devRef .tc main_arg0) = m ((c : Thread nD τ).loc main_arg0) from keep (W0 m ρ c) main_arg0 (by simp),
    show W3 m ρ c (Proc.devRef .tc main_arg2) = m ((c : Thread nD τ).loc main_arg2) from keep (W0 m ρ c) main_arg2 (by simp),
    show (W3 m ρ c (Proc.devRef .tc main_v32) : Vec Ideal S1x64 .f32) = shapeCast S1x64 (m ((c : Thread nD τ).loc main_arg3)) shapeCasts_S64_S1x64 from v32 (W0 m ρ c),
    Cert.LibLayout.shapeCast_eq_broadcastInDim_row _ _ Cert.ReferenceIdeal.Gen.bcast_S64_S1x64_1]
  rfl

/-- After region 0: the edge normalisation. -/
theorem nrm4 : (W4 m ρ c (Proc.devRef .tc main_v24) : Vec Ideal S1600000 .f32)
    = Cert.Spec.norm (m ((c : Thread nD τ).loc main_arg1)) (m ((c : Thread nD τ).loc main_arg12)) (m ((c : Thread nD τ).loc main_arg13)) :=
  (r0_keep m ρ c main_v24 (by simp)).trans (v24 (W0 m ρ c))

/-- After region 0: the edge counts. -/
theorem cnt4 : (W4 m ρ c (Proc.devRef .tc main_v31) : Vec Ideal S100000x1 .f32) = Cert.Spec.cnt (m ((c : Thread nD τ).loc main_arg13)) :=
  (r0_keep m ρ c main_v31 (by simp)).trans (v31 (W0 m ρ c))

/-- After region 0 every argument read later is as launched. -/
theorem arg4 : ∀ b ∈ ([main_arg4, main_arg5, main_arg6, main_arg7, main_arg8, main_arg9, main_arg10, main_arg11, main_arg12, main_arg13] : List (Ref sig .tc)), W4 m ρ c (Proc.devRef .tc b) = m ((c : Thread nD τ).loc b) := by
  intro b hb
  have h1 := r0_keep m ρ c b (by simp only [List.mem_cons, List.mem_nil_iff, or_false] at hb ⊢; tauto)
  have h0 := keep (W0 m ρ c) b (by simp only [List.mem_cons, List.mem_nil_iff, or_false] at hb ⊢; tauto)
  exact h1.trans h0

end Cert.KernelIdeal.Pre

end
-- ==== Proof.Reg1.lean ====
/- The array region 1 leaves, as one function of the arrays it finds. -/
import proofs.«122723_j46918222742294_1_alg».proof.Proof.Gen.KernelIdeal.Frame
import proofs.«122723_j46918222742294_1_alg».proof.Proof.Spec
import proofs.«122723_j46918222742294_1_alg».proof.Proof.LibPlainDot
import Idealize.ShloMosaic.Lib.Pipeline.Value
import Idealize.ShloMosaic.Lib.ValueLayout

set_option maxRecDepth 16384

noncomputable section

namespace Cert.KernelIdeal.Reg1

open Idealize.ShloMosaic Idealize.ShloMosaic.TcCoe Idealize.ShloMosaic.ValueIdx Idealize.SL.Sem Cert.KernelIdeal Cert.KernelIdeal.Gen
open Idealize.ShloMosaic.Pipeline (Dat)

/-! ## The body's arithmetic and the host form, entry by entry -/

/-- The body's value at row `p`, column `q` of a block: row `p` of the block against column `q` of the weights,
    plus the bias' entry `q`. -/
theorem pay_apply (x0 : Vec Ideal S10000x64 .f32) (x1 : Vec Ideal S64x64 .f32) (x2 : Vec Ideal S1x64 .f32) (p : Fin 10000) (q : Fin 64) :
    k1_pay1 (F := Ideal) x0 x1 x2 (ix2 p q) = (∑ k : Fin 64, x0 (ix2 p k) * x1 (ix2 k q)) + x2 (ix2 (0 : Fin 1) q) := by
  unfold k1_pay1
  simp only [shapeCast_self]
  refine (addf_apply _ _ _).trans ?_
  refine congr (congrArg HAdd.hAdd ?_) ?_
  · exact Cert.LibPlainDot.matmul_plain 10000 64 64 none x0 x1 (ix2 p q)
  · exact broadcastTo_1b_ab_apply x2 _ p q

/-- The host form h · W + b at row `r`, column `q`: the same sum over the whole array's row `r`. -/
theorem linb_apply (h : Vec Ideal S100000x64 .f32) (W : Vec Ideal S64x64 .f32) (b : Vec Ideal S1x64 .f32) (r : Fin 100000) (q : Fin 64) :
    Cert.Spec.linb (F := Ideal) h W b (ix2 r q) = (∑ k : Fin 64, h (ix2 r k) * W (ix2 k q)) + b (ix2 (0 : Fin 1) q) := by
  unfold Cert.Spec.linb Cert.Spec.lin
  refine (addf_apply _ _ _).trans ?_
  refine congr (congrArg HAdd.hAdd ?_) ?_
  · exact Cert.LibPlainDot.dotGeneral_plain 100000 64 64 none h W (ix2 r q)
  · refine broadcastInDim_apply _ _ b (ix2 r q) (ix2 (0 : Fin 1) q) fun a => ?_
    match a with
    | ⟨0, _⟩ => rfl
    | ⟨1, _⟩ => rfl

/-- A block whose row `p` is the array's row `r`, with the whole weights and bias, gives at (p, q) what the host form
    gives at (r, q). -/
theorem point (x0 : Vec Ideal S10000x64 .f32) (x1 : Vec Ideal S64x64 .f32) (x2 : Vec Ideal S1x64 .f32)
    (h : Vec Ideal S100000x64 .f32) (W : Vec Ideal S64x64 .f32) (b : Vec Ideal S1x64 .f32)
    (p : Fin 10000) (q : Fin 64) (r : Fin 100000) (h0 : ∀ k : Fin 64, x0 (ix2 p k) = h (ix2 r k)) (h1 : x1 = W) (h2 : x2 = b) :
    k1_pay1 (F := Ideal) x0 x1 x2 (ix2 p q) = Cert.Spec.linb (F := Ideal) h W b (ix2 r q) := by
  subst h1 h2
  rw [pay_apply, linb_apply]
  exact congrArg (· + x2 (ix2 (0 : Fin 1) q)) (Finset.sum_congr rfl fun k _ => congrArg (· * x1 (ix2 k q)) (h0 k))

/-! ## From blocks to the array -/

theorem zero_off : (![0, 0] : Fin 2 → Nat) = fun _ => 0 := funext fun a => by fin_cases a <;> rfl

/-- The index maps over the grid: the row-blocked operand and the result sit at block row `t`, column block 0; the
    weights and the bias are whole at every point. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` (rows 10000·t … 10000·t + 9999) of the host form of the arrays the region finds. -/
theorem flushed_eq (V : (c : Dev nD) → (b : Ref sig .tc) → Buf (Elt Ideal) ((c : Thread nD τ).loc b)) (c : Dev nD) (t : Fin cfg1.N) :
    (dat1 (F := Ideal) V c).flushed 3 t
      = ((cfg1.win 3).blk t).view.read (Elt Ideal) (Cert.Spec.linb (F := Ideal) (V c main_v33) (V c main_v36) (V c main_v39)) := by
  show (cfg1.win 3).cut (grid1.coords t) ((dat1 V c).after 3 t) = _
  rw [after1_3]
  unfold out1_3
  rw [View.canon_unit_zero zero_off]
  simp only [View.ld_unit_zero (S := S10000x64) zero_off, View.ld_unit_zero (S := S64x64) zero_off, View.ld_unit_zero (S := S1x64) zero_off]
  obtain ⟨e00, e01, e10, e11, e20, e21, e30, e31⟩ := idx_facts t
  have hN : cfg1.N = 10 := N_1
  have ht : t.val < 10 := by have := t.isLt; omega
  funext j
  have hj0 : (j 0).val < 10000 := (j 0).isLt
  have hj1 : (j 1).val < 64 := (j 1).isLt
  show k1_pay1 (iblk1 V c 0 t) (iblk1 V c 1 t) (iblk1 V c 2 t) ((cfg1.win 3).xinj (grid1.coords t) j)
    = Cert.Spec.linb (F := Ideal) (V c main_v33) (V c main_v36) (V c main_v39) (((cfg1.win 3).blk t).view.emb j)
  have hl : (cfg1.win 3).xinj (grid1.coords t) j = ix2 (⟨(j 0).val, hj0⟩ : Fin 10000) (⟨(j 1).val, hj1⟩ : Fin 64) :=
    funext fun a => match a with | ⟨0, _⟩ => rfl | ⟨1, _⟩ => rfl
  have hr : ((cfg1.win 3).blk t).view.emb j = ix2 (⟨t.val * 10000 + (j 0).val, by omega⟩ : Fin 100000) (⟨(j 1).val, hj1⟩ : Fin 64) := by
    funext a; apply Fin.ext
    match a with
    | ⟨0, _⟩ => show win1_3.index t (0 : Fin 2) * 10000 + 1 * (j 0).val = t.val * 10000 + (j 0).val; omega
    | ⟨1, _⟩ => show win1_3.index t (1 : Fin 2) * 64 + 1 * (j 1).val = (j 1).val; omega
  rw [hl, hr]
  refine point (iblk1 V c 0 t) (iblk1 V c 1 t) (iblk1 V c 2 t) (V c main_v33) (V c main_v36) (V c main_v39)
    ⟨(j 0).val, hj0⟩ ⟨(j 1).val, hj1⟩ ⟨t.val * 10000 + (j 0).val, by omega⟩ ?_ ?_ ?_
  · intro k
    show V c main_v33 (((cfg1.win 0).blk t).view.emb (ix2 (⟨(j 0).val, hj0⟩ : Fin 10000) k)) = V c main_v33 _
    refine congrArg (V c main_v33) (funext fun a => Fin.ext ?_)
    match a with
    | ⟨0, _⟩ => show win1_0.index t (0 : Fin 2) * 10000 + 1 * (j 0).val = t.val * 10000 + (j 0).val; omega
    | ⟨1, _⟩ => show win1_0.index t (1 : Fin 2) * 64 + 1 * k.val = k.val; omega
  · funext y
    show V c main_v36 (((cfg1.win 1).blk t).view.emb y) = V c main_v36 y
    refine congrArg (V c main_v36) (funext fun a => Fin.ext ?_)
    match a with
    | ⟨0, _⟩ => show win1_1.index t (0 : Fin 2) * 64 + 1 * (y 0).val = (y 0).val; omega
    | ⟨1, _⟩ => show win1_1.index t (1 : Fin 2) * 64 + 1 * (y 1).val = (y 1).val; omega
  · funext y
    show V c main_v39 (((cfg1.win 2).blk t).view.emb y) = V c main_v39 y
    refine congrArg (V c main_v39) (funext fun a => Fin.ext ?_)
    match a with
    | ⟨0, _⟩ => show win1_2.index t (0 : Fin 2) * 1 + 1 * (y 0).val = (y 0).val; omega
    | ⟨1, _⟩ => show win1_2.index t (1 : Fin 2) * 64 + 1 * (y 1).val = (y 1).val; omega

/-- An index of the array is in point `t`'s block iff each coordinate is in the block's range on its axis. -/
theorem mem_blk (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v40).slice (win1_3.rect t)).set ↔ _
  rw [View.set_slice_whole, Rect.mem_set_unit]
  exact Iff.rfl

/-- Every row `r` of the array is in the block of the point `r / 10000`. -/
theorem cover (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ : ∃ t : Fin cfg1.N, t.val = (i 0).val / 10000 := ⟨⟨(i 0).val / 10000, by rw [show cfg1.N = 10 from N_1]; omega⟩, rfl⟩
  obtain ⟨-, -, -, -, -, -, e30, e31⟩ := idx_facts t
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 64 ≤ (i 1).val ∧ (i 1).val < win1_3.index t (1 : Fin 2) * 64 + 64; omega

theorem arr_eq (V : (c : Dev nD) → (b : Ref sig .tc) → Buf (Elt Ideal) ((c : Thread nD τ).loc b)) (c : Dev nD) :
    ((dat1 (F := Ideal) V c).arrAt 3 cfg1.N : Vec Ideal S100000x64 .f32)
      = Cert.Spec.linb (V c main_v33) (V c main_v36) (V c main_v39) :=
  (dat1 V c).arrAt_eq_of_cover 3 (Cert.Spec.linb (F := Ideal) (V c main_v33) (V c main_v36) (V c main_v39)) (fun t _ => flushed_eq V c t) cover

end Cert.KernelIdeal.Reg1

end
-- ==== Proof.Reg2.lean ====
/- The array region 2 leaves, as one function of the arrays it finds. -/
import proofs.«122723_j46918222742294_1_alg».proof.Proof.Gen.KernelIdeal.Frame
import proofs.«122723_j46918222742294_1_alg».proof.Proof.Spec
import proofs.«122723_j46918222742294_1_alg».proof.Proof.LibPlainDot
import Idealize.ShloMosaic.Lib.Pipeline.Value
import Idealize.ShloMosaic.Lib.ValueLayout

noncomputable section

namespace Cert.KernelIdeal.Reg2

open Idealize.ShloMosaic Idealize.ShloMosaic.TcCoe Idealize.ShloMosaic.ValueIdx Idealize.SL.Sem Cert.KernelIdeal Cert.KernelIdeal.Gen
open Idealize.ShloMosaic.Pipeline (Dat)

/-- The zero offset of a whole-buffer access, as a function. -/
theorem zero_off : (![0, 0] : Fin 2 → Nat) = fun _ => 0 := funext fun a => by fin_cases a <;> rfl

/-- A column `[a, 1]` broadcast to `[a, b]` reads, at `(p, c)`, the column's entry in row `p`. -/
theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` laid on both axes of `[a, b]` reads, at `(p, c)`, the column's entry in row `p`. -/
theorem broadcastInDim_col_apply {α : Type} {a b : ℕ} (h : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- One row `[1, b]` laid on both axes of `[a, b]` reads, at `(p, c)`, the row's entry in column `c`. -/
theorem broadcastInDim_row_apply {α : Type} {a b : ℕ} (h : (⟨2, ![1, b]⟩ : Shape).BroadcastsInDim ⟨2, ![a, b]⟩ ![0, 1])
    (v : (⟨2, ![1, b]⟩ : Shape).Idx → α) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The body's value at row `p`, column `q` of a block: max(s / cnt + bias, 0) with the count taken from the
    block's column at row `p` and the bias from the one row at column `q`. -/
theorem pay_apply (x0 : Vec Ideal S10000x64 .f32) (x1 : Vec Ideal S10000x1 .f32) (x2 : Vec Ideal S1x64 .f32)
    (p : Fin 10000) (q : Fin 64) :
    k2_pay1 x0 x1 x2 (ix2 p q)
      = max (Ideal.div (x0 (ix2 p q)) (x1 (ix2 p (0 : Fin 1))) + x2 (ix2 (0 : Fin 1) q)) (Ideal.ofBits .f32 0x00000000#32) := by
  unfold k2_pay1
  simp only [shapeCast_self]
  rw [maximumf_apply, addf_apply, divf_apply, broadcast_apply, broadcastTo_col_apply, broadcastTo_1b_ab_apply]
  rfl

/-- The host form at row `r`, column `q` of the whole array: the same expression of the whole operands. -/
theorem host_apply (s : Vec Ideal S100000x64 .f32) (cn : Vec Ideal S100000x1 .f32) (b2 : Vec Ideal S1x64 .f32)
    (r : Fin 100000) (q : Fin 64) :
    Cert.Spec.actb s cn b2 (ix2 r q)
      = max (Ideal.div (s (ix2 r q)) (cn (ix2 r (0 : Fin 1))) + b2 (ix2 (0 : Fin 1) q)) (Ideal.ofBits .f32 0x00000000#32) := by
  unfold Cert.Spec.actb
  rw [maximumf_apply, addf_apply, broadcastInDim_row_apply]
  show max (Ideal.div (s (ix2 r q)) (broadcastInDim _ ![0, 1] _ cn (ix2 r q)) + _) _ = _
  rw [broadcastInDim_col_apply]
  rfl

/-- A block entry and an array entry agree as soon as the three operands they read agree. -/
theorem point_eq (x0 : Vec Ideal S10000x64 .f32) (x1 : Vec Ideal S10000x1 .f32) (x2 : Vec Ideal S1x64 .f32)
    (s : Vec Ideal S100000x64 .f32) (cn : Vec Ideal S100000x1 .f32) (b2 : Vec Ideal S1x64 .f32)
    (p : Fin 10000) (q : Fin 64) (i : S100000x64.Idx)
    (h0 : x0 (ix2 p q) = s i) (h1 : x1 (ix2 p (0 : Fin 1)) = cn (ix2 (i 0) (0 : Fin 1)))
    (h2 : x2 (ix2 (0 : Fin 1) q) = b2 (ix2 (0 : Fin 1) (i 1))) :
    k2_pay1 x0 x1 x2 (ix2 p q) = Cert.Spec.actb s cn b2 i := by
  obtain ⟨r, q', rfl⟩ : ∃ (r : Fin 100000) (q' : Fin 64), i = ix2 r q' := ⟨i 0, i 1, eq_ix2 i⟩
  rw [pay_apply, host_apply, h0, h1, h2]

/-- The windows' block indices over the grid: the three row-blocked windows sit at block row `t`, the bias window at
    its only block. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point `t` writes back is block `t` of the host form of the arrays the region finds. -/
theorem flushed_eq (V : (c : Dev nD) → (b : Ref sig .tc) → Buf (Elt Ideal) ((c : Thread nD τ).loc b)) (c : Dev nD)
    (t : Fin cfg2.N) :
    (dat2 (F := Ideal) V c).flushed 3 t
      = ((cfg2.win 3).blk t).view.read (Elt Ideal) (Cert.Spec.actb (V c main_v53) (V c main_v31) (V c main_v54)) := by
  show (cfg2.win 3).cut (grid2.coords t) ((dat2 V c).after 3 t) = _
  rw [after2_3]
  unfold out2_3
  rw [View.canon_unit_zero zero_off]
  simp only [View.ld_unit_zero (S := S10000x64) zero_off, View.ld_unit_zero (S := S10000x1) zero_off,
    View.ld_unit_zero (S := S1x64) zero_off]
  obtain ⟨e00, e01, e10, e11, e20, e21, e30, e31⟩ := idx_facts t
  funext j
  obtain ⟨p, q, rfl⟩ : ∃ (p : Fin 10000) (q : Fin 64), j = ix2 p q := ⟨j 0, j 1, eq_ix2 j⟩
  refine point_eq (iblk2 V c 0 t) (iblk2 V c 1 t) (iblk2 V c 2 t) (V c main_v53) (V c main_v31) (V c main_v54) p q
    (((cfg2.win 3).blk t).view.emb (ix2 p q)) ?_ ?_ ?_
  · show V c main_v53 (((cfg2.win 0).blk t).view.emb (ix2 p q)) = V c main_v53 (((cfg2.win 3).blk t).view.emb (ix2 p q))
    refine congrArg _ (funext fun a => Fin.ext ?_)
    match a with
    | ⟨0, _⟩ => show win2_0.index t (0 : Fin 2) * 10000 + 1 * p.val = win2_3.index t (0 : Fin 2) * 10000 + 1 * p.val; omega
    | ⟨1, _⟩ => show win2_0.index t (1 : Fin 2) * 64 + 1 * q.val = win2_3.index t (1 : Fin 2) * 64 + 1 * q.val; omega
  · show V c main_v31 (((cfg2.win 1).blk t).view.emb (ix2 p (0 : Fin 1))) = V c main_v31 (ix2 ((((cfg2.win 3).blk t).view.emb (ix2 p q)) 0) (0 : Fin 1))
    refine congrArg _ (funext fun a => Fin.ext ?_)
    match a with
    | ⟨0, _⟩ => show win2_1.index t (0 : Fin 2) * 10000 + 1 * p.val = win2_3.index t (0 : Fin 2) * 10000 + 1 * p.val; omega
    | ⟨1, _⟩ => show win2_1.index t (1 : Fin 2) * 1 + 1 * 0 = 0; omega
  · show V c main_v54 (((cfg2.win 2).blk t).view.emb (ix2 (0 : Fin 1) q)) = V c main_v54 (ix2 (0 : Fin 1) ((((cfg2.win 3).blk t).view.emb (ix2 p q)) 1))
    refine congrArg _ (funext fun a => Fin.ext ?_)
    match a with
    | ⟨0, _⟩ => show win2_2.index t (0 : Fin 2) * 1 + 1 * 0 = 0; omega
    | ⟨1, _⟩ => show win2_2.index t (1 : Fin 2) * 64 + 1 * q.val = win2_3.index t (1 : Fin 2) * 64 + 1 * q.val; omega

/-- An index of the array is in point `t`'s block iff each coordinate is in the block's range on its axis. -/
theorem mem_blk (t : Fin cfg2.N) (i : S100000x64.Idx) :
    i ∈ ((cfg2.win 3).blk t).view.set ↔ ∀ a : Fin 2, win2_3.index t a * S10000x64.size a ≤ (i a).val
      ∧ (i a).val < win2_3.index t a * S10000x64.size a + S10000x64.size a := by
  show i ∈ ((View.whole main_v55).slice (win2_3.rect t)).set ↔ _
  rw [View.set_slice_whole, Rect.mem_set_unit]
  exact Iff.rfl

/-- Every row lies in a written block: row `r` in the block of point `r / 10000`. -/
theorem cover (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have hN : cfg2.N = 10 := N_2
  obtain ⟨t, ht⟩ : ∃ t : Fin cfg2.N, t.val = (i 0).val / 10000 := ⟨⟨(i 0).val / 10000, by rw [hN]; omega⟩, rfl⟩
  obtain ⟨-, -, -, -, -, -, e30, e31⟩ := idx_facts t
  refine ⟨t, flush2_3 t, ?_⟩
  rw [mem_blk]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 64 ≤ (i 1).val ∧ (i 1).val < win2_3.index t (1 : Fin 2) * 64 + 64; omega

theorem arr_eq (V : (c : Dev nD) → (b : Ref sig .tc) → Buf (Elt Ideal) ((c : Thread nD τ).loc b)) (c : Dev nD) :
    ((dat2 (F := Ideal) V c).arrAt 3 cfg2.N : Vec Ideal S100000x64 .f32)
      = Cert.Spec.actb (V c main_v53) (V c main_v31) (V c main_v54) :=
  (dat2 V c).arrAt_eq_of_cover 3 (Cert.Spec.actb (V c main_v53) (V c main_v31) (V c main_v54)) (fun t _ => flushed_eq V c t) cover

end Cert.KernelIdeal.Reg2

end
-- ==== Proof.Layer1.lean ====
/-
  Graph-convolution layer 1 of the kernel program: from the node features found in buffer main_v33 to those left in
  main_v55. Two host stretches (slicing the layer's weight matrix and bias out of the stacked parameters; gathering the
  transformed rows by edge, scaling by the edge normalisation and summing by destination) alternate with two regions
  (h · W with a zero bias; mean, bias, rectifier). With the zero bias dropped (x + 0 = x) and the one-row bias written
  as a broadcast, the buffer ends holding the specification's layer function of what the layer found.
-/
import proofs.«122723_j46918222742294_1_alg».proof.Proof.Gen.KernelIdeal.Frame
import proofs.«122723_j46918222742294_1_alg».proof.Proof.Spec
import proofs.«122723_j46918222742294_1_alg».proof.Proof.LibLayout
import proofs.«122723_j46918222742294_1_alg».proof.Proof.ChainTac
import proofs.«122723_j46918222742294_1_alg».proof.Proof.Reg1
import proofs.«122723_j46918222742294_1_alg».proof.Proof.Reg2
import Idealize.ShloMosaic.Lib.StableHlo.Run

set_option maxRecDepth 16384

noncomputable section

namespace Cert.KernelIdeal.Layer1

open Idealize.ShloMosaic Idealize.ShloMosaic.TcCoe Idealize.ShloMosaic.StableHlo Idealize.SL.Sem Cert.KernelIdeal Cert.KernelIdeal.Gen Cert.KernelIdeal.Chain
open Cert.LibLayout (IsZero)

/-- The buffers carried unchanged through the layer: the arguments read later, the edge normalisation. -/
abbrev carried : List (Ref sig .tc) := [main_arg4, main_arg5, main_arg6, main_arg7, main_arg8, main_arg9, main_arg10, main_arg11, main_arg12, main_arg13, main_v24]

/-! ## The two host stretches, for any contents `W` of the buffers -/

section Stretch

variable (W : Valuation τ sig (Elt Ideal))

/-- The layer's weight matrix, cut from the stacked weights. -/
theorem hA_wslice : (StableHlo.after hostOps1 W (Proc.devRef .tc main_v36) : Vec Ideal S64x64 .f32) = Cert.Spec.W0 (W (Proc.devRef .tc main_arg4)) := by
  dsimp only [hostOps1]
  after_results <;> rfl

/-- The layer's bias, cut from the stacked biases. -/
theorem hA_bslice : (StableHlo.after hostOps1 W (Proc.devRef .tc main_v38) : Vec Ideal S64 .f32) = Cert.Spec.B0 (W (Proc.devRef .tc main_arg5)) := by
  dsimp only [hostOps1]
  after_results <;> rfl

/-- The zero bias of the dense transform is created here: 0 everywhere. -/
theorem hA_v34 : IsZero (s := S64) (StableHlo.after hostOps1 W (Proc.devRef .tc main_v34)) := by
  have e : (StableHlo.after hostOps1 W (Proc.devRef .tc main_v34) : Vec Ideal S64 .f32) = broadcastInDim S64 ![] bcast_S_S64 (constant (F := Ideal) S_ .f32 0x00000000#32) := by
    dsimp only [hostOps1]
    after_results <;> rfl
  intro j
  rw [e]
  exact Ideal.ofBits_zero_f32

/-- … and made a one-row matrix. -/
theorem hA_zrow : IsZero (s := S1x64) (StableHlo.after hostOps1 W (Proc.devRef .tc main_v39)) := by
  have e : (StableHlo.after hostOps1 W (Proc.devRef .tc main_v39) : Vec Ideal S1x64 .f32) = shapeCast S1x64 (broadcastInDim S64 ![] bcast_S_S64 (constant (F := Ideal) S_ .f32 0x00000000#32)) shapeCasts_S64_S1x64 := by
    dsimp only [hostOps1]
    after_results <;> rfl
  intro j
  rw [e]
  exact Ideal.ofBits_zero_f32

set_option maxHeartbeats 4000000 in
/-- The first stretch writes none of the carried buffers. -/
theorem hA_keep : ∀ b ∈ carried, StableHlo.after hostOps1 W (Proc.devRef .tc b) = W (Proc.devRef .tc b) := by
  intro b hb
  simp only [carried, List.mem_cons, List.mem_nil_iff, or_false] at hb
  rcases hb with rfl | rfl | rfl | rfl | rfl | rfl | rfl | rfl | rfl | rfl | rfl <;> host_keeps hostOps1

/-- … nor the node features it finds, nor the edge counts. -/
theorem hA_hprev : StableHlo.after hostOps1 W (Proc.devRef .tc main_v33) = W (Proc.devRef .tc main_v33) := by host_keeps hostOps1
theorem hA_v31 : StableHlo.after hostOps1 W (Proc.devRef .tc main_v31) = W (Proc.devRef .tc main_v31) := by host_keeps hostOps1

set_option maxHeartbeats 4000000 in
/-- Messages summed at their destination: the transformed rows gathered by edge, scaled, scatter-added by column. -/
theorem hB_s : (StableHlo.after hostOps2 W (Proc.devRef .tc main_v53) : Vec Ideal S100000x64 .f32)
    = Cert.Spec.agg (W (Proc.devRef .tc main_v40)) (W (Proc.devRef .tc main_v24)) (W (Proc.devRef .tc main_arg12)) (W (Proc.devRef .tc main_arg13)) := by
  dsimp only [hostOps2]
  after_results_simp <;> rfl

/-- The layer's bias made a one-row matrix. -/
theorem hB_brow : (StableHlo.after hostOps2 W (Proc.devRef .tc main_v54) : Vec Ideal S1x64 .f32) = shapeCast S1x64 (W (Proc.devRef .tc main_v38)) shapeCasts_S64_S1x64 := by
  dsimp only [hostOps2]
  after_results <;> rfl

set_option maxHeartbeats 4000000 in
/-- The second stretch writes none of the carried buffers. -/
theorem hB_keep : ∀ b ∈ carried, StableHlo.after hostOps2 W (Proc.devRef .tc b) = W (Proc.devRef .tc b) := by
  intro b hb
  simp only [carried, List.mem_cons, List.mem_nil_iff, or_false] at hb
  rcases hb with rfl | rfl | rfl | rfl | rfl | rfl | rfl | rfl | rfl | rfl | rfl <;> host_keeps hostOps2

theorem hB_v31 : StableHlo.after hostOps2 W (Proc.devRef .tc main_v31) = W (Proc.devRef .tc main_v31) := by host_keeps hostOps2
theorem hB_v34 : StableHlo.after hostOps2 W (Proc.devRef .tc main_v34) = W (Proc.devRef .tc main_v34) := by host_keeps hostOps2

end Stretch

/-! ## The two regions leave the carried buffers alone -/

section Regions

variable (m : (ℓ : Loc nD τ sig) → Buf (Elt Ideal) ℓ) (ρ : Dev nD → PrngReg) (c : Dev nD)

set_option maxHeartbeats 4000000 in
theorem rA_keep : ∀ b ∈ carried, W6 m ρ c (Proc.devRef .tc b) = W5 m ρ c (Proc.devRef .tc b) := by
  intro b hb
  simp only [carried, List.mem_cons, List.mem_nil_iff, or_false] at hb
  rcases hb with rfl | rfl | rfl | rfl | rfl | rfl | rfl | rfl | rfl | rfl | rfl <;> exact W6_of_ne m ρ c _ (by decide)

theorem rA_bslice : W6 m ρ c (Proc.devRef .tc main_v38) = W5 m ρ c (Proc.devRef .tc main_v38) := W6_of_ne m ρ c _ (by decide)
theorem rA_v31 : W6 m ρ c (Proc.devRef .tc main_v31) = W5 m ρ c (Proc.devRef .tc main_v31) := W6_of_ne m ρ c _ (by decide)
theorem rA_v34 : W6 m ρ c (Proc.devRef .tc main_v34) = W5 m ρ c (Proc.devRef .tc main_v34) := W6_of_ne m ρ c _ (by decide)
theorem rB_v34 : W8 m ρ c (Proc.devRef .tc main_v34) = W7 m ρ c (Proc.devRef .tc main_v34) := W8_of_ne m ρ c _ (by decide)

set_option maxHeartbeats 4000000 in
theorem rB_keep : ∀ b ∈ carried, W8 m ρ c (Proc.devRef .tc b) = W7 m ρ c (Proc.devRef .tc b) := by
  intro b hb
  simp only [carried, List.mem_cons, List.mem_nil_iff, or_false] at hb
  rcases hb with rfl | rfl | rfl | rfl | rfl | rfl | rfl | rfl | rfl | rfl | rfl <;> exact W8_of_ne m ρ c _ (by decide)

/-- The edge counts are an input window of the second region: read, never written back. -/
theorem rB_v31 : W8 m ρ c (Proc.devRef .tc main_v31) = W7 m ρ c (Proc.devRef .tc main_v31) :=
  (W8_arr m ρ c 1).trans (((dat2 (V7 m ρ) c).arrAt_in 1 rfl _).trans (A_eq2 (V7 m ρ) c 1))

/-- The carried buffers after the layer are as before it. -/
theorem keep (b : Ref sig .tc) (hb : b ∈ carried) : W8 m ρ c (Proc.devRef .tc b) = W4 m ρ c (Proc.devRef .tc b) :=
  (((rB_keep m ρ c b hb).trans (hB_keep (W6 m ρ c) b hb)).trans (rA_keep m ρ c b hb)).trans (hA_keep (W4 m ρ c) b hb)

/-- The edge counts after the layer are as before it. -/
theorem keep31 : W8 m ρ c (Proc.devRef .tc main_v31) = W4 m ρ c (Proc.devRef .tc main_v31) :=
  (((rB_v31 m ρ c).trans (hB_v31 (W6 m ρ c))).trans (rA_v31 m ρ c)).trans (hA_v31 (W4 m ρ c))

/-- The zero bias vector created in this layer is 0 everywhere, and still so after the layer. -/
theorem zero34 : IsZero (s := S64) (W8 m ρ c (Proc.devRef .tc main_v34)) := by
  have h : W8 m ρ c (Proc.devRef .tc main_v34) = W5 m ρ c (Proc.devRef .tc main_v34) :=
    ((rB_v34 m ρ c).trans (hB_v34 (W6 m ρ c))).trans (rA_v34 m ρ c)
  rw [h]
  exact hA_v34 (W4 m ρ c)

/-! ## The layer -/

/-- What the layer leaves in main_v55, from what it finds at its first boundary. -/
theorem layer (H : Vec Ideal S100000x64 .f32) (wa : Vec Ideal S3x64x64 .f32) (ba : Vec Ideal S3x64 .f32)
    (nrm : Vec Ideal S1600000 .f32) (cn : Vec Ideal S100000x1 .f32) (rw cl : Vec Ideal S1600000 .i32)
    (hH : W4 m ρ c (Proc.devRef .tc main_v33) = H) (hwa : W4 m ρ c (Proc.devRef .tc main_arg4) = wa) (hba : W4 m ρ c (Proc.devRef .tc main_arg5) = ba)
    (hn : W4 m ρ c (Proc.devRef .tc main_v24) = nrm) (hc : W4 m ρ c (Proc.devRef .tc main_v31) = cn)
    (hr : W4 m ρ c (Proc.devRef .tc main_arg12) = rw) (hcl : W4 m ρ c (Proc.devRef .tc main_arg13) = cl) :
    (W8 m ρ c (Proc.devRef .tc main_v55) : Vec Ideal S100000x64 .f32)
      = Cert.Spec.layer H (Cert.Spec.W0 wa) (Cert.Spec.B0 ba) nrm cn rw cl := by
  -- what the dense transform finds
  have e_h : W5 m ρ c (Proc.devRef .tc main_v33) = H := (hA_hprev (W4 m ρ c)).trans hH
  have e_w : (W5 m ρ c (Proc.devRef .tc main_v36) : Vec Ideal S64x64 .f32) = Cert.Spec.W0 wa := (hA_wslice (W4 m ρ c)).trans (by rw [hwa])
  have e_z : IsZero (s := S1x64) (W5 m ρ c (Proc.devRef .tc main_v39)) := hA_zrow (W4 m ρ c)
  have e_b : (W5 m ρ c (Proc.devRef .tc main_v38) : Vec Ideal S64 .f32) = Cert.Spec.B0 ba := (hA_bslice (W4 m ρ c)).trans (by rw [hba])
  -- what it leaves: h · W, the zero bias dropped
  have x_hw : (W6 m ρ c (Proc.devRef .tc main_v40) : Vec Ideal S100000x64 .f32) = Cert.Spec.lin H (Cert.Spec.W0 wa) := by
    refine ((W6_arr m ρ c 3).trans (Cert.KernelIdeal.Reg1.arr_eq (V5 m ρ) c)).trans ?_
    show Cert.Spec.linb (W5 m ρ c (Proc.devRef .tc main_v33)) (W5 m ρ c (Proc.devRef .tc main_v36)) (W5 m ρ c (Proc.devRef .tc main_v39)) = _
    rw [e_h, e_w]
    exact Cert.LibLayout.addf_zero _ _ (fun j => e_z _)
  -- the carried buffers at the second stretch
  have k_n : W6 m ρ c (Proc.devRef .tc main_v24) = nrm := ((rA_keep m ρ c main_v24 (by simp)).trans (hA_keep (W4 m ρ c) main_v24 (by simp))).trans hn
  have k_r : W6 m ρ c (Proc.devRef .tc main_arg12) = rw := ((rA_keep m ρ c main_arg12 (by simp)).trans (hA_keep (W4 m ρ c) main_arg12 (by simp))).trans hr
  have k_c : W6 m ρ c (Proc.devRef .tc main_arg13) = cl := ((rA_keep m ρ c main_arg13 (by simp)).trans (hA_keep (W4 m ρ c) main_arg13 (by simp))).trans hcl
  have k_31 : W6 m ρ c (Proc.devRef .tc main_v31) = cn := ((rA_v31 m ρ c).trans (hA_v31 (W4 m ρ c))).trans hc
  have k_b : (W6 m ρ c (Proc.devRef .tc main_v38) : Vec Ideal S64 .f32) = Cert.Spec.B0 ba := (rA_bslice m ρ c).trans e_b
  -- what the second region finds
  have e_s : (W7 m ρ c (Proc.devRef .tc main_v53) : Vec Ideal S100000x64 .f32) = Cert.Spec.agg (Cert.Spec.lin H (Cert.Spec.W0 wa)) nrm rw cl :=
    (hB_s (W6 m ρ c)).trans (by rw [x_hw, k_n, k_r, k_c])
  have e_br : (W7 m ρ c (Proc.devRef .tc main_v54) : Vec Ideal S1x64 .f32) = shapeCast S1x64 (Cert.Spec.B0 ba) shapeCasts_S64_S1x64 :=
    (hB_brow (W6 m ρ c)).trans (by rw [k_b])
  have e_c : W7 m ρ c (Proc.devRef .tc main_v31) = cn := (hB_v31 (W6 m ρ c)).trans k_31
  -- what it leaves
  refine ((W8_arr m ρ c 3).trans (Cert.KernelIdeal.Reg2.arr_eq (V7 m ρ) c)).trans ?_
  show Cert.Spec.actb (W7 m ρ c (Proc.devRef .tc main_v53)) (W7 m ρ c (Proc.devRef .tc main_v31)) (W7 m ρ c (Proc.devRef .tc main_v54)) = _
  rw [e_s, e_c, e_br, Cert.LibLayout.shapeCast_eq_broadcastInDim_row _ _ Cert.ReferenceIdeal.Gen.bcast_S64_S1x64_1]
  rfl

end Regions

end Cert.KernelIdeal.Layer1

end
-- ==== Proof.Reg3.lean ====
/- The array region 3 leaves, as one function of the arrays it finds. -/
import proofs.«122723_j46918222742294_1_alg».proof.Proof.Gen.KernelIdeal.Frame
import proofs.«122723_j46918222742294_1_alg».proof.Proof.Spec
import proofs.«122723_j46918222742294_1_alg».proof.Proof.LibPlainDot
import Idealize.ShloMosaic.Lib.Pipeline.Value
import Idealize.ShloMosaic.Lib.ValueLayout

set_option maxRecDepth 16384

noncomputable section

namespace Cert.KernelIdeal.Reg3

open Idealize.ShloMosaic Idealize.ShloMosaic.TcCoe Idealize.ShloMosaic.ValueIdx Idealize.SL.Sem Cert.KernelIdeal Cert.KernelIdeal.Gen
open Idealize.ShloMosaic.Pipeline (Dat)

/-! ## The body's arithmetic and the host form, entry by entry -/

/-- The body's value at row `p`, column `q` of a block: row `p` of the block against column `q` of the weights,
    plus the bias' entry `q`. -/
theorem pay_apply (x0 : Vec Ideal S10000x64 .f32) (x1 : Vec Ideal S64x64 .f32) (x2 : Vec Ideal S1x64 .f32) (p : Fin 10000) (q : Fin 64) :
    k3_pay1 (F := Ideal) x0 x1 x2 (ix2 p q) = (∑ k : Fin 64, x0 (ix2 p k) * x1 (ix2 k q)) + x2 (ix2 (0 : Fin 1) q) := by
  unfold k3_pay1
  simp only [shapeCast_self]
  refine (addf_apply _ _ _).trans ?_
  refine congr (congrArg HAdd.hAdd ?_) ?_
  · exact Cert.LibPlainDot.matmul_plain 10000 64 64 none x0 x1 (ix2 p q)
  · exact broadcastTo_1b_ab_apply x2 _ p q

/-- The host form h · W + b at row `r`, column `q`: the same sum over the whole array's row `r`. -/
theorem linb_apply (h : Vec Ideal S100000x64 .f32) (W : Vec Ideal S64x64 .f32) (b : Vec Ideal S1x64 .f32) (r : Fin 100000) (q : Fin 64) :
    Cert.Spec.linb (F := Ideal) h W b (ix2 r q) = (∑ k : Fin 64, h (ix2 r k) * W (ix2 k q)) + b (ix2 (0 : Fin 1) q) := by
  unfold Cert.Spec.linb Cert.Spec.lin
  refine (addf_apply _ _ _).trans ?_
  refine congr (congrArg HAdd.hAdd ?_) ?_
  · exact Cert.LibPlainDot.dotGeneral_plain 100000 64 64 none h W (ix2 r q)
  · refine broadcastInDim_apply _ _ b (ix2 r q) (ix2 (0 : Fin 1) q) fun a => ?_
    match a with
    | ⟨0, _⟩ => rfl
    | ⟨1, _⟩ => rfl

/-- A block whose row `p` is the array's row `r`, with the whole weights and bias, gives at (p, q) what the host form
    gives at (r, q). -/
theorem point (x0 : Vec Ideal S10000x64 .f32) (x1 : Vec Ideal S64x64 .f32) (x2 : Vec Ideal S1x64 .f32)
    (h : Vec Ideal S100000x64 .f32) (W : Vec Ideal S64x64 .f32) (b : Vec Ideal S1x64 .f32)
    (p : Fin 10000) (q : Fin 64) (r : Fin 100000) (h0 : ∀ k : Fin 64, x0 (ix2 p k) = h (ix2 r k)) (h1 : x1 = W) (h2 : x2 = b) :
    k3_pay1 (F := Ideal) x0 x1 x2 (ix2 p q) = Cert.Spec.linb (F := Ideal) h W b (ix2 r q) := by
  subst h1 h2
  rw [pay_apply, linb_apply]
  exact congrArg (· + x2 (ix2 (0 : Fin 1) q)) (Finset.sum_congr rfl fun k _ => congrArg (· * x1 (ix2 k q)) (h0 k))

/-! ## From blocks to the array -/

theorem zero_off : (![0, 0] : Fin 2 → Nat) = fun _ => 0 := funext fun a => by fin_cases a <;> rfl

/-- The index maps over the grid: the row-blocked operand and the result sit at block row `t`, column block 0; the
    weights and the bias are whole at every point. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point `t` writes back is block `t` (rows 10000·t … 10000·t + 9999) of the host form of the arrays the region finds. -/
theorem flushed_eq (V : (c : Dev nD) → (b : Ref sig .tc) → Buf (Elt Ideal) ((c : Thread nD τ).loc b)) (c : Dev nD) (t : Fin cfg3.N) :
    (dat3 (F := Ideal) V c).flushed 3 t
      = ((cfg3.win 3).blk t).view.read (Elt Ideal) (Cert.Spec.linb (F := Ideal) (V c main_v55) (V c main_v57) (V c main_v60)) := by
  show (cfg3.win 3).cut (grid3.coords t) ((dat3 V c).after 3 t) = _
  rw [after3_3]
  unfold out3_3
  rw [View.canon_unit_zero zero_off]
  simp only [View.ld_unit_zero (S := S10000x64) zero_off, View.ld_unit_zero (S := S64x64) zero_off, View.ld_unit_zero (S := S1x64) zero_off]
  obtain ⟨e00, e01, e10, e11, e20, e21, e30, e31⟩ := idx_facts t
  have hN : cfg3.N = 10 := N_3
  have ht : t.val < 10 := by have := t.isLt; omega
  funext j
  have hj0 : (j 0).val < 10000 := (j 0).isLt
  have hj1 : (j 1).val < 64 := (j 1).isLt
  show k3_pay1 (iblk3 V c 0 t) (iblk3 V c 1 t) (iblk3 V c 2 t) ((cfg3.win 3).xinj (grid3.coords t) j)
    = Cert.Spec.linb (F := Ideal) (V c main_v55) (V c main_v57) (V c main_v60) (((cfg3.win 3).blk t).view.emb j)
  have hl : (cfg3.win 3).xinj (grid3.coords t) j = ix2 (⟨(j 0).val, hj0⟩ : Fin 10000) (⟨(j 1).val, hj1⟩ : Fin 64) :=
    funext fun a => match a with | ⟨0, _⟩ => rfl | ⟨1, _⟩ => rfl
  have hr : ((cfg3.win 3).blk t).view.emb j = ix2 (⟨t.val * 10000 + (j 0).val, by omega⟩ : Fin 100000) (⟨(j 1).val, hj1⟩ : Fin 64) := by
    funext a; apply Fin.ext
    match a with
    | ⟨0, _⟩ => show win3_3.index t (0 : Fin 2) * 10000 + 1 * (j 0).val = t.val * 10000 + (j 0).val; omega
    | ⟨1, _⟩ => show win3_3.index t (1 : Fin 2) * 64 + 1 * (j 1).val = (j 1).val; omega
  rw [hl, hr]
  refine point (iblk3 V c 0 t) (iblk3 V c 1 t) (iblk3 V c 2 t) (V c main_v55) (V c main_v57) (V c main_v60)
    ⟨(j 0).val, hj0⟩ ⟨(j 1).val, hj1⟩ ⟨t.val * 10000 + (j 0).val, by omega⟩ ?_ ?_ ?_
  · intro k
    show V c main_v55 (((cfg3.win 0).blk t).view.emb (ix2 (⟨(j 0).val, hj0⟩ : Fin 10000) k)) = V c main_v55 _
    refine congrArg (V c main_v55) (funext fun a => Fin.ext ?_)
    match a with
    | ⟨0, _⟩ => show win3_0.index t (0 : Fin 2) * 10000 + 1 * (j 0).val = t.val * 10000 + (j 0).val; omega
    | ⟨1, _⟩ => show win3_0.index t (1 : Fin 2) * 64 + 1 * k.val = k.val; omega
  · funext y
    show V c main_v57 (((cfg3.win 1).blk t).view.emb y) = V c main_v57 y
    refine congrArg (V c main_v57) (funext fun a => Fin.ext ?_)
    match a with
    | ⟨0, _⟩ => show win3_1.index t (0 : Fin 2) * 64 + 1 * (y 0).val = (y 0).val; omega
    | ⟨1, _⟩ => show win3_1.index t (1 : Fin 2) * 64 + 1 * (y 1).val = (y 1).val; omega
  · funext y
    show V c main_v60 (((cfg3.win 2).blk t).view.emb y) = V c main_v60 y
    refine congrArg (V c main_v60) (funext fun a => Fin.ext ?_)
    match a with
    | ⟨0, _⟩ => show win3_2.index t (0 : Fin 2) * 1 + 1 * (y 0).val = (y 0).val; omega
    | ⟨1, _⟩ => show win3_2.index t (1 : Fin 2) * 64 + 1 * (y 1).val = (y 1).val; omega

/-- An index of the array is in point `t`'s block iff each coordinate is in the block's range on its axis. -/
theorem mem_blk (t : Fin cfg3.N) (i : S100000x64.Idx) :
    i ∈ ((cfg3.win 3).blk t).view.set ↔ ∀ a : Fin 2, win3_3.index t a * S10000x64.size a ≤ (i a).val ∧ (i a).val < win3_3.index t a * S10000x64.size a + S10000x64.size a := by
  show i ∈ ((View.whole main_v61).slice (win3_3.rect t)).set ↔ _
  rw [View.set_slice_whole, Rect.mem_set_unit]
  exact Iff.rfl

/-- Every row `r` of the array is in the block of the point `r / 10000`. -/
theorem cover (i : S100000x64.Idx) : ∃ t : Fin cfg3.N, (cfg3.win 3).flush t = true ∧ i ∈ ((cfg3.win 3).blk t).view.set := by
  have hi0 : (i 0).val < 100000 := (i 0).isLt
  have hi1 : (i 1).val < 64 := (i 1).isLt
  obtain ⟨t, ht⟩ : ∃ t : Fin cfg3.N, t.val = (i 0).val / 10000 := ⟨⟨(i 0).val / 10000, by rw [show cfg3.N = 10 from N_3]; omega⟩, rfl⟩
  obtain ⟨-, -, -, -, -, -, e30, e31⟩ := idx_facts t
  refine ⟨t, flush3_3 t, ?_⟩
  rw [mem_blk]
  intro a
  match a with
  | ⟨0, _⟩ => show win3_3.index t (0 : Fin 2) * 10000 ≤ (i 0).val ∧ (i 0).val < win3_3.index t (0 : Fin 2) * 10000 + 10000; omega
  | ⟨1, _⟩ => show win3_3.index t (1 : Fin 2) * 64 ≤ (i 1).val ∧ (i 1).val < win3_3.index t (1 : Fin 2) * 64 + 64; omega

theorem arr_eq (V : (c : Dev nD) → (b : Ref sig .tc) → Buf (Elt Ideal) ((c : Thread nD τ).loc b)) (c : Dev nD) :
    ((dat3 (F := Ideal) V c).arrAt 3 cfg3.N : Vec Ideal S100000x64 .f32)
      = Cert.Spec.linb (V c main_v55) (V c main_v57) (V c main_v60) :=
  (dat3 V c).arrAt_eq_of_cover 3 (Cert.Spec.linb (F := Ideal) (V c main_v55) (V c main_v57) (V c main_v60)) (fun t _ => flushed_eq V c t) cover

end Cert.KernelIdeal.Reg3

end
-- ==== Proof.Reg4.lean ====
/- The array region 4 leaves, as one function of the arrays it finds. -/
import proofs.«122723_j46918222742294_1_alg».proof.Proof.Gen.KernelIdeal.Frame
import proofs.«122723_j46918222742294_1_alg».proof.Proof.Spec
import proofs.«122723_j46918222742294_1_alg».proof.Proof.LibPlainDot
import Idealize.ShloMosaic.Lib.Pipeline.Value
import Idealize.ShloMosaic.Lib.ValueLayout

noncomputable section

namespace Cert.KernelIdeal.Reg4

open Idealize.ShloMosaic Idealize.ShloMosaic.TcCoe Idealize.ShloMosaic.ValueIdx Idealize.SL.Sem Cert.KernelIdeal Cert.KernelIdeal.Gen
open Idealize.ShloMosaic.Pipeline (Dat)

/-- The zero offset of a whole-buffer access, as a function. -/
theorem zero_off : (![0, 0] : Fin 2 → Nat) = fun _ => 0 := funext fun a => by fin_cases a <;> rfl

/-- A column `[a, 1]` broadcast to `[a, b]` reads, at `(p, c)`, the column's entry in row `p`. -/
theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` laid on both axes of `[a, b]` reads, at `(p, c)`, the column's entry in row `p`. -/
theorem broadcastInDim_col_apply {α : Type} {a b : ℕ} (h : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- One row `[1, b]` laid on both axes of `[a, b]` reads, at `(p, c)`, the row's entry in column `c`. -/
theorem broadcastInDim_row_apply {α : Type} {a b : ℕ} (h : (⟨2, ![1, b]⟩ : Shape).BroadcastsInDim ⟨2, ![a, b]⟩ ![0, 1])
    (v : (⟨2, ![1, b]⟩ : Shape).Idx → α) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The body's value at row `p`, column `q` of a block: max(s / cnt + bias, 0) with the count taken from the
    block's column at row `p` and the bias from the one row at column `q`. -/
theorem pay_apply (x0 : Vec Ideal S10000x64 .f32) (x1 : Vec Ideal S10000x1 .f32) (x2 : Vec Ideal S1x64 .f32)
    (p : Fin 10000) (q : Fin 64) :
    k4_pay1 x0 x1 x2 (ix2 p q)
      = max (Ideal.div (x0 (ix2 p q)) (x1 (ix2 p (0 : Fin 1))) + x2 (ix2 (0 : Fin 1) q)) (Ideal.ofBits .f32 0x00000000#32) := by
  unfold k4_pay1
  simp only [shapeCast_self]
  rw [maximumf_apply, addf_apply, divf_apply, broadcast_apply, broadcastTo_col_apply, broadcastTo_1b_ab_apply]
  rfl

/-- The host form at row `r`, column `q` of the whole array: the same expression of the whole operands. -/
theorem host_apply (s : Vec Ideal S100000x64 .f32) (cn : Vec Ideal S100000x1 .f32) (b2 : Vec Ideal S1x64 .f32)
    (r : Fin 100000) (q : Fin 64) :
    Cert.Spec.actb s cn b2 (ix2 r q)
      = max (Ideal.div (s (ix2 r q)) (cn (ix2 r (0 : Fin 1))) + b2 (ix2 (0 : Fin 1) q)) (Ideal.ofBits .f32 0x00000000#32) := by
  unfold Cert.Spec.actb
  rw [maximumf_apply, addf_apply, broadcastInDim_row_apply]
  show max (Ideal.div (s (ix2 r q)) (broadcastInDim _ ![0, 1] _ cn (ix2 r q)) + _) _ = _
  rw [broadcastInDim_col_apply]
  rfl

/-- A block entry and an array entry agree as soon as the three operands they read agree. -/
theorem point_eq (x0 : Vec Ideal S10000x64 .f32) (x1 : Vec Ideal S10000x1 .f32) (x2 : Vec Ideal S1x64 .f32)
    (s : Vec Ideal S100000x64 .f32) (cn : Vec Ideal S100000x1 .f32) (b2 : Vec Ideal S1x64 .f32)
    (p : Fin 10000) (q : Fin 64) (i : S100000x64.Idx)
    (h0 : x0 (ix2 p q) = s i) (h1 : x1 (ix2 p (0 : Fin 1)) = cn (ix2 (i 0) (0 : Fin 1)))
    (h2 : x2 (ix2 (0 : Fin 1) q) = b2 (ix2 (0 : Fin 1) (i 1))) :
    k4_pay1 x0 x1 x2 (ix2 p q) = Cert.Spec.actb s cn b2 i := by
  obtain ⟨r, q', rfl⟩ : ∃ (r : Fin 100000) (q' : Fin 64), i = ix2 r q' := ⟨i 0, i 1, eq_ix2 i⟩
  rw [pay_apply, host_apply, h0, h1, h2]

/-- The windows' block indices over the grid: the three row-blocked windows sit at block row `t`, the bias window at
    its only block. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- What point `t` writes back is block `t` of the host form of the arrays the region finds. -/
theorem flushed_eq (V : (c : Dev nD) → (b : Ref sig .tc) → Buf (Elt Ideal) ((c : Thread nD τ).loc b)) (c : Dev nD)
    (t : Fin cfg4.N) :
    (dat4 (F := Ideal) V c).flushed 3 t
      = ((cfg4.win 3).blk t).view.read (Elt Ideal) (Cert.Spec.actb (V c main_v74) (V c main_v31) (V c main_v75)) := by
  show (cfg4.win 3).cut (grid4.coords t) ((dat4 V c).after 3 t) = _
  rw [after4_3]
  unfold out4_3
  rw [View.canon_unit_zero zero_off]
  simp only [View.ld_unit_zero (S := S10000x64) zero_off, View.ld_unit_zero (S := S10000x1) zero_off,
    View.ld_unit_zero (S := S1x64) zero_off]
  obtain ⟨e00, e01, e10, e11, e20, e21, e30, e31⟩ := idx_facts t
  funext j
  obtain ⟨p, q, rfl⟩ : ∃ (p : Fin 10000) (q : Fin 64), j = ix2 p q := ⟨j 0, j 1, eq_ix2 j⟩
  refine point_eq (iblk4 V c 0 t) (iblk4 V c 1 t) (iblk4 V c 2 t) (V c main_v74) (V c main_v31) (V c main_v75) p q
    (((cfg4.win 3).blk t).view.emb (ix2 p q)) ?_ ?_ ?_
  · show V c main_v74 (((cfg4.win 0).blk t).view.emb (ix2 p q)) = V c main_v74 (((cfg4.win 3).blk t).view.emb (ix2 p q))
    refine congrArg _ (funext fun a => Fin.ext ?_)
    match a with
    | ⟨0, _⟩ => show win4_0.index t (0 : Fin 2) * 10000 + 1 * p.val = win4_3.index t (0 : Fin 2) * 10000 + 1 * p.val; omega
    | ⟨1, _⟩ => show win4_0.index t (1 : Fin 2) * 64 + 1 * q.val = win4_3.index t (1 : Fin 2) * 64 + 1 * q.val; omega
  · show V c main_v31 (((cfg4.win 1).blk t).view.emb (ix2 p (0 : Fin 1))) = V c main_v31 (ix2 ((((cfg4.win 3).blk t).view.emb (ix2 p q)) 0) (0 : Fin 1))
    refine congrArg _ (funext fun a => Fin.ext ?_)
    match a with
    | ⟨0, _⟩ => show win4_1.index t (0 : Fin 2) * 10000 + 1 * p.val = win4_3.index t (0 : Fin 2) * 10000 + 1 * p.val; omega
    | ⟨1, _⟩ => show win4_1.index t (1 : Fin 2) * 1 + 1 * 0 = 0; omega
  · show V c main_v75 (((cfg4.win 2).blk t).view.emb (ix2 (0 : Fin 1) q)) = V c main_v75 (ix2 (0 : Fin 1) ((((cfg4.win 3).blk t).view.emb (ix2 p q)) 1))
    refine congrArg _ (funext fun a => Fin.ext ?_)
    match a with
    | ⟨0, _⟩ => show win4_2.index t (0 : Fin 2) * 1 + 1 * 0 = 0; omega
    | ⟨1, _⟩ => show win4_2.index t (1 : Fin 2) * 64 + 1 * q.val = win4_3.index t (1 : Fin 2) * 64 + 1 * q.val; omega

/-- An index of the array is in point `t`'s block iff each coordinate is in the block's range on its axis. -/
theorem mem_blk (t : Fin cfg4.N) (i : S100000x64.Idx) :
    i ∈ ((cfg4.win 3).blk t).view.set ↔ ∀ a : Fin 2, win4_3.index t a * S10000x64.size a ≤ (i a).val
      ∧ (i a).val < win4_3.index t a * S10000x64.size a + S10000x64.size a := by
  show i ∈ ((View.whole main_v76).slice (win4_3.rect t)).set ↔ _
  rw [View.set_slice_whole, Rect.mem_set_unit]
  exact Iff.rfl

/-- Every row lies in a written block: row `r` in the block of point `r / 10000`. -/
theorem cover (i : S100000x64.Idx) :
    ∃ t : Fin cfg4.N, (cfg4.win 3).flush t = true ∧ i ∈ ((cfg4.win 3).blk t).view.set := by
  have hi0 : (i 0).val < 100000 := (i 0).isLt
  have hi1 : (i 1).val < 64 := (i 1).isLt
  have hN : cfg4.N = 10 := N_4
  obtain ⟨t, ht⟩ : ∃ t : Fin cfg4.N, t.val = (i 0).val / 10000 := ⟨⟨(i 0).val / 10000, by rw [hN]; omega⟩, rfl⟩
  obtain ⟨-, -, -, -, -, -, e30, e31⟩ := idx_facts t
  refine ⟨t, flush4_3 t, ?_⟩
  rw [mem_blk]
  intro a
  match a with
  | ⟨0, _⟩ => show win4_3.index t (0 : Fin 2) * 10000 ≤ (i 0).val ∧ (i 0).val < win4_3.index t (0 : Fin 2) * 10000 + 10000; omega
  | ⟨1, _⟩ => show win4_3.index t (1 : Fin 2) * 64 ≤ (i 1).val ∧ (i 1).val < win4_3.index t (1 : Fin 2) * 64 + 64; omega

theorem arr_eq (V : (c : Dev nD) → (b : Ref sig .tc) → Buf (Elt Ideal) ((c : Thread nD τ).loc b)) (c : Dev nD) :
    ((dat4 (F := Ideal) V c).arrAt 3 cfg4.N : Vec Ideal S100000x64 .f32)
      = Cert.Spec.actb (V c main_v74) (V c main_v31) (V c main_v75) :=
  (dat4 V c).arrAt_eq_of_cover 3 (Cert.Spec.actb (V c main_v74) (V c main_v31) (V c main_v75)) (fun t _ => flushed_eq V c t) cover

end Cert.KernelIdeal.Reg4

end
-- ==== Proof.Layer2.lean ====
/-
  Graph-convolution layer 2 of the kernel program: from the node features found in buffer main_v55 to those left in
  main_v76. Two host stretches (slicing the layer's weight matrix and bias out of the stacked parameters; gathering the
  transformed rows by edge, scaling by the edge normalisation and summing by destination) alternate with two regions
  (h · W with a zero bias; mean, bias, rectifier). With the zero bias dropped (x + 0 = x) and the one-row bias written
  as a broadcast, the buffer ends holding the specification's layer function of what the layer found.
-/
import proofs.«122723_j46918222742294_1_alg».proof.Proof.Gen.KernelIdeal.Frame
import proofs.«122723_j46918222742294_1_alg».proof.Proof.Spec
import proofs.«122723_j46918222742294_1_alg».proof.Proof.LibLayout
import proofs.«122723_j46918222742294_1_alg».proof.Proof.ChainTac
import proofs.«122723_j46918222742294_1_alg».proof.Proof.Reg3
import proofs.«122723_j46918222742294_1_alg».proof.Proof.Reg4
import Idealize.ShloMosaic.Lib.StableHlo.Run

set_option maxRecDepth 16384

noncomputable section

namespace Cert.KernelIdeal.Layer2

open Idealize.ShloMosaic Idealize.ShloMosaic.TcCoe Idealize.ShloMosaic.StableHlo Idealize.SL.Sem Cert.KernelIdeal Cert.KernelIdeal.Gen Cert.KernelIdeal.Chain
open Cert.LibLayout (IsZero)

/-- The buffers carried unchanged through the layer: the arguments read later, the edge normalisation, the zero bias. -/
abbrev carried : List (Ref sig .tc) := [main_arg4, main_arg5, main_arg6, main_arg7, main_arg8, main_arg9, main_arg10, main_arg11, main_arg12, main_arg13, main_v24, main_v34]

/-! ## The two host stretches, for any contents `W` of the buffers -/

section Stretch

variable (W : Valuation τ sig (Elt Ideal))

/-- The layer's weight matrix, cut from the stacked weights. -/
theorem hA_wslice : (StableHlo.after hostOps3 W (Proc.devRef .tc main_v57) : Vec Ideal S64x64 .f32) = Cert.Spec.W0 (W (Proc.devRef .tc main_arg6)) := by
  dsimp only [hostOps3]
  after_results <;> rfl

/-- The layer's bias, cut from the stacked biases. -/
theorem hA_bslice : (StableHlo.after hostOps3 W (Proc.devRef .tc main_v59) : Vec Ideal S64 .f32) = Cert.Spec.B0 (W (Proc.devRef .tc main_arg7)) := by
  dsimp only [hostOps3]
  after_results <;> rfl

/-- The zero bias of the dense transform, made a one-row matrix: 0 everywhere when the vector is. -/
theorem hA_zrow (hz : IsZero (s := S64) (W (Proc.devRef .tc main_v34))) : IsZero (s := S1x64) (StableHlo.after hostOps3 W (Proc.devRef .tc main_v60)) := by
  have e : (StableHlo.after hostOps3 W (Proc.devRef .tc main_v60) : Vec Ideal S1x64 .f32) = shapeCast S1x64 (W (Proc.devRef .tc main_v34)) shapeCasts_S64_S1x64 := by
    dsimp only [hostOps3]
    after_results <;> rfl
  intro j
  rw [e]
  exact hz _

set_option maxHeartbeats 4000000 in
/-- The first stretch writes none of the carried buffers. -/
theorem hA_keep : ∀ b ∈ carried, StableHlo.after hostOps3 W (Proc.devRef .tc b) = W (Proc.devRef .tc b) := by
  intro b hb
  simp only [carried, List.mem_cons, List.mem_nil_iff, or_false] at hb
  rcases hb with rfl | rfl | rfl | rfl | rfl | rfl | rfl | rfl | rfl | rfl | rfl | rfl <;> host_keeps hostOps3

/-- … nor the node features it finds, nor the edge counts. -/
theorem hA_hprev : StableHlo.after hostOps3 W (Proc.devRef .tc main_v55) = W (Proc.devRef .tc main_v55) := by host_keeps hostOps3
theorem hA_v31 : StableHlo.after hostOps3 W (Proc.devRef .tc main_v31) = W (Proc.devRef .tc main_v31) := by host_keeps hostOps3

set_option maxHeartbeats 4000000 in
/-- Messages summed at their destination: the transformed rows gathered by edge, scaled, scatter-added by column. -/
theorem hB_s : (StableHlo.after hostOps4 W (Proc.devRef .tc main_v74) : Vec Ideal S100000x64 .f32)
    = Cert.Spec.agg (W (Proc.devRef .tc main_v61)) (W (Proc.devRef .tc main_v24)) (W (Proc.devRef .tc main_arg12)) (W (Proc.devRef .tc main_arg13)) := by
  dsimp only [hostOps4]
  after_results_simp <;> rfl

/-- The layer's bias made a one-row matrix. -/
theorem hB_brow : (StableHlo.after hostOps4 W (Proc.devRef .tc main_v75) : Vec Ideal S1x64 .f32) = shapeCast S1x64 (W (Proc.devRef .tc main_v59)) shapeCasts_S64_S1x64 := by
  dsimp only [hostOps4]
  after_results <;> rfl

set_option maxHeartbeats 4000000 in
/-- The second stretch writes none of the carried buffers. -/
theorem hB_keep : ∀ b ∈ carried, StableHlo.after hostOps4 W (Proc.devRef .tc b) = W (Proc.devRef .tc b) := by
  intro b hb
  simp only [carried, List.mem_cons, List.mem_nil_iff, or_false] at hb
  rcases hb with rfl | rfl | rfl | rfl | rfl | rfl | rfl | rfl | rfl | rfl | rfl | rfl <;> host_keeps hostOps4

theorem hB_v31 : StableHlo.after hostOps4 W (Proc.devRef .tc main_v31) = W (Proc.devRef .tc main_v31) := by host_keeps hostOps4

end Stretch

/-! ## The two regions leave the carried buffers alone -/

section Regions

variable (m : (ℓ : Loc nD τ sig) → Buf (Elt Ideal) ℓ) (ρ : Dev nD → PrngReg) (c : Dev nD)

set_option maxHeartbeats 4000000 in
theorem rA_keep : ∀ b ∈ carried, W10 m ρ c (Proc.devRef .tc b) = W9 m ρ c (Proc.devRef .tc b) := by
  intro b hb
  simp only [carried, List.mem_cons, List.mem_nil_iff, or_false] at hb
  rcases hb with rfl | rfl | rfl | rfl | rfl | rfl | rfl | rfl | rfl | rfl | rfl | rfl <;> exact W10_of_ne m ρ c _ (by decide)

theorem rA_bslice : W10 m ρ c (Proc.devRef .tc main_v59) = W9 m ρ c (Proc.devRef .tc main_v59) := W10_of_ne m ρ c _ (by decide)
theorem rA_v31 : W10 m ρ c (Proc.devRef .tc main_v31) = W9 m ρ c (Proc.devRef .tc main_v31) := W10_of_ne m ρ c _ (by decide)

set_option maxHeartbeats 4000000 in
theorem rB_keep : ∀ b ∈ carried, W12 m ρ c (Proc.devRef .tc b) = W11 m ρ c (Proc.devRef .tc b) := by
  intro b hb
  simp only [carried, List.mem_cons, List.mem_nil_iff, or_false] at hb
  rcases hb with rfl | rfl | rfl | rfl | rfl | rfl | rfl | rfl | rfl | rfl | rfl | rfl <;> exact W12_of_ne m ρ c _ (by decide)

/-- The edge counts are an input window of the second region: read, never written back. -/
theorem rB_v31 : W12 m ρ c (Proc.devRef .tc main_v31) = W11 m ρ c (Proc.devRef .tc main_v31) :=
  (W12_arr m ρ c 1).trans (((dat4 (V11 m ρ) c).arrAt_in 1 rfl _).trans (A_eq4 (V11 m ρ) c 1))

/-- The carried buffers after the layer are as before it. -/
theorem keep (b : Ref sig .tc) (hb : b ∈ carried) : W12 m ρ c (Proc.devRef .tc b) = W8 m ρ c (Proc.devRef .tc b) :=
  (((rB_keep m ρ c b hb).trans (hB_keep (W10 m ρ c) b hb)).trans (rA_keep m ρ c b hb)).trans (hA_keep (W8 m ρ c) b hb)

/-- The edge counts after the layer are as before it. -/
theorem keep31 : W12 m ρ c (Proc.devRef .tc main_v31) = W8 m ρ c (Proc.devRef .tc main_v31) :=
  (((rB_v31 m ρ c).trans (hB_v31 (W10 m ρ c))).trans (rA_v31 m ρ c)).trans (hA_v31 (W8 m ρ c))

/-- The zero bias is still 0 everywhere after the layer. -/
theorem zero34 (hz : IsZero (s := S64) (W8 m ρ c (Proc.devRef .tc main_v34))) : IsZero (s := S64) (W12 m ρ c (Proc.devRef .tc main_v34)) := by
  rw [keep m ρ c main_v34 (by simp)]
  exact hz

/-! ## The layer -/

/-- What the layer leaves in main_v76, from what it finds at its first boundary. -/
theorem layer (H : Vec Ideal S100000x64 .f32) (wa : Vec Ideal S3x64x64 .f32) (ba : Vec Ideal S3x64 .f32)
    (nrm : Vec Ideal S1600000 .f32) (cn : Vec Ideal S100000x1 .f32) (rw cl : Vec Ideal S1600000 .i32)
    (hH : W8 m ρ c (Proc.devRef .tc main_v55) = H) (hwa : W8 m ρ c (Proc.devRef .tc main_arg6) = wa) (hba : W8 m ρ c (Proc.devRef .tc main_arg7) = ba)
    (hz : IsZero (s := S64) (W8 m ρ c (Proc.devRef .tc main_v34)))
    (hn : W8 m ρ c (Proc.devRef .tc main_v24) = nrm) (hc : W8 m ρ c (Proc.devRef .tc main_v31) = cn)
    (hr : W8 m ρ c (Proc.devRef .tc main_arg12) = rw) (hcl : W8 m ρ c (Proc.devRef .tc main_arg13) = cl) :
    (W12 m ρ c (Proc.devRef .tc main_v76) : Vec Ideal S100000x64 .f32)
      = Cert.Spec.layer H (Cert.Spec.W0 wa) (Cert.Spec.B0 ba) nrm cn rw cl := by
  -- what the dense transform finds
  have e_h : W9 m ρ c (Proc.devRef .tc main_v55) = H := (hA_hprev (W8 m ρ c)).trans hH
  have e_w : (W9 m ρ c (Proc.devRef .tc main_v57) : Vec Ideal S64x64 .f32) = Cert.Spec.W0 wa := (hA_wslice (W8 m ρ c)).trans (by rw [hwa])
  have e_z : IsZero (s := S1x64) (W9 m ρ c (Proc.devRef .tc main_v60)) := hA_zrow (W8 m ρ c) hz
  have e_b : (W9 m ρ c (Proc.devRef .tc main_v59) : Vec Ideal S64 .f32) = Cert.Spec.B0 ba := (hA_bslice (W8 m ρ c)).trans (by rw [hba])
  -- what it leaves: h · W, the zero bias dropped
  have x_hw : (W10 m ρ c (Proc.devRef .tc main_v61) : Vec Ideal S100000x64 .f32) = Cert.Spec.lin H (Cert.Spec.W0 wa) := by
    refine ((W10_arr m ρ c 3).trans (Cert.KernelIdeal.Reg3.arr_eq (V9 m ρ) c)).trans ?_
    show Cert.Spec.linb (W9 m ρ c (Proc.devRef .tc main_v55)) (W9 m ρ c (Proc.devRef .tc main_v57)) (W9 m ρ c (Proc.devRef .tc main_v60)) = _
    rw [e_h, e_w]
    exact Cert.LibLayout.addf_zero _ _ (fun j => e_z _)
  -- the carried buffers at the second stretch
  have k_n : W10 m ρ c (Proc.devRef .tc main_v24) = nrm := ((rA_keep m ρ c main_v24 (by simp)).trans (hA_keep (W8 m ρ c) main_v24 (by simp))).trans hn
  have k_r : W10 m ρ c (Proc.devRef .tc main_arg12) = rw := ((rA_keep m ρ c main_arg12 (by simp)).trans (hA_keep (W8 m ρ c) main_arg12 (by simp))).trans hr
  have k_c : W10 m ρ c (Proc.devRef .tc main_arg13) = cl := ((rA_keep m ρ c main_arg13 (by simp)).trans (hA_keep (W8 m ρ c) main_arg13 (by simp))).trans hcl
  have k_31 : W10 m ρ c (Proc.devRef .tc main_v31) = cn := ((rA_v31 m ρ c).trans (hA_v31 (W8 m ρ c))).trans hc
  have k_b : (W10 m ρ c (Proc.devRef .tc main_v59) : Vec Ideal S64 .f32) = Cert.Spec.B0 ba := (rA_bslice m ρ c).trans e_b
  -- what the second region finds
  have e_s : (W11 m ρ c (Proc.devRef .tc main_v74) : Vec Ideal S100000x64 .f32) = Cert.Spec.agg (Cert.Spec.lin H (Cert.Spec.W0 wa)) nrm rw cl :=
    (hB_s (W10 m ρ c)).trans (by rw [x_hw, k_n, k_r, k_c])
  have e_br : (W11 m ρ c (Proc.devRef .tc main_v75) : Vec Ideal S1x64 .f32) = shapeCast S1x64 (Cert.Spec.B0 ba) shapeCasts_S64_S1x64 :=
    (hB_brow (W10 m ρ c)).trans (by rw [k_b])
  have e_c : W11 m ρ c (Proc.devRef .tc main_v31) = cn := (hB_v31 (W10 m ρ c)).trans k_31
  -- what it leaves
  refine ((W12_arr m ρ c 3).trans (Cert.KernelIdeal.Reg4.arr_eq (V11 m ρ) c)).trans ?_
  show Cert.Spec.actb (W11 m ρ c (Proc.devRef .tc main_v74)) (W11 m ρ c (Proc.devRef .tc main_v31)) (W11 m ρ c (Proc.devRef .tc main_v75)) = _
  rw [e_s, e_c, e_br, Cert.LibLayout.shapeCast_eq_broadcastInDim_row _ _ Cert.ReferenceIdeal.Gen.bcast_S64_S1x64_1]
  rfl

end Regions

end Cert.KernelIdeal.Layer2

end
-- ==== Proof.Reg5.lean ====
/- The array region 5 leaves, as one function of the arrays it finds. -/
import proofs.«122723_j46918222742294_1_alg».proof.Proof.Gen.KernelIdeal.Frame
import proofs.«122723_j46918222742294_1_alg».proof.Proof.Spec
import proofs.«122723_j46918222742294_1_alg».proof.Proof.LibPlainDot
import Idealize.ShloMosaic.Lib.Pipeline.Value
import Idealize.ShloMosaic.Lib.ValueLayout

set_option maxRecDepth 16384

noncomputable section

namespace Cert.KernelIdeal.Reg5

open Idealize.ShloMosaic Idealize.ShloMosaic.TcCoe Idealize.ShloMosaic.ValueIdx Idealize.SL.Sem Cert.KernelIdeal Cert.KernelIdeal.Gen
open Idealize.ShloMosaic.Pipeline (Dat)

/-! ## The body's arithmetic and the host form, entry by entry -/

/-- The body's value at row `p`, column `q` of a block: row `p` of the block against column `q` of the weights,
    plus the bias' entry `q`. -/
theorem pay_apply (x0 : Vec Ideal S10000x64 .f32) (x1 : Vec Ideal S64x64 .f32) (x2 : Vec Ideal S1x64 .f32) (p : Fin 10000) (q : Fin 64) :
    k5_pay1 (F := Ideal) x0 x1 x2 (ix2 p q) = (∑ k : Fin 64, x0 (ix2 p k) * x1 (ix2 k q)) + x2 (ix2 (0 : Fin 1) q) := by
  unfold k5_pay1
  simp only [shapeCast_self]
  refine (addf_apply _ _ _).trans ?_
  refine congr (congrArg HAdd.hAdd ?_) ?_
  · exact Cert.LibPlainDot.matmul_plain 10000 64 64 none x0 x1 (ix2 p q)
  · exact broadcastTo_1b_ab_apply x2 _ p q

/-- The host form h · W + b at row `r`, column `q`: the same sum over the whole array's row `r`. -/
theorem linb_apply (h : Vec Ideal S100000x64 .f32) (W : Vec Ideal S64x64 .f32) (b : Vec Ideal S1x64 .f32) (r : Fin 100000) (q : Fin 64) :
    Cert.Spec.linb (F := Ideal) h W b (ix2 r q) = (∑ k : Fin 64, h (ix2 r k) * W (ix2 k q)) + b (ix2 (0 : Fin 1) q) := by
  unfold Cert.Spec.linb Cert.Spec.lin
  refine (addf_apply _ _ _).trans ?_
  refine congr (congrArg HAdd.hAdd ?_) ?_
  · exact Cert.LibPlainDot.dotGeneral_plain 100000 64 64 none h W (ix2 r q)
  · refine broadcastInDim_apply _ _ b (ix2 r q) (ix2 (0 : Fin 1) q) fun a => ?_
    match a with
    | ⟨0, _⟩ => rfl
    | ⟨1, _⟩ => rfl

/-- A block whose row `p` is the array's row `r`, with the whole weights and bias, gives at (p, q) what the host form
    gives at (r, q). -/
theorem point (x0 : Vec Ideal S10000x64 .f32) (x1 : Vec Ideal S64x64 .f32) (x2 : Vec Ideal S1x64 .f32)
    (h : Vec Ideal S100000x64 .f32) (W : Vec Ideal S64x64 .f32) (b : Vec Ideal S1x64 .f32)
    (p : Fin 10000) (q : Fin 64) (r : Fin 100000) (h0 : ∀ k : Fin 64, x0 (ix2 p k) = h (ix2 r k)) (h1 : x1 = W) (h2 : x2 = b) :
    k5_pay1 (F := Ideal) x0 x1 x2 (ix2 p q) = Cert.Spec.linb (F := Ideal) h W b (ix2 r q) := by
  subst h1 h2
  rw [pay_apply, linb_apply]
  exact congrArg (· + x2 (ix2 (0 : Fin 1) q)) (Finset.sum_congr rfl fun k _ => congrArg (· * x1 (ix2 k q)) (h0 k))

/-! ## From blocks to the array -/

theorem zero_off : (![0, 0] : Fin 2 → Nat) = fun _ => 0 := funext fun a => by fin_cases a <;> rfl

/-- The index maps over the grid: the row-blocked operand and the result sit at block row `t`, column block 0; the
    weights and the bias are whole at every point. -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- What point `t` writes back is block `t` (rows 10000·t … 10000·t + 9999) of the host form of the arrays the region finds. -/
theorem flushed_eq (V : (c : Dev nD) → (b : Ref sig .tc) → Buf (Elt Ideal) ((c : Thread nD τ).loc b)) (c : Dev nD) (t : Fin cfg5.N) :
    (dat5 (F := Ideal) V c).flushed 3 t
      = ((cfg5.win 3).blk t).view.read (Elt Ideal) (Cert.Spec.linb (F := Ideal) (V c main_v76) (V c main_v78) (V c main_v81)) := by
  show (cfg5.win 3).cut (grid5.coords t) ((dat5 V c).after 3 t) = _
  rw [after5_3]
  unfold out5_3
  rw [View.canon_unit_zero zero_off]
  simp only [View.ld_unit_zero (S := S10000x64) zero_off, View.ld_unit_zero (S := S64x64) zero_off, View.ld_unit_zero (S := S1x64) zero_off]
  obtain ⟨e00, e01, e10, e11, e20, e21, e30, e31⟩ := idx_facts t
  have hN : cfg5.N = 10 := N_5
  have ht : t.val < 10 := by have := t.isLt; omega
  funext j
  have hj0 : (j 0).val < 10000 := (j 0).isLt
  have hj1 : (j 1).val < 64 := (j 1).isLt
  show k5_pay1 (iblk5 V c 0 t) (iblk5 V c 1 t) (iblk5 V c 2 t) ((cfg5.win 3).xinj (grid5.coords t) j)
    = Cert.Spec.linb (F := Ideal) (V c main_v76) (V c main_v78) (V c main_v81) (((cfg5.win 3).blk t).view.emb j)
  have hl : (cfg5.win 3).xinj (grid5.coords t) j = ix2 (⟨(j 0).val, hj0⟩ : Fin 10000) (⟨(j 1).val, hj1⟩ : Fin 64) :=
    funext fun a => match a with | ⟨0, _⟩ => rfl | ⟨1, _⟩ => rfl
  have hr : ((cfg5.win 3).blk t).view.emb j = ix2 (⟨t.val * 10000 + (j 0).val, by omega⟩ : Fin 100000) (⟨(j 1).val, hj1⟩ : Fin 64) := by
    funext a; apply Fin.ext
    match a with
    | ⟨0, _⟩ => show win5_3.index t (0 : Fin 2) * 10000 + 1 * (j 0).val = t.val * 10000 + (j 0).val; omega
    | ⟨1, _⟩ => show win5_3.index t (1 : Fin 2) * 64 + 1 * (j 1).val = (j 1).val; omega
  rw [hl, hr]
  refine point (iblk5 V c 0 t) (iblk5 V c 1 t) (iblk5 V c 2 t) (V c main_v76) (V c main_v78) (V c main_v81)
    ⟨(j 0).val, hj0⟩ ⟨(j 1).val, hj1⟩ ⟨t.val * 10000 + (j 0).val, by omega⟩ ?_ ?_ ?_
  · intro k
    show V c main_v76 (((cfg5.win 0).blk t).view.emb (ix2 (⟨(j 0).val, hj0⟩ : Fin 10000) k)) = V c main_v76 _
    refine congrArg (V c main_v76) (funext fun a => Fin.ext ?_)
    match a with
    | ⟨0, _⟩ => show win5_0.index t (0 : Fin 2) * 10000 + 1 * (j 0).val = t.val * 10000 + (j 0).val; omega
    | ⟨1, _⟩ => show win5_0.index t (1 : Fin 2) * 64 + 1 * k.val = k.val; omega
  · funext y
    show V c main_v78 (((cfg5.win 1).blk t).view.emb y) = V c main_v78 y
    refine congrArg (V c main_v78) (funext fun a => Fin.ext ?_)
    match a with
    | ⟨0, _⟩ => show win5_1.index t (0 : Fin 2) * 64 + 1 * (y 0).val = (y 0).val; omega
    | ⟨1, _⟩ => show win5_1.index t (1 : Fin 2) * 64 + 1 * (y 1).val = (y 1).val; omega
  · funext y
    show V c main_v81 (((cfg5.win 2).blk t).view.emb y) = V c main_v81 y
    refine congrArg (V c main_v81) (funext fun a => Fin.ext ?_)
    match a with
    | ⟨0, _⟩ => show win5_2.index t (0 : Fin 2) * 1 + 1 * (y 0).val = (y 0).val; omega
    | ⟨1, _⟩ => show win5_2.index t (1 : Fin 2) * 64 + 1 * (y 1).val = (y 1).val; omega

/-- An index of the array is in point `t`'s block iff each coordinate is in the block's range on its axis. -/
theorem mem_blk (t : Fin cfg5.N) (i : S100000x64.Idx) :
    i ∈ ((cfg5.win 3).blk t).view.set ↔ ∀ a : Fin 2, win5_3.index t a * S10000x64.size a ≤ (i a).val ∧ (i a).val < win5_3.index t a * S10000x64.size a + S10000x64.size a := by
  show i ∈ ((View.whole main_v82).slice (win5_3.rect t)).set ↔ _
  rw [View.set_slice_whole, Rect.mem_set_unit]
  exact Iff.rfl

/-- Every row `r` of the array is in the block of the point `r / 10000`. -/
theorem cover (i : S100000x64.Idx) : ∃ t : Fin cfg5.N, (cfg5.win 3).flush t = true ∧ i ∈ ((cfg5.win 3).blk t).view.set := by
  have hi0 : (i 0).val < 100000 := (i 0).isLt
  have hi1 : (i 1).val < 64 := (i 1).isLt
  obtain ⟨t, ht⟩ : ∃ t : Fin cfg5.N, t.val = (i 0).val / 10000 := ⟨⟨(i 0).val / 10000, by rw [show cfg5.N = 10 from N_5]; omega⟩, rfl⟩
  obtain ⟨-, -, -, -, -, -, e30, e31⟩ := idx_facts t
  refine ⟨t, flush5_3 t, ?_⟩
  rw [mem_blk]
  intro a
  match a with
  | ⟨0, _⟩ => show win5_3.index t (0 : Fin 2) * 10000 ≤ (i 0).val ∧ (i 0).val < win5_3.index t (0 : Fin 2) * 10000 + 10000; omega
  | ⟨1, _⟩ => show win5_3.index t (1 : Fin 2) * 64 ≤ (i 1).val ∧ (i 1).val < win5_3.index t (1 : Fin 2) * 64 + 64; omega

theorem arr_eq (V : (c : Dev nD) → (b : Ref sig .tc) → Buf (Elt Ideal) ((c : Thread nD τ).loc b)) (c : Dev nD) :
    ((dat5 (F := Ideal) V c).arrAt 3 cfg5.N : Vec Ideal S100000x64 .f32)
      = Cert.Spec.linb (V c main_v76) (V c main_v78) (V c main_v81) :=
  (dat5 V c).arrAt_eq_of_cover 3 (Cert.Spec.linb (F := Ideal) (V c main_v76) (V c main_v78) (V c main_v81)) (fun t _ => flushed_eq V c t) cover

end Cert.KernelIdeal.Reg5

end
-- ==== Proof.Reg6.lean ====
/- The array region 6 leaves, as one function of the arrays it finds. -/
import proofs.«122723_j46918222742294_1_alg».proof.Proof.Gen.KernelIdeal.Frame
import proofs.«122723_j46918222742294_1_alg».proof.Proof.Spec
import proofs.«122723_j46918222742294_1_alg».proof.Proof.LibPlainDot
import Idealize.ShloMosaic.Lib.Pipeline.Value
import Idealize.ShloMosaic.Lib.ValueLayout

noncomputable section

namespace Cert.KernelIdeal.Reg6

open Idealize.ShloMosaic Idealize.ShloMosaic.TcCoe Idealize.ShloMosaic.ValueIdx Idealize.SL.Sem Cert.KernelIdeal Cert.KernelIdeal.Gen
open Idealize.ShloMosaic.Pipeline (Dat)

/-- The zero offset of a whole-buffer access, as a function. -/
theorem zero_off : (![0, 0] : Fin 2 → Nat) = fun _ => 0 := funext fun a => by fin_cases a <;> rfl

/-- A column `[a, 1]` broadcast to `[a, b]` reads, at `(p, c)`, the column's entry in row `p`. -/
theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` laid on both axes of `[a, b]` reads, at `(p, c)`, the column's entry in row `p`. -/
theorem broadcastInDim_col_apply {α : Type} {a b : ℕ} (h : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- One row `[1, b]` laid on both axes of `[a, b]` reads, at `(p, c)`, the row's entry in column `c`. -/
theorem broadcastInDim_row_apply {α : Type} {a b : ℕ} (h : (⟨2, ![1, b]⟩ : Shape).BroadcastsInDim ⟨2, ![a, b]⟩ ![0, 1])
    (v : (⟨2, ![1, b]⟩ : Shape).Idx → α) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The body's value at row `p`, column `q` of a block: max(s / cnt + bias, 0) with the count taken from the
    block's column at row `p` and the bias from the one row at column `q`. -/
theorem pay_apply (x0 : Vec Ideal S10000x64 .f32) (x1 : Vec Ideal S10000x1 .f32) (x2 : Vec Ideal S1x64 .f32)
    (p : Fin 10000) (q : Fin 64) :
    k6_pay1 x0 x1 x2 (ix2 p q)
      = max (Ideal.div (x0 (ix2 p q)) (x1 (ix2 p (0 : Fin 1))) + x2 (ix2 (0 : Fin 1) q)) (Ideal.ofBits .f32 0x00000000#32) := by
  unfold k6_pay1
  simp only [shapeCast_self]
  rw [maximumf_apply, addf_apply, divf_apply, broadcast_apply, broadcastTo_col_apply, broadcastTo_1b_ab_apply]
  rfl

/-- The host form at row `r`, column `q` of the whole array: the same expression of the whole operands. -/
theorem host_apply (s : Vec Ideal S100000x64 .f32) (cn : Vec Ideal S100000x1 .f32) (b2 : Vec Ideal S1x64 .f32)
    (r : Fin 100000) (q : Fin 64) :
    Cert.Spec.actb s cn b2 (ix2 r q)
      = max (Ideal.div (s (ix2 r q)) (cn (ix2 r (0 : Fin 1))) + b2 (ix2 (0 : Fin 1) q)) (Ideal.ofBits .f32 0x00000000#32) := by
  unfold Cert.Spec.actb
  rw [maximumf_apply, addf_apply, broadcastInDim_row_apply]
  show max (Ideal.div (s (ix2 r q)) (broadcastInDim _ ![0, 1] _ cn (ix2 r q)) + _) _ = _
  rw [broadcastInDim_col_apply]
  rfl

/-- A block entry and an array entry agree as soon as the three operands they read agree. -/
theorem point_eq (x0 : Vec Ideal S10000x64 .f32) (x1 : Vec Ideal S10000x1 .f32) (x2 : Vec Ideal S1x64 .f32)
    (s : Vec Ideal S100000x64 .f32) (cn : Vec Ideal S100000x1 .f32) (b2 : Vec Ideal S1x64 .f32)
    (p : Fin 10000) (q : Fin 64) (i : S100000x64.Idx)
    (h0 : x0 (ix2 p q) = s i) (h1 : x1 (ix2 p (0 : Fin 1)) = cn (ix2 (i 0) (0 : Fin 1)))
    (h2 : x2 (ix2 (0 : Fin 1) q) = b2 (ix2 (0 : Fin 1) (i 1))) :
    k6_pay1 x0 x1 x2 (ix2 p q) = Cert.Spec.actb s cn b2 i := by
  obtain ⟨r, q', rfl⟩ : ∃ (r : Fin 100000) (q' : Fin 64), i = ix2 r q' := ⟨i 0, i 1, eq_ix2 i⟩
  rw [pay_apply, host_apply, h0, h1, h2]

/-- The windows' block indices over the grid: the three row-blocked windows sit at block row `t`, the bias window at
    its only block. -/
theorem idx_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- What point `t` writes back is block `t` of the host form of the arrays the region finds. -/
theorem flushed_eq (V : (c : Dev nD) → (b : Ref sig .tc) → Buf (Elt Ideal) ((c : Thread nD τ).loc b)) (c : Dev nD)
    (t : Fin cfg6.N) :
    (dat6 (F := Ideal) V c).flushed 3 t
      = ((cfg6.win 3).blk t).view.read (Elt Ideal) (Cert.Spec.actb (V c main_v95) (V c main_v31) (V c main_v96)) := by
  show (cfg6.win 3).cut (grid6.coords t) ((dat6 V c).after 3 t) = _
  rw [after6_3]
  unfold out6_3
  rw [View.canon_unit_zero zero_off]
  simp only [View.ld_unit_zero (S := S10000x64) zero_off, View.ld_unit_zero (S := S10000x1) zero_off,
    View.ld_unit_zero (S := S1x64) zero_off]
  obtain ⟨e00, e01, e10, e11, e20, e21, e30, e31⟩ := idx_facts t
  funext j
  obtain ⟨p, q, rfl⟩ : ∃ (p : Fin 10000) (q : Fin 64), j = ix2 p q := ⟨j 0, j 1, eq_ix2 j⟩
  refine point_eq (iblk6 V c 0 t) (iblk6 V c 1 t) (iblk6 V c 2 t) (V c main_v95) (V c main_v31) (V c main_v96) p q
    (((cfg6.win 3).blk t).view.emb (ix2 p q)) ?_ ?_ ?_
  · show V c main_v95 (((cfg6.win 0).blk t).view.emb (ix2 p q)) = V c main_v95 (((cfg6.win 3).blk t).view.emb (ix2 p q))
    refine congrArg _ (funext fun a => Fin.ext ?_)
    match a with
    | ⟨0, _⟩ => show win6_0.index t (0 : Fin 2) * 10000 + 1 * p.val = win6_3.index t (0 : Fin 2) * 10000 + 1 * p.val; omega
    | ⟨1, _⟩ => show win6_0.index t (1 : Fin 2) * 64 + 1 * q.val = win6_3.index t (1 : Fin 2) * 64 + 1 * q.val; omega
  · show V c main_v31 (((cfg6.win 1).blk t).view.emb (ix2 p (0 : Fin 1))) = V c main_v31 (ix2 ((((cfg6.win 3).blk t).view.emb (ix2 p q)) 0) (0 : Fin 1))
    refine congrArg _ (funext fun a => Fin.ext ?_)
    match a with
    | ⟨0, _⟩ => show win6_1.index t (0 : Fin 2) * 10000 + 1 * p.val = win6_3.index t (0 : Fin 2) * 10000 + 1 * p.val; omega
    | ⟨1, _⟩ => show win6_1.index t (1 : Fin 2) * 1 + 1 * 0 = 0; omega
  · show V c main_v96 (((cfg6.win 2).blk t).view.emb (ix2 (0 : Fin 1) q)) = V c main_v96 (ix2 (0 : Fin 1) ((((cfg6.win 3).blk t).view.emb (ix2 p q)) 1))
    refine congrArg _ (funext fun a => Fin.ext ?_)
    match a with
    | ⟨0, _⟩ => show win6_2.index t (0 : Fin 2) * 1 + 1 * 0 = 0; omega
    | ⟨1, _⟩ => show win6_2.index t (1 : Fin 2) * 64 + 1 * q.val = win6_3.index t (1 : Fin 2) * 64 + 1 * q.val; omega

/-- An index of the array is in point `t`'s block iff each coordinate is in the block's range on its axis. -/
theorem mem_blk (t : Fin cfg6.N) (i : S100000x64.Idx) :
    i ∈ ((cfg6.win 3).blk t).view.set ↔ ∀ a : Fin 2, win6_3.index t a * S10000x64.size a ≤ (i a).val
      ∧ (i a).val < win6_3.index t a * S10000x64.size a + S10000x64.size a := by
  show i ∈ ((View.whole main_v97).slice (win6_3.rect t)).set ↔ _
  rw [View.set_slice_whole, Rect.mem_set_unit]
  exact Iff.rfl

/-- Every row lies in a written block: row `r` in the block of point `r / 10000`. -/
theorem cover (i : S100000x64.Idx) :
    ∃ t : Fin cfg6.N, (cfg6.win 3).flush t = true ∧ i ∈ ((cfg6.win 3).blk t).view.set := by
  have hi0 : (i 0).val < 100000 := (i 0).isLt
  have hi1 : (i 1).val < 64 := (i 1).isLt
  have hN : cfg6.N = 10 := N_6
  obtain ⟨t, ht⟩ : ∃ t : Fin cfg6.N, t.val = (i 0).val / 10000 := ⟨⟨(i 0).val / 10000, by rw [hN]; omega⟩, rfl⟩
  obtain ⟨-, -, -, -, -, -, e30, e31⟩ := idx_facts t
  refine ⟨t, flush6_3 t, ?_⟩
  rw [mem_blk]
  intro a
  match a with
  | ⟨0, _⟩ => show win6_3.index t (0 : Fin 2) * 10000 ≤ (i 0).val ∧ (i 0).val < win6_3.index t (0 : Fin 2) * 10000 + 10000; omega
  | ⟨1, _⟩ => show win6_3.index t (1 : Fin 2) * 64 ≤ (i 1).val ∧ (i 1).val < win6_3.index t (1 : Fin 2) * 64 + 64; omega

theorem arr_eq (V : (c : Dev nD) → (b : Ref sig .tc) → Buf (Elt Ideal) ((c : Thread nD τ).loc b)) (c : Dev nD) :
    ((dat6 (F := Ideal) V c).arrAt 3 cfg6.N : Vec Ideal S100000x64 .f32)
      = Cert.Spec.actb (V c main_v95) (V c main_v31) (V c main_v96) :=
  (dat6 V c).arrAt_eq_of_cover 3 (Cert.Spec.actb (V c main_v95) (V c main_v31) (V c main_v96)) (fun t _ => flushed_eq V c t) cover

end Cert.KernelIdeal.Reg6

end
-- ==== Proof.Layer3.lean ====
/-
  Graph-convolution layer 3 of the kernel program: from the node features found in buffer main_v76 to those left in
  main_v97. Two host stretches (slicing the layer's weight matrix and bias out of the stacked parameters; gathering the
  transformed rows by edge, scaling by the edge normalisation and summing by destination) alternate with two regions
  (h · W with a zero bias; mean, bias, rectifier). With the zero bias dropped (x + 0 = x) and the one-row bias written
  as a broadcast, the buffer ends holding the specification's layer function of what the layer found.
-/
import proofs.«122723_j46918222742294_1_alg».proof.Proof.Gen.KernelIdeal.Frame
import proofs.«122723_j46918222742294_1_alg».proof.Proof.Spec
import proofs.«122723_j46918222742294_1_alg».proof.Proof.LibLayout
import proofs.«122723_j46918222742294_1_alg».proof.Proof.ChainTac
import proofs.«122723_j46918222742294_1_alg».proof.Proof.Reg5
import proofs.«122723_j46918222742294_1_alg».proof.Proof.Reg6
import Idealize.ShloMosaic.Lib.StableHlo.Run

set_option maxRecDepth 16384

noncomputable section

namespace Cert.KernelIdeal.Layer3

open Idealize.ShloMosaic Idealize.ShloMosaic.TcCoe Idealize.ShloMosaic.StableHlo Idealize.SL.Sem Cert.KernelIdeal Cert.KernelIdeal.Gen Cert.KernelIdeal.Chain
open Cert.LibLayout (IsZero)

/-- The buffers carried unchanged through the layer: the arguments read later, the edge normalisation, the zero bias. -/
abbrev carried : List (Ref sig .tc) := [main_arg4, main_arg5, main_arg6, main_arg7, main_arg8, main_arg9, main_arg10, main_arg11, main_arg12, main_arg13, main_v24, main_v34]

/-! ## The two host stretches, for any contents `W` of the buffers -/

section Stretch

variable (W : Valuation τ sig (Elt Ideal))

/-- The layer's weight matrix, cut from the stacked weights. -/
theorem hA_wslice : (StableHlo.after hostOps5 W (Proc.devRef .tc main_v78) : Vec Ideal S64x64 .f32) = Cert.Spec.W1 (W (Proc.devRef .tc main_arg4)) := by
  dsimp only [hostOps5]
  after_results <;> rfl

/-- The layer's bias, cut from the stacked biases. -/
theorem hA_bslice : (StableHlo.after hostOps5 W (Proc.devRef .tc main_v80) : Vec Ideal S64 .f32) = Cert.Spec.B1 (W (Proc.devRef .tc main_arg5)) := by
  dsimp only [hostOps5]
  after_results <;> rfl

/-- The zero bias of the dense transform, made a one-row matrix: 0 everywhere when the vector is. -/
theorem hA_zrow (hz : IsZero (s := S64) (W (Proc.devRef .tc main_v34))) : IsZero (s := S1x64) (StableHlo.after hostOps5 W (Proc.devRef .tc main_v81)) := by
  have e : (StableHlo.after hostOps5 W (Proc.devRef .tc main_v81) : Vec Ideal S1x64 .f32) = shapeCast S1x64 (W (Proc.devRef .tc main_v34)) shapeCasts_S64_S1x64 := by
    dsimp only [hostOps5]
    after_results <;> rfl
  intro j
  rw [e]
  exact hz _

set_option maxHeartbeats 4000000 in
/-- The first stretch writes none of the carried buffers. -/
theorem hA_keep : ∀ b ∈ carried, StableHlo.after hostOps5 W (Proc.devRef .tc b) = W (Proc.devRef .tc b) := by
  intro b hb
  simp only [carried, List.mem_cons, List.mem_nil_iff, or_false] at hb
  rcases hb with rfl | rfl | rfl | rfl | rfl | rfl | rfl | rfl | rfl | rfl | rfl | rfl <;> host_keeps hostOps5

/-- … nor the node features it finds, nor the edge counts. -/
theorem hA_hprev : StableHlo.after hostOps5 W (Proc.devRef .tc main_v76) = W (Proc.devRef .tc main_v76) := by host_keeps hostOps5
theorem hA_v31 : StableHlo.after hostOps5 W (Proc.devRef .tc main_v31) = W (Proc.devRef .tc main_v31) := by host_keeps hostOps5

set_option maxHeartbeats 4000000 in
/-- Messages summed at their destination: the transformed rows gathered by edge, scaled, scatter-added by column. -/
theorem hB_s : (StableHlo.after hostOps6 W (Proc.devRef .tc main_v95) : Vec Ideal S100000x64 .f32)
    = Cert.Spec.agg (W (Proc.devRef .tc main_v82)) (W (Proc.devRef .tc main_v24)) (W (Proc.devRef .tc main_arg12)) (W (Proc.devRef .tc main_arg13)) := by
  dsimp only [hostOps6]
  after_results_simp <;> rfl

/-- The layer's bias made a one-row matrix. -/
theorem hB_brow : (StableHlo.after hostOps6 W (Proc.devRef .tc main_v96) : Vec Ideal S1x64 .f32) = shapeCast S1x64 (W (Proc.devRef .tc main_v80)) shapeCasts_S64_S1x64 := by
  dsimp only [hostOps6]
  after_results <;> rfl

set_option maxHeartbeats 4000000 in
/-- The second stretch writes none of the carried buffers. -/
theorem hB_keep : ∀ b ∈ carried, StableHlo.after hostOps6 W (Proc.devRef .tc b) = W (Proc.devRef .tc b) := by
  intro b hb
  simp only [carried, List.mem_cons, List.mem_nil_iff, or_false] at hb
  rcases hb with rfl | rfl | rfl | rfl | rfl | rfl | rfl | rfl | rfl | rfl | rfl | rfl <;> host_keeps hostOps6

theorem hB_v31 : StableHlo.after hostOps6 W (Proc.devRef .tc main_v31) = W (Proc.devRef .tc main_v31) := by host_keeps hostOps6

end Stretch

/-! ## The two regions leave the carried buffers alone -/

section Regions

variable (m : (ℓ : Loc nD τ sig) → Buf (Elt Ideal) ℓ) (ρ : Dev nD → PrngReg) (c : Dev nD)

set_option maxHeartbeats 4000000 in
theorem rA_keep : ∀ b ∈ carried, W14 m ρ c (Proc.devRef .tc b) = W13 m ρ c (Proc.devRef .tc b) := by
  intro b hb
  simp only [carried, List.mem_cons, List.mem_nil_iff, or_false] at hb
  rcases hb with rfl | rfl | rfl | rfl | rfl | rfl | rfl | rfl | rfl | rfl | rfl | rfl <;> exact W14_of_ne m ρ c _ (by decide)

theorem rA_bslice : W14 m ρ c (Proc.devRef .tc main_v80) = W13 m ρ c (Proc.devRef .tc main_v80) := W14_of_ne m ρ c _ (by decide)
theorem rA_v31 : W14 m ρ c (Proc.devRef .tc main_v31) = W13 m ρ c (Proc.devRef .tc main_v31) := W14_of_ne m ρ c _ (by decide)

set_option maxHeartbeats 4000000 in
theorem rB_keep : ∀ b ∈ carried, W16 m ρ c (Proc.devRef .tc b) = W15 m ρ c (Proc.devRef .tc b) := by
  intro b hb
  simp only [carried, List.mem_cons, List.mem_nil_iff, or_false] at hb
  rcases hb with rfl | rfl | rfl | rfl | rfl | rfl | rfl | rfl | rfl | rfl | rfl | rfl <;> exact W16_of_ne m ρ c _ (by decide)

/-- The edge counts are an input window of the second region: read, never written back. -/
theorem rB_v31 : W16 m ρ c (Proc.devRef .tc main_v31) = W15 m ρ c (Proc.devRef .tc main_v31) :=
  (W16_arr m ρ c 1).trans (((dat6 (V15 m ρ) c).arrAt_in 1 rfl _).trans (A_eq6 (V15 m ρ) c 1))

/-- The carried buffers after the layer are as before it. -/
theorem keep (b : Ref sig .tc) (hb : b ∈ carried) : W16 m ρ c (Proc.devRef .tc b) = W12 m ρ c (Proc.devRef .tc b) :=
  (((rB_keep m ρ c b hb).trans (hB_keep (W14 m ρ c) b hb)).trans (rA_keep m ρ c b hb)).trans (hA_keep (W12 m ρ c) b hb)

/-- The edge counts after the layer are as before it. -/
theorem keep31 : W16 m ρ c (Proc.devRef .tc main_v31) = W12 m ρ c (Proc.devRef .tc main_v31) :=
  (((rB_v31 m ρ c).trans (hB_v31 (W14 m ρ c))).trans (rA_v31 m ρ c)).trans (hA_v31 (W12 m ρ c))

/-- The zero bias is still 0 everywhere after the layer. -/
theorem zero34 (hz : IsZero (s := S64) (W12 m ρ c (Proc.devRef .tc main_v34))) : IsZero (s := S64) (W16 m ρ c (Proc.devRef .tc main_v34)) := by
  rw [keep m ρ c main_v34 (by simp)]
  exact hz

/-! ## The layer -/

/-- What the layer leaves in main_v97, from what it finds at its first boundary. -/
theorem layer (H : Vec Ideal S100000x64 .f32) (wa : Vec Ideal S3x64x64 .f32) (ba : Vec Ideal S3x64 .f32)
    (nrm : Vec Ideal S1600000 .f32) (cn : Vec Ideal S100000x1 .f32) (rw cl : Vec Ideal S1600000 .i32)
    (hH : W12 m ρ c (Proc.devRef .tc main_v76) = H) (hwa : W12 m ρ c (Proc.devRef .tc main_arg4) = wa) (hba : W12 m ρ c (Proc.devRef .tc main_arg5) = ba)
    (hz : IsZero (s := S64) (W12 m ρ c (Proc.devRef .tc main_v34)))
    (hn : W12 m ρ c (Proc.devRef .tc main_v24) = nrm) (hc : W12 m ρ c (Proc.devRef .tc main_v31) = cn)
    (hr : W12 m ρ c (Proc.devRef .tc main_arg12) = rw) (hcl : W12 m ρ c (Proc.devRef .tc main_arg13) = cl) :
    (W16 m ρ c (Proc.devRef .tc main_v97) : Vec Ideal S100000x64 .f32)
      = Cert.Spec.layer H (Cert.Spec.W1 wa) (Cert.Spec.B1 ba) nrm cn rw cl := by
  -- what the dense transform finds
  have e_h : W13 m ρ c (Proc.devRef .tc main_v76) = H := (hA_hprev (W12 m ρ c)).trans hH
  have e_w : (W13 m ρ c (Proc.devRef .tc main_v78) : Vec Ideal S64x64 .f32) = Cert.Spec.W1 wa := (hA_wslice (W12 m ρ c)).trans (by rw [hwa])
  have e_z : IsZero (s := S1x64) (W13 m ρ c (Proc.devRef .tc main_v81)) := hA_zrow (W12 m ρ c) hz
  have e_b : (W13 m ρ c (Proc.devRef .tc main_v80) : Vec Ideal S64 .f32) = Cert.Spec.B1 ba := (hA_bslice (W12 m ρ c)).trans (by rw [hba])
  -- what it leaves: h · W, the zero bias dropped
  have x_hw : (W14 m ρ c (Proc.devRef .tc main_v82) : Vec Ideal S100000x64 .f32) = Cert.Spec.lin H (Cert.Spec.W1 wa) := by
    refine ((W14_arr m ρ c 3).trans (Cert.KernelIdeal.Reg5.arr_eq (V13 m ρ) c)).trans ?_
    show Cert.Spec.linb (W13 m ρ c (Proc.devRef .tc main_v76)) (W13 m ρ c (Proc.devRef .tc main_v78)) (W13 m ρ c (Proc.devRef .tc main_v81)) = _
    rw [e_h, e_w]
    exact Cert.LibLayout.addf_zero _ _ (fun j => e_z _)
  -- the carried buffers at the second stretch
  have k_n : W14 m ρ c (Proc.devRef .tc main_v24) = nrm := ((rA_keep m ρ c main_v24 (by simp)).trans (hA_keep (W12 m ρ c) main_v24 (by simp))).trans hn
  have k_r : W14 m ρ c (Proc.devRef .tc main_arg12) = rw := ((rA_keep m ρ c main_arg12 (by simp)).trans (hA_keep (W12 m ρ c) main_arg12 (by simp))).trans hr
  have k_c : W14 m ρ c (Proc.devRef .tc main_arg13) = cl := ((rA_keep m ρ c main_arg13 (by simp)).trans (hA_keep (W12 m ρ c) main_arg13 (by simp))).trans hcl
  have k_31 : W14 m ρ c (Proc.devRef .tc main_v31) = cn := ((rA_v31 m ρ c).trans (hA_v31 (W12 m ρ c))).trans hc
  have k_b : (W14 m ρ c (Proc.devRef .tc main_v80) : Vec Ideal S64 .f32) = Cert.Spec.B1 ba := (rA_bslice m ρ c).trans e_b
  -- what the second region finds
  have e_s : (W15 m ρ c (Proc.devRef .tc main_v95) : Vec Ideal S100000x64 .f32) = Cert.Spec.agg (Cert.Spec.lin H (Cert.Spec.W1 wa)) nrm rw cl :=
    (hB_s (W14 m ρ c)).trans (by rw [x_hw, k_n, k_r, k_c])
  have e_br : (W15 m ρ c (Proc.devRef .tc main_v96) : Vec Ideal S1x64 .f32) = shapeCast S1x64 (Cert.Spec.B1 ba) shapeCasts_S64_S1x64 :=
    (hB_brow (W14 m ρ c)).trans (by rw [k_b])
  have e_c : W15 m ρ c (Proc.devRef .tc main_v31) = cn := (hB_v31 (W14 m ρ c)).trans k_31
  -- what it leaves
  refine ((W16_arr m ρ c 3).trans (Cert.KernelIdeal.Reg6.arr_eq (V15 m ρ) c)).trans ?_
  show Cert.Spec.actb (W15 m ρ c (Proc.devRef .tc main_v95)) (W15 m ρ c (Proc.devRef .tc main_v31)) (W15 m ρ c (Proc.devRef .tc main_v96)) = _
  rw [e_s, e_c, e_br, Cert.LibLayout.shapeCast_eq_broadcastInDim_row _ _ Cert.ReferenceIdeal.Gen.bcast_S64_S1x64_1]
  rfl

end Regions

end Cert.KernelIdeal.Layer3

end
-- ==== Proof.Reg7.lean ====
/- The array region 7 leaves, as one function of the arrays it finds. -/
import proofs.«122723_j46918222742294_1_alg».proof.Proof.Gen.KernelIdeal.Frame
import proofs.«122723_j46918222742294_1_alg».proof.Proof.Spec
import proofs.«122723_j46918222742294_1_alg».proof.Proof.LibPlainDot
import Idealize.ShloMosaic.Lib.Pipeline.Value
import Idealize.ShloMosaic.Lib.ValueLayout

set_option maxRecDepth 16384

noncomputable section

namespace Cert.KernelIdeal.Reg7

open Idealize.ShloMosaic Idealize.ShloMosaic.TcCoe Idealize.ShloMosaic.ValueIdx Idealize.SL.Sem Cert.KernelIdeal Cert.KernelIdeal.Gen
open Idealize.ShloMosaic.Pipeline (Dat)

/-! ## The body's arithmetic and the host form, entry by entry -/

/-- The body's value at row `p`, column `q` of a block: row `p` of the block against column `q` of the weights,
    plus the bias' entry `q`. -/
theorem pay_apply (x0 : Vec Ideal S10000x64 .f32) (x1 : Vec Ideal S64x64 .f32) (x2 : Vec Ideal S1x64 .f32) (p : Fin 10000) (q : Fin 64) :
    k7_pay1 (F := Ideal) x0 x1 x2 (ix2 p q) = (∑ k : Fin 64, x0 (ix2 p k) * x1 (ix2 k q)) + x2 (ix2 (0 : Fin 1) q) := by
  unfold k7_pay1
  simp only [shapeCast_self]
  refine (addf_apply _ _ _).trans ?_
  refine congr (congrArg HAdd.hAdd ?_) ?_
  · exact Cert.LibPlainDot.matmul_plain 10000 64 64 none x0 x1 (ix2 p q)
  · exact broadcastTo_1b_ab_apply x2 _ p q

/-- The host form h · W + b at row `r`, column `q`: the same sum over the whole array's row `r`. -/
theorem linb_apply (h : Vec Ideal S100000x64 .f32) (W : Vec Ideal S64x64 .f32) (b : Vec Ideal S1x64 .f32) (r : Fin 100000) (q : Fin 64) :
    Cert.Spec.linb (F := Ideal) h W b (ix2 r q) = (∑ k : Fin 64, h (ix2 r k) * W (ix2 k q)) + b (ix2 (0 : Fin 1) q) := by
  unfold Cert.Spec.linb Cert.Spec.lin
  refine (addf_apply _ _ _).trans ?_
  refine congr (congrArg HAdd.hAdd ?_) ?_
  · exact Cert.LibPlainDot.dotGeneral_plain 100000 64 64 none h W (ix2 r q)
  · refine broadcastInDim_apply _ _ b (ix2 r q) (ix2 (0 : Fin 1) q) fun a => ?_
    match a with
    | ⟨0, _⟩ => rfl
    | ⟨1, _⟩ => rfl

/-- A block whose row `p` is the array's row `r`, with the whole weights and bias, gives at (p, q) what the host form
    gives at (r, q). -/
theorem point (x0 : Vec Ideal S10000x64 .f32) (x1 : Vec Ideal S64x64 .f32) (x2 : Vec Ideal S1x64 .f32)
    (h : Vec Ideal S100000x64 .f32) (W : Vec Ideal S64x64 .f32) (b : Vec Ideal S1x64 .f32)
    (p : Fin 10000) (q : Fin 64) (r : Fin 100000) (h0 : ∀ k : Fin 64, x0 (ix2 p k) = h (ix2 r k)) (h1 : x1 = W) (h2 : x2 = b) :
    k7_pay1 (F := Ideal) x0 x1 x2 (ix2 p q) = Cert.Spec.linb (F := Ideal) h W b (ix2 r q) := by
  subst h1 h2
  rw [pay_apply, linb_apply]
  exact congrArg (· + x2 (ix2 (0 : Fin 1) q)) (Finset.sum_congr rfl fun k _ => congrArg (· * x1 (ix2 k q)) (h0 k))

/-! ## From blocks to the array -/

theorem zero_off : (![0, 0] : Fin 2 → Nat) = fun _ => 0 := funext fun a => by fin_cases a <;> rfl

/-- The index maps over the grid: the row-blocked operand and the result sit at block row `t`, column block 0; the
    weights and the bias are whole at every point. -/
theorem idx_facts : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- What point `t` writes back is block `t` (rows 10000·t … 10000·t + 9999) of the host form of the arrays the region finds. -/
theorem flushed_eq (V : (c : Dev nD) → (b : Ref sig .tc) → Buf (Elt Ideal) ((c : Thread nD τ).loc b)) (c : Dev nD) (t : Fin cfg7.N) :
    (dat7 (F := Ideal) V c).flushed 3 t
      = ((cfg7.win 3).blk t).view.read (Elt Ideal) (Cert.Spec.linb (F := Ideal) (V c main_v97) (V c main_v99) (V c main_v102)) := by
  show (cfg7.win 3).cut (grid7.coords t) ((dat7 V c).after 3 t) = _
  rw [after7_3]
  unfold out7_3
  rw [View.canon_unit_zero zero_off]
  simp only [View.ld_unit_zero (S := S10000x64) zero_off, View.ld_unit_zero (S := S64x64) zero_off, View.ld_unit_zero (S := S1x64) zero_off]
  obtain ⟨e00, e01, e10, e11, e20, e21, e30, e31⟩ := idx_facts t
  have hN : cfg7.N = 10 := N_7
  have ht : t.val < 10 := by have := t.isLt; omega
  funext j
  have hj0 : (j 0).val < 10000 := (j 0).isLt
  have hj1 : (j 1).val < 64 := (j 1).isLt
  show k7_pay1 (iblk7 V c 0 t) (iblk7 V c 1 t) (iblk7 V c 2 t) ((cfg7.win 3).xinj (grid7.coords t) j)
    = Cert.Spec.linb (F := Ideal) (V c main_v97) (V c main_v99) (V c main_v102) (((cfg7.win 3).blk t).view.emb j)
  have hl : (cfg7.win 3).xinj (grid7.coords t) j = ix2 (⟨(j 0).val, hj0⟩ : Fin 10000) (⟨(j 1).val, hj1⟩ : Fin 64) :=
    funext fun a => match a with | ⟨0, _⟩ => rfl | ⟨1, _⟩ => rfl
  have hr : ((cfg7.win 3).blk t).view.emb j = ix2 (⟨t.val * 10000 + (j 0).val, by omega⟩ : Fin 100000) (⟨(j 1).val, hj1⟩ : Fin 64) := by
    funext a; apply Fin.ext
    match a with
    | ⟨0, _⟩ => show win7_3.index t (0 : Fin 2) * 10000 + 1 * (j 0).val = t.val * 10000 + (j 0).val; omega
    | ⟨1, _⟩ => show win7_3.index t (1 : Fin 2) * 64 + 1 * (j 1).val = (j 1).val; omega
  rw [hl, hr]
  refine point (iblk7 V c 0 t) (iblk7 V c 1 t) (iblk7 V c 2 t) (V c main_v97) (V c main_v99) (V c main_v102)
    ⟨(j 0).val, hj0⟩ ⟨(j 1).val, hj1⟩ ⟨t.val * 10000 + (j 0).val, by omega⟩ ?_ ?_ ?_
  · intro k
    show V c main_v97 (((cfg7.win 0).blk t).view.emb (ix2 (⟨(j 0).val, hj0⟩ : Fin 10000) k)) = V c main_v97 _
    refine congrArg (V c main_v97) (funext fun a => Fin.ext ?_)
    match a with
    | ⟨0, _⟩ => show win7_0.index t (0 : Fin 2) * 10000 + 1 * (j 0).val = t.val * 10000 + (j 0).val; omega
    | ⟨1, _⟩ => show win7_0.index t (1 : Fin 2) * 64 + 1 * k.val = k.val; omega
  · funext y
    show V c main_v99 (((cfg7.win 1).blk t).view.emb y) = V c main_v99 y
    refine congrArg (V c main_v99) (funext fun a => Fin.ext ?_)
    match a with
    | ⟨0, _⟩ => show win7_1.index t (0 : Fin 2) * 64 + 1 * (y 0).val = (y 0).val; omega
    | ⟨1, _⟩ => show win7_1.index t (1 : Fin 2) * 64 + 1 * (y 1).val = (y 1).val; omega
  · funext y
    show V c main_v102 (((cfg7.win 2).blk t).view.emb y) = V c main_v102 y
    refine congrArg (V c main_v102) (funext fun a => Fin.ext ?_)
    match a with
    | ⟨0, _⟩ => show win7_2.index t (0 : Fin 2) * 1 + 1 * (y 0).val = (y 0).val; omega
    | ⟨1, _⟩ => show win7_2.index t (1 : Fin 2) * 64 + 1 * (y 1).val = (y 1).val; omega

/-- An index of the array is in point `t`'s block iff each coordinate is in the block's range on its axis. -/
theorem mem_blk (t : Fin cfg7.N) (i : S100000x64.Idx) :
    i ∈ ((cfg7.win 3).blk t).view.set ↔ ∀ a : Fin 2, win7_3.index t a * S10000x64.size a ≤ (i a).val ∧ (i a).val < win7_3.index t a * S10000x64.size a + S10000x64.size a := by
  show i ∈ ((View.whole main_v103).slice (win7_3.rect t)).set ↔ _
  rw [View.set_slice_whole, Rect.mem_set_unit]
  exact Iff.rfl

/-- Every row `r` of the array is in the block of the point `r / 10000`. -/
theorem cover (i : S100000x64.Idx) : ∃ t : Fin cfg7.N, (cfg7.win 3).flush t = true ∧ i ∈ ((cfg7.win 3).blk t).view.set := by
  have hi0 : (i 0).val < 100000 := (i 0).isLt
  have hi1 : (i 1).val < 64 := (i 1).isLt
  obtain ⟨t, ht⟩ : ∃ t : Fin cfg7.N, t.val = (i 0).val / 10000 := ⟨⟨(i 0).val / 10000, by rw [show cfg7.N = 10 from N_7]; omega⟩, rfl⟩
  obtain ⟨-, -, -, -, -, -, e30, e31⟩ := idx_facts t
  refine ⟨t, flush7_3 t, ?_⟩
  rw [mem_blk]
  intro a
  match a with
  | ⟨0, _⟩ => show win7_3.index t (0 : Fin 2) * 10000 ≤ (i 0).val ∧ (i 0).val < win7_3.index t (0 : Fin 2) * 10000 + 10000; omega
  | ⟨1, _⟩ => show win7_3.index t (1 : Fin 2) * 64 ≤ (i 1).val ∧ (i 1).val < win7_3.index t (1 : Fin 2) * 64 + 64; omega

theorem arr_eq (V : (c : Dev nD) → (b : Ref sig .tc) → Buf (Elt Ideal) ((c : Thread nD τ).loc b)) (c : Dev nD) :
    ((dat7 (F := Ideal) V c).arrAt 3 cfg7.N : Vec Ideal S100000x64 .f32)
      = Cert.Spec.linb (V c main_v97) (V c main_v99) (V c main_v102) :=
  (dat7 V c).arrAt_eq_of_cover 3 (Cert.Spec.linb (F := Ideal) (V c main_v97) (V c main_v99) (V c main_v102)) (fun t _ => flushed_eq V c t) cover

end Cert.KernelIdeal.Reg7

end
-- ==== Proof.Reg8.lean ====
/- The array region 8 leaves, as one function of the arrays it finds. -/
import proofs.«122723_j46918222742294_1_alg».proof.Proof.Gen.KernelIdeal.Frame
import proofs.«122723_j46918222742294_1_alg».proof.Proof.Spec
import proofs.«122723_j46918222742294_1_alg».proof.Proof.LibPlainDot
import Idealize.ShloMosaic.Lib.Pipeline.Value
import Idealize.ShloMosaic.Lib.ValueLayout

noncomputable section

namespace Cert.KernelIdeal.Reg8

open Idealize.ShloMosaic Idealize.ShloMosaic.TcCoe Idealize.ShloMosaic.ValueIdx Idealize.SL.Sem Cert.KernelIdeal Cert.KernelIdeal.Gen
open Idealize.ShloMosaic.Pipeline (Dat)

/-- The zero offset of a whole-buffer access, as a function. -/
theorem zero_off : (![0, 0] : Fin 2 → Nat) = fun _ => 0 := funext fun a => by fin_cases a <;> rfl

/-- A column `[a, 1]` broadcast to `[a, b]` reads, at `(p, c)`, the column's entry in row `p`. -/
theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` laid on both axes of `[a, b]` reads, at `(p, c)`, the column's entry in row `p`. -/
theorem broadcastInDim_col_apply {α : Type} {a b : ℕ} (h : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- One row `[1, b]` laid on both axes of `[a, b]` reads, at `(p, c)`, the row's entry in column `c`. -/
theorem broadcastInDim_row_apply {α : Type} {a b : ℕ} (h : (⟨2, ![1, b]⟩ : Shape).BroadcastsInDim ⟨2, ![a, b]⟩ ![0, 1])
    (v : (⟨2, ![1, b]⟩ : Shape).Idx → α) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The body's value at row `p`, column `q` of a block: max(s / cnt + bias, 0) with the count taken from the
    block's column at row `p` and the bias from the one row at column `q`. -/
theorem pay_apply (x0 : Vec Ideal S10000x64 .f32) (x1 : Vec Ideal S10000x1 .f32) (x2 : Vec Ideal S1x64 .f32)
    (p : Fin 10000) (q : Fin 64) :
    k8_pay1 x0 x1 x2 (ix2 p q)
      = max (Ideal.div (x0 (ix2 p q)) (x1 (ix2 p (0 : Fin 1))) + x2 (ix2 (0 : Fin 1) q)) (Ideal.ofBits .f32 0x00000000#32) := by
  unfold k8_pay1
  simp only [shapeCast_self]
  rw [maximumf_apply, addf_apply, divf_apply, broadcast_apply, broadcastTo_col_apply, broadcastTo_1b_ab_apply]
  rfl

/-- The host form at row `r`, column `q` of the whole array: the same expression of the whole operands. -/
theorem host_apply (s : Vec Ideal S100000x64 .f32) (cn : Vec Ideal S100000x1 .f32) (b2 : Vec Ideal S1x64 .f32)
    (r : Fin 100000) (q : Fin 64) :
    Cert.Spec.actb s cn b2 (ix2 r q)
      = max (Ideal.div (s (ix2 r q)) (cn (ix2 r (0 : Fin 1))) + b2 (ix2 (0 : Fin 1) q)) (Ideal.ofBits .f32 0x00000000#32) := by
  unfold Cert.Spec.actb
  rw [maximumf_apply, addf_apply, broadcastInDim_row_apply]
  show max (Ideal.div (s (ix2 r q)) (broadcastInDim _ ![0, 1] _ cn (ix2 r q)) + _) _ = _
  rw [broadcastInDim_col_apply]
  rfl

/-- A block entry and an array entry agree as soon as the three operands they read agree. -/
theorem point_eq (x0 : Vec Ideal S10000x64 .f32) (x1 : Vec Ideal S10000x1 .f32) (x2 : Vec Ideal S1x64 .f32)
    (s : Vec Ideal S100000x64 .f32) (cn : Vec Ideal S100000x1 .f32) (b2 : Vec Ideal S1x64 .f32)
    (p : Fin 10000) (q : Fin 64) (i : S100000x64.Idx)
    (h0 : x0 (ix2 p q) = s i) (h1 : x1 (ix2 p (0 : Fin 1)) = cn (ix2 (i 0) (0 : Fin 1)))
    (h2 : x2 (ix2 (0 : Fin 1) q) = b2 (ix2 (0 : Fin 1) (i 1))) :
    k8_pay1 x0 x1 x2 (ix2 p q) = Cert.Spec.actb s cn b2 i := by
  obtain ⟨r, q', rfl⟩ : ∃ (r : Fin 100000) (q' : Fin 64), i = ix2 r q' := ⟨i 0, i 1, eq_ix2 i⟩
  rw [pay_apply, host_apply, h0, h1, h2]

/-- The windows' block indices over the grid: the three row-blocked windows sit at block row `t`, the bias window at
    its only block. -/
theorem idx_facts : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0 :=
  (by decide +kernel : ∀ t : Fin grid8.N, _)

/-- What point `t` writes back is block `t` of the host form of the arrays the region finds. -/
theorem flushed_eq (V : (c : Dev nD) → (b : Ref sig .tc) → Buf (Elt Ideal) ((c : Thread nD τ).loc b)) (c : Dev nD)
    (t : Fin cfg8.N) :
    (dat8 (F := Ideal) V c).flushed 3 t
      = ((cfg8.win 3).blk t).view.read (Elt Ideal) (Cert.Spec.actb (V c main_v116) (V c main_v31) (V c main_v117)) := by
  show (cfg8.win 3).cut (grid8.coords t) ((dat8 V c).after 3 t) = _
  rw [after8_3]
  unfold out8_3
  rw [View.canon_unit_zero zero_off]
  simp only [View.ld_unit_zero (S := S10000x64) zero_off, View.ld_unit_zero (S := S10000x1) zero_off,
    View.ld_unit_zero (S := S1x64) zero_off]
  obtain ⟨e00, e01, e10, e11, e20, e21, e30, e31⟩ := idx_facts t
  funext j
  obtain ⟨p, q, rfl⟩ : ∃ (p : Fin 10000) (q : Fin 64), j = ix2 p q := ⟨j 0, j 1, eq_ix2 j⟩
  refine point_eq (iblk8 V c 0 t) (iblk8 V c 1 t) (iblk8 V c 2 t) (V c main_v116) (V c main_v31) (V c main_v117) p q
    (((cfg8.win 3).blk t).view.emb (ix2 p q)) ?_ ?_ ?_
  · show V c main_v116 (((cfg8.win 0).blk t).view.emb (ix2 p q)) = V c main_v116 (((cfg8.win 3).blk t).view.emb (ix2 p q))
    refine congrArg _ (funext fun a => Fin.ext ?_)
    match a with
    | ⟨0, _⟩ => show win8_0.index t (0 : Fin 2) * 10000 + 1 * p.val = win8_3.index t (0 : Fin 2) * 10000 + 1 * p.val; omega
    | ⟨1, _⟩ => show win8_0.index t (1 : Fin 2) * 64 + 1 * q.val = win8_3.index t (1 : Fin 2) * 64 + 1 * q.val; omega
  · show V c main_v31 (((cfg8.win 1).blk t).view.emb (ix2 p (0 : Fin 1))) = V c main_v31 (ix2 ((((cfg8.win 3).blk t).view.emb (ix2 p q)) 0) (0 : Fin 1))
    refine congrArg _ (funext fun a => Fin.ext ?_)
    match a with
    | ⟨0, _⟩ => show win8_1.index t (0 : Fin 2) * 10000 + 1 * p.val = win8_3.index t (0 : Fin 2) * 10000 + 1 * p.val; omega
    | ⟨1, _⟩ => show win8_1.index t (1 : Fin 2) * 1 + 1 * 0 = 0; omega
  · show V c main_v117 (((cfg8.win 2).blk t).view.emb (ix2 (0 : Fin 1) q)) = V c main_v117 (ix2 (0 : Fin 1) ((((cfg8.win 3).blk t).view.emb (ix2 p q)) 1))
    refine congrArg _ (funext fun a => Fin.ext ?_)
    match a with
    | ⟨0, _⟩ => show win8_2.index t (0 : Fin 2) * 1 + 1 * 0 = 0; omega
    | ⟨1, _⟩ => show win8_2.index t (1 : Fin 2) * 64 + 1 * q.val = win8_3.index t (1 : Fin 2) * 64 + 1 * q.val; omega

/-- An index of the array is in point `t`'s block iff each coordinate is in the block's range on its axis. -/
theorem mem_blk (t : Fin cfg8.N) (i : S100000x64.Idx) :
    i ∈ ((cfg8.win 3).blk t).view.set ↔ ∀ a : Fin 2, win8_3.index t a * S10000x64.size a ≤ (i a).val
      ∧ (i a).val < win8_3.index t a * S10000x64.size a + S10000x64.size a := by
  show i ∈ ((View.whole main_v118).slice (win8_3.rect t)).set ↔ _
  rw [View.set_slice_whole, Rect.mem_set_unit]
  exact Iff.rfl

/-- Every row lies in a written block: row `r` in the block of point `r / 10000`. -/
theorem cover (i : S100000x64.Idx) :
    ∃ t : Fin cfg8.N, (cfg8.win 3).flush t = true ∧ i ∈ ((cfg8.win 3).blk t).view.set := by
  have hi0 : (i 0).val < 100000 := (i 0).isLt
  have hi1 : (i 1).val < 64 := (i 1).isLt
  have hN : cfg8.N = 10 := N_8
  obtain ⟨t, ht⟩ : ∃ t : Fin cfg8.N, t.val = (i 0).val / 10000 := ⟨⟨(i 0).val / 10000, by rw [hN]; omega⟩, rfl⟩
  obtain ⟨-, -, -, -, -, -, e30, e31⟩ := idx_facts t
  refine ⟨t, flush8_3 t, ?_⟩
  rw [mem_blk]
  intro a
  match a with
  | ⟨0, _⟩ => show win8_3.index t (0 : Fin 2) * 10000 ≤ (i 0).val ∧ (i 0).val < win8_3.index t (0 : Fin 2) * 10000 + 10000; omega
  | ⟨1, _⟩ => show win8_3.index t (1 : Fin 2) * 64 ≤ (i 1).val ∧ (i 1).val < win8_3.index t (1 : Fin 2) * 64 + 64; omega

theorem arr_eq (V : (c : Dev nD) → (b : Ref sig .tc) → Buf (Elt Ideal) ((c : Thread nD τ).loc b)) (c : Dev nD) :
    ((dat8 (F := Ideal) V c).arrAt 3 cfg8.N : Vec Ideal S100000x64 .f32)
      = Cert.Spec.actb (V c main_v116) (V c main_v31) (V c main_v117) :=
  (dat8 V c).arrAt_eq_of_cover 3 (Cert.Spec.actb (V c main_v116) (V c main_v31) (V c main_v117)) (fun t _ => flushed_eq V c t) cover

end Cert.KernelIdeal.Reg8

end
-- ==== Proof.Layer4.lean ====
/-
  Graph-convolution layer 4 of the kernel program: from the node features found in buffer main_v97 to those left in
  main_v118. Two host stretches (slicing the layer's weight matrix and bias out of the stacked parameters; gathering the
  transformed rows by edge, scaling by the edge normalisation and summing by destination) alternate with two regions
  (h · W with a zero bias; mean, bias, rectifier). With the zero bias dropped (x + 0 = x) and the one-row bias written
  as a broadcast, the buffer ends holding the specification's layer function of what the layer found.
-/
import proofs.«122723_j46918222742294_1_alg».proof.Proof.Gen.KernelIdeal.Frame
import proofs.«122723_j46918222742294_1_alg».proof.Proof.Spec
import proofs.«122723_j46918222742294_1_alg».proof.Proof.LibLayout
import proofs.«122723_j46918222742294_1_alg».proof.Proof.ChainTac
import proofs.«122723_j46918222742294_1_alg».proof.Proof.Reg7
import proofs.«122723_j46918222742294_1_alg».proof.Proof.Reg8
import Idealize.ShloMosaic.Lib.StableHlo.Run

set_option maxRecDepth 16384

noncomputable section

namespace Cert.KernelIdeal.Layer4

open Idealize.ShloMosaic Idealize.ShloMosaic.TcCoe Idealize.ShloMosaic.StableHlo Idealize.SL.Sem Cert.KernelIdeal Cert.KernelIdeal.Gen Cert.KernelIdeal.Chain
open Cert.LibLayout (IsZero)

/-- The buffers carried unchanged through the layer: the arguments read later, the edge normalisation, the zero bias. -/
abbrev carried : List (Ref sig .tc) := [main_arg4, main_arg5, main_arg6, main_arg7, main_arg8, main_arg9, main_arg10, main_arg11, main_arg12, main_arg13, main_v24, main_v34]

/-! ## The two host stretches, for any contents `W` of the buffers -/

section Stretch

variable (W : Valuation τ sig (Elt Ideal))

/-- The layer's weight matrix, cut from the stacked weights. -/
theorem hA_wslice : (StableHlo.after hostOps7 W (Proc.devRef .tc main_v99) : Vec Ideal S64x64 .f32) = Cert.Spec.W1 (W (Proc.devRef .tc main_arg6)) := by
  dsimp only [hostOps7]
  after_results <;> rfl

/-- The layer's bias, cut from the stacked biases. -/
theorem hA_bslice : (StableHlo.after hostOps7 W (Proc.devRef .tc main_v101) : Vec Ideal S64 .f32) = Cert.Spec.B1 (W (Proc.devRef .tc main_arg7)) := by
  dsimp only [hostOps7]
  after_results <;> rfl

/-- The zero bias of the dense transform, made a one-row matrix: 0 everywhere when the vector is. -/
theorem hA_zrow (hz : IsZero (s := S64) (W (Proc.devRef .tc main_v34))) : IsZero (s := S1x64) (StableHlo.after hostOps7 W (Proc.devRef .tc main_v102)) := by
  have e : (StableHlo.after hostOps7 W (Proc.devRef .tc main_v102) : Vec Ideal S1x64 .f32) = shapeCast S1x64 (W (Proc.devRef .tc main_v34)) shapeCasts_S64_S1x64 := by
    dsimp only [hostOps7]
    after_results <;> rfl
  intro j
  rw [e]
  exact hz _

set_option maxHeartbeats 4000000 in
/-- The first stretch writes none of the carried buffers. -/
theorem hA_keep : ∀ b ∈ carried, StableHlo.after hostOps7 W (Proc.devRef .tc b) = W (Proc.devRef .tc b) := by
  intro b hb
  simp only [carried, List.mem_cons, List.mem_nil_iff, or_false] at hb
  rcases hb with rfl | rfl | rfl | rfl | rfl | rfl | rfl | rfl | rfl | rfl | rfl | rfl <;> host_keeps hostOps7

/-- … nor the node features it finds, nor the edge counts. -/
theorem hA_hprev : StableHlo.after hostOps7 W (Proc.devRef .tc main_v97) = W (Proc.devRef .tc main_v97) := by host_keeps hostOps7
theorem hA_v31 : StableHlo.after hostOps7 W (Proc.devRef .tc main_v31) = W (Proc.devRef .tc main_v31) := by host_keeps hostOps7

set_option maxHeartbeats 4000000 in
/-- Messages summed at their destination: the transformed rows gathered by edge, scaled, scatter-added by column. -/
theorem hB_s : (StableHlo.after hostOps8 W (Proc.devRef .tc main_v116) : Vec Ideal S100000x64 .f32)
    = Cert.Spec.agg (W (Proc.devRef .tc main_v103)) (W (Proc.devRef .tc main_v24)) (W (Proc.devRef .tc main_arg12)) (W (Proc.devRef .tc main_arg13)) := by
  dsimp only [hostOps8]
  after_results_simp <;> rfl

/-- The layer's bias made a one-row matrix. -/
theorem hB_brow : (StableHlo.after hostOps8 W (Proc.devRef .tc main_v117) : Vec Ideal S1x64 .f32) = shapeCast S1x64 (W (Proc.devRef .tc main_v101)) shapeCasts_S64_S1x64 := by
  dsimp only [hostOps8]
  after_results <;> rfl

set_option maxHeartbeats 4000000 in
/-- The second stretch writes none of the carried buffers. -/
theorem hB_keep : ∀ b ∈ carried, StableHlo.after hostOps8 W (Proc.devRef .tc b) = W (Proc.devRef .tc b) := by
  intro b hb
  simp only [carried, List.mem_cons, List.mem_nil_iff, or_false] at hb
  rcases hb with rfl | rfl | rfl | rfl | rfl | rfl | rfl | rfl | rfl | rfl | rfl | rfl <;> host_keeps hostOps8

theorem hB_v31 : StableHlo.after hostOps8 W (Proc.devRef .tc main_v31) = W (Proc.devRef .tc main_v31) := by host_keeps hostOps8

end Stretch

/-! ## The two regions leave the carried buffers alone -/

section Regions

variable (m : (ℓ : Loc nD τ sig) → Buf (Elt Ideal) ℓ) (ρ : Dev nD → PrngReg) (c : Dev nD)

set_option maxHeartbeats 4000000 in
theorem rA_keep : ∀ b ∈ carried, W18 m ρ c (Proc.devRef .tc b) = W17 m ρ c (Proc.devRef .tc b) := by
  intro b hb
  simp only [carried, List.mem_cons, List.mem_nil_iff, or_false] at hb
  rcases hb with rfl | rfl | rfl | rfl | rfl | rfl | rfl | rfl | rfl | rfl | rfl | rfl <;> exact W18_of_ne m ρ c _ (by decide)

theorem rA_bslice : W18 m ρ c (Proc.devRef .tc main_v101) = W17 m ρ c (Proc.devRef .tc main_v101) := W18_of_ne m ρ c _ (by decide)
theorem rA_v31 : W18 m ρ c (Proc.devRef .tc main_v31) = W17 m ρ c (Proc.devRef .tc main_v31) := W18_of_ne m ρ c _ (by decide)

set_option maxHeartbeats 4000000 in
theorem rB_keep : ∀ b ∈ carried, W20 m ρ c (Proc.devRef .tc b) = W19 m ρ c (Proc.devRef .tc b) := by
  intro b hb
  simp only [carried, List.mem_cons, List.mem_nil_iff, or_false] at hb
  rcases hb with rfl | rfl | rfl | rfl | rfl | rfl | rfl | rfl | rfl | rfl | rfl | rfl <;> exact W20_of_ne m ρ c _ (by decide)

/-- The edge counts are an input window of the second region: read, never written back. -/
theorem rB_v31 : W20 m ρ c (Proc.devRef .tc main_v31) = W19 m ρ c (Proc.devRef .tc main_v31) :=
  (W20_arr m ρ c 1).trans (((dat8 (V19 m ρ) c).arrAt_in 1 rfl _).trans (A_eq8 (V19 m ρ) c 1))

/-- The carried buffers after the layer are as before it. -/
theorem keep (b : Ref sig .tc) (hb : b ∈ carried) : W20 m ρ c (Proc.devRef .tc b) = W16 m ρ c (Proc.devRef .tc b) :=
  (((rB_keep m ρ c b hb).trans (hB_keep (W18 m ρ c) b hb)).trans (rA_keep m ρ c b hb)).trans (hA_keep (W16 m ρ c) b hb)

/-- The edge counts after the layer are as before it. -/
theorem keep31 : W20 m ρ c (Proc.devRef .tc main_v31) = W16 m ρ c (Proc.devRef .tc main_v31) :=
  (((rB_v31 m ρ c).trans (hB_v31 (W18 m ρ c))).trans (rA_v31 m ρ c)).trans (hA_v31 (W16 m ρ c))

/-- The zero bias is still 0 everywhere after the layer. -/
theorem zero34 (hz : IsZero (s := S64) (W16 m ρ c (Proc.devRef .tc main_v34))) : IsZero (s := S64) (W20 m ρ c (Proc.devRef .tc main_v34)) := by
  rw [keep m ρ c main_v34 (by simp)]
  exact hz

/-! ## The layer -/

/-- What the layer leaves in main_v118, from what it finds at its first boundary. -/
theorem layer (H : Vec Ideal S100000x64 .f32) (wa : Vec Ideal S3x64x64 .f32) (ba : Vec Ideal S3x64 .f32)
    (nrm : Vec Ideal S1600000 .f32) (cn : Vec Ideal S100000x1 .f32) (rw cl : Vec Ideal S1600000 .i32)
    (hH : W16 m ρ c (Proc.devRef .tc main_v97) = H) (hwa : W16 m ρ c (Proc.devRef .tc main_arg6) = wa) (hba : W16 m ρ c (Proc.devRef .tc main_arg7) = ba)
    (hz : IsZero (s := S64) (W16 m ρ c (Proc.devRef .tc main_v34)))
    (hn : W16 m ρ c (Proc.devRef .tc main_v24) = nrm) (hc : W16 m ρ c (Proc.devRef .tc main_v31) = cn)
    (hr : W16 m ρ c (Proc.devRef .tc main_arg12) = rw) (hcl : W16 m ρ c (Proc.devRef .tc main_arg13) = cl) :
    (W20 m ρ c (Proc.devRef .tc main_v118) : Vec Ideal S100000x64 .f32)
      = Cert.Spec.layer H (Cert.Spec.W1 wa) (Cert.Spec.B1 ba) nrm cn rw cl := by
  -- what the dense transform finds
  have e_h : W17 m ρ c (Proc.devRef .tc main_v97) = H := (hA_hprev (W16 m ρ c)).trans hH
  have e_w : (W17 m ρ c (Proc.devRef .tc main_v99) : Vec Ideal S64x64 .f32) = Cert.Spec.W1 wa := (hA_wslice (W16 m ρ c)).trans (by rw [hwa])
  have e_z : IsZero (s := S1x64) (W17 m ρ c (Proc.devRef .tc main_v102)) := hA_zrow (W16 m ρ c) hz
  have e_b : (W17 m ρ c (Proc.devRef .tc main_v101) : Vec Ideal S64 .f32) = Cert.Spec.B1 ba := (hA_bslice (W16 m ρ c)).trans (by rw [hba])
  -- what it leaves: h · W, the zero bias dropped
  have x_hw : (W18 m ρ c (Proc.devRef .tc main_v103) : Vec Ideal S100000x64 .f32) = Cert.Spec.lin H (Cert.Spec.W1 wa) := by
    refine ((W18_arr m ρ c 3).trans (Cert.KernelIdeal.Reg7.arr_eq (V17 m ρ) c)).trans ?_
    show Cert.Spec.linb (W17 m ρ c (Proc.devRef .tc main_v97)) (W17 m ρ c (Proc.devRef .tc main_v99)) (W17 m ρ c (Proc.devRef .tc main_v102)) = _
    rw [e_h, e_w]
    exact Cert.LibLayout.addf_zero _ _ (fun j => e_z _)
  -- the carried buffers at the second stretch
  have k_n : W18 m ρ c (Proc.devRef .tc main_v24) = nrm := ((rA_keep m ρ c main_v24 (by simp)).trans (hA_keep (W16 m ρ c) main_v24 (by simp))).trans hn
  have k_r : W18 m ρ c (Proc.devRef .tc main_arg12) = rw := ((rA_keep m ρ c main_arg12 (by simp)).trans (hA_keep (W16 m ρ c) main_arg12 (by simp))).trans hr
  have k_c : W18 m ρ c (Proc.devRef .tc main_arg13) = cl := ((rA_keep m ρ c main_arg13 (by simp)).trans (hA_keep (W16 m ρ c) main_arg13 (by simp))).trans hcl
  have k_31 : W18 m ρ c (Proc.devRef .tc main_v31) = cn := ((rA_v31 m ρ c).trans (hA_v31 (W16 m ρ c))).trans hc
  have k_b : (W18 m ρ c (Proc.devRef .tc main_v101) : Vec Ideal S64 .f32) = Cert.Spec.B1 ba := (rA_bslice m ρ c).trans e_b
  -- what the second region finds
  have e_s : (W19 m ρ c (Proc.devRef .tc main_v116) : Vec Ideal S100000x64 .f32) = Cert.Spec.agg (Cert.Spec.lin H (Cert.Spec.W1 wa)) nrm rw cl :=
    (hB_s (W18 m ρ c)).trans (by rw [x_hw, k_n, k_r, k_c])
  have e_br : (W19 m ρ c (Proc.devRef .tc main_v117) : Vec Ideal S1x64 .f32) = shapeCast S1x64 (Cert.Spec.B1 ba) shapeCasts_S64_S1x64 :=
    (hB_brow (W18 m ρ c)).trans (by rw [k_b])
  have e_c : W19 m ρ c (Proc.devRef .tc main_v31) = cn := (hB_v31 (W18 m ρ c)).trans k_31
  -- what it leaves
  refine ((W20_arr m ρ c 3).trans (Cert.KernelIdeal.Reg8.arr_eq (V19 m ρ) c)).trans ?_
  show Cert.Spec.actb (W19 m ρ c (Proc.devRef .tc main_v116)) (W19 m ρ c (Proc.devRef .tc main_v31)) (W19 m ρ c (Proc.devRef .tc main_v117)) = _
  rw [e_s, e_c, e_br, Cert.LibLayout.shapeCast_eq_broadcastInDim_row _ _ Cert.ReferenceIdeal.Gen.bcast_S64_S1x64_1]
  rfl

end Regions

end Cert.KernelIdeal.Layer4

end
-- ==== Proof.Reg9.lean ====
/- The array region 9 leaves, as one function of the arrays it finds. -/
import proofs.«122723_j46918222742294_1_alg».proof.Proof.Gen.KernelIdeal.Frame
import proofs.«122723_j46918222742294_1_alg».proof.Proof.Spec
import proofs.«122723_j46918222742294_1_alg».proof.Proof.LibPlainDot
import Idealize.ShloMosaic.Lib.Pipeline.Value
import Idealize.ShloMosaic.Lib.ValueLayout

set_option maxRecDepth 16384

noncomputable section

namespace Cert.KernelIdeal.Reg9

open Idealize.ShloMosaic Idealize.ShloMosaic.TcCoe Idealize.ShloMosaic.ValueIdx Idealize.SL.Sem Cert.KernelIdeal Cert.KernelIdeal.Gen
open Idealize.ShloMosaic.Pipeline (Dat)

/-! ## The body's arithmetic and the host form, entry by entry -/

/-- The body's value at row `p`, column `q` of a block: row `p` of the block against column `q` of the weights,
    plus the bias' entry `q`. -/
theorem pay_apply (x0 : Vec Ideal S10000x64 .f32) (x1 : Vec Ideal S64x64 .f32) (x2 : Vec Ideal S1x64 .f32) (p : Fin 10000) (q : Fin 64) :
    k9_pay1 (F := Ideal) x0 x1 x2 (ix2 p q) = (∑ k : Fin 64, x0 (ix2 p k) * x1 (ix2 k q)) + x2 (ix2 (0 : Fin 1) q) := by
  unfold k9_pay1
  simp only [shapeCast_self]
  refine (addf_apply _ _ _).trans ?_
  refine congr (congrArg HAdd.hAdd ?_) ?_
  · exact Cert.LibPlainDot.matmul_plain 10000 64 64 none x0 x1 (ix2 p q)
  · exact broadcastTo_1b_ab_apply x2 _ p q

/-- The host form h · W + b at row `r`, column `q`: the same sum over the whole array's row `r`. -/
theorem linb_apply (h : Vec Ideal S100000x64 .f32) (W : Vec Ideal S64x64 .f32) (b : Vec Ideal S1x64 .f32) (r : Fin 100000) (q : Fin 64) :
    Cert.Spec.linb (F := Ideal) h W b (ix2 r q) = (∑ k : Fin 64, h (ix2 r k) * W (ix2 k q)) + b (ix2 (0 : Fin 1) q) := by
  unfold Cert.Spec.linb Cert.Spec.lin
  refine (addf_apply _ _ _).trans ?_
  refine congr (congrArg HAdd.hAdd ?_) ?_
  · exact Cert.LibPlainDot.dotGeneral_plain 100000 64 64 none h W (ix2 r q)
  · refine broadcastInDim_apply _ _ b (ix2 r q) (ix2 (0 : Fin 1) q) fun a => ?_
    match a with
    | ⟨0, _⟩ => rfl
    | ⟨1, _⟩ => rfl

/-- A block whose row `p` is the array's row `r`, with the whole weights and bias, gives at (p, q) what the host form
    gives at (r, q). -/
theorem point (x0 : Vec Ideal S10000x64 .f32) (x1 : Vec Ideal S64x64 .f32) (x2 : Vec Ideal S1x64 .f32)
    (h : Vec Ideal S100000x64 .f32) (W : Vec Ideal S64x64 .f32) (b : Vec Ideal S1x64 .f32)
    (p : Fin 10000) (q : Fin 64) (r : Fin 100000) (h0 : ∀ k : Fin 64, x0 (ix2 p k) = h (ix2 r k)) (h1 : x1 = W) (h2 : x2 = b) :
    k9_pay1 (F := Ideal) x0 x1 x2 (ix2 p q) = Cert.Spec.linb (F := Ideal) h W b (ix2 r q) := by
  subst h1 h2
  rw [pay_apply, linb_apply]
  exact congrArg (· + x2 (ix2 (0 : Fin 1) q)) (Finset.sum_congr rfl fun k _ => congrArg (· * x1 (ix2 k q)) (h0 k))

/-! ## From blocks to the array -/

theorem zero_off : (![0, 0] : Fin 2 → Nat) = fun _ => 0 := funext fun a => by fin_cases a <;> rfl

/-- The index maps over the grid: the row-blocked operand and the result sit at block row `t`, column block 0; the
    weights and the bias are whole at every point. -/
theorem idx_facts : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0 :=
  (by decide +kernel : ∀ t : Fin grid9.N, _)

/-- What point `t` writes back is block `t` (rows 10000·t … 10000·t + 9999) of the host form of the arrays the region finds. -/
theorem flushed_eq (V : (c : Dev nD) → (b : Ref sig .tc) → Buf (Elt Ideal) ((c : Thread nD τ).loc b)) (c : Dev nD) (t : Fin cfg9.N) :
    (dat9 (F := Ideal) V c).flushed 3 t
      = ((cfg9.win 3).blk t).view.read (Elt Ideal) (Cert.Spec.linb (F := Ideal) (V c main_v118) (V c main_v120) (V c main_v123)) := by
  show (cfg9.win 3).cut (grid9.coords t) ((dat9 V c).after 3 t) = _
  rw [after9_3]
  unfold out9_3
  rw [View.canon_unit_zero zero_off]
  simp only [View.ld_unit_zero (S := S10000x64) zero_off, View.ld_unit_zero (S := S64x64) zero_off, View.ld_unit_zero (S := S1x64) zero_off]
  obtain ⟨e00, e01, e10, e11, e20, e21, e30, e31⟩ := idx_facts t
  have hN : cfg9.N = 10 := N_9
  have ht : t.val < 10 := by have := t.isLt; omega
  funext j
  have hj0 : (j 0).val < 10000 := (j 0).isLt
  have hj1 : (j 1).val < 64 := (j 1).isLt
  show k9_pay1 (iblk9 V c 0 t) (iblk9 V c 1 t) (iblk9 V c 2 t) ((cfg9.win 3).xinj (grid9.coords t) j)
    = Cert.Spec.linb (F := Ideal) (V c main_v118) (V c main_v120) (V c main_v123) (((cfg9.win 3).blk t).view.emb j)
  have hl : (cfg9.win 3).xinj (grid9.coords t) j = ix2 (⟨(j 0).val, hj0⟩ : Fin 10000) (⟨(j 1).val, hj1⟩ : Fin 64) :=
    funext fun a => match a with | ⟨0, _⟩ => rfl | ⟨1, _⟩ => rfl
  have hr : ((cfg9.win 3).blk t).view.emb j = ix2 (⟨t.val * 10000 + (j 0).val, by omega⟩ : Fin 100000) (⟨(j 1).val, hj1⟩ : Fin 64) := by
    funext a; apply Fin.ext
    match a with
    | ⟨0, _⟩ => show win9_3.index t (0 : Fin 2) * 10000 + 1 * (j 0).val = t.val * 10000 + (j 0).val; omega
    | ⟨1, _⟩ => show win9_3.index t (1 : Fin 2) * 64 + 1 * (j 1).val = (j 1).val; omega
  rw [hl, hr]
  refine point (iblk9 V c 0 t) (iblk9 V c 1 t) (iblk9 V c 2 t) (V c main_v118) (V c main_v120) (V c main_v123)
    ⟨(j 0).val, hj0⟩ ⟨(j 1).val, hj1⟩ ⟨t.val * 10000 + (j 0).val, by omega⟩ ?_ ?_ ?_
  · intro k
    show V c main_v118 (((cfg9.win 0).blk t).view.emb (ix2 (⟨(j 0).val, hj0⟩ : Fin 10000) k)) = V c main_v118 _
    refine congrArg (V c main_v118) (funext fun a => Fin.ext ?_)
    match a with
    | ⟨0, _⟩ => show win9_0.index t (0 : Fin 2) * 10000 + 1 * (j 0).val = t.val * 10000 + (j 0).val; omega
    | ⟨1, _⟩ => show win9_0.index t (1 : Fin 2) * 64 + 1 * k.val = k.val; omega
  · funext y
    show V c main_v120 (((cfg9.win 1).blk t).view.emb y) = V c main_v120 y
    refine congrArg (V c main_v120) (funext fun a => Fin.ext ?_)
    match a with
    | ⟨0, _⟩ => show win9_1.index t (0 : Fin 2) * 64 + 1 * (y 0).val = (y 0).val; omega
    | ⟨1, _⟩ => show win9_1.index t (1 : Fin 2) * 64 + 1 * (y 1).val = (y 1).val; omega
  · funext y
    show V c main_v123 (((cfg9.win 2).blk t).view.emb y) = V c main_v123 y
    refine congrArg (V c main_v123) (funext fun a => Fin.ext ?_)
    match a with
    | ⟨0, _⟩ => show win9_2.index t (0 : Fin 2) * 1 + 1 * (y 0).val = (y 0).val; omega
    | ⟨1, _⟩ => show win9_2.index t (1 : Fin 2) * 64 + 1 * (y 1).val = (y 1).val; omega

/-- An index of the array is in point `t`'s block iff each coordinate is in the block's range on its axis. -/
theorem mem_blk (t : Fin cfg9.N) (i : S100000x64.Idx) :
    i ∈ ((cfg9.win 3).blk t).view.set ↔ ∀ a : Fin 2, win9_3.index t a * S10000x64.size a ≤ (i a).val ∧ (i a).val < win9_3.index t a * S10000x64.size a + S10000x64.size a := by
  show i ∈ ((View.whole main_v124).slice (win9_3.rect t)).set ↔ _
  rw [View.set_slice_whole, Rect.mem_set_unit]
  exact Iff.rfl

/-- Every row `r` of the array is in the block of the point `r / 10000`. -/
theorem cover (i : S100000x64.Idx) : ∃ t : Fin cfg9.N, (cfg9.win 3).flush t = true ∧ i ∈ ((cfg9.win 3).blk t).view.set := by
  have hi0 : (i 0).val < 100000 := (i 0).isLt
  have hi1 : (i 1).val < 64 := (i 1).isLt
  obtain ⟨t, ht⟩ : ∃ t : Fin cfg9.N, t.val = (i 0).val / 10000 := ⟨⟨(i 0).val / 10000, by rw [show cfg9.N = 10 from N_9]; omega⟩, rfl⟩
  obtain ⟨-, -, -, -, -, -, e30, e31⟩ := idx_facts t
  refine ⟨t, flush9_3 t, ?_⟩
  rw [mem_blk]
  intro a
  match a with
  | ⟨0, _⟩ => show win9_3.index t (0 : Fin 2) * 10000 ≤ (i 0).val ∧ (i 0).val < win9_3.index t (0 : Fin 2) * 10000 + 10000; omega
  | ⟨1, _⟩ => show win9_3.index t (1 : Fin 2) * 64 ≤ (i 1).val ∧ (i 1).val < win9_3.index t (1 : Fin 2) * 64 + 64; omega

theorem arr_eq (V : (c : Dev nD) → (b : Ref sig .tc) → Buf (Elt Ideal) ((c : Thread nD τ).loc b)) (c : Dev nD) :
    ((dat9 (F := Ideal) V c).arrAt 3 cfg9.N : Vec Ideal S100000x64 .f32)
      = Cert.Spec.linb (V c main_v118) (V c main_v120) (V c main_v123) :=
  (dat9 V c).arrAt_eq_of_cover 3 (Cert.Spec.linb (F := Ideal) (V c main_v118) (V c main_v120) (V c main_v123)) (fun t _ => flushed_eq V c t) cover

end Cert.KernelIdeal.Reg9

end
-- ==== Proof.Reg10.lean ====
/- The array region 10 leaves, as one function of the arrays it finds. -/
import proofs.«122723_j46918222742294_1_alg».proof.Proof.Gen.KernelIdeal.Frame
import proofs.«122723_j46918222742294_1_alg».proof.Proof.Spec
import proofs.«122723_j46918222742294_1_alg».proof.Proof.LibPlainDot
import Idealize.ShloMosaic.Lib.Pipeline.Value
import Idealize.ShloMosaic.Lib.ValueLayout

noncomputable section

namespace Cert.KernelIdeal.Reg10

open Idealize.ShloMosaic Idealize.ShloMosaic.TcCoe Idealize.ShloMosaic.ValueIdx Idealize.SL.Sem Cert.KernelIdeal Cert.KernelIdeal.Gen
open Idealize.ShloMosaic.Pipeline (Dat)

/-- The zero offset of a whole-buffer access, as a function. -/
theorem zero_off : (![0, 0] : Fin 2 → Nat) = fun _ => 0 := funext fun a => by fin_cases a <;> rfl

/-- A column `[a, 1]` broadcast to `[a, b]` reads, at `(p, c)`, the column's entry in row `p`. -/
theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` laid on both axes of `[a, b]` reads, at `(p, c)`, the column's entry in row `p`. -/
theorem broadcastInDim_col_apply {α : Type} {a b : ℕ} (h : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- One row `[1, b]` laid on both axes of `[a, b]` reads, at `(p, c)`, the row's entry in column `c`. -/
theorem broadcastInDim_row_apply {α : Type} {a b : ℕ} (h : (⟨2, ![1, b]⟩ : Shape).BroadcastsInDim ⟨2, ![a, b]⟩ ![0, 1])
    (v : (⟨2, ![1, b]⟩ : Shape).Idx → α) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The body's value at row `p`, column `q` of a block: max(s / cnt + bias, 0) with the count taken from the
    block's column at row `p` and the bias from the one row at column `q`. -/
theorem pay_apply (x0 : Vec Ideal S10000x64 .f32) (x1 : Vec Ideal S10000x1 .f32) (x2 : Vec Ideal S1x64 .f32)
    (p : Fin 10000) (q : Fin 64) :
    k10_pay1 x0 x1 x2 (ix2 p q)
      = max (Ideal.div (x0 (ix2 p q)) (x1 (ix2 p (0 : Fin 1))) + x2 (ix2 (0 : Fin 1) q)) (Ideal.ofBits .f32 0x00000000#32) := by
  unfold k10_pay1
  simp only [shapeCast_self]
  rw [maximumf_apply, addf_apply, divf_apply, broadcast_apply, broadcastTo_col_apply, broadcastTo_1b_ab_apply]
  rfl

/-- The host form at row `r`, column `q` of the whole array: the same expression of the whole operands. -/
theorem host_apply (s : Vec Ideal S100000x64 .f32) (cn : Vec Ideal S100000x1 .f32) (b2 : Vec Ideal S1x64 .f32)
    (r : Fin 100000) (q : Fin 64) :
    Cert.Spec.actb s cn b2 (ix2 r q)
      = max (Ideal.div (s (ix2 r q)) (cn (ix2 r (0 : Fin 1))) + b2 (ix2 (0 : Fin 1) q)) (Ideal.ofBits .f32 0x00000000#32) := by
  unfold Cert.Spec.actb
  rw [maximumf_apply, addf_apply, broadcastInDim_row_apply]
  show max (Ideal.div (s (ix2 r q)) (broadcastInDim _ ![0, 1] _ cn (ix2 r q)) + _) _ = _
  rw [broadcastInDim_col_apply]
  rfl

/-- A block entry and an array entry agree as soon as the three operands they read agree. -/
theorem point_eq (x0 : Vec Ideal S10000x64 .f32) (x1 : Vec Ideal S10000x1 .f32) (x2 : Vec Ideal S1x64 .f32)
    (s : Vec Ideal S100000x64 .f32) (cn : Vec Ideal S100000x1 .f32) (b2 : Vec Ideal S1x64 .f32)
    (p : Fin 10000) (q : Fin 64) (i : S100000x64.Idx)
    (h0 : x0 (ix2 p q) = s i) (h1 : x1 (ix2 p (0 : Fin 1)) = cn (ix2 (i 0) (0 : Fin 1)))
    (h2 : x2 (ix2 (0 : Fin 1) q) = b2 (ix2 (0 : Fin 1) (i 1))) :
    k10_pay1 x0 x1 x2 (ix2 p q) = Cert.Spec.actb s cn b2 i := by
  obtain ⟨r, q', rfl⟩ : ∃ (r : Fin 100000) (q' : Fin 64), i = ix2 r q' := ⟨i 0, i 1, eq_ix2 i⟩
  rw [pay_apply, host_apply, h0, h1, h2]

/-- The windows' block indices over the grid: the three row-blocked windows sit at block row `t`, the bias window at
    its only block. -/
theorem idx_facts : ∀ t : Fin cfg10.N,
    win10_0.index t (0 : Fin 2) = t.val ∧ win10_0.index t (1 : Fin 2) = 0
    ∧ win10_1.index t (0 : Fin 2) = t.val ∧ win10_1.index t (1 : Fin 2) = 0
    ∧ win10_2.index t (0 : Fin 2) = 0 ∧ win10_2.index t (1 : Fin 2) = 0
    ∧ win10_3.index t (0 : Fin 2) = t.val ∧ win10_3.index t (1 : Fin 2) = 0 :=
  (by decide +kernel : ∀ t : Fin grid10.N, _)

/-- What point `t` writes back is block `t` of the host form of the arrays the region finds. -/
theorem flushed_eq (V : (c : Dev nD) → (b : Ref sig .tc) → Buf (Elt Ideal) ((c : Thread nD τ).loc b)) (c : Dev nD)
    (t : Fin cfg10.N) :
    (dat10 (F := Ideal) V c).flushed 3 t
      = ((cfg10.win 3).blk t).view.read (Elt Ideal) (Cert.Spec.actb (V c main_v137) (V c main_v31) (V c main_v138)) := by
  show (cfg10.win 3).cut (grid10.coords t) ((dat10 V c).after 3 t) = _
  rw [after10_3]
  unfold out10_3
  rw [View.canon_unit_zero zero_off]
  simp only [View.ld_unit_zero (S := S10000x64) zero_off, View.ld_unit_zero (S := S10000x1) zero_off,
    View.ld_unit_zero (S := S1x64) zero_off]
  obtain ⟨e00, e01, e10, e11, e20, e21, e30, e31⟩ := idx_facts t
  funext j
  obtain ⟨p, q, rfl⟩ : ∃ (p : Fin 10000) (q : Fin 64), j = ix2 p q := ⟨j 0, j 1, eq_ix2 j⟩
  refine point_eq (iblk10 V c 0 t) (iblk10 V c 1 t) (iblk10 V c 2 t) (V c main_v137) (V c main_v31) (V c main_v138) p q
    (((cfg10.win 3).blk t).view.emb (ix2 p q)) ?_ ?_ ?_
  · show V c main_v137 (((cfg10.win 0).blk t).view.emb (ix2 p q)) = V c main_v137 (((cfg10.win 3).blk t).view.emb (ix2 p q))
    refine congrArg _ (funext fun a => Fin.ext ?_)
    match a with
    | ⟨0, _⟩ => show win10_0.index t (0 : Fin 2) * 10000 + 1 * p.val = win10_3.index t (0 : Fin 2) * 10000 + 1 * p.val; omega
    | ⟨1, _⟩ => show win10_0.index t (1 : Fin 2) * 64 + 1 * q.val = win10_3.index t (1 : Fin 2) * 64 + 1 * q.val; omega
  · show V c main_v31 (((cfg10.win 1).blk t).view.emb (ix2 p (0 : Fin 1))) = V c main_v31 (ix2 ((((cfg10.win 3).blk t).view.emb (ix2 p q)) 0) (0 : Fin 1))
    refine congrArg _ (funext fun a => Fin.ext ?_)
    match a with
    | ⟨0, _⟩ => show win10_1.index t (0 : Fin 2) * 10000 + 1 * p.val = win10_3.index t (0 : Fin 2) * 10000 + 1 * p.val; omega
    | ⟨1, _⟩ => show win10_1.index t (1 : Fin 2) * 1 + 1 * 0 = 0; omega
  · show V c main_v138 (((cfg10.win 2).blk t).view.emb (ix2 (0 : Fin 1) q)) = V c main_v138 (ix2 (0 : Fin 1) ((((cfg10.win 3).blk t).view.emb (ix2 p q)) 1))
    refine congrArg _ (funext fun a => Fin.ext ?_)
    match a with
    | ⟨0, _⟩ => show win10_2.index t (0 : Fin 2) * 1 + 1 * 0 = 0; omega
    | ⟨1, _⟩ => show win10_2.index t (1 : Fin 2) * 64 + 1 * q.val = win10_3.index t (1 : Fin 2) * 64 + 1 * q.val; omega

/-- An index of the array is in point `t`'s block iff each coordinate is in the block's range on its axis. -/
theorem mem_blk (t : Fin cfg10.N) (i : S100000x64.Idx) :
    i ∈ ((cfg10.win 3).blk t).view.set ↔ ∀ a : Fin 2, win10_3.index t a * S10000x64.size a ≤ (i a).val
      ∧ (i a).val < win10_3.index t a * S10000x64.size a + S10000x64.size a := by
  show i ∈ ((View.whole main_v139).slice (win10_3.rect t)).set ↔ _
  rw [View.set_slice_whole, Rect.mem_set_unit]
  exact Iff.rfl

/-- Every row lies in a written block: row `r` in the block of point `r / 10000`. -/
theorem cover (i : S100000x64.Idx) :
    ∃ t : Fin cfg10.N, (cfg10.win 3).flush t = true ∧ i ∈ ((cfg10.win 3).blk t).view.set := by
  have hi0 : (i 0).val < 100000 := (i 0).isLt
  have hi1 : (i 1).val < 64 := (i 1).isLt
  have hN : cfg10.N = 10 := N_10
  obtain ⟨t, ht⟩ : ∃ t : Fin cfg10.N, t.val = (i 0).val / 10000 := ⟨⟨(i 0).val / 10000, by rw [hN]; omega⟩, rfl⟩
  obtain ⟨-, -, -, -, -, -, e30, e31⟩ := idx_facts t
  refine ⟨t, flush10_3 t, ?_⟩
  rw [mem_blk]
  intro a
  match a with
  | ⟨0, _⟩ => show win10_3.index t (0 : Fin 2) * 10000 ≤ (i 0).val ∧ (i 0).val < win10_3.index t (0 : Fin 2) * 10000 + 10000; omega
  | ⟨1, _⟩ => show win10_3.index t (1 : Fin 2) * 64 ≤ (i 1).val ∧ (i 1).val < win10_3.index t (1 : Fin 2) * 64 + 64; omega

theorem arr_eq (V : (c : Dev nD) → (b : Ref sig .tc) → Buf (Elt Ideal) ((c : Thread nD τ).loc b)) (c : Dev nD) :
    ((dat10 (F := Ideal) V c).arrAt 3 cfg10.N : Vec Ideal S100000x64 .f32)
      = Cert.Spec.actb (V c main_v137) (V c main_v31) (V c main_v138) :=
  (dat10 V c).arrAt_eq_of_cover 3 (Cert.Spec.actb (V c main_v137) (V c main_v31) (V c main_v138)) (fun t _ => flushed_eq V c t) cover

end Cert.KernelIdeal.Reg10

end
-- ==== Proof.Layer5.lean ====
/-
  Graph-convolution layer 5 of the kernel program: from the node features found in buffer main_v118 to those left in
  main_v139. Two host stretches (slicing the layer's weight matrix and bias out of the stacked parameters; gathering the
  transformed rows by edge, scaling by the edge normalisation and summing by destination) alternate with two regions
  (h · W with a zero bias; mean, bias, rectifier). With the zero bias dropped (x + 0 = x) and the one-row bias written
  as a broadcast, the buffer ends holding the specification's layer function of what the layer found.
-/
import proofs.«122723_j46918222742294_1_alg».proof.Proof.Gen.KernelIdeal.Frame
import proofs.«122723_j46918222742294_1_alg».proof.Proof.Spec
import proofs.«122723_j46918222742294_1_alg».proof.Proof.LibLayout
import proofs.«122723_j46918222742294_1_alg».proof.Proof.ChainTac
import proofs.«122723_j46918222742294_1_alg».proof.Proof.Reg9
import proofs.«122723_j46918222742294_1_alg».proof.Proof.Reg10
import Idealize.ShloMosaic.Lib.StableHlo.Run

set_option maxRecDepth 16384

noncomputable section

namespace Cert.KernelIdeal.Layer5

open Idealize.ShloMosaic Idealize.ShloMosaic.TcCoe Idealize.ShloMosaic.StableHlo Idealize.SL.Sem Cert.KernelIdeal Cert.KernelIdeal.Gen Cert.KernelIdeal.Chain
open Cert.LibLayout (IsZero)

/-- The buffers carried unchanged through the layer: the arguments read later, the edge normalisation, the zero bias. -/
abbrev carried : List (Ref sig .tc) := [main_arg4, main_arg5, main_arg6, main_arg7, main_arg8, main_arg9, main_arg10, main_arg11, main_arg12, main_arg13, main_v24, main_v34]

/-! ## The two host stretches, for any contents `W` of the buffers -/

section Stretch

variable (W : Valuation τ sig (Elt Ideal))

/-- The layer's weight matrix, cut from the stacked weights. -/
theorem hA_wslice : (StableHlo.after hostOps9 W (Proc.devRef .tc main_v120) : Vec Ideal S64x64 .f32) = Cert.Spec.W2 (W (Proc.devRef .tc main_arg4)) := by
  dsimp only [hostOps9]
  after_results <;> rfl

/-- The layer's bias, cut from the stacked biases. -/
theorem hA_bslice : (StableHlo.after hostOps9 W (Proc.devRef .tc main_v122) : Vec Ideal S64 .f32) = Cert.Spec.B2 (W (Proc.devRef .tc main_arg5)) := by
  dsimp only [hostOps9]
  after_results <;> rfl

/-- The zero bias of the dense transform, made a one-row matrix: 0 everywhere when the vector is. -/
theorem hA_zrow (hz : IsZero (s := S64) (W (Proc.devRef .tc main_v34))) : IsZero (s := S1x64) (StableHlo.after hostOps9 W (Proc.devRef .tc main_v123)) := by
  have e : (StableHlo.after hostOps9 W (Proc.devRef .tc main_v123) : Vec Ideal S1x64 .f32) = shapeCast S1x64 (W (Proc.devRef .tc main_v34)) shapeCasts_S64_S1x64 := by
    dsimp only [hostOps9]
    after_results <;> rfl
  intro j
  rw [e]
  exact hz _

set_option maxHeartbeats 4000000 in
/-- The first stretch writes none of the carried buffers. -/
theorem hA_keep : ∀ b ∈ carried, StableHlo.after hostOps9 W (Proc.devRef .tc b) = W (Proc.devRef .tc b) := by
  intro b hb
  simp only [carried, List.mem_cons, List.mem_nil_iff, or_false] at hb
  rcases hb with rfl | rfl | rfl | rfl | rfl | rfl | rfl | rfl | rfl | rfl | rfl | rfl <;> host_keeps hostOps9

/-- … nor the node features it finds, nor the edge counts. -/
theorem hA_hprev : StableHlo.after hostOps9 W (Proc.devRef .tc main_v118) = W (Proc.devRef .tc main_v118) := by host_keeps hostOps9
theorem hA_v31 : StableHlo.after hostOps9 W (Proc.devRef .tc main_v31) = W (Proc.devRef .tc main_v31) := by host_keeps hostOps9

set_option maxHeartbeats 4000000 in
/-- Messages summed at their destination: the transformed rows gathered by edge, scaled, scatter-added by column. -/
theorem hB_s : (StableHlo.after hostOps10 W (Proc.devRef .tc main_v137) : Vec Ideal S100000x64 .f32)
    = Cert.Spec.agg (W (Proc.devRef .tc main_v124)) (W (Proc.devRef .tc main_v24)) (W (Proc.devRef .tc main_arg12)) (W (Proc.devRef .tc main_arg13)) := by
  dsimp only [hostOps10]
  after_results_simp <;> rfl

/-- The layer's bias made a one-row matrix. -/
theorem hB_brow : (StableHlo.after hostOps10 W (Proc.devRef .tc main_v138) : Vec Ideal S1x64 .f32) = shapeCast S1x64 (W (Proc.devRef .tc main_v122)) shapeCasts_S64_S1x64 := by
  dsimp only [hostOps10]
  after_results <;> rfl

set_option maxHeartbeats 4000000 in
/-- The second stretch writes none of the carried buffers. -/
theorem hB_keep : ∀ b ∈ carried, StableHlo.after hostOps10 W (Proc.devRef .tc b) = W (Proc.devRef .tc b) := by
  intro b hb
  simp only [carried, List.mem_cons, List.mem_nil_iff, or_false] at hb
  rcases hb with rfl | rfl | rfl | rfl | rfl | rfl | rfl | rfl | rfl | rfl | rfl | rfl <;> host_keeps hostOps10

theorem hB_v31 : StableHlo.after hostOps10 W (Proc.devRef .tc main_v31) = W (Proc.devRef .tc main_v31) := by host_keeps hostOps10

end Stretch

/-! ## The two regions leave the carried buffers alone -/

section Regions

variable (m : (ℓ : Loc nD τ sig) → Buf (Elt Ideal) ℓ) (ρ : Dev nD → PrngReg) (c : Dev nD)

set_option maxHeartbeats 4000000 in
theorem rA_keep : ∀ b ∈ carried, W22 m ρ c (Proc.devRef .tc b) = W21 m ρ c (Proc.devRef .tc b) := by
  intro b hb
  simp only [carried, List.mem_cons, List.mem_nil_iff, or_false] at hb
  rcases hb with rfl | rfl | rfl | rfl | rfl | rfl | rfl | rfl | rfl | rfl | rfl | rfl <;> exact W22_of_ne m ρ c _ (by decide)

theorem rA_bslice : W22 m ρ c (Proc.devRef .tc main_v122) = W21 m ρ c (Proc.devRef .tc main_v122) := W22_of_ne m ρ c _ (by decide)
theorem rA_v31 : W22 m ρ c (Proc.devRef .tc main_v31) = W21 m ρ c (Proc.devRef .tc main_v31) := W22_of_ne m ρ c _ (by decide)

set_option maxHeartbeats 4000000 in
theorem rB_keep : ∀ b ∈ carried, W24 m ρ c (Proc.devRef .tc b) = W23 m ρ c (Proc.devRef .tc b) := by
  intro b hb
  simp only [carried, List.mem_cons, List.mem_nil_iff, or_false] at hb
  rcases hb with rfl | rfl | rfl | rfl | rfl | rfl | rfl | rfl | rfl | rfl | rfl | rfl <;> exact W24_of_ne m ρ c _ (by decide)

/-- The edge counts are an input window of the second region: read, never written back. -/
theorem rB_v31 : W24 m ρ c (Proc.devRef .tc main_v31) = W23 m ρ c (Proc.devRef .tc main_v31) :=
  (W24_arr m ρ c 1).trans (((dat10 (V23 m ρ) c).arrAt_in 1 rfl _).trans (A_eq10 (V23 m ρ) c 1))

/-- The carried buffers after the layer are as before it. -/
theorem keep (b : Ref sig .tc) (hb : b ∈ carried) : W24 m ρ c (Proc.devRef .tc b) = W20 m ρ c (Proc.devRef .tc b) :=
  (((rB_keep m ρ c b hb).trans (hB_keep (W22 m ρ c) b hb)).trans (rA_keep m ρ c b hb)).trans (hA_keep (W20 m ρ c) b hb)

/-- The edge counts after the layer are as before it. -/
theorem keep31 : W24 m ρ c (Proc.devRef .tc main_v31) = W20 m ρ c (Proc.devRef .tc main_v31) :=
  (((rB_v31 m ρ c).trans (hB_v31 (W22 m ρ c))).trans (rA_v31 m ρ c)).trans (hA_v31 (W20 m ρ c))

/-- The zero bias is still 0 everywhere after the layer. -/
theorem zero34 (hz : IsZero (s := S64) (W20 m ρ c (Proc.devRef .tc main_v34))) : IsZero (s := S64) (W24 m ρ c (Proc.devRef .tc main_v34)) := by
  rw [keep m ρ c main_v34 (by simp)]
  exact hz

/-! ## The layer -/

/-- What the layer leaves in main_v139, from what it finds at its first boundary. -/
theorem layer (H : Vec Ideal S100000x64 .f32) (wa : Vec Ideal S3x64x64 .f32) (ba : Vec Ideal S3x64 .f32)
    (nrm : Vec Ideal S1600000 .f32) (cn : Vec Ideal S100000x1 .f32) (rw cl : Vec Ideal S1600000 .i32)
    (hH : W20 m ρ c (Proc.devRef .tc main_v118) = H) (hwa : W20 m ρ c (Proc.devRef .tc main_arg4) = wa) (hba : W20 m ρ c (Proc.devRef .tc main_arg5) = ba)
    (hz : IsZero (s := S64) (W20 m ρ c (Proc.devRef .tc main_v34)))
    (hn : W20 m ρ c (Proc.devRef .tc main_v24) = nrm) (hc : W20 m ρ c (Proc.devRef .tc main_v31) = cn)
    (hr : W20 m ρ c (Proc.devRef .tc main_arg12) = rw) (hcl : W20 m ρ c (Proc.devRef .tc main_arg13) = cl) :
    (W24 m ρ c (Proc.devRef .tc main_v139) : Vec Ideal S100000x64 .f32)
      = Cert.Spec.layer H (Cert.Spec.W2 wa) (Cert.Spec.B2 ba) nrm cn rw cl := by
  -- what the dense transform finds
  have e_h : W21 m ρ c (Proc.devRef .tc main_v118) = H := (hA_hprev (W20 m ρ c)).trans hH
  have e_w : (W21 m ρ c (Proc.devRef .tc main_v120) : Vec Ideal S64x64 .f32) = Cert.Spec.W2 wa := (hA_wslice (W20 m ρ c)).trans (by rw [hwa])
  have e_z : IsZero (s := S1x64) (W21 m ρ c (Proc.devRef .tc main_v123)) := hA_zrow (W20 m ρ c) hz
  have e_b : (W21 m ρ c (Proc.devRef .tc main_v122) : Vec Ideal S64 .f32) = Cert.Spec.B2 ba := (hA_bslice (W20 m ρ c)).trans (by rw [hba])
  -- what it leaves: h · W, the zero bias dropped
  have x_hw : (W22 m ρ c (Proc.devRef .tc main_v124) : Vec Ideal S100000x64 .f32) = Cert.Spec.lin H (Cert.Spec.W2 wa) := by
    refine ((W22_arr m ρ c 3).trans (Cert.KernelIdeal.Reg9.arr_eq (V21 m ρ) c)).trans ?_
    show Cert.Spec.linb (W21 m ρ c (Proc.devRef .tc main_v118)) (W21 m ρ c (Proc.devRef .tc main_v120)) (W21 m ρ c (Proc.devRef .tc main_v123)) = _
    rw [e_h, e_w]
    exact Cert.LibLayout.addf_zero _ _ (fun j => e_z _)
  -- the carried buffers at the second stretch
  have k_n : W22 m ρ c (Proc.devRef .tc main_v24) = nrm := ((rA_keep m ρ c main_v24 (by simp)).trans (hA_keep (W20 m ρ c) main_v24 (by simp))).trans hn
  have k_r : W22 m ρ c (Proc.devRef .tc main_arg12) = rw := ((rA_keep m ρ c main_arg12 (by simp)).trans (hA_keep (W20 m ρ c) main_arg12 (by simp))).trans hr
  have k_c : W22 m ρ c (Proc.devRef .tc main_arg13) = cl := ((rA_keep m ρ c main_arg13 (by simp)).trans (hA_keep (W20 m ρ c) main_arg13 (by simp))).trans hcl
  have k_31 : W22 m ρ c (Proc.devRef .tc main_v31) = cn := ((rA_v31 m ρ c).trans (hA_v31 (W20 m ρ c))).trans hc
  have k_b : (W22 m ρ c (Proc.devRef .tc main_v122) : Vec Ideal S64 .f32) = Cert.Spec.B2 ba := (rA_bslice m ρ c).trans e_b
  -- what the second region finds
  have e_s : (W23 m ρ c (Proc.devRef .tc main_v137) : Vec Ideal S100000x64 .f32) = Cert.Spec.agg (Cert.Spec.lin H (Cert.Spec.W2 wa)) nrm rw cl :=
    (hB_s (W22 m ρ c)).trans (by rw [x_hw, k_n, k_r, k_c])
  have e_br : (W23 m ρ c (Proc.devRef .tc main_v138) : Vec Ideal S1x64 .f32) = shapeCast S1x64 (Cert.Spec.B2 ba) shapeCasts_S64_S1x64 :=
    (hB_brow (W22 m ρ c)).trans (by rw [k_b])
  have e_c : W23 m ρ c (Proc.devRef .tc main_v31) = cn := (hB_v31 (W22 m ρ c)).trans k_31
  -- what it leaves
  refine ((W24_arr m ρ c 3).trans (Cert.KernelIdeal.Reg10.arr_eq (V23 m ρ) c)).trans ?_
  show Cert.Spec.actb (W23 m ρ c (Proc.devRef .tc main_v137)) (W23 m ρ c (Proc.devRef .tc main_v31)) (W23 m ρ c (Proc.devRef .tc main_v138)) = _
  rw [e_s, e_c, e_br, Cert.LibLayout.shapeCast_eq_broadcastInDim_row _ _ Cert.ReferenceIdeal.Gen.bcast_S64_S1x64_1]
  rfl

end Regions

end Cert.KernelIdeal.Layer5

end
-- ==== Proof.Reg11.lean ====
/- The array region 11 leaves, as one function of the arrays it finds. -/
import proofs.«122723_j46918222742294_1_alg».proof.Proof.Gen.KernelIdeal.Frame
import proofs.«122723_j46918222742294_1_alg».proof.Proof.Spec
import proofs.«122723_j46918222742294_1_alg».proof.Proof.LibPlainDot
import Idealize.ShloMosaic.Lib.Pipeline.Value
import Idealize.ShloMosaic.Lib.ValueLayout

set_option maxRecDepth 16384

noncomputable section

namespace Cert.KernelIdeal.Reg11

open Idealize.ShloMosaic Idealize.ShloMosaic.TcCoe Idealize.ShloMosaic.ValueIdx Idealize.SL.Sem Cert.KernelIdeal Cert.KernelIdeal.Gen
open Idealize.ShloMosaic.Pipeline (Dat)

/-! ## The body's arithmetic and the host form, entry by entry -/

/-- The body's value at row `p`, column `q` of a block: row `p` of the block against column `q` of the weights,
    plus the bias' entry `q`. -/
theorem pay_apply (x0 : Vec Ideal S10000x64 .f32) (x1 : Vec Ideal S64x64 .f32) (x2 : Vec Ideal S1x64 .f32) (p : Fin 10000) (q : Fin 64) :
    k11_pay1 (F := Ideal) x0 x1 x2 (ix2 p q) = (∑ k : Fin 64, x0 (ix2 p k) * x1 (ix2 k q)) + x2 (ix2 (0 : Fin 1) q) := by
  unfold k11_pay1
  simp only [shapeCast_self]
  refine (addf_apply _ _ _).trans ?_
  refine congr (congrArg HAdd.hAdd ?_) ?_
  · exact Cert.LibPlainDot.matmul_plain 10000 64 64 none x0 x1 (ix2 p q)
  · exact broadcastTo_1b_ab_apply x2 _ p q

/-- The host form h · W + b at row `r`, column `q`: the same sum over the whole array's row `r`. -/
theorem linb_apply (h : Vec Ideal S100000x64 .f32) (W : Vec Ideal S64x64 .f32) (b : Vec Ideal S1x64 .f32) (r : Fin 100000) (q : Fin 64) :
    Cert.Spec.linb (F := Ideal) h W b (ix2 r q) = (∑ k : Fin 64, h (ix2 r k) * W (ix2 k q)) + b (ix2 (0 : Fin 1) q) := by
  unfold Cert.Spec.linb Cert.Spec.lin
  refine (addf_apply _ _ _).trans ?_
  refine congr (congrArg HAdd.hAdd ?_) ?_
  · exact Cert.LibPlainDot.dotGeneral_plain 100000 64 64 none h W (ix2 r q)
  · refine broadcastInDim_apply _ _ b (ix2 r q) (ix2 (0 : Fin 1) q) fun a => ?_
    match a with
    | ⟨0, _⟩ => rfl
    | ⟨1, _⟩ => rfl

/-- A block whose row `p` is the array's row `r`, with the whole weights and bias, gives at (p, q) what the host form
    gives at (r, q). -/
theorem point (x0 : Vec Ideal S10000x64 .f32) (x1 : Vec Ideal S64x64 .f32) (x2 : Vec Ideal S1x64 .f32)
    (h : Vec Ideal S100000x64 .f32) (W : Vec Ideal S64x64 .f32) (b : Vec Ideal S1x64 .f32)
    (p : Fin 10000) (q : Fin 64) (r : Fin 100000) (h0 : ∀ k : Fin 64, x0 (ix2 p k) = h (ix2 r k)) (h1 : x1 = W) (h2 : x2 = b) :
    k11_pay1 (F := Ideal) x0 x1 x2 (ix2 p q) = Cert.Spec.linb (F := Ideal) h W b (ix2 r q) := by
  subst h1 h2
  rw [pay_apply, linb_apply]
  exact congrArg (· + x2 (ix2 (0 : Fin 1) q)) (Finset.sum_congr rfl fun k _ => congrArg (· * x1 (ix2 k q)) (h0 k))

/-! ## From blocks to the array -/

theorem zero_off : (![0, 0] : Fin 2 → Nat) = fun _ => 0 := funext fun a => by fin_cases a <;> rfl

/-- The index maps over the grid: the row-blocked operand and the result sit at block row `t`, column block 0; the
    weights and the bias are whole at every point. -/
theorem idx_facts : ∀ t : Fin cfg11.N,
    win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = t.val ∧ win11_3.index t (1 : Fin 2) = 0 :=
  (by decide +kernel : ∀ t : Fin grid11.N, _)

/-- What point `t` writes back is block `t` (rows 10000·t … 10000·t + 9999) of the host form of the arrays the region finds. -/
theorem flushed_eq (V : (c : Dev nD) → (b : Ref sig .tc) → Buf (Elt Ideal) ((c : Thread nD τ).loc b)) (c : Dev nD) (t : Fin cfg11.N) :
    (dat11 (F := Ideal) V c).flushed 3 t
      = ((cfg11.win 3).blk t).view.read (Elt Ideal) (Cert.Spec.linb (F := Ideal) (V c main_v139) (V c main_v141) (V c main_v144)) := by
  show (cfg11.win 3).cut (grid11.coords t) ((dat11 V c).after 3 t) = _
  rw [after11_3]
  unfold out11_3
  rw [View.canon_unit_zero zero_off]
  simp only [View.ld_unit_zero (S := S10000x64) zero_off, View.ld_unit_zero (S := S64x64) zero_off, View.ld_unit_zero (S := S1x64) zero_off]
  obtain ⟨e00, e01, e10, e11, e20, e21, e30, e31⟩ := idx_facts t
  have hN : cfg11.N = 10 := N_11
  have ht : t.val < 10 := by have := t.isLt; omega
  funext j
  have hj0 : (j 0).val < 10000 := (j 0).isLt
  have hj1 : (j 1).val < 64 := (j 1).isLt
  show k11_pay1 (iblk11 V c 0 t) (iblk11 V c 1 t) (iblk11 V c 2 t) ((cfg11.win 3).xinj (grid11.coords t) j)
    = Cert.Spec.linb (F := Ideal) (V c main_v139) (V c main_v141) (V c main_v144) (((cfg11.win 3).blk t).view.emb j)
  have hl : (cfg11.win 3).xinj (grid11.coords t) j = ix2 (⟨(j 0).val, hj0⟩ : Fin 10000) (⟨(j 1).val, hj1⟩ : Fin 64) :=
    funext fun a => match a with | ⟨0, _⟩ => rfl | ⟨1, _⟩ => rfl
  have hr : ((cfg11.win 3).blk t).view.emb j = ix2 (⟨t.val * 10000 + (j 0).val, by omega⟩ : Fin 100000) (⟨(j 1).val, hj1⟩ : Fin 64) := by
    funext a; apply Fin.ext
    match a with
    | ⟨0, _⟩ => show win11_3.index t (0 : Fin 2) * 10000 + 1 * (j 0).val = t.val * 10000 + (j 0).val; omega
    | ⟨1, _⟩ => show win11_3.index t (1 : Fin 2) * 64 + 1 * (j 1).val = (j 1).val; omega
  rw [hl, hr]
  refine point (iblk11 V c 0 t) (iblk11 V c 1 t) (iblk11 V c 2 t) (V c main_v139) (V c main_v141) (V c main_v144)
    ⟨(j 0).val, hj0⟩ ⟨(j 1).val, hj1⟩ ⟨t.val * 10000 + (j 0).val, by omega⟩ ?_ ?_ ?_
  · intro k
    show V c main_v139 (((cfg11.win 0).blk t).view.emb (ix2 (⟨(j 0).val, hj0⟩ : Fin 10000) k)) = V c main_v139 _
    refine congrArg (V c main_v139) (funext fun a => Fin.ext ?_)
    match a with
    | ⟨0, _⟩ => show win11_0.index t (0 : Fin 2) * 10000 + 1 * (j 0).val = t.val * 10000 + (j 0).val; omega
    | ⟨1, _⟩ => show win11_0.index t (1 : Fin 2) * 64 + 1 * k.val = k.val; omega
  · funext y
    show V c main_v141 (((cfg11.win 1).blk t).view.emb y) = V c main_v141 y
    refine congrArg (V c main_v141) (funext fun a => Fin.ext ?_)
    match a with
    | ⟨0, _⟩ => show win11_1.index t (0 : Fin 2) * 64 + 1 * (y 0).val = (y 0).val; omega
    | ⟨1, _⟩ => show win11_1.index t (1 : Fin 2) * 64 + 1 * (y 1).val = (y 1).val; omega
  · funext y
    show V c main_v144 (((cfg11.win 2).blk t).view.emb y) = V c main_v144 y
    refine congrArg (V c main_v144) (funext fun a => Fin.ext ?_)
    match a with
    | ⟨0, _⟩ => show win11_2.index t (0 : Fin 2) * 1 + 1 * (y 0).val = (y 0).val; omega
    | ⟨1, _⟩ => show win11_2.index t (1 : Fin 2) * 64 + 1 * (y 1).val = (y 1).val; omega

/-- An index of the array is in point `t`'s block iff each coordinate is in the block's range on its axis. -/
theorem mem_blk (t : Fin cfg11.N) (i : S100000x64.Idx) :
    i ∈ ((cfg11.win 3).blk t).view.set ↔ ∀ a : Fin 2, win11_3.index t a * S10000x64.size a ≤ (i a).val ∧ (i a).val < win11_3.index t a * S10000x64.size a + S10000x64.size a := by
  show i ∈ ((View.whole main_v145).slice (win11_3.rect t)).set ↔ _
  rw [View.set_slice_whole, Rect.mem_set_unit]
  exact Iff.rfl

/-- Every row `r` of the array is in the block of the point `r / 10000`. -/
theorem cover (i : S100000x64.Idx) : ∃ t : Fin cfg11.N, (cfg11.win 3).flush t = true ∧ i ∈ ((cfg11.win 3).blk t).view.set := by
  have hi0 : (i 0).val < 100000 := (i 0).isLt
  have hi1 : (i 1).val < 64 := (i 1).isLt
  obtain ⟨t, ht⟩ : ∃ t : Fin cfg11.N, t.val = (i 0).val / 10000 := ⟨⟨(i 0).val / 10000, by rw [show cfg11.N = 10 from N_11]; omega⟩, rfl⟩
  obtain ⟨-, -, -, -, -, -, e30, e31⟩ := idx_facts t
  refine ⟨t, flush11_3 t, ?_⟩
  rw [mem_blk]
  intro a
  match a with
  | ⟨0, _⟩ => show win11_3.index t (0 : Fin 2) * 10000 ≤ (i 0).val ∧ (i 0).val < win11_3.index t (0 : Fin 2) * 10000 + 10000; omega
  | ⟨1, _⟩ => show win11_3.index t (1 : Fin 2) * 64 ≤ (i 1).val ∧ (i 1).val < win11_3.index t (1 : Fin 2) * 64 + 64; omega

theorem arr_eq (V : (c : Dev nD) → (b : Ref sig .tc) → Buf (Elt Ideal) ((c : Thread nD τ).loc b)) (c : Dev nD) :
    ((dat11 (F := Ideal) V c).arrAt 3 cfg11.N : Vec Ideal S100000x64 .f32)
      = Cert.Spec.linb (V c main_v139) (V c main_v141) (V c main_v144) :=
  (dat11 V c).arrAt_eq_of_cover 3 (Cert.Spec.linb (F := Ideal) (V c main_v139) (V c main_v141) (V c main_v144)) (fun t _ => flushed_eq V c t) cover

end Cert.KernelIdeal.Reg11

end
-- ==== Proof.Reg12.lean ====
/- The array region 12 leaves, as one function of the arrays it finds. -/
import proofs.«122723_j46918222742294_1_alg».proof.Proof.Gen.KernelIdeal.Frame
import proofs.«122723_j46918222742294_1_alg».proof.Proof.Spec
import proofs.«122723_j46918222742294_1_alg».proof.Proof.LibPlainDot
import Idealize.ShloMosaic.Lib.Pipeline.Value
import Idealize.ShloMosaic.Lib.ValueLayout

noncomputable section

namespace Cert.KernelIdeal.Reg12

open Idealize.ShloMosaic Idealize.ShloMosaic.TcCoe Idealize.ShloMosaic.ValueIdx Idealize.SL.Sem Cert.KernelIdeal Cert.KernelIdeal.Gen
open Idealize.ShloMosaic.Pipeline (Dat)

/-- The zero offset of a whole-buffer access, as a function. -/
theorem zero_off : (![0, 0] : Fin 2 → Nat) = fun _ => 0 := funext fun a => by fin_cases a <;> rfl

/-- A column `[a, 1]` broadcast to `[a, b]` reads, at `(p, c)`, the column's entry in row `p`. -/
theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` laid on both axes of `[a, b]` reads, at `(p, c)`, the column's entry in row `p`. -/
theorem broadcastInDim_col_apply {α : Type} {a b : ℕ} (h : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- One row `[1, b]` laid on both axes of `[a, b]` reads, at `(p, c)`, the row's entry in column `c`. -/
theorem broadcastInDim_row_apply {α : Type} {a b : ℕ} (h : (⟨2, ![1, b]⟩ : Shape).BroadcastsInDim ⟨2, ![a, b]⟩ ![0, 1])
    (v : (⟨2, ![1, b]⟩ : Shape).Idx → α) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The body's value at row `p`, column `q` of a block: max(s / cnt + bias, 0) with the count taken from the
    block's column at row `p` and the bias from the one row at column `q`. -/
theorem pay_apply (x0 : Vec Ideal S10000x64 .f32) (x1 : Vec Ideal S10000x1 .f32) (x2 : Vec Ideal S1x64 .f32)
    (p : Fin 10000) (q : Fin 64) :
    k12_pay1 x0 x1 x2 (ix2 p q)
      = max (Ideal.div (x0 (ix2 p q)) (x1 (ix2 p (0 : Fin 1))) + x2 (ix2 (0 : Fin 1) q)) (Ideal.ofBits .f32 0x00000000#32) := by
  unfold k12_pay1
  simp only [shapeCast_self]
  rw [maximumf_apply, addf_apply, divf_apply, broadcast_apply, broadcastTo_col_apply, broadcastTo_1b_ab_apply]
  rfl

/-- The host form at row `r`, column `q` of the whole array: the same expression of the whole operands. -/
theorem host_apply (s : Vec Ideal S100000x64 .f32) (cn : Vec Ideal S100000x1 .f32) (b2 : Vec Ideal S1x64 .f32)
    (r : Fin 100000) (q : Fin 64) :
    Cert.Spec.actb s cn b2 (ix2 r q)
      = max (Ideal.div (s (ix2 r q)) (cn (ix2 r (0 : Fin 1))) + b2 (ix2 (0 : Fin 1) q)) (Ideal.ofBits .f32 0x00000000#32) := by
  unfold Cert.Spec.actb
  rw [maximumf_apply, addf_apply, broadcastInDim_row_apply]
  show max (Ideal.div (s (ix2 r q)) (broadcastInDim _ ![0, 1] _ cn (ix2 r q)) + _) _ = _
  rw [broadcastInDim_col_apply]
  rfl

/-- A block entry and an array entry agree as soon as the three operands they read agree. -/
theorem point_eq (x0 : Vec Ideal S10000x64 .f32) (x1 : Vec Ideal S10000x1 .f32) (x2 : Vec Ideal S1x64 .f32)
    (s : Vec Ideal S100000x64 .f32) (cn : Vec Ideal S100000x1 .f32) (b2 : Vec Ideal S1x64 .f32)
    (p : Fin 10000) (q : Fin 64) (i : S100000x64.Idx)
    (h0 : x0 (ix2 p q) = s i) (h1 : x1 (ix2 p (0 : Fin 1)) = cn (ix2 (i 0) (0 : Fin 1)))
    (h2 : x2 (ix2 (0 : Fin 1) q) = b2 (ix2 (0 : Fin 1) (i 1))) :
    k12_pay1 x0 x1 x2 (ix2 p q) = Cert.Spec.actb s cn b2 i := by
  obtain ⟨r, q', rfl⟩ : ∃ (r : Fin 100000) (q' : Fin 64), i = ix2 r q' := ⟨i 0, i 1, eq_ix2 i⟩
  rw [pay_apply, host_apply, h0, h1, h2]

/-- The windows' block indices over the grid: the three row-blocked windows sit at block row `t`, the bias window at
    its only block. -/
theorem idx_facts : ∀ t : Fin cfg12.N,
    win12_0.index t (0 : Fin 2) = t.val ∧ win12_0.index t (1 : Fin 2) = 0
    ∧ win12_1.index t (0 : Fin 2) = t.val ∧ win12_1.index t (1 : Fin 2) = 0
    ∧ win12_2.index t (0 : Fin 2) = 0 ∧ win12_2.index t (1 : Fin 2) = 0
    ∧ win12_3.index t (0 : Fin 2) = t.val ∧ win12_3.index t (1 : Fin 2) = 0 :=
  (by decide +kernel : ∀ t : Fin grid12.N, _)

/-- What point `t` writes back is block `t` of the host form of the arrays the region finds. -/
theorem flushed_eq (V : (c : Dev nD) → (b : Ref sig .tc) → Buf (Elt Ideal) ((c : Thread nD τ).loc b)) (c : Dev nD)
    (t : Fin cfg12.N) :
    (dat12 (F := Ideal) V c).flushed 3 t
      = ((cfg12.win 3).blk t).view.read (Elt Ideal) (Cert.Spec.actb (V c main_v158) (V c main_v31) (V c main_v159)) := by
  show (cfg12.win 3).cut (grid12.coords t) ((dat12 V c).after 3 t) = _
  rw [after12_3]
  unfold out12_3
  rw [View.canon_unit_zero zero_off]
  simp only [View.ld_unit_zero (S := S10000x64) zero_off, View.ld_unit_zero (S := S10000x1) zero_off,
    View.ld_unit_zero (S := S1x64) zero_off]
  obtain ⟨e00, e01, e10, e11, e20, e21, e30, e31⟩ := idx_facts t
  funext j
  obtain ⟨p, q, rfl⟩ : ∃ (p : Fin 10000) (q : Fin 64), j = ix2 p q := ⟨j 0, j 1, eq_ix2 j⟩
  refine point_eq (iblk12 V c 0 t) (iblk12 V c 1 t) (iblk12 V c 2 t) (V c main_v158) (V c main_v31) (V c main_v159) p q
    (((cfg12.win 3).blk t).view.emb (ix2 p q)) ?_ ?_ ?_
  · show V c main_v158 (((cfg12.win 0).blk t).view.emb (ix2 p q)) = V c main_v158 (((cfg12.win 3).blk t).view.emb (ix2 p q))
    refine congrArg _ (funext fun a => Fin.ext ?_)
    match a with
    | ⟨0, _⟩ => show win12_0.index t (0 : Fin 2) * 10000 + 1 * p.val = win12_3.index t (0 : Fin 2) * 10000 + 1 * p.val; omega
    | ⟨1, _⟩ => show win12_0.index t (1 : Fin 2) * 64 + 1 * q.val = win12_3.index t (1 : Fin 2) * 64 + 1 * q.val; omega
  · show V c main_v31 (((cfg12.win 1).blk t).view.emb (ix2 p (0 : Fin 1))) = V c main_v31 (ix2 ((((cfg12.win 3).blk t).view.emb (ix2 p q)) 0) (0 : Fin 1))
    refine congrArg _ (funext fun a => Fin.ext ?_)
    match a with
    | ⟨0, _⟩ => show win12_1.index t (0 : Fin 2) * 10000 + 1 * p.val = win12_3.index t (0 : Fin 2) * 10000 + 1 * p.val; omega
    | ⟨1, _⟩ => show win12_1.index t (1 : Fin 2) * 1 + 1 * 0 = 0; omega
  · show V c main_v159 (((cfg12.win 2).blk t).view.emb (ix2 (0 : Fin 1) q)) = V c main_v159 (ix2 (0 : Fin 1) ((((cfg12.win 3).blk t).view.emb (ix2 p q)) 1))
    refine congrArg _ (funext fun a => Fin.ext ?_)
    match a with
    | ⟨0, _⟩ => show win12_2.index t (0 : Fin 2) * 1 + 1 * 0 = 0; omega
    | ⟨1, _⟩ => show win12_2.index t (1 : Fin 2) * 64 + 1 * q.val = win12_3.index t (1 : Fin 2) * 64 + 1 * q.val; omega

/-- An index of the array is in point `t`'s block iff each coordinate is in the block's range on its axis. -/
theorem mem_blk (t : Fin cfg12.N) (i : S100000x64.Idx) :
    i ∈ ((cfg12.win 3).blk t).view.set ↔ ∀ a : Fin 2, win12_3.index t a * S10000x64.size a ≤ (i a).val
      ∧ (i a).val < win12_3.index t a * S10000x64.size a + S10000x64.size a := by
  show i ∈ ((View.whole main_v160).slice (win12_3.rect t)).set ↔ _
  rw [View.set_slice_whole, Rect.mem_set_unit]
  exact Iff.rfl

/-- Every row lies in a written block: row `r` in the block of point `r / 10000`. -/
theorem cover (i : S100000x64.Idx) :
    ∃ t : Fin cfg12.N, (cfg12.win 3).flush t = true ∧ i ∈ ((cfg12.win 3).blk t).view.set := by
  have hi0 : (i 0).val < 100000 := (i 0).isLt
  have hi1 : (i 1).val < 64 := (i 1).isLt
  have hN : cfg12.N = 10 := N_12
  obtain ⟨t, ht⟩ : ∃ t : Fin cfg12.N, t.val = (i 0).val / 10000 := ⟨⟨(i 0).val / 10000, by rw [hN]; omega⟩, rfl⟩
  obtain ⟨-, -, -, -, -, -, e30, e31⟩ := idx_facts t
  refine ⟨t, flush12_3 t, ?_⟩
  rw [mem_blk]
  intro a
  match a with
  | ⟨0, _⟩ => show win12_3.index t (0 : Fin 2) * 10000 ≤ (i 0).val ∧ (i 0).val < win12_3.index t (0 : Fin 2) * 10000 + 10000; omega
  | ⟨1, _⟩ => show win12_3.index t (1 : Fin 2) * 64 ≤ (i 1).val ∧ (i 1).val < win12_3.index t (1 : Fin 2) * 64 + 64; omega

theorem arr_eq (V : (c : Dev nD) → (b : Ref sig .tc) → Buf (Elt Ideal) ((c : Thread nD τ).loc b)) (c : Dev nD) :
    ((dat12 (F := Ideal) V c).arrAt 3 cfg12.N : Vec Ideal S100000x64 .f32)
      = Cert.Spec.actb (V c main_v158) (V c main_v31) (V c main_v159) :=
  (dat12 V c).arrAt_eq_of_cover 3 (Cert.Spec.actb (V c main_v158) (V c main_v31) (V c main_v159)) (fun t _ => flushed_eq V c t) cover

end Cert.KernelIdeal.Reg12

end
-- ==== Proof.Layer6.lean ====
/-
  Graph-convolution layer 6 of the kernel program: from the node features found in buffer main_v139 to those left in
  main_v160. Two host stretches (slicing the layer's weight matrix and bias out of the stacked parameters; gathering the
  transformed rows by edge, scaling by the edge normalisation and summing by destination) alternate with two regions
  (h · W with a zero bias; mean, bias, rectifier). With the zero bias dropped (x + 0 = x) and the one-row bias written
  as a broadcast, the buffer ends holding the specification's layer function of what the layer found.
-/
import proofs.«122723_j46918222742294_1_alg».proof.Proof.Gen.KernelIdeal.Frame
import proofs.«122723_j46918222742294_1_alg».proof.Proof.Spec
import proofs.«122723_j46918222742294_1_alg».proof.Proof.LibLayout
import proofs.«122723_j46918222742294_1_alg».proof.Proof.ChainTac
import proofs.«122723_j46918222742294_1_alg».proof.Proof.Reg11
import proofs.«122723_j46918222742294_1_alg».proof.Proof.Reg12
import Idealize.ShloMosaic.Lib.StableHlo.Run

set_option maxRecDepth 16384

noncomputable section

namespace Cert.KernelIdeal.Layer6

open Idealize.ShloMosaic Idealize.ShloMosaic.TcCoe Idealize.ShloMosaic.StableHlo Idealize.SL.Sem Cert.KernelIdeal Cert.KernelIdeal.Gen Cert.KernelIdeal.Chain
open Cert.LibLayout (IsZero)

/-- The buffers carried unchanged through the layer: the arguments read later, the edge normalisation, the zero bias. -/
abbrev carried : List (Ref sig .tc) := [main_arg4, main_arg5, main_arg6, main_arg7, main_arg8, main_arg9, main_arg10, main_arg11, main_arg12, main_arg13, main_v24, main_v34]

/-! ## The two host stretches, for any contents `W` of the buffers -/

section Stretch

variable (W : Valuation τ sig (Elt Ideal))

/-- The layer's weight matrix, cut from the stacked weights. -/
theorem hA_wslice : (StableHlo.after hostOps11 W (Proc.devRef .tc main_v141) : Vec Ideal S64x64 .f32) = Cert.Spec.W2 (W (Proc.devRef .tc main_arg6)) := by
  dsimp only [hostOps11]
  after_results <;> rfl

/-- The layer's bias, cut from the stacked biases. -/
theorem hA_bslice : (StableHlo.after hostOps11 W (Proc.devRef .tc main_v143) : Vec Ideal S64 .f32) = Cert.Spec.B2 (W (Proc.devRef .tc main_arg7)) := by
  dsimp only [hostOps11]
  after_results <;> rfl

/-- The zero bias of the dense transform, made a one-row matrix: 0 everywhere when the vector is. -/
theorem hA_zrow (hz : IsZero (s := S64) (W (Proc.devRef .tc main_v34))) : IsZero (s := S1x64) (StableHlo.after hostOps11 W (Proc.devRef .tc main_v144)) := by
  have e : (StableHlo.after hostOps11 W (Proc.devRef .tc main_v144) : Vec Ideal S1x64 .f32) = shapeCast S1x64 (W (Proc.devRef .tc main_v34)) shapeCasts_S64_S1x64 := by
    dsimp only [hostOps11]
    after_results <;> rfl
  intro j
  rw [e]
  exact hz _

set_option maxHeartbeats 4000000 in
/-- The first stretch writes none of the carried buffers. -/
theorem hA_keep : ∀ b ∈ carried, StableHlo.after hostOps11 W (Proc.devRef .tc b) = W (Proc.devRef .tc b) := by
  intro b hb
  simp only [carried, List.mem_cons, List.mem_nil_iff, or_false] at hb
  rcases hb with rfl | rfl | rfl | rfl | rfl | rfl | rfl | rfl | rfl | rfl | rfl | rfl <;> host_keeps hostOps11

/-- … nor the node features it finds, nor the edge counts. -/
theorem hA_hprev : StableHlo.after hostOps11 W (Proc.devRef .tc main_v139) = W (Proc.devRef .tc main_v139) := by host_keeps hostOps11
theorem hA_v31 : StableHlo.after hostOps11 W (Proc.devRef .tc main_v31) = W (Proc.devRef .tc main_v31) := by host_keeps hostOps11

set_option maxHeartbeats 4000000 in
/-- Messages summed at their destination: the transformed rows gathered by edge, scaled, scatter-added by column. -/
theorem hB_s : (StableHlo.after hostOps12 W (Proc.devRef .tc main_v158) : Vec Ideal S100000x64 .f32)
    = Cert.Spec.agg (W (Proc.devRef .tc main_v145)) (W (Proc.devRef .tc main_v24)) (W (Proc.devRef .tc main_arg12)) (W (Proc.devRef .tc main_arg13)) := by
  dsimp only [hostOps12]
  after_results_simp <;> rfl

/-- The layer's bias made a one-row matrix. -/
theorem hB_brow : (StableHlo.after hostOps12 W (Proc.devRef .tc main_v159) : Vec Ideal S1x64 .f32) = shapeCast S1x64 (W (Proc.devRef .tc main_v143)) shapeCasts_S64_S1x64 := by
  dsimp only [hostOps12]
  after_results <;> rfl

set_option maxHeartbeats 4000000 in
/-- The second stretch writes none of the carried buffers. -/
theorem hB_keep : ∀ b ∈ carried, StableHlo.after hostOps12 W (Proc.devRef .tc b) = W (Proc.devRef .tc b) := by
  intro b hb
  simp only [carried, List.mem_cons, List.mem_nil_iff, or_false] at hb
  rcases hb with rfl | rfl | rfl | rfl | rfl | rfl | rfl | rfl | rfl | rfl | rfl | rfl <;> host_keeps hostOps12

theorem hB_v31 : StableHlo.after hostOps12 W (Proc.devRef .tc main_v31) = W (Proc.devRef .tc main_v31) := by host_keeps hostOps12

end Stretch

/-! ## The two regions leave the carried buffers alone -/

section Regions

variable (m : (ℓ : Loc nD τ sig) → Buf (Elt Ideal) ℓ) (ρ : Dev nD → PrngReg) (c : Dev nD)

set_option maxHeartbeats 4000000 in
theorem rA_keep : ∀ b ∈ carried, W26 m ρ c (Proc.devRef .tc b) = W25 m ρ c (Proc.devRef .tc b) := by
  intro b hb
  simp only [carried, List.mem_cons, List.mem_nil_iff, or_false] at hb
  rcases hb with rfl | rfl | rfl | rfl | rfl | rfl | rfl | rfl | rfl | rfl | rfl | rfl <;> exact W26_of_ne m ρ c _ (by decide)

theorem rA_bslice : W26 m ρ c (Proc.devRef .tc main_v143) = W25 m ρ c (Proc.devRef .tc main_v143) := W26_of_ne m ρ c _ (by decide)
theorem rA_v31 : W26 m ρ c (Proc.devRef .tc main_v31) = W25 m ρ c (Proc.devRef .tc main_v31) := W26_of_ne m ρ c _ (by decide)

set_option maxHeartbeats 4000000 in
theorem rB_keep : ∀ b ∈ carried, W28 m ρ c (Proc.devRef .tc b) = W27 m ρ c (Proc.devRef .tc b) := by
  intro b hb
  simp only [carried, List.mem_cons, List.mem_nil_iff, or_false] at hb
  rcases hb with rfl | rfl | rfl | rfl | rfl | rfl | rfl | rfl | rfl | rfl | rfl | rfl <;> exact W28_of_ne m ρ c _ (by decide)

/-- The edge counts are an input window of the second region: read, never written back. -/
theorem rB_v31 : W28 m ρ c (Proc.devRef .tc main_v31) = W27 m ρ c (Proc.devRef .tc main_v31) :=
  (W28_arr m ρ c 1).trans (((dat12 (V27 m ρ) c).arrAt_in 1 rfl _).trans (A_eq12 (V27 m ρ) c 1))

/-- The carried buffers after the layer are as before it. -/
theorem keep (b : Ref sig .tc) (hb : b ∈ carried) : W28 m ρ c (Proc.devRef .tc b) = W24 m ρ c (Proc.devRef .tc b) :=
  (((rB_keep m ρ c b hb).trans (hB_keep (W26 m ρ c) b hb)).trans (rA_keep m ρ c b hb)).trans (hA_keep (W24 m ρ c) b hb)

/-- The edge counts after the layer are as before it. -/
theorem keep31 : W28 m ρ c (Proc.devRef .tc main_v31) = W24 m ρ c (Proc.devRef .tc main_v31) :=
  (((rB_v31 m ρ c).trans (hB_v31 (W26 m ρ c))).trans (rA_v31 m ρ c)).trans (hA_v31 (W24 m ρ c))

/-- The zero bias is still 0 everywhere after the layer. -/
theorem zero34 (hz : IsZero (s := S64) (W24 m ρ c (Proc.devRef .tc main_v34))) : IsZero (s := S64) (W28 m ρ c (Proc.devRef .tc main_v34)) := by
  rw [keep m ρ c main_v34 (by simp)]
  exact hz

/-! ## The layer -/

/-- What the layer leaves in main_v160, from what it finds at its first boundary. -/
theorem layer (H : Vec Ideal S100000x64 .f32) (wa : Vec Ideal S3x64x64 .f32) (ba : Vec Ideal S3x64 .f32)
    (nrm : Vec Ideal S1600000 .f32) (cn : Vec Ideal S100000x1 .f32) (rw cl : Vec Ideal S1600000 .i32)
    (hH : W24 m ρ c (Proc.devRef .tc main_v139) = H) (hwa : W24 m ρ c (Proc.devRef .tc main_arg6) = wa) (hba : W24 m ρ c (Proc.devRef .tc main_arg7) = ba)
    (hz : IsZero (s := S64) (W24 m ρ c (Proc.devRef .tc main_v34)))
    (hn : W24 m ρ c (Proc.devRef .tc main_v24) = nrm) (hc : W24 m ρ c (Proc.devRef .tc main_v31) = cn)
    (hr : W24 m ρ c (Proc.devRef .tc main_arg12) = rw) (hcl : W24 m ρ c (Proc.devRef .tc main_arg13) = cl) :
    (W28 m ρ c (Proc.devRef .tc main_v160) : Vec Ideal S100000x64 .f32)
      = Cert.Spec.layer H (Cert.Spec.W2 wa) (Cert.Spec.B2 ba) nrm cn rw cl := by
  -- what the dense transform finds
  have e_h : W25 m ρ c (Proc.devRef .tc main_v139) = H := (hA_hprev (W24 m ρ c)).trans hH
  have e_w : (W25 m ρ c (Proc.devRef .tc main_v141) : Vec Ideal S64x64 .f32) = Cert.Spec.W2 wa := (hA_wslice (W24 m ρ c)).trans (by rw [hwa])
  have e_z : IsZero (s := S1x64) (W25 m ρ c (Proc.devRef .tc main_v144)) := hA_zrow (W24 m ρ c) hz
  have e_b : (W25 m ρ c (Proc.devRef .tc main_v143) : Vec Ideal S64 .f32) = Cert.Spec.B2 ba := (hA_bslice (W24 m ρ c)).trans (by rw [hba])
  -- what it leaves: h · W, the zero bias dropped
  have x_hw : (W26 m ρ c (Proc.devRef .tc main_v145) : Vec Ideal S100000x64 .f32) = Cert.Spec.lin H (Cert.Spec.W2 wa) := by
    refine ((W26_arr m ρ c 3).trans (Cert.KernelIdeal.Reg11.arr_eq (V25 m ρ) c)).trans ?_
    show Cert.Spec.linb (W25 m ρ c (Proc.devRef .tc main_v139)) (W25 m ρ c (Proc.devRef .tc main_v141)) (W25 m ρ c (Proc.devRef .tc main_v144)) = _
    rw [e_h, e_w]
    exact Cert.LibLayout.addf_zero _ _ (fun j => e_z _)
  -- the carried buffers at the second stretch
  have k_n : W26 m ρ c (Proc.devRef .tc main_v24) = nrm := ((rA_keep m ρ c main_v24 (by simp)).trans (hA_keep (W24 m ρ c) main_v24 (by simp))).trans hn
  have k_r : W26 m ρ c (Proc.devRef .tc main_arg12) = rw := ((rA_keep m ρ c main_arg12 (by simp)).trans (hA_keep (W24 m ρ c) main_arg12 (by simp))).trans hr
  have k_c : W26 m ρ c (Proc.devRef .tc main_arg13) = cl := ((rA_keep m ρ c main_arg13 (by simp)).trans (hA_keep (W24 m ρ c) main_arg13 (by simp))).trans hcl
  have k_31 : W26 m ρ c (Proc.devRef .tc main_v31) = cn := ((rA_v31 m ρ c).trans (hA_v31 (W24 m ρ c))).trans hc
  have k_b : (W26 m ρ c (Proc.devRef .tc main_v143) : Vec Ideal S64 .f32) = Cert.Spec.B2 ba := (rA_bslice m ρ c).trans e_b
  -- what the second region finds
  have e_s : (W27 m ρ c (Proc.devRef .tc main_v158) : Vec Ideal S100000x64 .f32) = Cert.Spec.agg (Cert.Spec.lin H (Cert.Spec.W2 wa)) nrm rw cl :=
    (hB_s (W26 m ρ c)).trans (by rw [x_hw, k_n, k_r, k_c])
  have e_br : (W27 m ρ c (Proc.devRef .tc main_v159) : Vec Ideal S1x64 .f32) = shapeCast S1x64 (Cert.Spec.B2 ba) shapeCasts_S64_S1x64 :=
    (hB_brow (W26 m ρ c)).trans (by rw [k_b])
  have e_c : W27 m ρ c (Proc.devRef .tc main_v31) = cn := (hB_v31 (W26 m ρ c)).trans k_31
  -- what it leaves
  refine ((W28_arr m ρ c 3).trans (Cert.KernelIdeal.Reg12.arr_eq (V27 m ρ) c)).trans ?_
  show Cert.Spec.actb (W27 m ρ c (Proc.devRef .tc main_v158)) (W27 m ρ c (Proc.devRef .tc main_v31)) (W27 m ρ c (Proc.devRef .tc main_v159)) = _
  rw [e_s, e_c, e_br, Cert.LibLayout.shapeCast_eq_broadcastInDim_row _ _ Cert.ReferenceIdeal.Gen.bcast_S64_S1x64_1]
  rfl

end Regions

end Cert.KernelIdeal.Layer6

end
-- ==== Proof.Reg13.lean ====
/- The array region 13 leaves, as one function of the arrays it finds. -/
import proofs.«122723_j46918222742294_1_alg».proof.Proof.Gen.KernelIdeal.Frame
import proofs.«122723_j46918222742294_1_alg».proof.Proof.Spec
import proofs.«122723_j46918222742294_1_alg».proof.Proof.LibPlainDot
import Idealize.ShloMosaic.Lib.Pipeline.Value
import Idealize.ShloMosaic.Lib.ValueLayout

set_option maxRecDepth 16384

noncomputable section

namespace Cert.KernelIdeal.Reg13

open Idealize.ShloMosaic Idealize.ShloMosaic.TcCoe Idealize.ShloMosaic.ValueIdx Idealize.SL.Sem Cert.KernelIdeal Cert.KernelIdeal.Gen
open Idealize.ShloMosaic.Pipeline (Dat)

/-! ## The body's arithmetic and the host form, entry by entry -/

/-- The body's value at row `p`, column `q` of a block: row `p` of the block against column `q` of the weights (both first
    rounded to the narrow format, which on the extended reals changes nothing), plus the bias' entry `q`, and the larger
    of that and zero. -/
theorem pay_apply (x0 : Vec Ideal S8000x128 .f32) (x1 : Vec Ideal S128x64 .f32) (x2 : Vec Ideal S1x64 .f32) (p : Fin 8000) (q : Fin 64) :
    k13_pay1 (F := Ideal) x0 x1 x2 (ix2 p q) = max ((∑ k : Fin 128, x0 (ix2 p k) * x1 (ix2 k q)) + x2 (ix2 (0 : Fin 1) q)) (Ideal.ofBits .f32 0x00000000#32) := by
  unfold k13_pay1
  simp only [shapeCast_self]
  refine (maximumf_apply _ _ _).trans ?_
  refine congr (congrArg max ?_) rfl
  refine (addf_apply _ _ _).trans ?_
  refine congr (congrArg HAdd.hAdd ?_) ?_
  · exact Cert.LibPlainDot.matmul_plain 8000 128 64 none (truncf .bf16 x0 bitsLt_bf16_f32) (truncf .bf16 x1 bitsLt_bf16_f32) (ix2 p q)
  · exact broadcastTo_1b_ab_apply x2 _ p q

/-- The host form max(e · W₁ + b, 0) at row `r`, column `q`: the same expression over the whole array's row `r`. -/
theorem host_apply (h : Vec Ideal S1600000x128 .f32) (W : Vec Ideal S128x64 .f32) (b : Vec Ideal S1x64 .f32) (r : Fin 1600000) (q : Fin 64) :
    Cert.Spec.dec1b (F := Ideal) h W b (ix2 r q) = max ((∑ k : Fin 128, h (ix2 r k) * W (ix2 k q)) + b (ix2 (0 : Fin 1) q)) (Ideal.ofBits .f32 0x00000000#32) := by
  unfold Cert.Spec.dec1b
  refine (maximumf_apply _ _ _).trans ?_
  refine congr (congrArg max ?_) ?_
  · refine (addf_apply _ _ _).trans ?_
    refine congr (congrArg HAdd.hAdd ?_) ?_
    · exact Cert.LibPlainDot.dotGeneral_plain 1600000 128 64 none h W (ix2 r q)
    · refine broadcastInDim_apply _ _ b (ix2 r q) (ix2 (0 : Fin 1) q) fun a => ?_
      match a with
      | ⟨0, _⟩ => rfl
      | ⟨1, _⟩ => rfl
  · exact broadcastInDim_apply _ _ _ (ix2 r q) ix0 fun a => a.elim0

/-- A block whose row `p` is the array's row `r`, with the whole weights and bias, gives at (p, q) what the host form
    gives at (r, q). -/
theorem point (x0 : Vec Ideal S8000x128 .f32) (x1 : Vec Ideal S128x64 .f32) (x2 : Vec Ideal S1x64 .f32)
    (h : Vec Ideal S1600000x128 .f32) (W : Vec Ideal S128x64 .f32) (b : Vec Ideal S1x64 .f32)
    (p : Fin 8000) (q : Fin 64) (r : Fin 1600000) (h0 : ∀ k : Fin 128, x0 (ix2 p k) = h (ix2 r k)) (h1 : x1 = W) (h2 : x2 = b) :
    k13_pay1 (F := Ideal) x0 x1 x2 (ix2 p q) = Cert.Spec.dec1b (F := Ideal) h W b (ix2 r q) := by
  subst h1 h2
  rw [pay_apply, host_apply]
  have e : (∑ k : Fin 128, x0 (ix2 p k) * x1 (ix2 k q)) = ∑ k : Fin 128, h (ix2 r k) * x1 (ix2 k q) :=
    Finset.sum_congr rfl fun k _ => congrArg (· * x1 (ix2 k q)) (h0 k)
  rw [e]

/-! ## From blocks to the array -/

theorem zero_off : (![0, 0] : Fin 2 → Nat) = fun _ => 0 := funext fun a => by fin_cases a <;> rfl

/-- The index maps over the grid: the row-blocked operand and the result sit at block row `t`, column block 0; the
    weights and the bias are whole at every point. -/
theorem idx_facts : ∀ t : Fin cfg13.N,
    win13_0.index t (0 : Fin 2) = t.val ∧ win13_0.index t (1 : Fin 2) = 0
    ∧ win13_1.index t (0 : Fin 2) = 0 ∧ win13_1.index t (1 : Fin 2) = 0
    ∧ win13_2.index t (0 : Fin 2) = 0 ∧ win13_2.index t (1 : Fin 2) = 0
    ∧ win13_3.index t (0 : Fin 2) = t.val ∧ win13_3.index t (1 : Fin 2) = 0 :=
  (by decide +kernel : ∀ t : Fin grid13.N, _)

/-- What point `t` writes back is block `t` (rows 8000·t … 8000·t + 7999) of the host form of the arrays the region finds. -/
theorem flushed_eq (V : (c : Dev nD) → (b : Ref sig .tc) → Buf (Elt Ideal) ((c : Thread nD τ).loc b)) (c : Dev nD) (t : Fin cfg13.N) :
    (dat13 (F := Ideal) V c).flushed 3 t
      = ((cfg13.win 3).blk t).view.read (Elt Ideal) (Cert.Spec.dec1b (F := Ideal) (V c main_v175) (V c main_arg8) (V c main_v176)) := by
  show (cfg13.win 3).cut (grid13.coords t) ((dat13 V c).after 3 t) = _
  rw [after13_3]
  unfold out13_3
  rw [View.canon_unit_zero zero_off]
  simp only [View.ld_unit_zero (S := S8000x128) zero_off, View.ld_unit_zero (S := S128x64) zero_off, View.ld_unit_zero (S := S1x64) zero_off]
  obtain ⟨e00, e01, e10, e11, e20, e21, e30, e31⟩ := idx_facts t
  have hN : cfg13.N = 200 := N_13
  have ht : t.val < 200 := by have := t.isLt; omega
  funext j
  have hj0 : (j 0).val < 8000 := (j 0).isLt
  have hj1 : (j 1).val < 64 := (j 1).isLt
  show k13_pay1 (iblk13 V c 0 t) (iblk13 V c 1 t) (iblk13 V c 2 t) ((cfg13.win 3).xinj (grid13.coords t) j)
    = Cert.Spec.dec1b (F := Ideal) (V c main_v175) (V c main_arg8) (V c main_v176) (((cfg13.win 3).blk t).view.emb j)
  have hl : (cfg13.win 3).xinj (grid13.coords t) j = ix2 (⟨(j 0).val, hj0⟩ : Fin 8000) (⟨(j 1).val, hj1⟩ : Fin 64) :=
    funext fun a => match a with | ⟨0, _⟩ => rfl | ⟨1, _⟩ => rfl
  have hr : ((cfg13.win 3).blk t).view.emb j = ix2 (⟨t.val * 8000 + (j 0).val, by omega⟩ : Fin 1600000) (⟨(j 1).val, hj1⟩ : Fin 64) := by
    funext a; apply Fin.ext
    match a with
    | ⟨0, _⟩ => show win13_3.index t (0 : Fin 2) * 8000 + 1 * (j 0).val = t.val * 8000 + (j 0).val; omega
    | ⟨1, _⟩ => show win13_3.index t (1 : Fin 2) * 64 + 1 * (j 1).val = (j 1).val; omega
  rw [hl, hr]
  refine point (iblk13 V c 0 t) (iblk13 V c 1 t) (iblk13 V c 2 t) (V c main_v175) (V c main_arg8) (V c main_v176)
    ⟨(j 0).val, hj0⟩ ⟨(j 1).val, hj1⟩ ⟨t.val * 8000 + (j 0).val, by omega⟩ ?_ ?_ ?_
  · intro k
    show V c main_v175 (((cfg13.win 0).blk t).view.emb (ix2 (⟨(j 0).val, hj0⟩ : Fin 8000) k)) = V c main_v175 _
    refine congrArg (V c main_v175) (funext fun a => Fin.ext ?_)
    match a with
    | ⟨0, _⟩ => show win13_0.index t (0 : Fin 2) * 8000 + 1 * (j 0).val = t.val * 8000 + (j 0).val; omega
    | ⟨1, _⟩ => show win13_0.index t (1 : Fin 2) * 128 + 1 * k.val = k.val; omega
  · funext y
    show V c main_arg8 (((cfg13.win 1).blk t).view.emb y) = V c main_arg8 y
    refine congrArg (V c main_arg8) (funext fun a => Fin.ext ?_)
    match a with
    | ⟨0, _⟩ => show win13_1.index t (0 : Fin 2) * 128 + 1 * (y 0).val = (y 0).val; omega
    | ⟨1, _⟩ => show win13_1.index t (1 : Fin 2) * 64 + 1 * (y 1).val = (y 1).val; omega
  · funext y
    show V c main_v176 (((cfg13.win 2).blk t).view.emb y) = V c main_v176 y
    refine congrArg (V c main_v176) (funext fun a => Fin.ext ?_)
    match a with
    | ⟨0, _⟩ => show win13_2.index t (0 : Fin 2) * 1 + 1 * (y 0).val = (y 0).val; omega
    | ⟨1, _⟩ => show win13_2.index t (1 : Fin 2) * 64 + 1 * (y 1).val = (y 1).val; omega

/-- An index of the array is in point `t`'s block iff each coordinate is in the block's range on its axis. -/
theorem mem_blk (t : Fin cfg13.N) (i : S1600000x64.Idx) :
    i ∈ ((cfg13.win 3).blk t).view.set ↔ ∀ a : Fin 2, win13_3.index t a * S8000x64.size a ≤ (i a).val ∧ (i a).val < win13_3.index t a * S8000x64.size a + S8000x64.size a := by
  show i ∈ ((View.whole main_v177).slice (win13_3.rect t)).set ↔ _
  rw [View.set_slice_whole, Rect.mem_set_unit]
  exact Iff.rfl

/-- Every row `r` of the array is in the block of the point `r / 8000`. -/
theorem cover (i : S1600000x64.Idx) : ∃ t : Fin cfg13.N, (cfg13.win 3).flush t = true ∧ i ∈ ((cfg13.win 3).blk t).view.set := by
  have hi0 : (i 0).val < 1600000 := (i 0).isLt
  have hi1 : (i 1).val < 64 := (i 1).isLt
  obtain ⟨t, ht⟩ : ∃ t : Fin cfg13.N, t.val = (i 0).val / 8000 := ⟨⟨(i 0).val / 8000, by rw [show cfg13.N = 200 from N_13]; omega⟩, rfl⟩
  obtain ⟨-, -, -, -, -, -, e30, e31⟩ := idx_facts t
  refine ⟨t, flush13_3 t, ?_⟩
  rw [mem_blk]
  intro a
  match a with
  | ⟨0, _⟩ => show win13_3.index t (0 : Fin 2) * 8000 ≤ (i 0).val ∧ (i 0).val < win13_3.index t (0 : Fin 2) * 8000 + 8000; omega
  | ⟨1, _⟩ => show win13_3.index t (1 : Fin 2) * 64 ≤ (i 1).val ∧ (i 1).val < win13_3.index t (1 : Fin 2) * 64 + 64; omega

theorem arr_eq (V : (c : Dev nD) → (b : Ref sig .tc) → Buf (Elt Ideal) ((c : Thread nD τ).loc b)) (c : Dev nD) :
    ((dat13 (F := Ideal) V c).arrAt 3 cfg13.N : Vec Ideal S1600000x64 .f32)
      = Cert.Spec.dec1b (V c main_v175) (V c main_arg8) (V c main_v176) :=
  (dat13 V c).arrAt_eq_of_cover 3 (Cert.Spec.dec1b (F := Ideal) (V c main_v175) (V c main_arg8) (V c main_v176)) (fun t _ => flushed_eq V c t) cover

end Cert.KernelIdeal.Reg13

end
-- ==== Proof.Reg14.lean ====
/- The array region 14 leaves, as one function of the arrays it finds. -/
import proofs.«122723_j46918222742294_1_alg».proof.Proof.Gen.KernelIdeal.Frame
import proofs.«122723_j46918222742294_1_alg».proof.Proof.Spec
import proofs.«122723_j46918222742294_1_alg».proof.Proof.LibPlainDot
import Idealize.ShloMosaic.Lib.Pipeline.Value
import Idealize.ShloMosaic.Lib.ValueLayout

noncomputable section

namespace Cert.KernelIdeal.Reg14

open Idealize.ShloMosaic Idealize.ShloMosaic.TcCoe Idealize.ShloMosaic.ValueIdx Idealize.SL.Sem Cert.KernelIdeal Cert.KernelIdeal.Gen
open Idealize.ShloMosaic.Pipeline (Dat)

/-- The zero offset of a whole-buffer access, as a function. -/
theorem zero_off : (![0, 0] : Fin 2 → Nat) = fun _ => 0 := funext fun a => by fin_cases a <;> rfl

/-- One row `[1, b]` laid on both axes of `[a, b]` reads, at `(p, c)`, the row's entry in column `c`. -/
theorem broadcastInDim_row_apply {α : Type} {a b : ℕ} (h : (⟨2, ![1, b]⟩ : Shape).BroadcastsInDim ⟨2, ![a, b]⟩ ![0, 1])
    (v : (⟨2, ![1, b]⟩ : Shape).Idx → α) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The words 0 and 1/2 on the extended reals. -/
abbrev w0 : Ideal .f32 := FloatOps.ofBits (F := Ideal) .f32 0x00000000#32
abbrev wh : Ideal .f32 := FloatOps.ofBits (F := Ideal) .f32 0x3F000000#32

/-- The last step on one entry: where the mask entry `m` exceeds 1/2 the softplus of `y` in the source's spelling,
    max(y, 0) + log1p(exp(0 - |y - 0|)) behind its guard on y - 0; elsewhere `y`. -/
def soft (y m : Ideal .f32) : Ideal .f32 :=
  Scalar.select (FloatOps.cmpf (F := Ideal) .ogt m wh)
    (Scalar.select (FloatOps.cmpf (F := Ideal) .one (FloatOps.subf (F := Ideal) y w0) (FloatOps.subf (F := Ideal) y w0))
      (FloatOps.addf (F := Ideal) y w0)
      (FloatOps.addf (F := Ideal) (FloatOps.maximumf (F := Ideal) y w0)
        (FloatOps.log1p (F := Ideal) (FloatOps.exp (F := Ideal)
          (FloatOps.subf (F := Ideal) w0 (FloatOps.absf (F := Ideal) (FloatOps.subf (F := Ideal) y w0)))))))
    y

/-- The host column is that step entry by entry. -/
theorem fincol_apply (y mk : Vec Ideal S1600000x1 .f32) (i : S1600000x1.Idx) :
    Cert.Spec.fincol y mk i = soft (y i) (mk i) := rfl

/-- A block's value before the last step: its rows times the weight column, plus the 1×1 bias. -/
def pre (x0 : Vec Ideal S8000x64 .f32) (x1 : Vec Ideal S64x1 .f32) (x2 : Vec Ideal S1x1 .f32) : FVec Ideal S8000x1 .f32 :=
  addf (matmul dot_S8000x64_S64x1_S8000x1_1_0_0_1_n_n none (truncf .bf16 x0 bitsLt_bf16_f32) (truncf .bf16 x1 bitsLt_bf16_f32)
    (constant S8000x1 .f32 0x00000000#32)) (broadcastTo S8000x1 x2 broadcasts_S1x1_S8000x1)

/-- The body's value is the last step of that, entry by entry, against the mask block. -/
theorem pay_eq (x0 : Vec Ideal S8000x64 .f32) (x1 : Vec Ideal S64x1 .f32) (x2 : Vec Ideal S1x1 .f32) (x3 : Vec Ideal S8000x1 .f32)
    (j : S8000x1.Idx) : k14_pay1 x0 x1 x2 x3 j = soft (pre x0 x1 x2 j) (x3 j) := by
  unfold k14_pay1
  simp only [shapeCast_self]
  rfl

/-- The block's value before the last step, at row `p`: the sum over the 64 features, plus the bias. -/
theorem pre_apply (x0 : Vec Ideal S8000x64 .f32) (x1 : Vec Ideal S64x1 .f32) (x2 : Vec Ideal S1x1 .f32) (p : Fin 8000) (u : Fin 1) :
    pre x0 x1 x2 (ix2 p u) = (∑ k : Fin 64, x0 (ix2 p k) * x1 (ix2 k u)) + x2 (ix2 (0 : Fin 1) u) := by
  unfold pre
  rw [addf_apply, broadcastTo_1b_ab_apply]
  refine congrArg (· + x2 (ix2 (0 : Fin 1) u)) ?_
  show matmul (F := Ideal) (DotDims.plain 8000 64 1) none _ _ _ (ix2 p u) = _
  rw [Cert.LibPlainDot.matmul_plain]
  rfl

/-- The host's value before the last step, at row `r`: the same sum of the whole operands. -/
theorem dec2b_apply (e1 : Vec Ideal S1600000x64 .f32) (w2 : Vec Ideal S64x1 .f32) (b11 : Vec Ideal S1x1 .f32) (r : Fin 1600000) (u : Fin 1) :
    Cert.Spec.dec2b e1 w2 b11 (ix2 r u) = (∑ k : Fin 64, e1 (ix2 r k) * w2 (ix2 k u)) + b11 (ix2 (0 : Fin 1) u) := by
  unfold Cert.Spec.dec2b
  rw [addf_apply, broadcastInDim_row_apply]
  refine congrArg (· + b11 (ix2 (0 : Fin 1) u)) ?_
  show Host.dotGeneral (F := Ideal) (DotDims.plain 1600000 64 1) none _ _ (ix2 r u) = _
  rw [Cert.LibPlainDot.dotGeneral_plain]

/-- A block entry and an array entry agree as soon as the operands they read agree. -/
theorem point_eq (x0 : Vec Ideal S8000x64 .f32) (x1 : Vec Ideal S64x1 .f32) (x2 : Vec Ideal S1x1 .f32) (x3 : Vec Ideal S8000x1 .f32)
    (e1 : Vec Ideal S1600000x64 .f32) (w2 : Vec Ideal S64x1 .f32) (b11 : Vec Ideal S1x1 .f32) (mk : Vec Ideal S1600000x1 .f32)
    (p : Fin 8000) (u : Fin 1) (i : S1600000x1.Idx)
    (h0 : ∀ k : Fin 64, x0 (ix2 p k) = e1 (ix2 (i 0) k)) (h1 : ∀ k : Fin 64, x1 (ix2 k u) = w2 (ix2 k (i 1)))
    (h2 : x2 (ix2 (0 : Fin 1) u) = b11 (ix2 (0 : Fin 1) (i 1))) (h3 : x3 (ix2 p u) = mk i) :
    k14_pay1 x0 x1 x2 x3 (ix2 p u) = Cert.Spec.fincol (Cert.Spec.dec2b e1 w2 b11) mk i := by
  obtain ⟨r, u', rfl⟩ : ∃ (r : Fin 1600000) (u' : Fin 1), i = ix2 r u' := ⟨i 0, i 1, eq_ix2 i⟩
  have hs : (∑ k : Fin 64, x0 (ix2 p k) * x1 (ix2 k u)) = ∑ k : Fin 64, e1 (ix2 r k) * w2 (ix2 k u') :=
    Finset.sum_congr rfl fun k _ => by rw [h0 k, h1 k]
  rw [pay_eq, pre_apply, fincol_apply, dec2b_apply, hs, h2, h3]

/-- The windows' block indices over the grid: the feature rows, the mask column and the output column sit at block
    row `t`; the weight column and the bias at their only block. -/
theorem idx_facts : ∀ t : Fin cfg14.N,
    win14_0.index t (0 : Fin 2) = t.val ∧ win14_0.index t (1 : Fin 2) = 0
    ∧ win14_1.index t (0 : Fin 2) = 0 ∧ win14_1.index t (1 : Fin 2) = 0
    ∧ win14_2.index t (0 : Fin 2) = 0 ∧ win14_2.index t (1 : Fin 2) = 0
    ∧ win14_3.index t (0 : Fin 2) = t.val ∧ win14_3.index t (1 : Fin 2) = 0
    ∧ win14_4.index t (0 : Fin 2) = t.val ∧ win14_4.index t (1 : Fin 2) = 0 :=
  (by decide +kernel : ∀ t : Fin grid14.N, _)

/-- What point `t` writes back is block `t` of the host form of the arrays the region finds. -/
theorem flushed_eq (V : (c : Dev nD) → (b : Ref sig .tc) → Buf (Elt Ideal) ((c : Thread nD τ).loc b)) (c : Dev nD)
    (t : Fin cfg14.N) :
    (dat14 (F := Ideal) V c).flushed 4 t
      = ((cfg14.win 4).blk t).view.read (Elt Ideal)
          (Cert.Spec.fincol (Cert.Spec.dec2b (V c main_v177) (V c main_arg10) (V c main_v179)) (V c main_v181)) := by
  show (cfg14.win 4).cut (grid14.coords t) ((dat14 V c).after 4 t) = _
  rw [after14_4]
  unfold out14_4
  rw [View.canon_unit_zero zero_off]
  simp only [View.ld_unit_zero (S := S8000x64) zero_off, View.ld_unit_zero (S := S64x1) zero_off,
    View.ld_unit_zero (S := S1x1) zero_off, View.ld_unit_zero (S := S8000x1) zero_off]
  obtain ⟨e00, e01, e10, e11, e20, e21, e30, e31, e40, e41⟩ := idx_facts t
  funext j
  obtain ⟨p, u, rfl⟩ : ∃ (p : Fin 8000) (u : Fin 1), j = ix2 p u := ⟨j 0, j 1, eq_ix2 j⟩
  refine point_eq (iblk14 V c 0 t) (iblk14 V c 1 t) (iblk14 V c 2 t) (iblk14 V c 3 t)
    (V c main_v177) (V c main_arg10) (V c main_v179) (V c main_v181) p u
    (((cfg14.win 4).blk t).view.emb (ix2 p u)) (fun k => ?_) (fun k => ?_) ?_ ?_
  · show V c main_v177 (((cfg14.win 0).blk t).view.emb (ix2 p k)) = V c main_v177 (ix2 ((((cfg14.win 4).blk t).view.emb (ix2 p u)) 0) k)
    refine congrArg _ (funext fun a => Fin.ext ?_)
    match a with
    | ⟨0, _⟩ => show win14_0.index t (0 : Fin 2) * 8000 + 1 * p.val = win14_4.index t (0 : Fin 2) * 8000 + 1 * p.val; omega
    | ⟨1, _⟩ => show win14_0.index t (1 : Fin 2) * 64 + 1 * k.val = k.val; omega
  · show V c main_arg10 (((cfg14.win 1).blk t).view.emb (ix2 k u)) = V c main_arg10 (ix2 k ((((cfg14.win 4).blk t).view.emb (ix2 p u)) 1))
    refine congrArg _ (funext fun a => Fin.ext ?_)
    match a with
    | ⟨0, _⟩ => show win14_1.index t (0 : Fin 2) * 64 + 1 * k.val = k.val; omega
    | ⟨1, _⟩ => show win14_1.index t (1 : Fin 2) * 1 + 1 * u.val = win14_4.index t (1 : Fin 2) * 1 + 1 * u.val; omega
  · show V c main_v179 (((cfg14.win 2).blk t).view.emb (ix2 (0 : Fin 1) u)) = V c main_v179 (ix2 (0 : Fin 1) ((((cfg14.win 4).blk t).view.emb (ix2 p u)) 1))
    refine congrArg _ (funext fun a => Fin.ext ?_)
    match a with
    | ⟨0, _⟩ => show win14_2.index t (0 : Fin 2) * 1 + 1 * 0 = 0; omega
    | ⟨1, _⟩ => show win14_2.index t (1 : Fin 2) * 1 + 1 * u.val = win14_4.index t (1 : Fin 2) * 1 + 1 * u.val; omega
  · show V c main_v181 (((cfg14.win 3).blk t).view.emb (ix2 p u)) = V c main_v181 (((cfg14.win 4).blk t).view.emb (ix2 p u))
    refine congrArg _ (funext fun a => Fin.ext ?_)
    match a with
    | ⟨0, _⟩ => show win14_3.index t (0 : Fin 2) * 8000 + 1 * p.val = win14_4.index t (0 : Fin 2) * 8000 + 1 * p.val; omega
    | ⟨1, _⟩ => show win14_3.index t (1 : Fin 2) * 1 + 1 * u.val = win14_4.index t (1 : Fin 2) * 1 + 1 * u.val; omega

/-- An index of the array is in point `t`'s block iff each coordinate is in the block's range on its axis. -/
theorem mem_blk (t : Fin cfg14.N) (i : S1600000x1.Idx) :
    i ∈ ((cfg14.win 4).blk t).view.set ↔ ∀ a : Fin 2, win14_4.index t a * S8000x1.size a ≤ (i a).val
      ∧ (i a).val < win14_4.index t a * S8000x1.size a + S8000x1.size a := by
  show i ∈ ((View.whole main_v182).slice (win14_4.rect t)).set ↔ _
  rw [View.set_slice_whole, Rect.mem_set_unit]
  exact Iff.rfl

/-- Every row lies in a written block: row `r` in the block of point `r / 8000`. -/
theorem cover (i : S1600000x1.Idx) :
    ∃ t : Fin cfg14.N, (cfg14.win 4).flush t = true ∧ i ∈ ((cfg14.win 4).blk t).view.set := by
  have hi0 : (i 0).val < 1600000 := (i 0).isLt
  have hi1 : (i 1).val < 1 := (i 1).isLt
  have hN : cfg14.N = 200 := N_14
  obtain ⟨t, ht⟩ : ∃ t : Fin cfg14.N, t.val = (i 0).val / 8000 := ⟨⟨(i 0).val / 8000, by rw [hN]; omega⟩, rfl⟩
  obtain ⟨-, -, -, -, -, -, -, -, e40, e41⟩ := idx_facts t
  refine ⟨t, flush14_4 t, ?_⟩
  rw [mem_blk]
  intro a
  match a with
  | ⟨0, _⟩ => show win14_4.index t (0 : Fin 2) * 8000 ≤ (i 0).val ∧ (i 0).val < win14_4.index t (0 : Fin 2) * 8000 + 8000; omega
  | ⟨1, _⟩ => show win14_4.index t (1 : Fin 2) * 1 ≤ (i 1).val ∧ (i 1).val < win14_4.index t (1 : Fin 2) * 1 + 1; omega

theorem arr_eq (V : (c : Dev nD) → (b : Ref sig .tc) → Buf (Elt Ideal) ((c : Thread nD τ).loc b)) (c : Dev nD) :
    ((dat14 (F := Ideal) V c).arrAt 4 cfg14.N : Vec Ideal S1600000x1 .f32)
      = Cert.Spec.fincol (Cert.Spec.dec2b (V c main_v177) (V c main_arg10) (V c main_v179)) (V c main_v181) :=
  (dat14 V c).arrAt_eq_of_cover 4 (Cert.Spec.fincol (Cert.Spec.dec2b (V c main_v177) (V c main_arg10) (V c main_v179)) (V c main_v181)) (fun t _ => flushed_eq V c t) cover

end Cert.KernelIdeal.Reg14

end
-- ==== Proof.FinBridge.lean ====
/- The last region's column, flattened, is the reference's final selection: softplus where row = col, the value elsewhere. -/
import proofs.«122723_j46918222742294_1_alg».proof.Proof.Spec
import Idealize.ShloMosaic.PureOps.Ideal.Laws
import Idealize.ShloMosaic.Lib.Pipeline.Value
import Idealize.ShloMosaic.Lib.ValueLayout

noncomputable section

namespace Cert.FinBridge

open Idealize.ShloMosaic Idealize.ShloMosaic.ValueIdx Cert.ReferenceIdeal Cert.ReferenceIdeal.Gen

/-! ## A column and its flattening -/

/-- A column [a, 1] flattened to [a] reads, at `r`, the column's entry (r, 0). -/
theorem flat_apply {α : Type} {a : ℕ} (x : (⟨2, ![a, 1]⟩ : Shape).Idx → α) (h : (⟨2, ![a, 1]⟩ : Shape).ShapeCasts ⟨1, ![a]⟩)
    (r : Fin a) : shapeCast ⟨1, ![a]⟩ x h (ix1 r) = x (ix2 r (0 : Fin 1)) :=
  shapeCast_apply x h _ _ (by
    rw [Shape.rowMajor_val_two, Shape.rowMajor_val_one]
    show r.val * 1 + 0 = r.val
    omega)

/-- A vector [a] made a column [a, 1] reads, at (r, u), the vector's entry `r`. -/
theorem col_apply {α : Type} {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-! ## The selection, entry by entry, on the extended reals -/

/-- The word 0x3F000000 denotes one half. -/
theorem ofBits_half : Ideal.ofBits .f32 0x3F000000#32 = ((1 / 2 : ℝ) : EReal) := by
  simp [Ideal.ofBits, Ideal.ieee, -EReal.coe_mul]; norm_num

/-- A bit read as a number (0 or 1) exceeds one half exactly when the bit is set. -/
theorem gt_half (b : BitVec 1) : Ideal.cmp .ogt (((b.toNat : ℝ)) : EReal) (Ideal.ofBits .f32 0x3F000000#32) = b := by
  rw [ofBits_half]
  rcases BitVec.eq_zero_or_eq_one b with h | h <;> subst h
  · have hlt : ¬ (((1 / 2 : ℝ)) : EReal) < (((0#1 : BitVec 1).toNat : ℝ) : EReal) := by
      rw [EReal.coe_lt_coe_iff]; norm_num
    show BitVec.ofBool (decide ((((1 / 2 : ℝ)) : EReal) < (((0#1 : BitVec 1).toNat : ℝ) : EReal))) = 0#1
    rw [decide_eq_false hlt]; rfl
  · have hlt : (((1 / 2 : ℝ)) : EReal) < (((1#1 : BitVec 1).toNat : ℝ) : EReal) := by
      rw [EReal.coe_lt_coe_iff]; norm_num
    show BitVec.ofBool (decide ((((1 / 2 : ℝ)) : EReal) < (((1#1 : BitVec 1).toNat : ℝ) : EReal))) = 1#1
    rw [decide_eq_true hlt]; rfl

/-- No extended real differs from itself: the guard of the source's softplus is never taken, in either spelling. -/
theorem one_self (d : EReal) : Ideal.cmp .one d d = 0#1 := by simp [Ideal.cmp]
theorem une_self (d : EReal) : Ideal.cmp .une d d = 0#1 := by simp [Ideal.cmp]

/-- The two spellings of the selected softplus agree at every extended real `y` and bit `b`: the mask compared with one
    half is the bit, neither guard is taken, and 0 - a = -a. -/
theorem sel_eq (y : EReal) (b : BitVec 1) :
    Scalar.select (Ideal.cmp .ogt (((b.toNat : ℝ)) : EReal) (Ideal.ofBits .f32 0x3F000000#32))
        (Scalar.select (Ideal.cmp .one (y - Ideal.ofBits .f32 0x00000000#32) (y - Ideal.ofBits .f32 0x00000000#32))
          (y + Ideal.ofBits .f32 0x00000000#32)
          (max y (Ideal.ofBits .f32 0x00000000#32) + Ideal.log1p (Ideal.exp (Ideal.ofBits .f32 0x00000000#32
            - max (y - Ideal.ofBits .f32 0x00000000#32) (-(y - Ideal.ofBits .f32 0x00000000#32))))))
        y
      = Scalar.select b
        (Scalar.select (Ideal.cmp .une (y - Ideal.ofBits .f32 0x00000000#32) (y - Ideal.ofBits .f32 0x00000000#32))
          (y + Ideal.ofBits .f32 0x00000000#32)
          (max y (Ideal.ofBits .f32 0x00000000#32) + Ideal.log1p (Ideal.exp
            (-(max (y - Ideal.ofBits .f32 0x00000000#32) (-(y - Ideal.ofBits .f32 0x00000000#32)))))))
        y := by
  rw [gt_half, one_self, une_self, select_zero, select_zero, Ideal.ofBits_zero_f32, zero_sub]

theorem fin_eq (y2 : Vec Ideal S1600000x1 .f32) (row col : Vec Ideal S1600000 .i32)
    (h1 : S1600000.ShapeCasts S1600000x1) (h2 : S1600000x1.ShapeCasts S1600000) :
    shapeCast S1600000 (Cert.Spec.fincol y2 (uitofp (F := Ideal) .f32 (shapeCast S1600000x1 (cmpi .eq row col) h1))) h2
      = Cert.Spec.fin (shapeCast S1600000 y2 h2) row col := by
  funext i
  obtain ⟨r, rfl⟩ : ∃ r : Fin 1600000, i = ix1 r := ⟨i 0, eq_ix1 i⟩
  refine (flat_apply _ h2 r).trans ?_
  have ey : shapeCast S1600000 y2 h2 (ix1 r) = y2 (ix2 r (0 : Fin 1)) := flat_apply y2 h2 r
  have em : shapeCast S1600000x1 (cmpi .eq row col) h1 (ix2 r (0 : Fin 1)) = IntOp.cmpi .eq (row (ix1 r)) (col (ix1 r)) :=
    col_apply (cmpi .eq row col) h1 r 0
  show Scalar.select (Ideal.cmp .ogt ((((shapeCast S1600000x1 (cmpi .eq row col) h1 (ix2 r (0 : Fin 1))).toNat : ℝ)) : EReal) (Ideal.ofBits .f32 0x3F000000#32))
        (Scalar.select (Ideal.cmp .one (y2 (ix2 r (0 : Fin 1)) - Ideal.ofBits .f32 0x00000000#32) (y2 (ix2 r (0 : Fin 1)) - Ideal.ofBits .f32 0x00000000#32))
          (y2 (ix2 r (0 : Fin 1)) + Ideal.ofBits .f32 0x00000000#32)
          (max (y2 (ix2 r (0 : Fin 1))) (Ideal.ofBits .f32 0x00000000#32) + Ideal.log1p (Ideal.exp (Ideal.ofBits .f32 0x00000000#32
            - max (y2 (ix2 r (0 : Fin 1)) - Ideal.ofBits .f32 0x00000000#32) (-(y2 (ix2 r (0 : Fin 1)) - Ideal.ofBits .f32 0x00000000#32))))))
        (y2 (ix2 r (0 : Fin 1)))
      = Scalar.select (IntOp.cmpi .eq (row (ix1 r)) (col (ix1 r)))
        (Scalar.select (Ideal.cmp .une (shapeCast S1600000 y2 h2 (ix1 r) - Ideal.ofBits .f32 0x00000000#32) (shapeCast S1600000 y2 h2 (ix1 r) - Ideal.ofBits .f32 0x00000000#32))
          (shapeCast S1600000 y2 h2 (ix1 r) + Ideal.ofBits .f32 0x00000000#32)
          (max (shapeCast S1600000 y2 h2 (ix1 r)) (Ideal.ofBits .f32 0x00000000#32) + Ideal.log1p (Ideal.exp
            (-(max (shapeCast S1600000 y2 h2 (ix1 r) - Ideal.ofBits .f32 0x00000000#32) (-(shapeCast S1600000 y2 h2 (ix1 r) - Ideal.ofBits .f32 0x00000000#32)))))))
        (shapeCast S1600000 y2 h2 (ix1 r))
  rw [ey, em]
  exact sel_eq _ _

end Cert.FinBridge

end
-- ==== Proof.Tail.lean ====
/-
  The edge decoder of the kernel program: a host stretch gathers the final node features at both endpoints of every
  edge and lays them side by side; region 13 is the hidden layer max(e · W₁ + b₁, 0); a short stretch prepares the
  diagonal mask (row = col, as a 0/1 column) and the 1×1 bias; region 14 is e₁ · W₂ + b₂ followed by the softplus
  on the diagonal; the last operation flattens the column. Flattened, the masked column form is the
  specification's final selection.
-/
import proofs.«122723_j46918222742294_1_alg».proof.Proof.Gen.KernelIdeal.Frame
import proofs.«122723_j46918222742294_1_alg».proof.Proof.Spec
import proofs.«122723_j46918222742294_1_alg».proof.Proof.LibLayout
import proofs.«122723_j46918222742294_1_alg».proof.Proof.ChainTac
import proofs.«122723_j46918222742294_1_alg».proof.Proof.Reg13
import proofs.«122723_j46918222742294_1_alg».proof.Proof.Reg14
import proofs.«122723_j46918222742294_1_alg».proof.Proof.FinBridge
import Idealize.ShloMosaic.Lib.StableHlo.Run

set_option maxRecDepth 16384

noncomputable section

namespace Cert.KernelIdeal.Tail

open Idealize.ShloMosaic Idealize.ShloMosaic.TcCoe Idealize.ShloMosaic.StableHlo Idealize.SL.Sem Cert.KernelIdeal Cert.KernelIdeal.Gen Cert.KernelIdeal.Chain

section Stretch

variable (W : Valuation τ sig (Elt Ideal))

set_option maxHeartbeats 4000000 in
/-- Both endpoints' features of every edge, side by side. -/
theorem h13_pair : (StableHlo.after hostOps13 W (Proc.devRef .tc main_v175) : Vec Ideal S1600000x128 .f32)
    = Cert.Spec.pair (W (Proc.devRef .tc main_v160)) (W (Proc.devRef .tc main_arg12)) (W (Proc.devRef .tc main_arg13)) := by
  dsimp only [hostOps13]
  after_results_simp <;> rfl

/-- The hidden layer's bias as a one-row matrix. -/
theorem h13_brow : (StableHlo.after hostOps13 W (Proc.devRef .tc main_v176) : Vec Ideal S1x64 .f32) = shapeCast S1x64 (W (Proc.devRef .tc main_arg9)) shapeCasts_S64_S1x64 := by
  dsimp only [hostOps13]
  after_results_simp <;> rfl

set_option maxHeartbeats 4000000 in
theorem h13_keep : ∀ b ∈ ([main_arg8, main_arg9, main_arg10, main_arg11, main_arg12, main_arg13] : List (Ref sig .tc)), StableHlo.after hostOps13 W (Proc.devRef .tc b) = W (Proc.devRef .tc b) := by
  intro b hb
  simp only [List.mem_cons, List.mem_nil_iff, or_false] at hb
  rcases hb with rfl | rfl | rfl | rfl | rfl | rfl <;> host_keeps hostOps13

/-- The output bias as a 1×1 matrix. -/
theorem h14_b : (StableHlo.after hostOps14 W (Proc.devRef .tc main_v179) : Vec Ideal S1x1 .f32) = shapeCast S1x1 (W (Proc.devRef .tc main_arg11)) shapeCasts_S1_S1x1 := by
  dsimp only [hostOps14]
  after_results <;> rfl

/-- The diagonal mask as a 0/1 column. -/
theorem h14_mask : (StableHlo.after hostOps14 W (Proc.devRef .tc main_v181) : Vec Ideal S1600000x1 .f32)
    = uitofp (F := Ideal) .f32 (shapeCast S1600000x1 (cmpi .eq (W (Proc.devRef .tc main_arg12)) (W (Proc.devRef .tc main_arg13))) shapeCasts_S1600000_S1600000x1) := by
  dsimp only [hostOps14]
  after_results <;> rfl

set_option maxHeartbeats 4000000 in
theorem h14_keep : ∀ b ∈ ([main_v177, main_arg8, main_arg9, main_arg10, main_arg11, main_arg12, main_arg13] : List (Ref sig .tc)), StableHlo.after hostOps14 W (Proc.devRef .tc b) = W (Proc.devRef .tc b) := by
  intro b hb
  simp only [List.mem_cons, List.mem_nil_iff, or_false] at hb
  rcases hb with rfl | rfl | rfl | rfl | rfl | rfl | rfl <;> host_keeps hostOps14

/-- The result: the last region's column, flattened. -/
theorem h15 : (StableHlo.after hostOps15 W (Proc.devRef .tc main_v183) : Vec Ideal S1600000 .f32) = shapeCast S1600000 (W (Proc.devRef .tc main_v182)) shapeCasts_S1600000x1_S1600000 := by
  dsimp only [hostOps15]
  after_results <;> rfl

end Stretch

variable (m : (ℓ : Loc nD τ sig) → Buf (Elt Ideal) ℓ) (ρ : Dev nD → PrngReg) (c : Dev nD)

/-- Region 13 writes only the hidden layer (its weight matrix is an input window: read, never written back). -/
theorem r13_keep : ∀ b ∈ ([main_arg9, main_arg10, main_arg11, main_arg12, main_arg13] : List (Ref sig .tc)), W30 m ρ c (Proc.devRef .tc b) = W29 m ρ c (Proc.devRef .tc b) := by
  intro b hb
  simp only [List.mem_cons, List.mem_nil_iff, or_false] at hb
  rcases hb with rfl | rfl | rfl | rfl | rfl <;> exact W30_of_ne m ρ c _ (by decide)

/-- What the result buffer holds at the end, from what the decoder finds at its first boundary. -/
theorem out (H : Vec Ideal S100000x64 .f32) (w1 : Vec Ideal S128x64 .f32) (b1 : Vec Ideal S64 .f32) (w2 : Vec Ideal S64x1 .f32) (b2 : Vec Ideal S1 .f32)
    (rw cl : Vec Ideal S1600000 .i32)
    (hH : W28 m ρ c (Proc.devRef .tc main_v160) = H) (h8 : W28 m ρ c (Proc.devRef .tc main_arg8) = w1) (h9 : W28 m ρ c (Proc.devRef .tc main_arg9) = b1)
    (h10 : W28 m ρ c (Proc.devRef .tc main_arg10) = w2) (h11 : W28 m ρ c (Proc.devRef .tc main_arg11) = b2)
    (hr : W28 m ρ c (Proc.devRef .tc main_arg12) = rw) (hcl : W28 m ρ c (Proc.devRef .tc main_arg13) = cl) :
    (W33 m ρ c (Proc.devRef .tc main_v183) : Vec Ideal S1600000 .f32)
      = Cert.Spec.fin (shapeCast Cert.ReferenceIdeal.S1600000 (Cert.Spec.dec2 (Cert.Spec.dec1 (Cert.Spec.pair H rw cl) w1 b1) w2 b2) Cert.ReferenceIdeal.Gen.shapeCasts_S1600000x1_S1600000) rw cl := by
  -- what the hidden layer finds
  have e_p : (W29 m ρ c (Proc.devRef .tc main_v175) : Vec Ideal S1600000x128 .f32) = Cert.Spec.pair H rw cl := (h13_pair (W28 m ρ c)).trans (by rw [hH, hr, hcl])
  have e_w : W29 m ρ c (Proc.devRef .tc main_arg8) = w1 := (h13_keep (W28 m ρ c) main_arg8 (by simp)).trans h8
  have e_b : (W29 m ρ c (Proc.devRef .tc main_v176) : Vec Ideal S1x64 .f32) = shapeCast S1x64 b1 shapeCasts_S64_S1x64 := (h13_brow (W28 m ρ c)).trans (by rw [h9])
  -- what it leaves
  have x_e1 : (W30 m ρ c (Proc.devRef .tc main_v177) : Vec Ideal S1600000x64 .f32) = Cert.Spec.dec1 (Cert.Spec.pair H rw cl) w1 b1 := by
    refine ((W30_arr m ρ c 3).trans (Cert.KernelIdeal.Reg13.arr_eq (V29 m ρ) c)).trans ?_
    show Cert.Spec.dec1b (W29 m ρ c (Proc.devRef .tc main_v175)) (W29 m ρ c (Proc.devRef .tc main_arg8)) (W29 m ρ c (Proc.devRef .tc main_v176)) = _
    rw [e_p, e_w, e_b, Cert.LibLayout.shapeCast_eq_broadcastInDim_row _ _ Cert.ReferenceIdeal.Gen.bcast_S64_S1x64_1]
    rfl
  have k10 : W30 m ρ c (Proc.devRef .tc main_arg10) = w2 := ((r13_keep m ρ c main_arg10 (by simp)).trans (h13_keep (W28 m ρ c) main_arg10 (by simp))).trans h10
  have k11 : W30 m ρ c (Proc.devRef .tc main_arg11) = b2 := ((r13_keep m ρ c main_arg11 (by simp)).trans (h13_keep (W28 m ρ c) main_arg11 (by simp))).trans h11
  have k12 : W30 m ρ c (Proc.devRef .tc main_arg12) = rw := ((r13_keep m ρ c main_arg12 (by simp)).trans (h13_keep (W28 m ρ c) main_arg12 (by simp))).trans hr
  have k13 : W30 m ρ c (Proc.devRef .tc main_arg13) = cl := ((r13_keep m ρ c main_arg13 (by simp)).trans (h13_keep (W28 m ρ c) main_arg13 (by simp))).trans hcl
  -- what the last region finds
  have f_e1 : (W31 m ρ c (Proc.devRef .tc main_v177) : Vec Ideal S1600000x64 .f32) = Cert.Spec.dec1 (Cert.Spec.pair H rw cl) w1 b1 := (h14_keep (W30 m ρ c) main_v177 (by simp)).trans x_e1
  have f_w : W31 m ρ c (Proc.devRef .tc main_arg10) = w2 := (h14_keep (W30 m ρ c) main_arg10 (by simp)).trans k10
  have f_b : (W31 m ρ c (Proc.devRef .tc main_v179) : Vec Ideal S1x1 .f32) = shapeCast S1x1 b2 shapeCasts_S1_S1x1 := (h14_b (W30 m ρ c)).trans (by rw [k11])
  have f_m : (W31 m ρ c (Proc.devRef .tc main_v181) : Vec Ideal S1600000x1 .f32) = uitofp (F := Ideal) .f32 (shapeCast S1600000x1 (cmpi .eq rw cl) shapeCasts_S1600000_S1600000x1) :=
    (h14_mask (W30 m ρ c)).trans (by rw [k12, k13])
  -- the result
  refine (h15 (W32 m ρ c)).trans ?_
  rw [show (W32 m ρ c (Proc.devRef .tc main_v182) : Vec Ideal S1600000x1 .f32)
      = Cert.Spec.fincol (Cert.Spec.dec2b (W31 m ρ c (Proc.devRef .tc main_v177)) (W31 m ρ c (Proc.devRef .tc main_arg10)) (W31 m ρ c (Proc.devRef .tc main_v179))) (W31 m ρ c (Proc.devRef .tc main_v181))
      from (W32_arr m ρ c 4).trans (Cert.KernelIdeal.Reg14.arr_eq (V31 m ρ) c),
    f_e1, f_w, f_b, f_m, Cert.LibLayout.shapeCast_eq_broadcastInDim_row _ _ Cert.ReferenceIdeal.Gen.bcast_S1_S1x1_1]
  exact Cert.FinBridge.fin_eq _ rw cl _ _

end Cert.KernelIdeal.Tail

end
-- ==== Proof.Value.lean ====
/-
  The kernel program's result, as a function of the arrays it is launched on.
  After the encoder and n graph-convolution layers the node-feature buffer holds the n-fold nested layer function of the
  launched arguments (induction along the program: each layer's lemma takes what the previous one left); the carried
  buffers — the stacked parameters, the two index arrays, the edge normalisation, the edge counts, the zero bias —
  are the same at every layer boundary; the decoder then gives the specification's result.
-/
import proofs.«122723_j46918222742294_1_alg».proof.Proof.Gen.KernelIdeal.Frame
import proofs.«122723_j46918222742294_1_alg».proof.Proof.Spec
import proofs.«122723_j46918222742294_1_alg».proof.Proof.LibLayout
import proofs.«122723_j46918222742294_1_alg».proof.Proof.Pre
import proofs.«122723_j46918222742294_1_alg».proof.Proof.Layer1
import proofs.«122723_j46918222742294_1_alg».proof.Proof.Layer2
import proofs.«122723_j46918222742294_1_alg».proof.Proof.Layer3
import proofs.«122723_j46918222742294_1_alg».proof.Proof.Layer4
import proofs.«122723_j46918222742294_1_alg».proof.Proof.Layer5
import proofs.«122723_j46918222742294_1_alg».proof.Proof.Layer6
import proofs.«122723_j46918222742294_1_alg».proof.Proof.Tail

set_option maxRecDepth 16384

noncomputable section

namespace Cert.KernelIdeal.Value

open Idealize.ShloMosaic Idealize.ShloMosaic.TcCoe Idealize.SL.Sem Cert.KernelIdeal Cert.KernelIdeal.Gen
open Cert.LibLayout (IsZero)

variable (m : (ℓ : Loc nD τ sig) → Buf (Elt Ideal) ℓ) (ρ : Dev nD → PrngReg) (c : Dev nD)

/-- The edge normalisation and the edge counts of the launched graph. -/
abbrev NRM : Vec Ideal S1600000 .f32 := Cert.Spec.norm (m ((c : Thread nD τ).loc main_arg1)) (m ((c : Thread nD τ).loc main_arg12)) (m ((c : Thread nD τ).loc main_arg13))
abbrev CNT : Vec Ideal S100000x1 .f32 := Cert.Spec.cnt (m ((c : Thread nD τ).loc main_arg13))

/-- The node features after the encoder and after each layer. -/
abbrev H0 : Vec Ideal S100000x64 .f32 := Cert.Spec.enc (m ((c : Thread nD τ).loc main_arg0)) (m ((c : Thread nD τ).loc main_arg2)) (m ((c : Thread nD τ).loc main_arg3))
abbrev H1 : Vec Ideal S100000x64 .f32 := Cert.Spec.layer (H0 m c) (Cert.Spec.W0 (m ((c : Thread nD τ).loc main_arg4))) (Cert.Spec.B0 (m ((c : Thread nD τ).loc main_arg5))) (NRM m c) (CNT m c) (m ((c : Thread nD τ).loc main_arg12)) (m ((c : Thread nD τ).loc main_arg13))
abbrev H2 : Vec Ideal S100000x64 .f32 := Cert.Spec.layer (H1 m c) (Cert.Spec.W0 (m ((c : Thread nD τ).loc main_arg6))) (Cert.Spec.B0 (m ((c : Thread nD τ).loc main_arg7))) (NRM m c) (CNT m c) (m ((c : Thread nD τ).loc main_arg12)) (m ((c : Thread nD τ).loc main_arg13))
abbrev H3 : Vec Ideal S100000x64 .f32 := Cert.Spec.layer (H2 m c) (Cert.Spec.W1 (m ((c : Thread nD τ).loc main_arg4))) (Cert.Spec.B1 (m ((c : Thread nD τ).loc main_arg5))) (NRM m c) (CNT m c) (m ((c : Thread nD τ).loc main_arg12)) (m ((c : Thread nD τ).loc main_arg13))
abbrev H4 : Vec Ideal S100000x64 .f32 := Cert.Spec.layer (H3 m c) (Cert.Spec.W1 (m ((c : Thread nD τ).loc main_arg6))) (Cert.Spec.B1 (m ((c : Thread nD τ).loc main_arg7))) (NRM m c) (CNT m c) (m ((c : Thread nD τ).loc main_arg12)) (m ((c : Thread nD τ).loc main_arg13))
abbrev H5 : Vec Ideal S100000x64 .f32 := Cert.Spec.layer (H4 m c) (Cert.Spec.W2 (m ((c : Thread nD τ).loc main_arg4))) (Cert.Spec.B2 (m ((c : Thread nD τ).loc main_arg5))) (NRM m c) (CNT m c) (m ((c : Thread nD τ).loc main_arg12)) (m ((c : Thread nD τ).loc main_arg13))
abbrev H6 : Vec Ideal S100000x64 .f32 := Cert.Spec.layer (H5 m c) (Cert.Spec.W2 (m ((c : Thread nD τ).loc main_arg6))) (Cert.Spec.B2 (m ((c : Thread nD τ).loc main_arg7))) (NRM m c) (CNT m c) (m ((c : Thread nD τ).loc main_arg12)) (m ((c : Thread nD τ).loc main_arg13))

/-! ## After the encoder -/

theorem h_0 : (W4 m ρ c (Proc.devRef .tc main_v33) : Vec Ideal S100000x64 .f32) = H0 m c := Cert.KernelIdeal.Pre.h0 m ρ c
theorem nrm_0 : (W4 m ρ c (Proc.devRef .tc main_v24) : Vec Ideal S1600000 .f32) = NRM m c := Cert.KernelIdeal.Pre.nrm4 m ρ c
theorem cnt_0 : (W4 m ρ c (Proc.devRef .tc main_v31) : Vec Ideal S100000x1 .f32) = CNT m c := Cert.KernelIdeal.Pre.cnt4 m ρ c
theorem a4_0 : W4 m ρ c (Proc.devRef .tc main_arg4) = (m ((c : Thread nD τ).loc main_arg4)) := Cert.KernelIdeal.Pre.arg4 m ρ c main_arg4 (by simp)
theorem a5_0 : W4 m ρ c (Proc.devRef .tc main_arg5) = (m ((c : Thread nD τ).loc main_arg5)) := Cert.KernelIdeal.Pre.arg4 m ρ c main_arg5 (by simp)
theorem a6_0 : W4 m ρ c (Proc.devRef .tc main_arg6) = (m ((c : Thread nD τ).loc main_arg6)) := Cert.KernelIdeal.Pre.arg4 m ρ c main_arg6 (by simp)
theorem a7_0 : W4 m ρ c (Proc.devRef .tc main_arg7) = (m ((c : Thread nD τ).loc main_arg7)) := Cert.KernelIdeal.Pre.arg4 m ρ c main_arg7 (by simp)
theorem a8_0 : W4 m ρ c (Proc.devRef .tc main_arg8) = (m ((c : Thread nD τ).loc main_arg8)) := Cert.KernelIdeal.Pre.arg4 m ρ c main_arg8 (by simp)
theorem a9_0 : W4 m ρ c (Proc.devRef .tc main_arg9) = (m ((c : Thread nD τ).loc main_arg9)) := Cert.KernelIdeal.Pre.arg4 m ρ c main_arg9 (by simp)
theorem a10_0 : W4 m ρ c (Proc.devRef .tc main_arg10) = (m ((c : Thread nD τ).loc main_arg10)) := Cert.KernelIdeal.Pre.arg4 m ρ c main_arg10 (by simp)
theorem a11_0 : W4 m ρ c (Proc.devRef .tc main_arg11) = (m ((c : Thread nD τ).loc main_arg11)) := Cert.KernelIdeal.Pre.arg4 m ρ c main_arg11 (by simp)
theorem a12_0 : W4 m ρ c (Proc.devRef .tc main_arg12) = (m ((c : Thread nD τ).loc main_arg12)) := Cert.KernelIdeal.Pre.arg4 m ρ c main_arg12 (by simp)
theorem a13_0 : W4 m ρ c (Proc.devRef .tc main_arg13) = (m ((c : Thread nD τ).loc main_arg13)) := Cert.KernelIdeal.Pre.arg4 m ρ c main_arg13 (by simp)

/-! ## After layer 1 -/

theorem h_1 : (W8 m ρ c (Proc.devRef .tc main_v55) : Vec Ideal S100000x64 .f32) = H1 m c :=
  Cert.KernelIdeal.Layer1.layer m ρ c (H0 m c) _ _ (NRM m c) (CNT m c) _ _ (h_0 m ρ c) (a4_0 m ρ c) (a5_0 m ρ c) (nrm_0 m ρ c) (cnt_0 m ρ c) (a12_0 m ρ c) (a13_0 m ρ c)
theorem nrm_1 : (W8 m ρ c (Proc.devRef .tc main_v24) : Vec Ideal S1600000 .f32) = NRM m c := (Cert.KernelIdeal.Layer1.keep m ρ c main_v24 (by simp)).trans (nrm_0 m ρ c)
theorem cnt_1 : (W8 m ρ c (Proc.devRef .tc main_v31) : Vec Ideal S100000x1 .f32) = CNT m c := (Cert.KernelIdeal.Layer1.keep31 m ρ c).trans (cnt_0 m ρ c)
theorem z_1 : IsZero (s := S64) (W8 m ρ c (Proc.devRef .tc main_v34)) := Cert.KernelIdeal.Layer1.zero34 m ρ c
theorem a4_1 : W8 m ρ c (Proc.devRef .tc main_arg4) = (m ((c : Thread nD τ).loc main_arg4)) := (Cert.KernelIdeal.Layer1.keep m ρ c main_arg4 (by simp)).trans (a4_0 m ρ c)
theorem a5_1 : W8 m ρ c (Proc.devRef .tc main_arg5) = (m ((c : Thread nD τ).loc main_arg5)) := (Cert.KernelIdeal.Layer1.keep m ρ c main_arg5 (by simp)).trans (a5_0 m ρ c)
theorem a6_1 : W8 m ρ c (Proc.devRef .tc main_arg6) = (m ((c : Thread nD τ).loc main_arg6)) := (Cert.KernelIdeal.Layer1.keep m ρ c main_arg6 (by simp)).trans (a6_0 m ρ c)
theorem a7_1 : W8 m ρ c (Proc.devRef .tc main_arg7) = (m ((c : Thread nD τ).loc main_arg7)) := (Cert.KernelIdeal.Layer1.keep m ρ c main_arg7 (by simp)).trans (a7_0 m ρ c)
theorem a8_1 : W8 m ρ c (Proc.devRef .tc main_arg8) = (m ((c : Thread nD τ).loc main_arg8)) := (Cert.KernelIdeal.Layer1.keep m ρ c main_arg8 (by simp)).trans (a8_0 m ρ c)
theorem a9_1 : W8 m ρ c (Proc.devRef .tc main_arg9) = (m ((c : Thread nD τ).loc main_arg9)) := (Cert.KernelIdeal.Layer1.keep m ρ c main_arg9 (by simp)).trans (a9_0 m ρ c)
theorem a10_1 : W8 m ρ c (Proc.devRef .tc main_arg10) = (m ((c : Thread nD τ).loc main_arg10)) := (Cert.KernelIdeal.Layer1.keep m ρ c main_arg10 (by simp)).trans (a10_0 m ρ c)
theorem a11_1 : W8 m ρ c (Proc.devRef .tc main_arg11) = (m ((c : Thread nD τ).loc main_arg11)) := (Cert.KernelIdeal.Layer1.keep m ρ c main_arg11 (by simp)).trans (a11_0 m ρ c)
theorem a12_1 : W8 m ρ c (Proc.devRef .tc main_arg12) = (m ((c : Thread nD τ).loc main_arg12)) := (Cert.KernelIdeal.Layer1.keep m ρ c main_arg12 (by simp)).trans (a12_0 m ρ c)
theorem a13_1 : W8 m ρ c (Proc.devRef .tc main_arg13) = (m ((c : Thread nD τ).loc main_arg13)) := (Cert.KernelIdeal.Layer1.keep m ρ c main_arg13 (by simp)).trans (a13_0 m ρ c)

/-! ## After layer 2 -/

theorem h_2 : (W12 m ρ c (Proc.devRef .tc main_v76) : Vec Ideal S100000x64 .f32) = H2 m c :=
  Cert.KernelIdeal.Layer2.layer m ρ c (H1 m c) _ _ (NRM m c) (CNT m c) _ _ (h_1 m ρ c) (a6_1 m ρ c) (a7_1 m ρ c) (z_1 m ρ c) (nrm_1 m ρ c) (cnt_1 m ρ c) (a12_1 m ρ c) (a13_1 m ρ c)
theorem nrm_2 : (W12 m ρ c (Proc.devRef .tc main_v24) : Vec Ideal S1600000 .f32) = NRM m c := (Cert.KernelIdeal.Layer2.keep m ρ c main_v24 (by simp)).trans (nrm_1 m ρ c)
theorem cnt_2 : (W12 m ρ c (Proc.devRef .tc main_v31) : Vec Ideal S100000x1 .f32) = CNT m c := (Cert.KernelIdeal.Layer2.keep31 m ρ c).trans (cnt_1 m ρ c)
theorem z_2 : IsZero (s := S64) (W12 m ρ c (Proc.devRef .tc main_v34)) := Cert.KernelIdeal.Layer2.zero34 m ρ c (z_1 m ρ c)
theorem a4_2 : W12 m ρ c (Proc.devRef .tc main_arg4) = (m ((c : Thread nD τ).loc main_arg4)) := (Cert.KernelIdeal.Layer2.keep m ρ c main_arg4 (by simp)).trans (a4_1 m ρ c)
theorem a5_2 : W12 m ρ c (Proc.devRef .tc main_arg5) = (m ((c : Thread nD τ).loc main_arg5)) := (Cert.KernelIdeal.Layer2.keep m ρ c main_arg5 (by simp)).trans (a5_1 m ρ c)
theorem a6_2 : W12 m ρ c (Proc.devRef .tc main_arg6) = (m ((c : Thread nD τ).loc main_arg6)) := (Cert.KernelIdeal.Layer2.keep m ρ c main_arg6 (by simp)).trans (a6_1 m ρ c)
theorem a7_2 : W12 m ρ c (Proc.devRef .tc main_arg7) = (m ((c : Thread nD τ).loc main_arg7)) := (Cert.KernelIdeal.Layer2.keep m ρ c main_arg7 (by simp)).trans (a7_1 m ρ c)
theorem a8_2 : W12 m ρ c (Proc.devRef .tc main_arg8) = (m ((c : Thread nD τ).loc main_arg8)) := (Cert.KernelIdeal.Layer2.keep m ρ c main_arg8 (by simp)).trans (a8_1 m ρ c)
theorem a9_2 : W12 m ρ c (Proc.devRef .tc main_arg9) = (m ((c : Thread nD τ).loc main_arg9)) := (Cert.KernelIdeal.Layer2.keep m ρ c main_arg9 (by simp)).trans (a9_1 m ρ c)
theorem a10_2 : W12 m ρ c (Proc.devRef .tc main_arg10) = (m ((c : Thread nD τ).loc main_arg10)) := (Cert.KernelIdeal.Layer2.keep m ρ c main_arg10 (by simp)).trans (a10_1 m ρ c)
theorem a11_2 : W12 m ρ c (Proc.devRef .tc main_arg11) = (m ((c : Thread nD τ).loc main_arg11)) := (Cert.KernelIdeal.Layer2.keep m ρ c main_arg11 (by simp)).trans (a11_1 m ρ c)
theorem a12_2 : W12 m ρ c (Proc.devRef .tc main_arg12) = (m ((c : Thread nD τ).loc main_arg12)) := (Cert.KernelIdeal.Layer2.keep m ρ c main_arg12 (by simp)).trans (a12_1 m ρ c)
theorem a13_2 : W12 m ρ c (Proc.devRef .tc main_arg13) = (m ((c : Thread nD τ).loc main_arg13)) := (Cert.KernelIdeal.Layer2.keep m ρ c main_arg13 (by simp)).trans (a13_1 m ρ c)

/-! ## After layer 3 -/

theorem h_3 : (W16 m ρ c (Proc.devRef .tc main_v97) : Vec Ideal S100000x64 .f32) = H3 m c :=
  Cert.KernelIdeal.Layer3.layer m ρ c (H2 m c) _ _ (NRM m c) (CNT m c) _ _ (h_2 m ρ c) (a4_2 m ρ c) (a5_2 m ρ c) (z_2 m ρ c) (nrm_2 m ρ c) (cnt_2 m ρ c) (a12_2 m ρ c) (a13_2 m ρ c)
theorem nrm_3 : (W16 m ρ c (Proc.devRef .tc main_v24) : Vec Ideal S1600000 .f32) = NRM m c := (Cert.KernelIdeal.Layer3.keep m ρ c main_v24 (by simp)).trans (nrm_2 m ρ c)
theorem cnt_3 : (W16 m ρ c (Proc.devRef .tc main_v31) : Vec Ideal S100000x1 .f32) = CNT m c := (Cert.KernelIdeal.Layer3.keep31 m ρ c).trans (cnt_2 m ρ c)
theorem z_3 : IsZero (s := S64) (W16 m ρ c (Proc.devRef .tc main_v34)) := Cert.KernelIdeal.Layer3.zero34 m ρ c (z_2 m ρ c)
theorem a4_3 : W16 m ρ c (Proc.devRef .tc main_arg4) = (m ((c : Thread nD τ).loc main_arg4)) := (Cert.KernelIdeal.Layer3.keep m ρ c main_arg4 (by simp)).trans (a4_2 m ρ c)
theorem a5_3 : W16 m ρ c (Proc.devRef .tc main_arg5) = (m ((c : Thread nD τ).loc main_arg5)) := (Cert.KernelIdeal.Layer3.keep m ρ c main_arg5 (by simp)).trans (a5_2 m ρ c)
theorem a6_3 : W16 m ρ c (Proc.devRef .tc main_arg6) = (m ((c : Thread nD τ).loc main_arg6)) := (Cert.KernelIdeal.Layer3.keep m ρ c main_arg6 (by simp)).trans (a6_2 m ρ c)
theorem a7_3 : W16 m ρ c (Proc.devRef .tc main_arg7) = (m ((c : Thread nD τ).loc main_arg7)) := (Cert.KernelIdeal.Layer3.keep m ρ c main_arg7 (by simp)).trans (a7_2 m ρ c)
theorem a8_3 : W16 m ρ c (Proc.devRef .tc main_arg8) = (m ((c : Thread nD τ).loc main_arg8)) := (Cert.KernelIdeal.Layer3.keep m ρ c main_arg8 (by simp)).trans (a8_2 m ρ c)
theorem a9_3 : W16 m ρ c (Proc.devRef .tc main_arg9) = (m ((c : Thread nD τ).loc main_arg9)) := (Cert.KernelIdeal.Layer3.keep m ρ c main_arg9 (by simp)).trans (a9_2 m ρ c)
theorem a10_3 : W16 m ρ c (Proc.devRef .tc main_arg10) = (m ((c : Thread nD τ).loc main_arg10)) := (Cert.KernelIdeal.Layer3.keep m ρ c main_arg10 (by simp)).trans (a10_2 m ρ c)
theorem a11_3 : W16 m ρ c (Proc.devRef .tc main_arg11) = (m ((c : Thread nD τ).loc main_arg11)) := (Cert.KernelIdeal.Layer3.keep m ρ c main_arg11 (by simp)).trans (a11_2 m ρ c)
theorem a12_3 : W16 m ρ c (Proc.devRef .tc main_arg12) = (m ((c : Thread nD τ).loc main_arg12)) := (Cert.KernelIdeal.Layer3.keep m ρ c main_arg12 (by simp)).trans (a12_2 m ρ c)
theorem a13_3 : W16 m ρ c (Proc.devRef .tc main_arg13) = (m ((c : Thread nD τ).loc main_arg13)) := (Cert.KernelIdeal.Layer3.keep m ρ c main_arg13 (by simp)).trans (a13_2 m ρ c)

/-! ## After layer 4 -/

theorem h_4 : (W20 m ρ c (Proc.devRef .tc main_v118) : Vec Ideal S100000x64 .f32) = H4 m c :=
  Cert.KernelIdeal.Layer4.layer m ρ c (H3 m c) _ _ (NRM m c) (CNT m c) _ _ (h_3 m ρ c) (a6_3 m ρ c) (a7_3 m ρ c) (z_3 m ρ c) (nrm_3 m ρ c) (cnt_3 m ρ c) (a12_3 m ρ c) (a13_3 m ρ c)
theorem nrm_4 : (W20 m ρ c (Proc.devRef .tc main_v24) : Vec Ideal S1600000 .f32) = NRM m c := (Cert.KernelIdeal.Layer4.keep m ρ c main_v24 (by simp)).trans (nrm_3 m ρ c)
theorem cnt_4 : (W20 m ρ c (Proc.devRef .tc main_v31) : Vec Ideal S100000x1 .f32) = CNT m c := (Cert.KernelIdeal.Layer4.keep31 m ρ c).trans (cnt_3 m ρ c)
theorem z_4 : IsZero (s := S64) (W20 m ρ c (Proc.devRef .tc main_v34)) := Cert.KernelIdeal.Layer4.zero34 m ρ c (z_3 m ρ c)
theorem a4_4 : W20 m ρ c (Proc.devRef .tc main_arg4) = (m ((c : Thread nD τ).loc main_arg4)) := (Cert.KernelIdeal.Layer4.keep m ρ c main_arg4 (by simp)).trans (a4_3 m ρ c)
theorem a5_4 : W20 m ρ c (Proc.devRef .tc main_arg5) = (m ((c : Thread nD τ).loc main_arg5)) := (Cert.KernelIdeal.Layer4.keep m ρ c main_arg5 (by simp)).trans (a5_3 m ρ c)
theorem a6_4 : W20 m ρ c (Proc.devRef .tc main_arg6) = (m ((c : Thread nD τ).loc main_arg6)) := (Cert.KernelIdeal.Layer4.keep m ρ c main_arg6 (by simp)).trans (a6_3 m ρ c)
theorem a7_4 : W20 m ρ c (Proc.devRef .tc main_arg7) = (m ((c : Thread nD τ).loc main_arg7)) := (Cert.KernelIdeal.Layer4.keep m ρ c main_arg7 (by simp)).trans (a7_3 m ρ c)
theorem a8_4 : W20 m ρ c (Proc.devRef .tc main_arg8) = (m ((c : Thread nD τ).loc main_arg8)) := (Cert.KernelIdeal.Layer4.keep m ρ c main_arg8 (by simp)).trans (a8_3 m ρ c)
theorem a9_4 : W20 m ρ c (Proc.devRef .tc main_arg9) = (m ((c : Thread nD τ).loc main_arg9)) := (Cert.KernelIdeal.Layer4.keep m ρ c main_arg9 (by simp)).trans (a9_3 m ρ c)
theorem a10_4 : W20 m ρ c (Proc.devRef .tc main_arg10) = (m ((c : Thread nD τ).loc main_arg10)) := (Cert.KernelIdeal.Layer4.keep m ρ c main_arg10 (by simp)).trans (a10_3 m ρ c)
theorem a11_4 : W20 m ρ c (Proc.devRef .tc main_arg11) = (m ((c : Thread nD τ).loc main_arg11)) := (Cert.KernelIdeal.Layer4.keep m ρ c main_arg11 (by simp)).trans (a11_3 m ρ c)
theorem a12_4 : W20 m ρ c (Proc.devRef .tc main_arg12) = (m ((c : Thread nD τ).loc main_arg12)) := (Cert.KernelIdeal.Layer4.keep m ρ c main_arg12 (by simp)).trans (a12_3 m ρ c)
theorem a13_4 : W20 m ρ c (Proc.devRef .tc main_arg13) = (m ((c : Thread nD τ).loc main_arg13)) := (Cert.KernelIdeal.Layer4.keep m ρ c main_arg13 (by simp)).trans (a13_3 m ρ c)

/-! ## After layer 5 -/

theorem h_5 : (W24 m ρ c (Proc.devRef .tc main_v139) : Vec Ideal S100000x64 .f32) = H5 m c :=
  Cert.KernelIdeal.Layer5.layer m ρ c (H4 m c) _ _ (NRM m c) (CNT m c) _ _ (h_4 m ρ c) (a4_4 m ρ c) (a5_4 m ρ c) (z_4 m ρ c) (nrm_4 m ρ c) (cnt_4 m ρ c) (a12_4 m ρ c) (a13_4 m ρ c)
theorem nrm_5 : (W24 m ρ c (Proc.devRef .tc main_v24) : Vec Ideal S1600000 .f32) = NRM m c := (Cert.KernelIdeal.Layer5.keep m ρ c main_v24 (by simp)).trans (nrm_4 m ρ c)
theorem cnt_5 : (W24 m ρ c (Proc.devRef .tc main_v31) : Vec Ideal S100000x1 .f32) = CNT m c := (Cert.KernelIdeal.Layer5.keep31 m ρ c).trans (cnt_4 m ρ c)
theorem z_5 : IsZero (s := S64) (W24 m ρ c (Proc.devRef .tc main_v34)) := Cert.KernelIdeal.Layer5.zero34 m ρ c (z_4 m ρ c)
theorem a4_5 : W24 m ρ c (Proc.devRef .tc main_arg4) = (m ((c : Thread nD τ).loc main_arg4)) := (Cert.KernelIdeal.Layer5.keep m ρ c main_arg4 (by simp)).trans (a4_4 m ρ c)
theorem a5_5 : W24 m ρ c (Proc.devRef .tc main_arg5) = (m ((c : Thread nD τ).loc main_arg5)) := (Cert.KernelIdeal.Layer5.keep m ρ c main_arg5 (by simp)).trans (a5_4 m ρ c)
theorem a6_5 : W24 m ρ c (Proc.devRef .tc main_arg6) = (m ((c : Thread nD τ).loc main_arg6)) := (Cert.KernelIdeal.Layer5.keep m ρ c main_arg6 (by simp)).trans (a6_4 m ρ c)
theorem a7_5 : W24 m ρ c (Proc.devRef .tc main_arg7) = (m ((c : Thread nD τ).loc main_arg7)) := (Cert.KernelIdeal.Layer5.keep m ρ c main_arg7 (by simp)).trans (a7_4 m ρ c)
theorem a8_5 : W24 m ρ c (Proc.devRef .tc main_arg8) = (m ((c : Thread nD τ).loc main_arg8)) := (Cert.KernelIdeal.Layer5.keep m ρ c main_arg8 (by simp)).trans (a8_4 m ρ c)
theorem a9_5 : W24 m ρ c (Proc.devRef .tc main_arg9) = (m ((c : Thread nD τ).loc main_arg9)) := (Cert.KernelIdeal.Layer5.keep m ρ c main_arg9 (by simp)).trans (a9_4 m ρ c)
theorem a10_5 : W24 m ρ c (Proc.devRef .tc main_arg10) = (m ((c : Thread nD τ).loc main_arg10)) := (Cert.KernelIdeal.Layer5.keep m ρ c main_arg10 (by simp)).trans (a10_4 m ρ c)
theorem a11_5 : W24 m ρ c (Proc.devRef .tc main_arg11) = (m ((c : Thread nD τ).loc main_arg11)) := (Cert.KernelIdeal.Layer5.keep m ρ c main_arg11 (by simp)).trans (a11_4 m ρ c)
theorem a12_5 : W24 m ρ c (Proc.devRef .tc main_arg12) = (m ((c : Thread nD τ).loc main_arg12)) := (Cert.KernelIdeal.Layer5.keep m ρ c main_arg12 (by simp)).trans (a12_4 m ρ c)
theorem a13_5 : W24 m ρ c (Proc.devRef .tc main_arg13) = (m ((c : Thread nD τ).loc main_arg13)) := (Cert.KernelIdeal.Layer5.keep m ρ c main_arg13 (by simp)).trans (a13_4 m ρ c)

/-! ## After layer 6 -/

theorem h_6 : (W28 m ρ c (Proc.devRef .tc main_v160) : Vec Ideal S100000x64 .f32) = H6 m c :=
  Cert.KernelIdeal.Layer6.layer m ρ c (H5 m c) _ _ (NRM m c) (CNT m c) _ _ (h_5 m ρ c) (a6_5 m ρ c) (a7_5 m ρ c) (z_5 m ρ c) (nrm_5 m ρ c) (cnt_5 m ρ c) (a12_5 m ρ c) (a13_5 m ρ c)
theorem nrm_6 : (W28 m ρ c (Proc.devRef .tc main_v24) : Vec Ideal S1600000 .f32) = NRM m c := (Cert.KernelIdeal.Layer6.keep m ρ c main_v24 (by simp)).trans (nrm_5 m ρ c)
theorem cnt_6 : (W28 m ρ c (Proc.devRef .tc main_v31) : Vec Ideal S100000x1 .f32) = CNT m c := (Cert.KernelIdeal.Layer6.keep31 m ρ c).trans (cnt_5 m ρ c)
theorem z_6 : IsZero (s := S64) (W28 m ρ c (Proc.devRef .tc main_v34)) := Cert.KernelIdeal.Layer6.zero34 m ρ c (z_5 m ρ c)
theorem a4_6 : W28 m ρ c (Proc.devRef .tc main_arg4) = (m ((c : Thread nD τ).loc main_arg4)) := (Cert.KernelIdeal.Layer6.keep m ρ c main_arg4 (by simp)).trans (a4_5 m ρ c)
theorem a5_6 : W28 m ρ c (Proc.devRef .tc main_arg5) = (m ((c : Thread nD τ).loc main_arg5)) := (Cert.KernelIdeal.Layer6.keep m ρ c main_arg5 (by simp)).trans (a5_5 m ρ c)
theorem a6_6 : W28 m ρ c (Proc.devRef .tc main_arg6) = (m ((c : Thread nD τ).loc main_arg6)) := (Cert.KernelIdeal.Layer6.keep m ρ c main_arg6 (by simp)).trans (a6_5 m ρ c)
theorem a7_6 : W28 m ρ c (Proc.devRef .tc main_arg7) = (m ((c : Thread nD τ).loc main_arg7)) := (Cert.KernelIdeal.Layer6.keep m ρ c main_arg7 (by simp)).trans (a7_5 m ρ c)
theorem a8_6 : W28 m ρ c (Proc.devRef .tc main_arg8) = (m ((c : Thread nD τ).loc main_arg8)) := (Cert.KernelIdeal.Layer6.keep m ρ c main_arg8 (by simp)).trans (a8_5 m ρ c)
theorem a9_6 : W28 m ρ c (Proc.devRef .tc main_arg9) = (m ((c : Thread nD τ).loc main_arg9)) := (Cert.KernelIdeal.Layer6.keep m ρ c main_arg9 (by simp)).trans (a9_5 m ρ c)
theorem a10_6 : W28 m ρ c (Proc.devRef .tc main_arg10) = (m ((c : Thread nD τ).loc main_arg10)) := (Cert.KernelIdeal.Layer6.keep m ρ c main_arg10 (by simp)).trans (a10_5 m ρ c)
theorem a11_6 : W28 m ρ c (Proc.devRef .tc main_arg11) = (m ((c : Thread nD τ).loc main_arg11)) := (Cert.KernelIdeal.Layer6.keep m ρ c main_arg11 (by simp)).trans (a11_5 m ρ c)
theorem a12_6 : W28 m ρ c (Proc.devRef .tc main_arg12) = (m ((c : Thread nD τ).loc main_arg12)) := (Cert.KernelIdeal.Layer6.keep m ρ c main_arg12 (by simp)).trans (a12_5 m ρ c)
theorem a13_6 : W28 m ρ c (Proc.devRef .tc main_arg13) = (m ((c : Thread nD τ).loc main_arg13)) := (Cert.KernelIdeal.Layer6.keep m ρ c main_arg13 (by simp)).trans (a13_5 m ρ c)

/-! ## The result -/

/-- The result buffer at the end of the program: the specification's function of the launched arguments. -/
theorem value : (W33 m ρ c (Proc.devRef .tc main_v183) : Vec Ideal S1600000 .f32)
    = Cert.Spec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  Cert.KernelIdeal.Tail.out m ρ c (H6 m c) _ _ _ _ _ _ (h_6 m ρ c) (a8_6 m ρ c) (a9_6 m ρ c) (a10_6 m ρ c) (a11_6 m ρ c) (a12_6 m ρ c) (a13_6 m ρ c)

end Cert.KernelIdeal.Value

end
-- ==== Proof.lean ====
/-
  The certificate: a six-layer graph convolution network with an edge decoder, its dense pieces computed by fifteen
  row-blocked kernel regions, against the same network written with whole-array operations.

  Both programs compute, at the ideal values, ONE function of the argument arrays (Proof/Spec.lean): the kernel program
  because each region leaves in its output array the dense function of its input arrays that the reference writes as a
  matrix product, a broadcast bias and a maximum (Proof/Reg0 … Reg14: block t of the output is the payload of block t of
  the row-blocked inputs, and the blocks tile the array), the host operations between the regions being the reference's
  own (Proof/Pre, Layer1 … Layer6, Tail, Value); the reference because the fold of its operation list, read chunk by chunk, is that function
  (Proof/RefOps, RefPre, RefLayer1 … RefLayer6, RefTail, RefValue). The differences between the two texts vanish on the extended reals: a zero bias added to h · W
  (x + 0 = x), the operands rounded to bf16 before two products (a change of format is the identity), a product
  accumulated block by block of rows (the same sums), 0 - |d| for -|d|, and the diagonal mask passed as a 0/1 column
  and compared with 1/2. No law used needs finite inputs, so the precondition is never opened.

  The frames of the two kernel programs are the generated ones; the reference's frame reads its arguments off its run (no
  operation writes one); the idealization rewrote nothing, so there is nothing to preserve.
-/
import proofs.«122723_j46918222742294_1_alg».proof.Defs
import proofs.«122723_j46918222742294_1_alg».proof.Proof.Gen.Kernel
import proofs.«122723_j46918222742294_1_alg».proof.Proof.Gen.Kernel.Skeleton
import proofs.«122723_j46918222742294_1_alg».proof.Proof.Gen.Kernel.Launch
import proofs.«122723_j46918222742294_1_alg».proof.Proof.Gen.Kernel.Points
import proofs.«122723_j46918222742294_1_alg».proof.Proof.Gen.Kernel.Frame
import proofs.«122723_j46918222742294_1_alg».proof.Proof.Gen.KernelIdeal
import proofs.«122723_j46918222742294_1_alg».proof.Proof.Gen.KernelIdeal.Skeleton
import proofs.«122723_j46918222742294_1_alg».proof.Proof.Gen.KernelIdeal.Launch
import proofs.«122723_j46918222742294_1_alg».proof.Proof.Gen.KernelIdeal.Points
import proofs.«122723_j46918222742294_1_alg».proof.Proof.Gen.KernelIdeal.Frame
import proofs.«122723_j46918222742294_1_alg».proof.Proof.Gen.ReferenceIdeal
import proofs.«122723_j46918222742294_1_alg».proof.Proof.Gen.Pre_finite_inputs
import proofs.«122723_j46918222742294_1_alg».proof.Proof.Spec
import proofs.«122723_j46918222742294_1_alg».proof.Proof.RefOps
import proofs.«122723_j46918222742294_1_alg».proof.Proof.RefFrame
import proofs.«122723_j46918222742294_1_alg».proof.Proof.RefValue
import proofs.«122723_j46918222742294_1_alg».proof.Proof.RunAll
import proofs.«122723_j46918222742294_1_alg».proof.Proof.Value
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: every buffer ends at the fold of the operations over its launch contents, and no operation
    writes an argument. -/
theorem frame_referenceIdeal : Cert.frame_ReferenceIdeal := fun m ρ _ =>
  (θ_run Cert.ReferenceIdeal.defs _ _).mono (fun _ h c =>
    ⟨(h c Cert.ReferenceIdeal.main_arg0).trans (Cert.ReferenceIdeal.RefFrame.arg0 _),
     (h c Cert.ReferenceIdeal.main_arg1).trans (Cert.ReferenceIdeal.RefFrame.arg1 _),
     (h c Cert.ReferenceIdeal.main_arg2).trans (Cert.ReferenceIdeal.RefFrame.arg2 _),
     (h c Cert.ReferenceIdeal.main_arg3).trans (Cert.ReferenceIdeal.RefFrame.arg3 _),
     (h c Cert.ReferenceIdeal.main_arg4).trans (Cert.ReferenceIdeal.RefFrame.arg4 _),
     (h c Cert.ReferenceIdeal.main_arg5).trans (Cert.ReferenceIdeal.RefFrame.arg5 _),
     (h c Cert.ReferenceIdeal.main_arg6).trans (Cert.ReferenceIdeal.RefFrame.arg6 _),
     (h c Cert.ReferenceIdeal.main_arg7).trans (Cert.ReferenceIdeal.RefFrame.arg7 _),
     (h c Cert.ReferenceIdeal.main_arg8).trans (Cert.ReferenceIdeal.RefFrame.arg8 _),
     (h c Cert.ReferenceIdeal.main_arg9).trans (Cert.ReferenceIdeal.RefFrame.arg9 _),
     (h c Cert.ReferenceIdeal.main_arg10).trans (Cert.ReferenceIdeal.RefFrame.arg10 _),
     (h c Cert.ReferenceIdeal.main_arg11).trans (Cert.ReferenceIdeal.RefFrame.arg11 _),
     (h c Cert.ReferenceIdeal.main_arg12).trans (Cert.ReferenceIdeal.RefFrame.arg12 _),
     (h c Cert.ReferenceIdeal.main_arg13).trans (Cert.ReferenceIdeal.RefFrame.arg13 _)⟩)
    (Cert.ReferenceIdeal.RunP.run_all (F := Ideal) m ρ)

/-- The idealization rewrote no operation. -/
theorem preserves : Cert.preserves_Kernel_KernelIdeal := trivial

/-- From memories agreeing on the arguments both programs end with the specification's function of them. -/
theorem algebraic : Cert.algebraic_KernelIdeal_ReferenceIdeal := by
  intro m ρ m' ρ' _ hagree
  refine ⟨fun c => Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · -- the kernel program: every buffer ends at the fold's end; the result there is the specification, the arguments as launched
    refine (θ_run Cert.KernelIdeal.defs _ _).mono (fun r h c => ?_) (Cert.KernelIdeal.RunAll.run (F := Ideal) m ρ)
    exact ⟨(h c _ Cert.KernelIdeal.RunAll.mem_uc_result).trans (Cert.KernelIdeal.Value.value m ρ c),
      (h c _ (Cert.KernelIdeal.Gen.mem_uc Cert.KernelIdeal.main_arg0 (by decide))).trans (Cert.KernelIdeal.Gen.W33_main_arg0 m ρ c),
      (h c _ (Cert.KernelIdeal.Gen.mem_uc Cert.KernelIdeal.main_arg1 (by decide))).trans (Cert.KernelIdeal.Gen.W33_main_arg1 m ρ c),
      (h c _ (Cert.KernelIdeal.Gen.mem_uc Cert.KernelIdeal.main_arg2 (by decide))).trans (Cert.KernelIdeal.Gen.W33_main_arg2 m ρ c),
      (h c _ (Cert.KernelIdeal.Gen.mem_uc Cert.KernelIdeal.main_arg3 (by decide))).trans (Cert.KernelIdeal.Gen.W33_main_arg3 m ρ c),
      (h c _ (Cert.KernelIdeal.Gen.mem_uc Cert.KernelIdeal.main_arg4 (by decide))).trans (Cert.KernelIdeal.Gen.W33_main_arg4 m ρ c),
      (h c _ (Cert.KernelIdeal.Gen.mem_uc Cert.KernelIdeal.main_arg5 (by decide))).trans (Cert.KernelIdeal.Gen.W33_main_arg5 m ρ c),
      (h c _ (Cert.KernelIdeal.Gen.mem_uc Cert.KernelIdeal.main_arg6 (by decide))).trans (Cert.KernelIdeal.Gen.W33_main_arg6 m ρ c),
      (h c _ (Cert.KernelIdeal.Gen.mem_uc Cert.KernelIdeal.main_arg7 (by decide))).trans (Cert.KernelIdeal.Gen.W33_main_arg7 m ρ c),
      (h c _ (Cert.KernelIdeal.Gen.mem_uc Cert.KernelIdeal.main_arg8 (by decide))).trans (Cert.KernelIdeal.Gen.W33_main_arg8 m ρ c),
      (h c _ (Cert.KernelIdeal.Gen.mem_uc Cert.KernelIdeal.main_arg9 (by decide))).trans (Cert.KernelIdeal.Gen.W33_main_arg9 m ρ c),
      (h c _ (Cert.KernelIdeal.Gen.mem_uc Cert.KernelIdeal.main_arg10 (by decide))).trans (Cert.KernelIdeal.Gen.W33_main_arg10 m ρ c),
      (h c _ (Cert.KernelIdeal.Gen.mem_uc Cert.KernelIdeal.main_arg11 (by decide))).trans (Cert.KernelIdeal.Gen.W33_main_arg11 m ρ c),
      (h c _ (Cert.KernelIdeal.Gen.mem_uc Cert.KernelIdeal.main_arg12 (by decide))).trans (Cert.KernelIdeal.Gen.W33_main_arg12 m ρ c),
      (h c _ (Cert.KernelIdeal.Gen.mem_uc Cert.KernelIdeal.main_arg13 (by decide))).trans (Cert.KernelIdeal.Gen.W33_main_arg13 m ρ c)⟩
  · -- the reference: the fold of its operations is the specification, at arguments that agree with the kernel's
    refine (θ_run Cert.ReferenceIdeal.defs _ _).mono (fun _ h c => ?_) (Cert.ReferenceIdeal.RunP.run_all (F := Ideal) m' ρ')
    refine ⟨?_, (h c Cert.ReferenceIdeal.main_arg0).trans (Cert.ReferenceIdeal.RefFrame.arg0 _),
      (h c Cert.ReferenceIdeal.main_arg1).trans (Cert.ReferenceIdeal.RefFrame.arg1 _),
      (h c Cert.ReferenceIdeal.main_arg2).trans (Cert.ReferenceIdeal.RefFrame.arg2 _),
      (h c Cert.ReferenceIdeal.main_arg3).trans (Cert.ReferenceIdeal.RefFrame.arg3 _),
      (h c Cert.ReferenceIdeal.main_arg4).trans (Cert.ReferenceIdeal.RefFrame.arg4 _),
      (h c Cert.ReferenceIdeal.main_arg5).trans (Cert.ReferenceIdeal.RefFrame.arg5 _),
      (h c Cert.ReferenceIdeal.main_arg6).trans (Cert.ReferenceIdeal.RefFrame.arg6 _),
      (h c Cert.ReferenceIdeal.main_arg7).trans (Cert.ReferenceIdeal.RefFrame.arg7 _),
      (h c Cert.ReferenceIdeal.main_arg8).trans (Cert.ReferenceIdeal.RefFrame.arg8 _),
      (h c Cert.ReferenceIdeal.main_arg9).trans (Cert.ReferenceIdeal.RefFrame.arg9 _),
      (h c Cert.ReferenceIdeal.main_arg10).trans (Cert.ReferenceIdeal.RefFrame.arg10 _),
      (h c Cert.ReferenceIdeal.main_arg11).trans (Cert.ReferenceIdeal.RefFrame.arg11 _),
      (h c Cert.ReferenceIdeal.main_arg12).trans (Cert.ReferenceIdeal.RefFrame.arg12 _),
      (h c Cert.ReferenceIdeal.main_arg13).trans (Cert.ReferenceIdeal.RefFrame.arg13 _)⟩
    refine ((h c Cert.ReferenceIdeal.main_v207).trans (Cert.ReferenceIdeal.RefValue.value _)).trans ?_
    show Cert.Spec.out (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) = _
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
